-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x64 : Shape := ⟨2, ![102400, 64]⟩
abbrev S512x200 : Shape := ⟨2, ![512, 200]⟩
abbrev S512x300 : Shape := ⟨2, ![512, 300]⟩
abbrev S1638400 : Shape := ⟨1, ![1638400]⟩
abbrev S102400 : Shape := ⟨1, ![102400]⟩
abbrev S64x100 : Shape := ⟨2, ![64, 100]⟩
abbrev S100 : Shape := ⟨1, ![100]⟩
abbrev S100x20 : Shape := ⟨2, ![100, 20]⟩
abbrev S20 : Shape := ⟨1, ![20]⟩
abbrev S520x128 : Shape := ⟨2, ![520, 128]⟩
abbrev S128 : Shape := ⟨1, ![128]⟩
abbrev S128x3 : Shape := ⟨2, ![128, 3]⟩
abbrev S3 : Shape := ⟨1, ![3]⟩
abbrev S20x64 : Shape := ⟨2, ![20, 64]⟩
abbrev S64 : Shape := ⟨1, ![64]⟩
abbrev S200x64 : Shape := ⟨2, ![200, 64]⟩
abbrev S300x64 : Shape := ⟨2, ![300, 64]⟩
abbrev S64x512 : Shape := ⟨2, ![64, 512]⟩
abbrev S128x8 : Shape := ⟨2, ![128, 8]⟩
abbrev S8 : Shape := ⟨1, ![8]⟩
abbrev S64x128 : Shape := ⟨2, ![64, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S102400x64 : S_.BroadcastsInDim S102400x64 (![] : Fin 0 → Fin S102400x64.rank)
  reducesTo_S102400x64_S_d0_1 : S102400x64.ReducesTo [0, 1] S_
  h_S_ : 0 < S_.numel
  bcast_S_S512x200 : S_.BroadcastsInDim S512x200 (![] : Fin 0 → Fin S512x200.rank)
  reducesTo_S512x200_S_d0_1 : S512x200.ReducesTo [0, 1] S_
  bcast_S_S512x300 : S_.BroadcastsInDim S512x300 (![] : Fin 0 → Fin S512x300.rank)
  reducesTo_S512x300_S_d0_1 : S512x300.ReducesTo [0, 1] S_
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S100x20 : S_.BroadcastsInDim S100x20 (![] : Fin 0 → Fin S100x20.rank)
  reducesTo_S100x20_S_d0_1 : S100x20.ReducesTo [0, 1] S_
  bcast_S_S20 : S_.BroadcastsInDim S20 (![] : Fin 0 → Fin S20.rank)
  reducesTo_S20_S_d0 : S20.ReducesTo [0] S_
  bcast_S_S520x128 : S_.BroadcastsInDim S520x128 (![] : Fin 0 → Fin S520x128.rank)
  reducesTo_S520x128_S_d0_1 : S520x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S20x64 : S_.BroadcastsInDim S20x64 (![] : Fin 0 → Fin S20x64.rank)
  reducesTo_S20x64_S_d0_1 : S20x64.ReducesTo [0, 1] S_
  bcast_S_S64 : S_.BroadcastsInDim S64 (![] : Fin 0 → Fin S64.rank)
  reducesTo_S64_S_d0 : S64.ReducesTo [0] S_
  bcast_S_S200x64 : S_.BroadcastsInDim S200x64 (![] : Fin 0 → Fin S200x64.rank)
  reducesTo_S200x64_S_d0_1 : S200x64.ReducesTo [0, 1] S_
  bcast_S_S300x64 : S_.BroadcastsInDim S300x64 (![] : Fin 0 → Fin S300x64.rank)
  reducesTo_S300x64_S_d0_1 : S300x64.ReducesTo [0, 1] S_
  bcast_S_S64x512 : S_.BroadcastsInDim S64x512 (![] : Fin 0 → Fin S64x512.rank)
  reducesTo_S64x512_S_d0_1 : S64x512.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S64x128 : S_.BroadcastsInDim S64x128 (![] : Fin 0 → Fin S64x128.rank)
  reducesTo_S64x128_S_d0_1 : S64x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part11 {F : FTy → Type} [FloatOps F] (main_arg41 : FVec F S32 .f32) (main_arg42 : FVec F S32 .f32) (main_v183 : IVec S_ 1) (main_v187 : IVec S_ 1) : IVec S_ 1 :=
  let main_v188 : IVec S_ 1 := andi main_v183 main_v187
  let main_v189 : FVec F S32 .f32 := Host.absf main_arg41
  let main_cst_74 : FVec F S_ .f32 := constant S_ .f32 0x7F800000#32
  let main_v190 : FVec F S32 .f32 := broadcastInDim S32 ![] bcast_S_S32 main_cst_74
  let main_v191 : IVec S32 1 := cmpf .olt main_v189 main_v190
  let main_c_75 : IVec S_ 1 := constantI S_ 1 1#1
  let main_v192 : IVec S_ 1 := (fun x v => Host.reduce IntOp.andi x v reducesTo_S32_S_d0 h_S_) main_v191 main_c_75
  let main_v193 : IVec S_ 1 := andi main_v188 main_v192
  let main_v194 : FVec F S32 .f32 := Host.absf main_arg42
  let main_cst_76 : FVec F S_ .f32 := constant S_ .f32 0x7F800000#32
  let main_v195 : FVec F S32 .f32 := broadcastInDim S32 ![] bcast_S_S32 main_cst_76
  let main_v196 : IVec S32 1 := cmpf .olt main_v194 main_v195
  let main_c_77 : IVec S_ 1 := constantI S_ 1 1#1
  let main_v197 : IVec S_ 1 := (fun x v => Host.reduce IntOp.andi x v reducesTo_S32_S_d0 h_S_) main_v196 main_c_77
  let main_v198 : IVec S_ 1 := andi main_v193 main_v197
  main_v198

def fn_part10 {F : FTy → Type} [FloatOps F] (main_arg38 : FVec F S1 .f32) (main_arg39 : FVec F S128 .f32) (main_arg40 : FVec F S128 .f32) (main_arg41 : FVec F S32 .f32) (main_arg42 : FVec F S32 .f32) (main_v168 : IVec S_ 1) (main_v169 : FVec F S32x1 .f32) (main_v170 : FVec F S32x1 .f32) : IVec S_ 1 :=
  let main_v171 : IVec S32x1 1 := cmpf .olt main_v169 main_v170
  let main_c_67 : IVec S_ 1 := constantI S_ 1 1#1
  let main_v172 : IVec S_ 1 := (fun x v => Host.reduce IntOp.andi x v reducesTo_S32x1_S_d0_1 h_S_) main_v171 main_c_67
  let main_v173 : IVec S_ 1 := andi main_v168 main_v172
  let main_v174 : FVec F S1 .f32 := Host.absf main_arg38
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  let main_v179 : FVec F S128 .f32 := Host.absf main_arg39
  let main_cst_70 : FVec F S_ .f32 := constant S_ .f32 0x7F800000#32
  let main_v180 : FVec F S128 .f32 := broadcastInDim S128 ![] bcast_S_S128 main_cst_70
  let main_v181 : IVec S128 1 := cmpf .olt main_v179 main_v180
  let main_c_71 : IVec S_ 1 := constantI S_ 1 1#1
  let main_v182 : IVec S_ 1 := (fun x v => Host.reduce IntOp.andi x v reducesTo_S128_S_d0 h_S_) main_v181 main_c_71
  let main_v183 : IVec S_ 1 := andi main_v178 main_v182
  let main_v184 : FVec F S128 .f32 := Host.absf main_arg40
  let main_cst_72 : FVec F S_ .f32 := constant S_ .f32 0x7F800000#32
  let main_v185 : FVec F S128 .f32 := broadcastInDim S128 ![] bcast_S_S128 main_cst_72
  let main_v186 : IVec S128 1 := cmpf .olt main_v184 main_v185
  let main_c_73 : IVec S_ 1 := constantI S_ 1 1#1
  let main_v187 : IVec S_ 1 := (fun x v => Host.reduce IntOp.andi x v reducesTo_S128_S_d0 h_S_) main_v186 main_c_73
  fn_part11 (F := F) main_arg41 main_arg42 main_v183 main_v187

def fn_part9 {F : FTy → Type} [FloatOps F] (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v153 : IVec S_ 1) : IVec S_ 1 :=
  let main_v154 : FVec F S128 .f32 := Host.absf main_arg34
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128x32 .f32 := Host.absf main_arg35
  let main_cst_62 : FVec F S_ .f32 := constant S_ .f32 0x7F800000#32
  let main_v160 : FVec F S128x32 .f32 := broadcastInDim S128x32 ![] bcast_S_S128x32 main_cst_62
  let main_v161 : IVec S128x32 1 := cmpf .olt main_v159 main_v160
  let main_c_63 : IVec S_ 1 := constantI S_ 1 1#1
  let main_v162 : IVec S_ 1 := (fun x v => Host.reduce IntOp.andi x v reducesTo_S128x32_S_d0_1 h_S_) main_v161 main_c_63
  let main_v163 : IVec S_ 1 := andi main_v158 main_v162
  let main_v164 : FVec F S32 .f32 := Host.absf main_arg36
  let main_cst_64 : FVec F S_ .f32 := constant S_ .f32 0x7F800000#32
  let main_v165 : FVec F S32 .f32 := broadcastInDim S32 ![] bcast_S_S32 main_cst_64
  let main_v166 : IVec S32 1 := cmpf .olt main_v164 main_v165
  let main_c_65 : IVec S_ 1 := constantI S_ 1 1#1
  let main_v167 : IVec S_ 1 := (fun x v => Host.reduce IntOp.andi x v reducesTo_S32_S_d0 h_S_) main_v166 main_c_65
  let main_v168 : IVec S_ 1 := andi main_v163 main_v167
  let main_v169 : FVec F S32x1 .f32 := Host.absf main_arg37
  let main_cst_66 : FVec F S_ .f32 := constant S_ .f32 0x7F800000#32
  let main_v170 : FVec F S32x1 .f32 := broadcastInDim S32x1 ![] bcast_S_S32x1 main_cst_66
  fn_part10 (F := F) main_arg38 main_arg39 main_arg40 main_arg41 main_arg42 main_v168 main_v169 main_v170

def fn_part8 {F : FTy → Type} [FloatOps F] (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x8 .f32 := Host.absf main_arg31
  let main_cst_54 : FVec F S_ .f32 := constant S_ .f32 0x7F800000#32
  let main_v140 : FVec F S128x8 .f32 := broadcastInDim S128x8 ![] bcast_S_S128x8 main_cst_54
  let main_v141 : IVec S128x8 1 := cmpf .olt main_v139 main_v140
  let main_c_55 : IVec S_ 1 := constantI S_ 1 1#1
  let main_v142 : IVec S_ 1 := (fun x v => Host.reduce IntOp.andi x v reducesTo_S128x8_S_d0_1 h_S_) main_v141 main_c_55
  let main_v143 : IVec S_ 1 := andi main_v138 main_v142
  let main_v144 : FVec F S8 .f32 := Host.absf main_arg32
  let main_cst_56 : FVec F S_ .f32 := constant S_ .f32 0x7F800000#32
  let main_v145 : FVec F S8 .f32 := broadcastInDim S8 ![] bcast_S_S8 main_cst_56
  let main_v146 : IVec S8 1 := cmpf .olt main_v144 main_v145
  let main_c_57 : IVec S_ 1 := constantI S_ 1 1#1
  let main_v147 : IVec S_ 1 := (fun x v => Host.reduce IntOp.andi x v reducesTo_S8_S_d0 h_S_) main_v146 main_c_57
  let main_v148 : IVec S_ 1 := andi main_v143 main_v147
  let main_v149 : FVec F S64x128 .f32 := Host.absf main_arg33
  let main_cst_58 : FVec F S_ .f32 := constant S_ .f32 0x7F800000#32
  let main_v150 : FVec F S64x128 .f32 := broadcastInDim S64x128 ![] bcast_S_S64x128 main_cst_58
  let main_v151 : IVec S64x128 1 := cmpf .olt main_v149 main_v150
  let main_c_59 : IVec S_ 1 := constantI S_ 1 1#1
  let main_v152 : IVec S_ 1 := (fun x v => Host.reduce IntOp.andi x v reducesTo_S64x128_S_d0_1 h_S_) main_v151 main_c_59
  let main_v153 : IVec S_ 1 := andi main_v148 main_v152
  fn_part9 (F := F) main_arg34 main_arg35 main_arg36 main_arg37 main_arg38 main_arg39 main_arg40 main_arg41 main_arg42 main_v153

def fn_part7 {F : FTy → Type} [FloatOps F] (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v118 : IVec S_ 1) (main_v119 : FVec F S64x512 .f32) : IVec S_ 1 :=
  let main_cst_46 : FVec F S_ .f32 := constant S_ .f32 0x7F800000#32
  let main_v120 : FVec F S64x512 .f32 := broadcastInDim S64x512 ![] bcast_S_S64x512 main_cst_46
  let main_v121 : IVec S64x512 1 := cmpf .olt main_v119 main_v120
  let main_c_47 : IVec S_ 1 := constantI S_ 1 1#1
  let main_v122 : IVec S_ 1 := (fun x v => Host.reduce IntOp.andi x v reducesTo_S64x512_S_d0_1 h_S_) main_v121 main_c_47
  let main_v123 : IVec S_ 1 := andi main_v118 main_v122
  let main_v124 : FVec F S64x512 .f32 := Host.absf main_arg28
  let main_cst_48 : FVec F S_ .f32 := constant S_ .f32 0x7F800000#32
  let main_v125 : FVec F S64x512 .f32 := broadcastInDim S64x512 ![] bcast_S_S64x512 main_cst_48
  let main_v126 : IVec S64x512 1 := cmpf .olt main_v124 main_v125
  let main_c_49 : IVec S_ 1 := constantI S_ 1 1#1
  let main_v127 : IVec S_ 1 := (fun x v => Host.reduce IntOp.andi x v reducesTo_S64x512_S_d0_1 h_S_) main_v126 main_c_49
  let main_v128 : IVec S_ 1 := andi main_v123 main_v127
  let main_v129 : FVec F S520x128 .f32 := Host.absf main_arg29
  let main_cst_50 : FVec F S_ .f32 := constant S_ .f32 0x7F800000#32
  let main_v130 : FVec F S520x128 .f32 := broadcastInDim S520x128 ![] bcast_S_S520x128 main_cst_50
  let main_v131 : IVec S520x128 1 := cmpf .olt main_v129 main_v130
  let main_c_51 : IVec S_ 1 := constantI S_ 1 1#1
  let main_v132 : IVec S_ 1 := (fun x v => Host.reduce IntOp.andi x v reducesTo_S520x128_S_d0_1 h_S_) main_v131 main_c_51
  let main_v133 : IVec S_ 1 := andi main_v128 main_v132
  let main_v134 : FVec F S128 .f32 := Host.absf main_arg30
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg31 main_arg32 main_arg33 main_arg34 main_arg35 main_arg36 main_arg37 main_arg38 main_arg39 main_arg40 main_arg41 main_arg42 main_v133 main_v136

def fn_part6 {F : FTy → Type} [FloatOps F] (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg24
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x512 .f32 := Host.absf main_arg26
  let main_cst_44 : FVec F S_ .f32 := constant S_ .f32 0x7F800000#32
  let main_v115 : FVec F S64x512 .f32 := broadcastInDim S64x512 ![] bcast_S_S64x512 main_cst_44
  let main_v116 : IVec S64x512 1 := cmpf .olt main_v114 main_v115
  let main_c_45 : IVec S_ 1 := constantI S_ 1 1#1
  let main_v117 : IVec S_ 1 := (fun x v => Host.reduce IntOp.andi x v reducesTo_S64x512_S_d0_1 h_S_) main_v116 main_c_45
  let main_v118 : IVec S_ 1 := andi main_v113 main_v117
  let main_v119 : FVec F S64x512 .f32 := Host.absf main_arg27
  fn_part7 (F := F) main_arg28 main_arg29 main_arg30 main_arg31 main_arg32 main_arg33 main_arg34 main_arg35 main_arg36 main_arg37 main_arg38 main_arg39 main_arg40 main_arg41 main_arg42 main_v118 main_v119

def fn_part5 {F : FTy → Type} [FloatOps F] (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg23
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg24 main_arg25 main_arg26 main_arg27 main_arg28 main_arg29 main_arg30 main_arg31 main_arg32 main_arg33 main_arg34 main_arg35 main_arg36 main_arg37 main_arg38 main_arg39 main_arg40 main_arg41 main_arg42 main_v98 main_v101 main_c_39

def fn_part4 {F : FTy → Type} [FloatOps F] (main_arg17 : FVec F S64 .f32) (main_arg18 : FVec F S300x64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S300x64 .f32 := Host.absf main_arg18
  let main_cst_28 : FVec F S_ .f32 := constant S_ .f32 0x7F800000#32
  let main_v75 : FVec F S300x64 .f32 := broadcastInDim S300x64 ![] bcast_S_S300x64 main_cst_28
  let main_v76 : IVec S300x64 1 := cmpf .olt main_v74 main_v75
  let main_c_29 : IVec S_ 1 := constantI S_ 1 1#1
  let main_v77 : IVec S_ 1 := (fun x v => Host.reduce IntOp.andi x v reducesTo_S300x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_v83 main_v84 main_cst_32

def fn_part3 {F : FTy → Type} [FloatOps F] (main_arg14 : FVec F S20x64 .f32) (main_arg15 : FVec F S64 .f32) (main_arg16 : FVec F S200x64 .f32) (main_arg17 : FVec F S64 .f32) (main_arg18 : FVec F S300x64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S20x64 .f32 := Host.absf main_arg14
  let main_cst_20 : FVec F S_ .f32 := constant S_ .f32 0x7F800000#32
  let main_v55 : FVec F S20x64 .f32 := broadcastInDim S20x64 ![] bcast_S_S20x64 main_cst_20
  let main_v56 : IVec S20x64 1 := cmpf .olt main_v54 main_v55
  let main_c_21 : IVec S_ 1 := constantI S_ 1 1#1
  let main_v57 : IVec S_ 1 := (fun x v => Host.reduce IntOp.andi x v reducesTo_S20x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S200x64 .f32 := Host.absf main_arg16
  let main_cst_24 : FVec F S_ .f32 := constant S_ .f32 0x7F800000#32
  let main_v65 : FVec F S200x64 .f32 := broadcastInDim S200x64 ![] bcast_S_S200x64 main_cst_24
  let main_v66 : IVec S200x64 1 := cmpf .olt main_v64 main_v65
  let main_c_25 : IVec S_ 1 := constantI S_ 1 1#1
  let main_v67 : IVec S_ 1 := (fun x v => Host.reduce IntOp.andi x v reducesTo_S200x64_S_d0_1 h_S_) main_v66 main_c_25
  fn_part4 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_v63 main_v67

def fn_part2 {F : FTy → Type} [FloatOps F] (main_arg10 : FVec F S520x128 .f32) (main_arg11 : FVec F S128 .f32) (main_arg12 : FVec F S128x3 .f32) (main_arg13 : FVec F S3 .f32) (main_arg14 : FVec F S20x64 .f32) (main_arg15 : FVec F S64 .f32) (main_arg16 : FVec F S200x64 .f32) (main_arg17 : FVec F S64 .f32) (main_arg18 : FVec F S300x64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v33 : IVec S_ 1) : IVec S_ 1 :=
  let main_v34 : FVec F S520x128 .f32 := Host.absf main_arg10
  let main_cst_12 : FVec F S_ .f32 := constant S_ .f32 0x7F800000#32
  let main_v35 : FVec F S520x128 .f32 := broadcastInDim S520x128 ![] bcast_S_S520x128 main_cst_12
  let main_v36 : IVec S520x128 1 := cmpf .olt main_v34 main_v35
  let main_c_13 : IVec S_ 1 := constantI S_ 1 1#1
  let main_v37 : IVec S_ 1 := (fun x v => Host.reduce IntOp.andi x v reducesTo_S520x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg12
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg13
  let main_cst_18 : FVec F S_ .f32 := constant S_ .f32 0x7F800000#32
  let main_v50 : FVec F S3 .f32 := broadcastInDim S3 ![] bcast_S_S3 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_v48 main_v49 main_v50

def fn_part1 {F : FTy → Type} [FloatOps F] (main_arg7 : FVec F S100 .f32) (main_arg8 : FVec F S100x20 .f32) (main_arg9 : FVec F S20 .f32) (main_arg10 : FVec F S520x128 .f32) (main_arg11 : FVec F S128 .f32) (main_arg12 : FVec F S128x3 .f32) (main_arg13 : FVec F S3 .f32) (main_arg14 : FVec F S20x64 .f32) (main_arg15 : FVec F S64 .f32) (main_arg16 : FVec F S200x64 .f32) (main_arg17 : FVec F S64 .f32) (main_arg18 : FVec F S300x64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) (main_v13 : IVec S_ 1) (main_v16 : IVec S64x100 1) : IVec S_ 1 :=
  let main_c_5 : IVec S_ 1 := constantI S_ 1 1#1
  let main_v17 : IVec S_ 1 := (fun x v => Host.reduce IntOp.andi x v reducesTo_S64x100_S_d0_1 h_S_) main_v16 main_c_5
  let main_v18 : IVec S_ 1 := andi main_v13 main_v17
  let main_v19 : FVec F S100 .f32 := Host.absf main_arg7
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x20 .f32 := Host.absf main_arg8
  let main_cst_8 : FVec F S_ .f32 := constant S_ .f32 0x7F800000#32
  let main_v25 : FVec F S100x20 .f32 := broadcastInDim S100x20 ![] bcast_S_S100x20 main_cst_8
  let main_v26 : IVec S100x20 1 := cmpf .olt main_v24 main_v25
  let main_c_9 : IVec S_ 1 := constantI S_ 1 1#1
  let main_v27 : IVec S_ 1 := (fun x v => Host.reduce IntOp.andi x v reducesTo_S100x20_S_d0_1 h_S_) main_v26 main_c_9
  let main_v28 : IVec S_ 1 := andi main_v23 main_v27
  let main_v29 : FVec F S20 .f32 := Host.absf main_arg9
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_v33

def fn {F : FTy → Type} [FloatOps F] (main_arg0 : FVec F S102400x64 .f32) (main_arg1 : FVec F S512x200 .f32) (main_arg2 : FVec F S512x300 .f32) (main_arg3 : IVec S1638400 32) (main_arg4 : IVec S1638400 32) (main_arg5 : IVec S102400 32) (main_arg6 : FVec F S64x100 .f32) (main_arg7 : FVec F S100 .f32) (main_arg8 : FVec F S100x20 .f32) (main_arg9 : FVec F S20 .f32) (main_arg10 : FVec F S520x128 .f32) (main_arg11 : FVec F S128 .f32) (main_arg12 : FVec F S128x3 .f32) (main_arg13 : FVec F S3 .f32) (main_arg14 : FVec F S20x64 .f32) (main_arg15 : FVec F S64 .f32) (main_arg16 : FVec F S200x64 .f32) (main_arg17 : FVec F S64 .f32) (main_arg18 : FVec F S300x64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64x512 .f32) (main_arg27 : FVec F S64x512 .f32) (main_arg28 : FVec F S64x512 .f32) (main_arg29 : FVec F S520x128 .f32) (main_arg30 : FVec F S128 .f32) (main_arg31 : FVec F S128x8 .f32) (main_arg32 : FVec F S8 .f32) (main_arg33 : FVec F S64x128 .f32) (main_arg34 : FVec F S128 .f32) (main_arg35 : FVec F S128x32 .f32) (main_arg36 : FVec F S32 .f32) (main_arg37 : FVec F S32x1 .f32) (main_arg38 : FVec F S1 .f32) (main_arg39 : FVec F S128 .f32) (main_arg40 : FVec F S128 .f32) (main_arg41 : FVec F S32 .f32) (main_arg42 : FVec F S32 .f32) : IVec S_ 1 :=
  let main_v0 : FVec F S102400x64 .f32 := Host.absf main_arg0
  let main_cst : FVec F S_ .f32 := constant S_ .f32 0x7F800000#32
  let main_v1 : FVec F S102400x64 .f32 := broadcastInDim S102400x64 ![] bcast_S_S102400x64 main_cst
  let main_v2 : IVec S102400x64 1 := cmpf .olt main_v0 main_v1
  let main_c : IVec S_ 1 := constantI S_ 1 1#1
  let main_v3 : IVec S_ 1 := (fun x v => Host.reduce IntOp.andi x v reducesTo_S102400x64_S_d0_1 h_S_) main_v2 main_c
  let main_v4 : FVec F S512x200 .f32 := Host.absf main_arg1
  let main_cst_0 : FVec F S_ .f32 := constant S_ .f32 0x7F800000#32
  let main_v5 : FVec F S512x200 .f32 := broadcastInDim S512x200 ![] bcast_S_S512x200 main_cst_0
  let main_v6 : IVec S512x200 1 := cmpf .olt main_v4 main_v5
  let main_c_1 : IVec S_ 1 := constantI S_ 1 1#1
  let main_v7 : IVec S_ 1 := (fun x v => Host.reduce IntOp.andi x v reducesTo_S512x200_S_d0_1 h_S_) main_v6 main_c_1
  let main_v8 : IVec S_ 1 := andi main_v3 main_v7
  let main_v9 : FVec F S512x300 .f32 := Host.absf main_arg2
  let main_cst_2 : FVec F S_ .f32 := constant S_ .f32 0x7F800000#32
  let main_v10 : FVec F S512x300 .f32 := broadcastInDim S512x300 ![] bcast_S_S512x300 main_cst_2
  let main_v11 : IVec S512x300 1 := cmpf .olt main_v9 main_v10
  let main_c_3 : IVec S_ 1 := constantI S_ 1 1#1
  let main_v12 : IVec S_ 1 := (fun x v => Host.reduce IntOp.andi x v reducesTo_S512x300_S_d0_1 h_S_) main_v11 main_c_3
  let main_v13 : IVec S_ 1 := andi main_v8 main_v12
  let main_v14 : FVec F S64x100 .f32 := Host.absf main_arg6
  let main_cst_4 : FVec F S_ .f32 := constant S_ .f32 0x7F800000#32
  let main_v15 : FVec F S64x100 .f32 := broadcastInDim S64x100 ![] bcast_S_S64x100 main_cst_4
  let main_v16 : IVec S64x100 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_v13 main_v16
-- ==== Kernel.lean ====
abbrev S102400x64 : Shape := ⟨2, ![102400, 64]⟩
abbrev S512x200 : Shape := ⟨2, ![512, 200]⟩
abbrev S512x300 : Shape := ⟨2, ![512, 300]⟩
abbrev S1638400 : Shape := ⟨1, ![1638400]⟩
abbrev S102400 : Shape := ⟨1, ![102400]⟩
abbrev S64x100 : Shape := ⟨2, ![64, 100]⟩
abbrev S100 : Shape := ⟨1, ![100]⟩
abbrev S100x20 : Shape := ⟨2, ![100, 20]⟩
abbrev S20 : Shape := ⟨1, ![20]⟩
abbrev S520x128 : Shape := ⟨2, ![520, 128]⟩
abbrev S128 : Shape := ⟨1, ![128]⟩
abbrev S128x3 : Shape := ⟨2, ![128, 3]⟩
abbrev S3 : Shape := ⟨1, ![3]⟩
abbrev S20x64 : Shape := ⟨2, ![20, 64]⟩
abbrev S64 : Shape := ⟨1, ![64]⟩
abbrev S200x64 : Shape := ⟨2, ![200, 64]⟩
abbrev S300x64 : Shape := ⟨2, ![300, 64]⟩
abbrev S64x512 : Shape := ⟨2, ![64, 512]⟩
abbrev S128x8 : Shape := ⟨2, ![128, 8]⟩
abbrev S8 : Shape := ⟨1, ![8]⟩
abbrev S64x128 : Shape := ⟨2, ![64, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩
abbrev S1638400x1 : Shape := ⟨2, ![1638400, 1]⟩
abbrev S102400x1 : Shape := ⟨2, ![102400, 1]⟩
abbrev S1638400x64 : Shape := ⟨2, ![1638400, 64]⟩
abbrev S102400x100 : Shape := ⟨2, ![102400, 100]⟩
abbrev S6400x64 : Shape := ⟨2, ![6400, 64]⟩
abbrev S6400x1 : Shape := ⟨2, ![6400, 1]⟩
abbrev S6400x100 : Shape := ⟨2, ![6400, 100]⟩
abbrev S1x100 : Shape := ⟨2, ![1, 100]⟩
abbrev S1638400x100 : Shape := ⟨2, ![1638400, 100]⟩
abbrev S102400x20 : Shape := ⟨2, ![102400, 20]⟩
abbrev S6400x20 : Shape := ⟨2, ![6400, 20]⟩
abbrev S1x20 : Shape := ⟨2, ![1, 20]⟩
abbrev S512 : Shape := ⟨1, ![512]⟩
abbrev S512x20 : Shape := ⟨2, ![512, 20]⟩
abbrev S512x1 : Shape := ⟨2, ![512, 1]⟩
abbrev S512x520 : Shape := ⟨2, ![512, 520]⟩
abbrev S512x128 : Shape := ⟨2, ![512, 128]⟩
abbrev S1x128 : Shape := ⟨2, ![1, 128]⟩
abbrev S512x3 : Shape := ⟨2, ![512, 3]⟩
abbrev S1x3 : Shape := ⟨2, ![1, 3]⟩
abbrev S512x64 : Shape := ⟨2, ![512, 64]⟩
abbrev S1x64 : Shape := ⟨2, ![1, 64]⟩
abbrev S512x512 : Shape := ⟨2, ![512, 512]⟩
abbrev S512x8 : Shape := ⟨2, ![512, 8]⟩
abbrev S1x8 : Shape := ⟨2, ![1, 8]⟩
abbrev S512x32 : Shape := ⟨2, ![512, 32]⟩
abbrev S1x32 : Shape := ⟨2, ![1, 32]⟩
abbrev S1x1 : Shape := ⟨2, ![1, 1]⟩

abbrev nBuf : Space → Nat
  | .hbm => 92
  | .vmem => 53
  | .smem => 0
  | _ => 0

abbrev bufTy : (tb : Table) → Fin (tcTables nBuf tb) → BufTy
  | .hbm, ⟨0, _⟩ => ⟨S102400x64, .f32⟩
  | .hbm, ⟨1, _⟩ => ⟨S512x200, .f32⟩
  | .hbm, ⟨2, _⟩ => ⟨S512x300, .f32⟩
  | .hbm, ⟨3, _⟩ => ⟨S1638400, .i32⟩
  | .hbm, ⟨4, _⟩ => ⟨S1638400, .i32⟩
  | .hbm, ⟨5, _⟩ => ⟨S102400, .i32⟩
  | .hbm, ⟨6, _⟩ => ⟨S64x100, .f32⟩
  | .hbm, ⟨7, _⟩ => ⟨S100, .f32⟩
  | .hbm, ⟨8, _⟩ => ⟨S100x20, .f32⟩
  | .hbm, ⟨9, _⟩ => ⟨S20, .f32⟩
  | .hbm, ⟨10, _⟩ => ⟨S520x128, .f32⟩
  | .hbm, ⟨11, _⟩ => ⟨S128, .f32⟩
  | .hbm, ⟨12, _⟩ => ⟨S128x3, .f32⟩
  | .hbm, ⟨13, _⟩ => ⟨S3, .f32⟩
  | .hbm, ⟨14, _⟩ => ⟨S20x64, .f32⟩
  | .hbm, ⟨15, _⟩ => ⟨S64, .f32⟩
  | .hbm, ⟨16, _⟩ => ⟨S200x64, .f32⟩
  | .hbm, ⟨17, _⟩ => ⟨S64, .f32⟩
  | .hbm, ⟨18, _⟩ => ⟨S300x64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S520x128, .f32⟩
  | .hbm, ⟨30, _⟩ => ⟨S128, .f32⟩
  | .hbm, ⟨31, _⟩ => ⟨S128x8, .f32⟩
  | .hbm, ⟨32, _⟩ => ⟨S8, .f32⟩
  | .hbm, ⟨33, _⟩ => ⟨S64x128, .f32⟩
  | .hbm, ⟨34, _⟩ => ⟨S128, .f32⟩
  | .hbm, ⟨35, _⟩ => ⟨S128x32, .f32⟩
  | .hbm, ⟨36, _⟩ => ⟨S32, .f32⟩
  | .hbm, ⟨37, _⟩ => ⟨S32x1, .f32⟩
  | .hbm, ⟨38, _⟩ => ⟨S1, .f32⟩
  | .hbm, ⟨39, _⟩ => ⟨S128, .f32⟩
  | .hbm, ⟨40, _⟩ => ⟨S128, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S1638400, .f32⟩
  | .hbm, ⟨45, _⟩ => ⟨S_, .f32⟩
  | .hbm, ⟨46, _⟩ => ⟨S102400, .f32⟩
  | .hbm, ⟨47, _⟩ => ⟨S1638400x1, .i32⟩
  | .hbm, ⟨48, _⟩ => ⟨S102400, .f32⟩
  | .hbm, ⟨49, _⟩ => ⟨S102400x1, .f32⟩
  | .hbm, ⟨50, _⟩ => ⟨S_, .i32⟩
  | .hbm, ⟨51, _⟩ => ⟨S1638400, .i32⟩
  | .hbm, ⟨52, _⟩ => ⟨S1638400, .i1⟩
  | .hbm, ⟨53, _⟩ => ⟨S_, .i32⟩
  | .hbm, ⟨54, _⟩ => ⟨S1638400, .i32⟩
  | .hbm, ⟨55, _⟩ => ⟨S1638400, .i32⟩
  | .hbm, ⟨56, _⟩ => ⟨S1638400, .i32⟩
  | .hbm, ⟨57, _⟩ => ⟨S1638400x1, .i32⟩
  | .hbm, ⟨58, _⟩ => ⟨S1638400x64, .f32⟩
  | .hbm, ⟨59, _⟩ => ⟨S_, .f32⟩
  | .hbm, ⟨60, _⟩ => ⟨S102400x64, .f32⟩
  | .hbm, ⟨61, _⟩ => ⟨S1638400x1, .i32⟩
  | .hbm, ⟨62, _⟩ => ⟨S102400x64, .f32⟩
  | .hbm, ⟨63, _⟩ => ⟨S102400x100, .f32⟩
  | .hbm, ⟨64, _⟩ => ⟨S_, .i32⟩
  | .hbm, ⟨65, _⟩ => ⟨S1638400, .i32⟩
  | .hbm, ⟨66, _⟩ => ⟨S1638400, .i1⟩
  | .hbm, ⟨67, _⟩ => ⟨S_, .i32⟩
  | .hbm, ⟨68, _⟩ => ⟨S1638400, .i32⟩
  | .hbm, ⟨69, _⟩ => ⟨S1638400, .i32⟩
  | .hbm, ⟨70, _⟩ => ⟨S1638400, .i32⟩
  | .hbm, ⟨71, _⟩ => ⟨S1638400x1, .i32⟩
  | .hbm, ⟨72, _⟩ => ⟨S1638400x100, .f32⟩
  | .hbm, ⟨73, _⟩ => ⟨S_, .f32⟩
  | .hbm, ⟨74, _⟩ => ⟨S102400x100, .f32⟩
  | .hbm, ⟨75, _⟩ => ⟨S1638400x1, .i32⟩
  | .hbm, ⟨76, _⟩ => ⟨S102400x100, .f32⟩
  | .hbm, ⟨77, _⟩ => ⟨S102400x20, .f32⟩
  | .hbm, ⟨78, _⟩ => ⟨S_, .f32⟩
  | .hbm, ⟨79, _⟩ => ⟨S102400, .f32⟩
  | .hbm, ⟨80, _⟩ => ⟨S_, .f32⟩
  | .hbm, ⟨81, _⟩ => ⟨S512, .f32⟩
  | .hbm, ⟨82, _⟩ => ⟨S102400x1, .i32⟩
  | .hbm, ⟨83, _⟩ => ⟨S512, .f32⟩
  | .hbm, ⟨84, _⟩ => ⟨S_, .f32⟩
  | .hbm, ⟨85, _⟩ => ⟨S512x20, .f32⟩
  | .hbm, ⟨86, _⟩ => ⟨S102400x1, .i32⟩
  | .hbm, ⟨87, _⟩ => ⟨S512x20, .f32⟩
  | .hbm, ⟨88, _⟩ => ⟨S512x1, .f32⟩
  | .hbm, ⟨89, _⟩ => ⟨S512x20, .f32⟩
  | .hbm, ⟨90, _⟩ => ⟨S512x20, .f32⟩
  | .hbm, ⟨91, _⟩ => ⟨S512x1, .f32⟩
  | .local _ .vmem, ⟨0, _⟩ => ⟨S6400x64, .f32⟩
  | .local _ .vmem, ⟨1, _⟩ => ⟨S6400x64, .f32⟩
  | .local _ .vmem, ⟨2, _⟩ => ⟨S6400x1, .f32⟩
  | .local _ .vmem, ⟨3, _⟩ => ⟨S6400x1, .f32⟩
  | .local _ .vmem, ⟨4, _⟩ => ⟨S64x100, .f32⟩
  | .local _ .vmem, ⟨5, _⟩ => ⟨S100, .f32⟩
  | .local _ .vmem, ⟨6, _⟩ => ⟨S6400x100, .f32⟩
  | .local _ .vmem, ⟨7, _⟩ => ⟨S6400x100, .f32⟩
  | .local _ .vmem, ⟨8, _⟩ => ⟨S6400x100, .f32⟩
  | .local _ .vmem, ⟨9, _⟩ => ⟨S6400x100, .f32⟩
  | .local _ .vmem, ⟨10, _⟩ => ⟨S6400x1, .f32⟩
  | .local _ .vmem, ⟨11, _⟩ => ⟨S6400x1, .f32⟩
  | .local _ .vmem, ⟨12, _⟩ => ⟨S100x20, .f32⟩
  | .local _ .vmem, ⟨13, _⟩ => ⟨S20, .f32⟩
  | .local _ .vmem, ⟨14, _⟩ => ⟨S6400x20, .f32⟩
  | .local _ .vmem, ⟨15, _⟩ => ⟨S6400x20, .f32⟩
  | .local _ .vmem, ⟨16, _⟩ => ⟨S512x20, .f32⟩
  | .local _ .vmem, ⟨17, _⟩ => ⟨S512x200, .f32⟩
  | .local _ .vmem, ⟨18, _⟩ => ⟨S512x300, .f32⟩
  | .local _ .vmem, ⟨19, _⟩ => ⟨S520x128, .f32⟩
  | .local _ .vmem, ⟨20, _⟩ => ⟨S128, .f32⟩
  | .local _ .vmem, ⟨21, _⟩ => ⟨S128x3, .f32⟩
  | .local _ .vmem, ⟨22, _⟩ => ⟨S3, .f32⟩
  | .local _ .vmem, ⟨23, _⟩ => ⟨S20x64, .f32⟩
  | .local _ .vmem, ⟨24, _⟩ => ⟨S64, .f32⟩
  | .local _ .vmem, ⟨25, _⟩ => ⟨S200x64, .f32⟩
  | .local _ .vmem, ⟨26, _⟩ => ⟨S64, .f32⟩
  | .local _ .vmem, ⟨27, _⟩ => ⟨S300x64, .f32⟩
  | .local _ .vmem, ⟨28, _⟩ => ⟨S64, .f32⟩
  | .local _ .vmem, ⟨29, _⟩ => ⟨S64, .f32⟩
  | .local _ .vmem, ⟨30, _⟩ => ⟨S64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S64, .f32⟩
  | .local _ .vmem, ⟨35, _⟩ => ⟨S64x512, .f32⟩
  | .local _ .vmem, ⟨36, _⟩ => ⟨S64x512, .f32⟩
  | .local _ .vmem, ⟨37, _⟩ => ⟨S64x512, .f32⟩
  | .local _ .vmem, ⟨38, _⟩ => ⟨S520x128, .f32⟩
  | .local _ .vmem, ⟨39, _⟩ => ⟨S128, .f32⟩
  | .local _ .vmem, ⟨40, _⟩ => ⟨S128x8, .f32⟩
  | .local _ .vmem, ⟨41, _⟩ => ⟨S8, .f32⟩
  | .local _ .vmem, ⟨42, _⟩ => ⟨S64x128, .f32⟩
  | .local _ .vmem, ⟨43, _⟩ => ⟨S128, .f32⟩
  | .local _ .vmem, ⟨44, _⟩ => ⟨S128x32, .f32⟩
  | .local _ .vmem, ⟨45, _⟩ => ⟨S32, .f32⟩
  | .local _ .vmem, ⟨46, _⟩ => ⟨S32x1, .f32⟩
  | .local _ .vmem, ⟨47, _⟩ => ⟨S1, .f32⟩
  | .local _ .vmem, ⟨48, _⟩ => ⟨S128, .f32⟩
  | .local _ .vmem, ⟨49, _⟩ => ⟨S128, .f32⟩
  | .local _ .vmem, ⟨50, _⟩ => ⟨S32, .f32⟩
  | .local _ .vmem, ⟨51, _⟩ => ⟨S32, .f32⟩
  | .local _ .vmem, ⟨52, _⟩ => ⟨S512x1, .f32⟩
  | _, _ => ⟨S102400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_cst : Ref sig .tc := ⟨.hbm, 43, rfl⟩
abbrev main_v0 : Ref sig .tc := ⟨.hbm, 44, rfl⟩
abbrev main_cst_0 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_c : Ref sig .tc := ⟨.hbm, 50, rfl⟩
abbrev main_v5 : Ref sig .tc := ⟨.hbm, 51, rfl⟩
abbrev main_v6 : Ref sig .tc := ⟨.hbm, 52, rfl⟩
abbrev main_c_1 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst_2 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_3 : Ref sig .tc := ⟨.hbm, 64, rfl⟩
abbrev main_v16 : Ref sig .tc := ⟨.hbm, 65, rfl⟩
abbrev main_v17 : Ref sig .tc := ⟨.hbm, 66, rfl⟩
abbrev main_c_4 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_6 : Ref sig .tc := ⟨.hbm, 78, rfl⟩
abbrev main_v27 : Ref sig .tc := ⟨.hbm, 79, rfl⟩
abbrev main_cst_7 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_8 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc2_stg15_0 : Ref sig .tc := ⟨.vmem, 31, rfl⟩
abbrev cc2_stg16_0 : Ref sig .tc := ⟨.vmem, 32, rfl⟩
abbrev cc2_stg17_0 : Ref sig .tc := ⟨.vmem, 33, rfl⟩
abbrev cc2_stg18_0 : Ref sig .tc := ⟨.vmem, 34, rfl⟩
abbrev cc2_stg19_0 : Ref sig .tc := ⟨.vmem, 35, rfl⟩
abbrev cc2_stg20_0 : Ref sig .tc := ⟨.vmem, 36, rfl⟩
abbrev cc2_stg21_0 : Ref sig .tc := ⟨.vmem, 37, rfl⟩
abbrev cc2_stg22_0 : Ref sig .tc := ⟨.vmem, 38, rfl⟩
abbrev cc2_stg23_0 : Ref sig .tc := ⟨.vmem, 39, rfl⟩
abbrev cc2_stg24_0 : Ref sig .tc := ⟨.vmem, 40, rfl⟩
abbrev cc2_stg25_0 : Ref sig .tc := ⟨.vmem, 41, rfl⟩
abbrev cc2_stg26_0 : Ref sig .tc := ⟨.vmem, 42, rfl⟩
abbrev cc2_stg27_0 : Ref sig .tc := ⟨.vmem, 43, rfl⟩
abbrev cc2_stg28_0 : Ref sig .tc := ⟨.vmem, 44, rfl⟩
abbrev cc2_stg29_0 : Ref sig .tc := ⟨.vmem, 45, rfl⟩
abbrev cc2_stg30_0 : Ref sig .tc := ⟨.vmem, 46, rfl⟩
abbrev cc2_stg31_0 : Ref sig .tc := ⟨.vmem, 47, rfl⟩
abbrev cc2_stg32_0 : Ref sig .tc := ⟨.vmem, 48, rfl⟩
abbrev cc2_stg33_0 : Ref sig .tc := ⟨.vmem, 49, rfl⟩
abbrev cc2_stg34_0 : Ref sig .tc := ⟨.vmem, 50, rfl⟩
abbrev cc2_stg35_0 : Ref sig .tc := ⟨.vmem, 51, rfl⟩
abbrev cc2_stg36_0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30
abbrev cc2_sem15_0 : DmaSem sig := 31
abbrev cc2_sem16_0 : DmaSem sig := 32
abbrev cc2_sem17_0 : DmaSem sig := 33
abbrev cc2_sem18_0 : DmaSem sig := 34
abbrev cc2_sem19_0 : DmaSem sig := 35
abbrev cc2_sem20_0 : DmaSem sig := 36
abbrev cc2_sem21_0 : DmaSem sig := 37
abbrev cc2_sem22_0 : DmaSem sig := 38
abbrev cc2_sem23_0 : DmaSem sig := 39
abbrev cc2_sem24_0 : DmaSem sig := 40
abbrev cc2_sem25_0 : DmaSem sig := 41
abbrev cc2_sem26_0 : DmaSem sig := 42
abbrev cc2_sem27_0 : DmaSem sig := 43
abbrev cc2_sem28_0 : DmaSem sig := 44
abbrev cc2_sem29_0 : DmaSem sig := 45
abbrev cc2_sem30_0 : DmaSem sig := 46
abbrev cc2_sem31_0 : DmaSem sig := 47
abbrev cc2_sem32_0 : DmaSem sig := 48
abbrev cc2_sem33_0 : DmaSem sig := 49
abbrev cc2_sem34_0 : DmaSem sig := 50
abbrev cc2_sem35_0 : DmaSem sig := 51
abbrev cc2_sem36_0 : DmaSem sig := 52

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x20 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_24 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_25 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_26 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_27 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_28 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_29 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_30 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_31 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_32 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_33 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_34 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_35 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_36 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x20 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S520x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S20x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S200x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S300x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S64 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S64 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S64x512 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S64x512 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S64x512 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S520x128 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S128 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S128x8 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 1 → Memref sig .tc .vmem S8 .f32 := fun | 0 => Memref.whole cc2_stg25_0 | ⟨_ + 1, h⟩ => absurd h (Nat.not_lt.2 (Nat.le_add_left _ _))
abbrev sem2_25 : Fin 1 → DmaSem sig := fun | 0 => cc2_sem25_0 | ⟨_ + 1, h⟩ => absurd h (Nat.not_lt.2 (Nat.le_add_left _ _))
abbrev reads2_25 : Fin grid2.rank → Bool := ![false]

abbrev stage2_26 : Fin 1 → Memref sig .tc .vmem S64x128 .f32 := fun | 0 => Memref.whole cc2_stg26_0 | ⟨_ + 1, h⟩ => absurd h (Nat.not_lt.2 (Nat.le_add_left _ _))
abbrev sem2_26 : Fin 1 → DmaSem sig := fun | 0 => cc2_sem26_0 | ⟨_ + 1, h⟩ => absurd h (Nat.not_lt.2 (Nat.le_add_left _ _))
abbrev reads2_26 : Fin grid2.rank → Bool := ![false]

abbrev stage2_27 : Fin 1 → Memref sig .tc .vmem S128 .f32 := fun | 0 => Memref.whole cc2_stg27_0 | ⟨_ + 1, h⟩ => absurd h (Nat.not_lt.2 (Nat.le_add_left _ _))
abbrev sem2_27 : Fin 1 → DmaSem sig := fun | 0 => cc2_sem27_0 | ⟨_ + 1, h⟩ => absurd h (Nat.not_lt.2 (Nat.le_add_left _ _))
abbrev reads2_27 : Fin grid2.rank → Bool := ![false]

abbrev stage2_28 : Fin 1 → Memref sig .tc .vmem S128x32 .f32 := fun | 0 => Memref.whole cc2_stg28_0 | ⟨_ + 1, h⟩ => absurd h (Nat.not_lt.2 (Nat.le_add_left _ _))
abbrev sem2_28 : Fin 1 → DmaSem sig := fun | 0 => cc2_sem28_0 | ⟨_ + 1, h⟩ => absurd h (Nat.not_lt.2 (Nat.le_add_left _ _))
abbrev reads2_28 : Fin grid2.rank → Bool := ![false]

abbrev stage2_29 : Fin 1 → Memref sig .tc .vmem S32 .f32 := fun | 0 => Memref.whole cc2_stg29_0 | ⟨_ + 1, h⟩ => absurd h (Nat.not_lt.2 (Nat.le_add_left _ _))
abbrev sem2_29 : Fin 1 → DmaSem sig := fun | 0 => cc2_sem29_0 | ⟨_ + 1, h⟩ => absurd h (Nat.not_lt.2 (Nat.le_add_left _ _))
abbrev reads2_29 : Fin grid2.rank → Bool := ![false]

abbrev stage2_30 : Fin 1 → Memref sig .tc .vmem S32x1 .f32 := fun | 0 => Memref.whole cc2_stg30_0 | ⟨_ + 1, h⟩ => absurd h (Nat.not_lt.2 (Nat.le_add_left _ _))
abbrev sem2_30 : Fin 1 → DmaSem sig := fun | 0 => cc2_sem30_0 | ⟨_ + 1, h⟩ => absurd h (Nat.not_lt.2 (Nat.le_add_left _ _))
abbrev reads2_30 : Fin grid2.rank → Bool := ![false]

abbrev stage2_31 : Fin 1 → Memref sig .tc .vmem S1 .f32 := fun | 0 => Memref.whole cc2_stg31_0 | ⟨_ + 1, h⟩ => absurd h (Nat.not_lt.2 (Nat.le_add_left _ _))
abbrev sem2_31 : Fin 1 → DmaSem sig := fun | 0 => cc2_sem31_0 | ⟨_ + 1, h⟩ => absurd h (Nat.not_lt.2 (Nat.le_add_left _ _))
abbrev reads2_31 : Fin grid2.rank → Bool := ![false]

abbrev stage2_32 : Fin 1 → Memref sig .tc .vmem S128 .f32 := fun | 0 => Memref.whole cc2_stg32_0 | ⟨_ + 1, h⟩ => absurd h (Nat.not_lt.2 (Nat.le_add_left _ _))
abbrev sem2_32 : Fin 1 → DmaSem sig := fun | 0 => cc2_sem32_0 | ⟨_ + 1, h⟩ => absurd h (Nat.not_lt.2 (Nat.le_add_left _ _))
abbrev reads2_32 : Fin grid2.rank → Bool := ![false]

abbrev stage2_33 : Fin 1 → Memref sig .tc .vmem S128 .f32 := fun | 0 => Memref.whole cc2_stg33_0 | ⟨_ + 1, h⟩ => absurd h (Nat.not_lt.2 (Nat.le_add_left _ _))
abbrev sem2_33 : Fin 1 → DmaSem sig := fun | 0 => cc2_sem33_0 | ⟨_ + 1, h⟩ => absurd h (Nat.not_lt.2 (Nat.le_add_left _ _))
abbrev reads2_33 : Fin grid2.rank → Bool := ![false]

abbrev stage2_34 : Fin 1 → Memref sig .tc .vmem S32 .f32 := fun | 0 => Memref.whole cc2_stg34_0 | ⟨_ + 1, h⟩ => absurd h (Nat.not_lt.2 (Nat.le_add_left _ _))
abbrev sem2_34 : Fin 1 → DmaSem sig := fun | 0 => cc2_sem34_0 | ⟨_ + 1, h⟩ => absurd h (Nat.not_lt.2 (Nat.le_add_left _ _))
abbrev reads2_34 : Fin grid2.rank → Bool := ![false]

abbrev stage2_35 : Fin 1 → Memref sig .tc .vmem S32 .f32 := fun | 0 => Memref.whole cc2_stg35_0 | ⟨_ + 1, h⟩ => absurd h (Nat.not_lt.2 (Nat.le_add_left _ _))
abbrev sem2_35 : Fin 1 → DmaSem sig := fun | 0 => cc2_sem35_0 | ⟨_ + 1, h⟩ => absurd h (Nat.not_lt.2 (Nat.le_add_left _ _))
abbrev reads2_35 : Fin grid2.rank → Bool := ![false]

abbrev stage2_36 : Fin 1 → Memref sig .tc .vmem S512x1 .f32 := fun | 0 => Memref.whole cc2_stg36_0 | ⟨_ + 1, h⟩ => absurd h (Nat.not_lt.2 (Nat.le_add_left _ _))
abbrev sem2_36 : Fin 1 → DmaSem sig := fun | 0 => cc2_sem36_0 | ⟨_ + 1, h⟩ => absurd h (Nat.not_lt.2 (Nat.le_add_left _ _))
abbrev reads2_36 : Fin grid2.rank → Bool := ![false]

class Facts₀ : Prop where
  bcast_S_S1638400 : S_.BroadcastsInDim S1638400 (![] : Fin 0 → Fin S1638400.rank)
  bcast_S_S102400 : S_.BroadcastsInDim S102400 (![] : Fin 0 → Fin S102400.rank)
  bcast_S1638400_S1638400x1_0 : S1638400.BroadcastsInDim S1638400x1 (![0] : Fin 1 → Fin S1638400x1.rank)
  shapeCasts_S102400_S102400x1 : S102400.ShapeCasts S102400x1
  bcast_S_S102400x64 : S_.BroadcastsInDim S102400x64 (![] : Fin 0 → Fin S102400x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  inb_S100_S100_0 : ∀ a, (![0] : Fin 1 → Nat) a + S100.size a ≤ S100.size a
  h_S100 : 0 < S100.numel
  shapeCasts_S100_S1x100 : S100.ShapeCasts S1x100
  broadcasts_S1x100_S6400x100 : S1x100.Broadcasts S6400x100
  inb_S6400x100_S6400x100_0_0 : ∀ a, (![0, 0] : Fin 2 → Nat) a + S6400x100.size a ≤ S6400x100.size a
  h_S6400x100 : 0 < S6400x100.numel
  bcast_S_S102400x100 : S_.BroadcastsInDim S102400x100 (![] : Fin 0 → Fin S102400x100.rank)
  shapeCasts_S6400x100_S6400x100 : S6400x100.ShapeCasts S6400x100
  broadcasts_S6400x1_S6400x100 : S6400x1.Broadcasts S6400x100
  inb_S100x20_S100x20_0_0 : ∀ a, (![0, 0] : Fin 2 → Nat) a + S100x20.size a ≤ S100x20.size a
  h_S100x20 : 0 < S100x20.numel
  inb_S20_S20_0 : ∀ a, (![0] : Fin 1 → Nat) a + S20.size a ≤ S20.size a
  h_S20 : 0 < S20.numel
  shapeCasts_S20_S1x20 : S20.ShapeCasts S1x20
  broadcasts_S1x20_S6400x20 : S1x20.Broadcasts S6400x20
  inb_S6400x20_S6400x20_0_0 : ∀ a, (![0, 0] : Fin 2 → Nat) a + S6400x20.size a ≤ S6400x20.size a
  h_S6400x20 : 0 < S6400x20.numel
  bcast_S_S512 : S_.BroadcastsInDim S512 (![] : Fin 0 → Fin S512.rank)
  bcast_S102400_S102400x1_0 : S102400.BroadcastsInDim S102400x1 (![0] : Fin 1 → Fin S102400x1.rank)
  bcast_S_S512x20 : S_.BroadcastsInDim S512x20 (![] : Fin 0 → Fin S512x20.rank)
  bcast_S512_S512x1_0 : S512.BroadcastsInDim S512x1 (![0] : Fin 1 → Fin S512x1.rank)
  bcast_S512x1_S512x20_0_1 : S512x1.BroadcastsInDim S512x20 (![0, 1] : Fin 2 → Fin S512x20.rank)
  inb_S512x20_S512x20_0_0 : ∀ a, (![0, 0] : Fin 2 → Nat) a + S512x20.size a ≤ S512x20.size a
  h_S512x20 : 0 < S512x20.numel
  shapeCasts_S512x20_S512x20 : S512x20.ShapeCasts S512x20
  inb_S512x200_S512x200_0_0 : ∀ a, (![0, 0] : Fin 2 → Nat) a + S512x200.size a ≤ S512x200.size a
  h_S512x200 : 0 < S512x200.numel
  inb_S512x300_S512x300_0_0 : ∀ a, (![0, 0] : Fin 2 → Nat) a + S512x300.size a ≤ S512x300.size a
  h_S512x300 : 0 < S512x300.numel
  concatenates_S512x20_S512x200_S512x300_S512x520_d1 : Shape.Concatenates [S512x20, S512x200, S512x300] S512x520 1
  inb_S520x128_S520x128_0_0 : ∀ a, (![0, 0] : Fin 2 → Nat) a + S520x128.size a ≤ S520x128.size a
  h_S520x128 : 0 < S520x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  slices_S512x3_o0_0_S512x1 : S512x3.Slices ![0, 0] S512x1
  broadcasts_S512x1_S512x20 : S512x1.Broadcasts S512x20
  slices_S512x3_o0_1_S512x1 : S512x3.Slices ![0, 1] S512x1
  broadcasts_S512x1_S512x200 : S512x1.Broadcasts S512x200
  slices_S512x3_o0_2_S512x1 : S512x3.Slices ![0, 2] S512x1
  broadcasts_S512x1_S512x300 : S512x1.Broadcasts S512x300
  inb_S20x64_S20x64_0_0 : ∀ a, (![0, 0] : Fin 2 → Nat) a + S20x64.size a ≤ S20x64.size a
  h_S20x64 : 0 < S20x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  reduces_S512x64_S512 : S512x64.Reduces [1] S512
  broadcasts_S512x1_S512x64 : S512x1.Broadcasts S512x64
  inb_S200x64_S200x64_0_0 : ∀ a, (![0, 0] : Fin 2 → Nat) a + S200x64.size a ≤ S200x64.size a
  h_S200x64 : 0 < S200x64.numel
  inb_S300x64_S300x64_0_0 : ∀ a, (![0, 0] : Fin 2 → Nat) a + S300x64.size a ≤ S300x64.size a
  h_S300x64 : 0 < S300x64.numel
  inb_S64x512_S64x512_0_0 : ∀ a, (![0, 0] : Fin 2 → Nat) a + S64x512.size a ≤ S64x512.size a
  h_S64x512 : 0 < S64x512.numel
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  shapeCasts_S8_S1x8 : S8.ShapeCasts S1x8
  broadcasts_S1x8_S512x8 : S1x8.Broadcasts S512x8
  reduces_S512x8_S512 : S512x8.Reduces [1] S512
  broadcasts_S512x1_S512x8 : S512x1.Broadcasts S512x8
  slices_S512x512_o0_0_S512x64 : S512x512.Slices ![0, 0] S512x64
  slices_S512x8_o0_0_S512x1 : S512x8.Slices ![0, 0] S512x1
  slices_S512x512_o0_64_S512x64 : S512x512.Slices ![0, 64] S512x64
  slices_S512x8_o0_1_S512x1 : S512x8.Slices ![0, 1] S512x1
  slices_S512x512_o0_128_S512x64 : S512x512.Slices ![0, 128] S512x64
  slices_S512x8_o0_2_S512x1 : S512x8.Slices ![0, 2] S512x1
  slices_S512x512_o0_192_S512x64 : S512x512.Slices ![0, 192] S512x64
  slices_S512x8_o0_3_S512x1 : S512x8.Slices ![0, 3] S512x1
  slices_S512x512_o0_256_S512x64 : S512x512.Slices ![0, 256] S512x64
  slices_S512x8_o0_4_S512x1 : S512x8.Slices ![0, 4] S512x1
  slices_S512x512_o0_320_S512x64 : S512x512.Slices ![0, 320] S512x64
  slices_S512x8_o0_5_S512x1 : S512x8.Slices ![0, 5] S512x1
  slices_S512x512_o0_384_S512x64 : S512x512.Slices ![0, 384] S512x64
  slices_S512x8_o0_6_S512x1 : S512x8.Slices ![0, 6] S512x1
  slices_S512x512_o0_448_S512x64 : S512x512.Slices ![0, 448] S512x64
  slices_S512x8_o0_7_S512x1 : S512x8.Slices ![0, 7] S512x1
  inb_S64x128_S64x128_0_0 : ∀ a, (![0, 0] : Fin 2 → Nat) a + S64x128.size a ≤ S64x128.size a
  h_S64x128 : 0 < S64x128.numel
  reduces_S512x128_S128 : S512x128.Reduces [0] S128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  reduces_S512x32_S32 : S512x32.Reduces [0] S32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S102400_S1638400x1_S1638400_n_0_0_1_wf : ScatterDims.WF S102400 S1638400x1 S1638400 [] [0] [0] 1
  gather_S102400x64_S1638400x1_S1638400x64_1_0_n_n_0_1_164_wf : GatherDims.WF S102400x64 S1638400x1 S1638400x64 [1] [0] [] [0] [] 1 ![1, 64]
  scatter_S102400x64_S1638400x1_S1638400x64_1_0_0_1_wf : ScatterDims.WF S102400x64 S1638400x1 S1638400x64 [1] [0] [0] 1
  dot_S6400x64_S64x100_S6400x100_1_0_0_1_n_n_wf : DotDims.WF S6400x64 S64x100 S6400x100 [1] [0] [0] [1] [] []
  gather_S102400x100_S1638400x1_S1638400x100_1_0_n_n_0_1_1100_wf : GatherDims.WF S102400x100 S1638400x1 S1638400x100 [1] [0] [] [0] [] 1 ![1, 100]
  scatter_S102400x100_S1638400x1_S1638400x100_1_0_0_1_wf : ScatterDims.WF S102400x100 S1638400x1 S1638400x100 [1] [0] [0] 1
  dot_S6400x100_S100x20_S6400x20_1_0_0_1_n_n_wf : DotDims.WF S6400x100 S100x20 S6400x20 [1] [0] [0] [1] [] []
  scatter_S512_S102400x1_S102400_n_0_0_1_wf : ScatterDims.WF S512 S102400x1 S102400 [] [0] [0] 1
  scatter_S512x20_S102400x1_S102400x20_1_0_0_1_wf : ScatterDims.WF S512x20 S102400x1 S102400x20 [1] [0] [0] 1
  dot_S512x520_S520x128_S512x128_1_0_0_1_n_n_wf : DotDims.WF S512x520 S520x128 S512x128 [1] [0] [0] [1] [] []
  dot_S512x128_S128x3_S512x3_1_0_0_1_n_n_wf : DotDims.WF S512x128 S128x3 S512x3 [1] [0] [0] [1] [] []
  dot_S512x20_S20x64_S512x64_1_0_0_1_n_n_wf : DotDims.WF S512x20 S20x64 S512x64 [1] [0] [0] [1] [] []
  dot_S512x200_S200x64_S512x64_1_0_0_1_n_n_wf : DotDims.WF S512x200 S200x64 S512x64 [1] [0] [0] [1] [] []
  dot_S512x300_S300x64_S512x64_1_0_0_1_n_n_wf : DotDims.WF S512x300 S300x64 S512x64 [1] [0] [0] [1] [] []
  dot_S512x64_S64x512_S512x512_1_0_0_1_n_n_wf : DotDims.WF S512x64 S64x512 S512x512 [1] [0] [0] [1] [] []
  dot_S512x128_S128x8_S512x8_1_0_0_1_n_n_wf : DotDims.WF S512x128 S128x8 S512x8 [1] [0] [0] [1] [] []
  dot_S512x64_S64x128_S512x128_1_0_0_1_n_n_wf : DotDims.WF S512x64 S64x128 S512x128 [1] [0] [0] [1] [] []
  dot_S512x128_S128x32_S512x32_1_0_0_1_n_n_wf : DotDims.WF S512x128 S128x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S102400x64.size a
  hwx0_0 : ∀ i : grid0.Coords, EltTy.bits .f32 = 32 ∨ (Rect.block (s := S102400x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S102400x1.size a
  hwx0_1 : ∀ i : grid0.Coords, EltTy.bits .f32 = 32 ∨ (Rect.block (s := S102400x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x100.size a ≤ S64x100.size a
  hwx0_2 : ∀ i : grid0.Coords, EltTy.bits .f32 = 32 ∨ (Rect.block (s := S64x100) S64x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100.size a ≤ S100.size a
  hwx0_3 : ∀ i : grid0.Coords, EltTy.bits .f32 = 32 ∨ (Rect.block (s := S100) S100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x100.size a ≤ S102400x100.size a
  hwx0_4 : ∀ i : grid0.Coords, EltTy.bits .f32 = 32 ∨ (Rect.block (s := S102400x100) S6400x100.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x100.size a ≤ S102400x100.size a
  hwx1_0 : ∀ i : grid1.Coords, EltTy.bits .f32 = 32 ∨ (Rect.block (s := S102400x100) S6400x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S102400x1.size a
  hwx1_1 : ∀ i : grid1.Coords, EltTy.bits .f32 = 32 ∨ (Rect.block (s := S102400x1) S6400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x20.size a ≤ S100x20.size a
  hwx1_2 : ∀ i : grid1.Coords, EltTy.bits .f32 = 32 ∨ (Rect.block (s := S100x20) S100x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20.size a ≤ S20.size a
  hwx1_3 : ∀ i : grid1.Coords, EltTy.bits .f32 = 32 ∨ (Rect.block (s := S20) S20.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x20.size a ≤ S102400x20.size a
  hwx1_4 : ∀ i : grid1.Coords, EltTy.bits .f32 = 32 ∨ (Rect.block (s := S102400x20) S6400x20.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x20.size a ≤ S512x20.size a
  hwx2_0 : ∀ i : grid2.Coords, EltTy.bits .f32 = 32 ∨ (Rect.block (s := S512x20) S512x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x200.size a ≤ S512x200.size a
  hwx2_1 : ∀ i : grid2.Coords, EltTy.bits .f32 = 32 ∨ (Rect.block (s := S512x200) S512x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x300.size a ≤ S512x300.size a
  hwx2_2 : ∀ i : grid2.Coords, EltTy.bits .f32 = 32 ∨ (Rect.block (s := S512x300) S512x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S520x128.size a ≤ S520x128.size a
  hwx2_3 : ∀ i : grid2.Coords, EltTy.bits .f32 = 32 ∨ (Rect.block (s := S520x128) S520x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x3.size a ≤ S128x3.size a
  hwx2_5 : ∀ i : grid2.Coords, EltTy.bits .f32 = 32 ∨ (Rect.block (s := S128x3) S128x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3.size a ≤ S3.size a
  hwx2_6 : ∀ i : grid2.Coords, EltTy.bits .f32 = 32 ∨ (Rect.block (s := S3) S3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S20x64.size a ≤ S20x64.size a
  hwx2_7 : ∀ i : grid2.Coords, EltTy.bits .f32 = 32 ∨ (Rect.block (s := S20x64) S20x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S200x64.size a ≤ S200x64.size a
  hwx2_9 : ∀ i : grid2.Coords, EltTy.bits .f32 = 32 ∨ (Rect.block (s := S200x64) S200x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S300x64.size a ≤ S300x64.size a
  hwx2_11 : ∀ i : grid2.Coords, EltTy.bits .f32 = 32 ∨ (Rect.block (s := S300x64) S300x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64.size a ≤ S64.size a
  hwx2_13 : ∀ i : grid2.Coords, EltTy.bits .f32 = 32 ∨ (Rect.block (s := S64) S64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64.size a ≤ S64.size a
  hwx2_14 : ∀ i : grid2.Coords, EltTy.bits .f32 = 32 ∨ (Rect.block (s := S64) S64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S64.size a ≤ S64.size a
  hwx2_15 : ∀ i : grid2.Coords, EltTy.bits .f32 = 32 ∨ (Rect.block (s := S64) S64.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S64.size a ≤ S64.size a
  hwx2_16 : ∀ i : grid2.Coords, EltTy.bits .f32 = 32 ∨ (Rect.block (s := S64) S64.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S64.size a ≤ S64.size a
  hwx2_17 : ∀ i : grid2.Coords, EltTy.bits .f32 = 32 ∨ (Rect.block (s := S64) S64.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S64.size a ≤ S64.size a
  hwx2_18 : ∀ i : grid2.Coords, EltTy.bits .f32 = 32 ∨ (Rect.block (s := S64) S64.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S64x512.size a ≤ S64x512.size a
  hwx2_19 : ∀ i : grid2.Coords, EltTy.bits .f32 = 32 ∨ (Rect.block (s := S64x512) S64x512.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S64x512.size a ≤ S64x512.size a
  hwx2_20 : ∀ i : grid2.Coords, EltTy.bits .f32 = 32 ∨ (Rect.block (s := S64x512) S64x512.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S64x512.size a ≤ S64x512.size a
  hwx2_21 : ∀ i : grid2.Coords, EltTy.bits .f32 = 32 ∨ (Rect.block (s := S64x512) S64x512.size (cc2_transform_21 i) (hinb2_21 i)).WholeWords (EltTy.packing .f32)
  hstage2_22 : ∀ j, (stage2_22 j).IsWhole
  nbuf2_22 : grid2.bufCount reads2_22 true = 1
  hreads2_22 : ∀ i i' : grid2.Coords, (∀ a, reads2_22 a = true → i a = i' a) → cc2_transform_22 i = cc2_transform_22 i'
  hinb2_22 : ∀ (i : grid2.Coords) a, (cc2_transform_22 i a + 1) * S520x128.size a ≤ S520x128.size a
  hwx2_22 : ∀ i : grid2.Coords, EltTy.bits .f32 = 32 ∨ (Rect.block (s := S520x128) S520x128.size (cc2_transform_22 i) (hinb2_22 i)).WholeWords (EltTy.packing .f32)
  hstage2_23 : ∀ j, (stage2_23 j).IsWhole
  nbuf2_23 : grid2.bufCount reads2_23 true = 1
  hreads2_23 : ∀ i i' : grid2.Coords, (∀ a, reads2_23 a = true → i a = i' a) → cc2_transform_23 i = cc2_transform_23 i'
  hinb2_23 : ∀ (i : grid2.Coords) a, (cc2_transform_23 i a + 1) * S128.size a ≤ S128.size a
  hwx2_23 : ∀ i : grid2.Coords, EltTy.bits .f32 = 32 ∨ (Rect.block (s := S128) S128.size (cc2_transform_23 i) (hinb2_23 i)).WholeWords (EltTy.packing .f32)
  hstage2_24 : ∀ j, (stage2_24 j).IsWhole
  nbuf2_24 : grid2.bufCount reads2_24 true = 1
  hreads2_24 : ∀ i i' : grid2.Coords, (∀ a, reads2_24 a = true → i a = i' a) → cc2_transform_24 i = cc2_transform_24 i'
  hinb2_24 : ∀ (i : grid2.Coords) a, (cc2_transform_24 i a + 1) * S128x8.size a ≤ S128x8.size a
  hwx2_24 : ∀ i : grid2.Coords, EltTy.bits .f32 = 32 ∨ (Rect.block (s := S128x8) S128x8.size (cc2_transform_24 i) (hinb2_24 i)).WholeWords (EltTy.packing .f32)
  hstage2_25 : ∀ j, (stage2_25 j).IsWhole
  nbuf2_25 : grid2.bufCount reads2_25 true = 1
  hreads2_25 : ∀ i i' : grid2.Coords, (∀ a, reads2_25 a = true → i a = i' a) → cc2_transform_25 i = cc2_transform_25 i'
  hinb2_25 : ∀ (i : grid2.Coords) a, (cc2_transform_25 i a + 1) * S8.size a ≤ S8.size a
  hwx2_25 : ∀ i : grid2.Coords, EltTy.bits .f32 = 32 ∨ (Rect.block (s := S8) S8.size (cc2_transform_25 i) (hinb2_25 i)).WholeWords (EltTy.packing .f32)
  hstage2_26 : ∀ j, (stage2_26 j).IsWhole
  nbuf2_26 : grid2.bufCount reads2_26 true = 1
  hreads2_26 : ∀ i i' : grid2.Coords, (∀ a, reads2_26 a = true → i a = i' a) → cc2_transform_26 i = cc2_transform_26 i'
  hinb2_26 : ∀ (i : grid2.Coords) a, (cc2_transform_26 i a + 1) * S64x128.size a ≤ S64x128.size a
  hwx2_26 : ∀ i : grid2.Coords, EltTy.bits .f32 = 32 ∨ (Rect.block (s := S64x128) S64x128.size (cc2_transform_26 i) (hinb2_26 i)).WholeWords (EltTy.packing .f32)
  hstage2_27 : ∀ j, (stage2_27 j).IsWhole
  nbuf2_27 : grid2.bufCount reads2_27 true = 1
  hreads2_27 : ∀ i i' : grid2.Coords, (∀ a, reads2_27 a = true → i a = i' a) → cc2_transform_27 i = cc2_transform_27 i'
  hinb2_27 : ∀ (i : grid2.Coords) a, (cc2_transform_27 i a + 1) * S128.size a ≤ S128.size a
  hwx2_27 : ∀ i : grid2.Coords, EltTy.bits .f32 = 32 ∨ (Rect.block (s := S128) S128.size (cc2_transform_27 i) (hinb2_27 i)).WholeWords (EltTy.packing .f32)
  hstage2_28 : ∀ j, (stage2_28 j).IsWhole
  nbuf2_28 : grid2.bufCount reads2_28 true = 1
  hreads2_28 : ∀ i i' : grid2.Coords, (∀ a, reads2_28 a = true → i a = i' a) → cc2_transform_28 i = cc2_transform_28 i'
  hinb2_28 : ∀ (i : grid2.Coords) a, (cc2_transform_28 i a + 1) * S128x32.size a ≤ S128x32.size a
  hwx2_28 : ∀ i : grid2.Coords, EltTy.bits .f32 = 32 ∨ (Rect.block (s := S128x32) S128x32.size (cc2_transform_28 i) (hinb2_28 i)).WholeWords (EltTy.packing .f32)
  hstage2_29 : ∀ j, (stage2_29 j).IsWhole
  nbuf2_29 : grid2.bufCount reads2_29 true = 1
  hreads2_29 : ∀ i i' : grid2.Coords, (∀ a, reads2_29 a = true → i a = i' a) → cc2_transform_29 i = cc2_transform_29 i'
  hinb2_29 : ∀ (i : grid2.Coords) a, (cc2_transform_29 i a + 1) * S32.size a ≤ S32.size a
  hwx2_29 : ∀ i : grid2.Coords, EltTy.bits .f32 = 32 ∨ (Rect.block (s := S32) S32.size (cc2_transform_29 i) (hinb2_29 i)).WholeWords (EltTy.packing .f32)
  hstage2_30 : ∀ j, (stage2_30 j).IsWhole
  nbuf2_30 : grid2.bufCount reads2_30 true = 1
  hreads2_30 : ∀ i i' : grid2.Coords, (∀ a, reads2_30 a = true → i a = i' a) → cc2_transform_30 i = cc2_transform_30 i'
  hinb2_30 : ∀ (i : grid2.Coords) a, (cc2_transform_30 i a + 1) * S32x1.size a ≤ S32x1.size a
  hwx2_30 : ∀ i : grid2.Coords, EltTy.bits .f32 = 32 ∨ (Rect.block (s := S32x1) S32x1.size (cc2_transform_30 i) (hinb2_30 i)).WholeWords (EltTy.packing .f32)
  hstage2_31 : ∀ j, (stage2_31 j).IsWhole
  nbuf2_31 : grid2.bufCount reads2_31 true = 1
  hreads2_31 : ∀ i i' : grid2.Coords, (∀ a, reads2_31 a = true → i a = i' a) → cc2_transform_31 i = cc2_transform_31 i'
  hinb2_31 : ∀ (i : grid2.Coords) a, (cc2_transform_31 i a + 1) * S1.size a ≤ S1.size a
  hwx2_31 : ∀ i : grid2.Coords, EltTy.bits .f32 = 32 ∨ (Rect.block (s := S1) S1.size (cc2_transform_31 i) (hinb2_31 i)).WholeWords (EltTy.packing .f32)
  hstage2_32 : ∀ j, (stage2_32 j).IsWhole
  nbuf2_32 : grid2.bufCount reads2_32 true = 1
  hreads2_32 : ∀ i i' : grid2.Coords, (∀ a, reads2_32 a = true → i a = i' a) → cc2_transform_32 i = cc2_transform_32 i'
  hinb2_32 : ∀ (i : grid2.Coords) a, (cc2_transform_32 i a + 1) * S128.size a ≤ S128.size a
  hwx2_32 : ∀ i : grid2.Coords, EltTy.bits .f32 = 32 ∨ (Rect.block (s := S128) S128.size (cc2_transform_32 i) (hinb2_32 i)).WholeWords (EltTy.packing .f32)
  hstage2_33 : ∀ j, (stage2_33 j).IsWhole
  nbuf2_33 : grid2.bufCount reads2_33 true = 1
  hreads2_33 : ∀ i i' : grid2.Coords, (∀ a, reads2_33 a = true → i a = i' a) → cc2_transform_33 i = cc2_transform_33 i'
  hinb2_33 : ∀ (i : grid2.Coords) a, (cc2_transform_33 i a + 1) * S128.size a ≤ S128.size a
  hwx2_33 : ∀ i : grid2.Coords, EltTy.bits .f32 = 32 ∨ (Rect.block (s := S128) S128.size (cc2_transform_33 i) (hinb2_33 i)).WholeWords (EltTy.packing .f32)
  hstage2_34 : ∀ j, (stage2_34 j).IsWhole
  nbuf2_34 : grid2.bufCount reads2_34 true = 1
  hreads2_34 : ∀ i i' : grid2.Coords, (∀ a, reads2_34 a = true → i a = i' a) → cc2_transform_34 i = cc2_transform_34 i'
  hinb2_34 : ∀ (i : grid2.Coords) a, (cc2_transform_34 i a + 1) * S32.size a ≤ S32.size a
  hwx2_34 : ∀ i : grid2.Coords, EltTy.bits .f32 = 32 ∨ (Rect.block (s := S32) S32.size (cc2_transform_34 i) (hinb2_34 i)).WholeWords (EltTy.packing .f32)
  hstage2_35 : ∀ j, (stage2_35 j).IsWhole
  nbuf2_35 : grid2.bufCount reads2_35 true = 1
  hreads2_35 : ∀ i i' : grid2.Coords, (∀ a, reads2_35 a = true → i a = i' a) → cc2_transform_35 i = cc2_transform_35 i'
  hinb2_35 : ∀ (i : grid2.Coords) a, (cc2_transform_35 i a + 1) * S32.size a ≤ S32.size a
  hwx2_35 : ∀ i : grid2.Coords, EltTy.bits .f32 = 32 ∨ (Rect.block (s := S32) S32.size (cc2_transform_35 i) (hinb2_35 i)).WholeWords (EltTy.packing .f32)
  hstage2_36 : ∀ j, (stage2_36 j).IsWhole
  nbuf2_36 : grid2.bufCount reads2_36 true = 1
  hreads2_36 : ∀ i i' : grid2.Coords, (∀ a, reads2_36 a = true → i a = i' a) → cc2_transform_36 i = cc2_transform_36 i'
  hinb2_36 : ∀ (i : grid2.Coords) a, (cc2_transform_36 i a + 1) * S512x1.size a ≤ S512x1.size a
  hwx2_36 : ∀ i : grid2.Coords, EltTy.bits .f32 = 32 ∨ (Rect.block (s := S512x1) S512x1.size (cc2_transform_36 i) (hinb2_36 i)).WholeWords (EltTy.packing .f32)

variable [Facts₀]

def scatter_S102400_S1638400x1_S1638400_n_0_0_1 : ScatterDims S102400 S1638400x1 S1638400 where
  updateWindowDims := []
  insertedWindowDims := [0]
  scatterDimsToOperandDims := [0]
  indexVectorDim := 1
  wf := scatter_S102400_S1638400x1_S1638400_n_0_0_1_wf
def gather_S102400x64_S1638400x1_S1638400x64_1_0_n_n_0_1_164 : GatherDims S102400x64 S1638400x1 S1638400x64 where
  offsetDims := [1]
  collapsedSliceDims := [0]
  operandBatchingDims := []
  startIndicesBatchingDims := []
  startIndexMap := [0]
  indexVectorDim := 1
  sliceSizes := ![1, 64]
  wf := gather_S102400x64_S1638400x1_S1638400x64_1_0_n_n_0_1_164_wf
def scatter_S102400x64_S1638400x1_S1638400x64_1_0_0_1 : ScatterDims S102400x64 S1638400x1 S1638400x64 where
  updateWindowDims := [1]
  insertedWindowDims := [0]
  scatterDimsToOperandDims := [0]
  indexVectorDim := 1
  wf := scatter_S102400x64_S1638400x1_S1638400x64_1_0_0_1_wf
def dot_S6400x64_S64x100_S6400x100_1_0_0_1_n_n : DotDims S6400x64 S64x100 S6400x100 where
  lhsContracting := [1]
  rhsContracting := [0]
  lhsNonContracting := [0]
  rhsNonContracting := [1]
  lhsBatch := []
  rhsBatch := []
  wf := dot_S6400x64_S64x100_S6400x100_1_0_0_1_n_n_wf
def gather_S102400x100_S1638400x1_S1638400x100_1_0_n_n_0_1_1100 : GatherDims S102400x100 S1638400x1 S1638400x100 where
  offsetDims := [1]
  collapsedSliceDims := [0]
  operandBatchingDims := []
  startIndicesBatchingDims := []
  startIndexMap := [0]
  indexVectorDim := 1
  sliceSizes := ![1, 100]
  wf := gather_S102400x100_S1638400x1_S1638400x100_1_0_n_n_0_1_1100_wf
def scatter_S102400x100_S1638400x1_S1638400x100_1_0_0_1 : ScatterDims S102400x100 S1638400x1 S1638400x100 where
  updateWindowDims := [1]
  insertedWindowDims := [0]
  scatterDimsToOperandDims := [0]
  indexVectorDim := 1
  wf := scatter_S102400x100_S1638400x1_S1638400x100_1_0_0_1_wf
def dot_S6400x100_S100x20_S6400x20_1_0_0_1_n_n : DotDims S6400x100 S100x20 S6400x20 where
  lhsContracting := [1]
  rhsContracting := [0]
  lhsNonContracting := [0]
  rhsNonContracting := [1]
  lhsBatch := []
  rhsBatch := []
  wf := dot_S6400x100_S100x20_S6400x20_1_0_0_1_n_n_wf
def scatter_S512_S102400x1_S102400_n_0_0_1 : ScatterDims S512 S102400x1 S102400 where
  updateWindowDims := []
  insertedWindowDims := [0]
  scatterDimsToOperandDims := [0]
  indexVectorDim := 1
  wf := scatter_S512_S102400x1_S102400_n_0_0_1_wf
def scatter_S512x20_S102400x1_S102400x20_1_0_0_1 : ScatterDims S512x20 S102400x1 S102400x20 where
  updateWindowDims := [1]
  insertedWindowDims := [0]
  scatterDimsToOperandDims := [0]
  indexVectorDim := 1
  wf := scatter_S512x20_S102400x1_S102400x20_1_0_0_1_wf
def dot_S512x520_S520x128_S512x128_1_0_0_1_n_n : DotDims S512x520 S520x128 S512x128 where
  lhsContracting := [1]
  rhsContracting := [0]
  lhsNonContracting := [0]
  rhsNonContracting := [1]
  lhsBatch := []
  rhsBatch := []
  wf := dot_S512x520_S520x128_S512x128_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf
def dot_S512x20_S20x64_S512x64_1_0_0_1_n_n : DotDims S512x20 S20x64 S512x64 where
  lhsContracting := [1]
  rhsContracting := [0]
  lhsNonContracting := [0]
  rhsNonContracting := [1]
  lhsBatch := []
  rhsBatch := []
  wf := dot_S512x20_S20x64_S512x64_1_0_0_1_n_n_wf
def dot_S512x200_S200x64_S512x64_1_0_0_1_n_n : DotDims S512x200 S200x64 S512x64 where
  lhsContracting := [1]
  rhsContracting := [0]
  lhsNonContracting := [0]
  rhsNonContracting := [1]
  lhsBatch := []
  rhsBatch := []
  wf := dot_S512x200_S200x64_S512x64_1_0_0_1_n_n_wf
def dot_S512x300_S300x64_S512x64_1_0_0_1_n_n : DotDims S512x300 S300x64 S512x64 where
  lhsContracting := [1]
  rhsContracting := [0]
  lhsNonContracting := [0]
  rhsNonContracting := [1]
  lhsBatch := []
  rhsBatch := []
  wf := dot_S512x300_S300x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v14) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S6400x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S6400x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S100x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S6400x20.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S512x20.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S520x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S20x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S200x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S300x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg19) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg20) S64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg21) S64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg22) S64.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg23) S64.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg24) S64.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_arg25) S64.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg26) S64x512.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_arg27) S64x512.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_arg28) S64x512.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_arg29) S520x128.size cc2_transform_22 reads2_22 false true 1 stage2_22 sem2_22
    hrank2 hreads2_22 hinb2_22 nbuf2_22 (Memref.isWhole_whole _) hwx2_22 hstage2_22

abbrev win2_23 : Pipeline.Window sig grid2 :=
  Pipeline.Window.ofSpec (Memref.whole main_arg30) S128.size cc2_transform_23 reads2_23 false true 1 stage2_23 sem2_23
    hrank2 hreads2_23 hinb2_23 nbuf2_23 (Memref.isWhole_whole _) hwx2_23 hstage2_23

abbrev win2_24 : Pipeline.Window sig grid2 :=
  Pipeline.Window.ofSpec (Memref.whole main_arg31) S128x8.size cc2_transform_24 reads2_24 false true 1 stage2_24 sem2_24
    hrank2 hreads2_24 hinb2_24 nbuf2_24 (Memref.isWhole_whole _) hwx2_24 hstage2_24

abbrev win2_25 : Pipeline.Window sig grid2 :=
  Pipeline.Window.ofSpec (Memref.whole main_arg32) S8.size cc2_transform_25 reads2_25 false true 1 stage2_25 sem2_25
    hrank2 hreads2_25 hinb2_25 nbuf2_25 (Memref.isWhole_whole _) hwx2_25 hstage2_25

abbrev win2_26 : Pipeline.Window sig grid2 :=
  Pipeline.Window.ofSpec (Memref.whole main_arg33) S64x128.size cc2_transform_26 reads2_26 false true 1 stage2_26 sem2_26
    hrank2 hreads2_26 hinb2_26 nbuf2_26 (Memref.isWhole_whole _) hwx2_26 hstage2_26

abbrev win2_27 : Pipeline.Window sig grid2 :=
  Pipeline.Window.ofSpec (Memref.whole main_arg34) S128.size cc2_transform_27 reads2_27 false true 1 stage2_27 sem2_27
    hrank2 hreads2_27 hinb2_27 nbuf2_27 (Memref.isWhole_whole _) hwx2_27 hstage2_27

abbrev win2_28 : Pipeline.Window sig grid2 :=
  Pipeline.Window.ofSpec (Memref.whole main_arg35) S128x32.size cc2_transform_28 reads2_28 false true 1 stage2_28 sem2_28
    hrank2 hreads2_28 hinb2_28 nbuf2_28 (Memref.isWhole_whole _) hwx2_28 hstage2_28

abbrev win2_29 : Pipeline.Window sig grid2 :=
  Pipeline.Window.ofSpec (Memref.whole main_arg36) S32.size cc2_transform_29 reads2_29 false true 1 stage2_29 sem2_29
    hrank2 hreads2_29 hinb2_29 nbuf2_29 (Memref.isWhole_whole _) hwx2_29 hstage2_29

abbrev win2_30 : Pipeline.Window sig grid2 :=
  Pipeline.Window.ofSpec (Memref.whole main_arg37) S32x1.size cc2_transform_30 reads2_30 false true 1 stage2_30 sem2_30
    hrank2 hreads2_30 hinb2_30 nbuf2_30 (Memref.isWhole_whole _) hwx2_30 hstage2_30

abbrev win2_31 : Pipeline.Window sig grid2 :=
  Pipeline.Window.ofSpec (Memref.whole main_arg38) S1.size cc2_transform_31 reads2_31 false true 1 stage2_31 sem2_31
    hrank2 hreads2_31 hinb2_31 nbuf2_31 (Memref.isWhole_whole _) hwx2_31 hstage2_31

abbrev win2_32 : Pipeline.Window sig grid2 :=
  Pipeline.Window.ofSpec (Memref.whole main_arg39) S128.size cc2_transform_32 reads2_32 false true 1 stage2_32 sem2_32
    hrank2 hreads2_32 hinb2_32 nbuf2_32 (Memref.isWhole_whole _) hwx2_32 hstage2_32

abbrev win2_33 : Pipeline.Window sig grid2 :=
  Pipeline.Window.ofSpec (Memref.whole main_arg40) S128.size cc2_transform_33 reads2_33 false true 1 stage2_33 sem2_33
    hrank2 hreads2_33 hinb2_33 nbuf2_33 (Memref.isWhole_whole _) hwx2_33 hstage2_33

abbrev win2_34 : Pipeline.Window sig grid2 :=
  Pipeline.Window.ofSpec (Memref.whole main_arg41) S32.size cc2_transform_34 reads2_34 false true 1 stage2_34 sem2_34
    hrank2 hreads2_34 hinb2_34 nbuf2_34 (Memref.isWhole_whole _) hwx2_34 hstage2_34

abbrev win2_35 : Pipeline.Window sig grid2 :=
  Pipeline.Window.ofSpec (Memref.whole main_arg42) S32.size cc2_transform_35 reads2_35 false true 1 stage2_35 sem2_35
    hrank2 hreads2_35 hinb2_35 nbuf2_35 (Memref.isWhole_whole _) hwx2_35 hstage2_35

abbrev win2_36 : Pipeline.Window sig grid2 :=
  Pipeline.Window.ofSpec (Memref.whole main_v37) S512x1.size cc2_transform_36 reads2_36 true true 1 stage2_36 sem2_36
    hrank2 hreads2_36 hinb2_36 nbuf2_36 (Memref.isWhole_whole _) hwx2_36 hstage2_36

abbrev win2 : Fin 37 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | 24 => win2_24 | 25 => win2_25 | 26 => win2_26 | 27 => win2_27 | 28 => win2_28 | 29 => win2_29 | 30 => win2_30 | 31 => win2_31 | 32 => win2_32 | 33 => win2_33 | 34 => win2_34 | 35 => win2_35 | 36 => win2_36 | ⟨_ + 37, h⟩ => absurd h (Nat.not_lt.2 (Nat.le_add_left _ _))
abbrev spec2 : Fin 37 → Pipeline.WinSpec sig grid2.rank := fun w => (win2 w).toWinSpec

class Facts : Prop extends Facts₀ where

variable [Facts]
-- ==== ReferenceIdeal.lean ====
abbrev S102400x64 : Shape := ⟨2, ![102400, 64]⟩
abbrev S512x200 : Shape := ⟨2, ![512, 200]⟩
abbrev S512x300 : Shape := ⟨2, ![512, 300]⟩
abbrev S1638400 : Shape := ⟨1, ![1638400]⟩
abbrev S102400 : Shape := ⟨1, ![102400]⟩
abbrev S64x100 : Shape := ⟨2, ![64, 100]⟩
abbrev S100 : Shape := ⟨1, ![100]⟩
abbrev S100x20 : Shape := ⟨2, ![100, 20]⟩
abbrev S20 : Shape := ⟨1, ![20]⟩
abbrev S520x128 : Shape := ⟨2, ![520, 128]⟩
abbrev S128 : Shape := ⟨1, ![128]⟩
abbrev S128x3 : Shape := ⟨2, ![128, 3]⟩
abbrev S3 : Shape := ⟨1, ![3]⟩
abbrev S20x64 : Shape := ⟨2, ![20, 64]⟩
abbrev S64 : Shape := ⟨1, ![64]⟩
abbrev S200x64 : Shape := ⟨2, ![200, 64]⟩
abbrev S300x64 : Shape := ⟨2, ![300, 64]⟩
abbrev S64x512 : Shape := ⟨2, ![64, 512]⟩
abbrev S128x8 : Shape := ⟨2, ![128, 8]⟩
abbrev S8 : Shape := ⟨1, ![8]⟩
abbrev S64x128 : Shape := ⟨2, ![64, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩
abbrev S1638400x1 : Shape := ⟨2, ![1638400, 1]⟩
abbrev S1638400x64 : Shape := ⟨2, ![1638400, 64]⟩
abbrev S102400x1 : Shape := ⟨2, ![102400, 1]⟩
abbrev S102400x100 : Shape := ⟨2, ![102400, 100]⟩
abbrev S1x100 : Shape := ⟨2, ![1, 100]⟩
abbrev S1638400x100 : Shape := ⟨2, ![1638400, 100]⟩
abbrev S102400x20 : Shape := ⟨2, ![102400, 20]⟩
abbrev S1x20 : Shape := ⟨2, ![1, 20]⟩
abbrev S512 : Shape := ⟨1, ![512]⟩
abbrev S512x20 : Shape := ⟨2, ![512, 20]⟩
abbrev S512x1 : Shape := ⟨2, ![512, 1]⟩
abbrev S512x520 : Shape := ⟨2, ![512, 520]⟩
abbrev S512x128 : Shape := ⟨2, ![512, 128]⟩
abbrev S1x128 : Shape := ⟨2, ![1, 128]⟩
abbrev S512x3 : Shape := ⟨2, ![512, 3]⟩
abbrev S1x3 : Shape := ⟨2, ![1, 3]⟩
abbrev S512x64 : Shape := ⟨2, ![512, 64]⟩
abbrev S1x64 : Shape := ⟨2, ![1, 64]⟩
abbrev S512x512 : Shape := ⟨2, ![512, 512]⟩
abbrev S512x8x64 : Shape := ⟨3, ![512, 8, 64]⟩
abbrev S512x8 : Shape := ⟨2, ![512, 8]⟩
abbrev S1x8 : Shape := ⟨2, ![1, 8]⟩
abbrev S512x8x1 : Shape := ⟨3, ![512, 8, 1]⟩
abbrev S512x32 : Shape := ⟨2, ![512, 32]⟩
abbrev S1x32 : Shape := ⟨2, ![1, 32]⟩
abbrev S1x1 : Shape := ⟨2, ![1, 1]⟩

abbrev nBuf : Space → Nat
  | .hbm => 380
  | .vmem => 0
  | .smem => 0
  | _ => 0

abbrev hbmTy0_0 (i : Nat) : BufTy := match i % 128 with
  | 0 => ⟨S102400x64, .f32⟩
  | 1 => ⟨S512x200, .f32⟩
  | 2 => ⟨S512x300, .f32⟩
  | 3 => ⟨S1638400, .i32⟩
  | 4 => ⟨S1638400, .i32⟩
  | 5 => ⟨S102400, .i32⟩
  | 6 => ⟨S64x100, .f32⟩
  | 7 => ⟨S100, .f32⟩
  | 8 => ⟨S100x20, .f32⟩
  | 9 => ⟨S20, .f32⟩
  | 10 => ⟨S520x128, .f32⟩
  | 11 => ⟨S128, .f32⟩
  | 12 => ⟨S128x3, .f32⟩
  | 13 => ⟨S3, .f32⟩
  | 14 => ⟨S20x64, .f32⟩
  | 15 => ⟨S64, .f32⟩
  | 16 => ⟨S200x64, .f32⟩
  | 17 => ⟨S64, .f32⟩
  | 18 => ⟨S300x64, .f32⟩
  | 19 => ⟨S64, .f32⟩
  | 20 => ⟨S64, .f32⟩
  | 21 => ⟨S64, .f32⟩
  | 22 => ⟨S64, .f32⟩
  | 23 => ⟨S64, .f32⟩
  | 24 => ⟨S64, .f32⟩
  | 25 => ⟨S64, .f32⟩
  | 26 => ⟨S64x512, .f32⟩
  | 27 => ⟨S64x512, .f32⟩
  | 28 => ⟨S64x512, .f32⟩
  | 29 => ⟨S520x128, .f32⟩
  | 30 => ⟨S128, .f32⟩
  | 31 => ⟨S128x8, .f32⟩
  | 32 => ⟨S8, .f32⟩
  | 33 => ⟨S64x128, .f32⟩
  | 34 => ⟨S128, .f32⟩
  | 35 => ⟨S128x32, .f32⟩
  | 36 => ⟨S32, .f32⟩
  | 37 => ⟨S32x1, .f32⟩
  | 38 => ⟨S1, .f32⟩
  | 39 => ⟨S128, .f32⟩
  | 40 => ⟨S128, .f32⟩
  | 41 => ⟨S32, .f32⟩
  | 42 => ⟨S32, .f32⟩
  | 43 => ⟨S_, .i32⟩
  | 44 => ⟨S1638400, .i32⟩
  | 45 => ⟨S1638400, .i1⟩
  | 46 => ⟨S_, .i32⟩
  | 47 => ⟨S1638400, .i32⟩
  | 48 => ⟨S1638400, .i32⟩
  | 49 => ⟨S1638400, .i32⟩
  | 50 => ⟨S1638400x1, .i32⟩
  | 51 => ⟨S1638400x64, .f32⟩
  | 52 => ⟨S_, .f32⟩
  | 53 => ⟨S102400x64, .f32⟩
  | 54 => ⟨S1638400x1, .i32⟩
  | 55 => ⟨S102400x64, .f32⟩
  | 56 => ⟨S_, .f32⟩
  | 57 => ⟨S1638400, .f32⟩
  | 58 => ⟨S_, .f32⟩
  | 59 => ⟨S102400, .f32⟩
  | 60 => ⟨S1638400x1, .i32⟩
  | 61 => ⟨S102400, .f32⟩
  | 62 => ⟨S_, .f32⟩
  | 63 => ⟨S102400, .f32⟩
  | 64 => ⟨S102400, .f32⟩
  | 65 => ⟨S102400x1, .f32⟩
  | 66 => ⟨S102400x64, .f32⟩
  | 67 => ⟨S102400x64, .f32⟩
  | 68 => ⟨S102400x100, .f32⟩
  | 69 => ⟨S1x100, .f32⟩
  | 70 => ⟨S102400x100, .f32⟩
  | 71 => ⟨S102400x100, .f32⟩
  | 72 => ⟨S_, .f32⟩
  | 73 => ⟨S102400x100, .f32⟩
  | 74 => ⟨S102400x100, .f32⟩
  | 75 => ⟨S_, .i32⟩
  | 76 => ⟨S1638400, .i32⟩
  | 77 => ⟨S1638400, .i1⟩
  | 78 => ⟨S_, .i32⟩
  | 79 => ⟨S1638400, .i32⟩
  | 80 => ⟨S1638400, .i32⟩
  | 81 => ⟨S1638400, .i32⟩
  | 82 => ⟨S1638400x1, .i32⟩
  | 83 => ⟨S1638400x100, .f32⟩
  | 84 => ⟨S_, .f32⟩
  | 85 => ⟨S102400x100, .f32⟩
  | 86 => ⟨S1638400x1, .i32⟩
  | 87 => ⟨S102400x100, .f32⟩
  | 88 => ⟨S_, .f32⟩
  | 89 => ⟨S1638400, .f32⟩
  | 90 => ⟨S_, .f32⟩
  | 91 => ⟨S102400, .f32⟩
  | 92 => ⟨S1638400x1, .i32⟩
  | 93 => ⟨S102400, .f32⟩
  | 94 => ⟨S_, .f32⟩
  | 95 => ⟨S102400, .f32⟩
  | 96 => ⟨S102400, .f32⟩
  | 97 => ⟨S102400x1, .f32⟩
  | 98 => ⟨S102400x100, .f32⟩
  | 99 => ⟨S102400x100, .f32⟩
  | 100 => ⟨S102400x20, .f32⟩
  | 101 => ⟨S1x20, .f32⟩
  | 102 => ⟨S102400x20, .f32⟩
  | 103 => ⟨S102400x20, .f32⟩
  | 104 => ⟨S_, .f32⟩
  | 105 => ⟨S102400x20, .f32⟩
  | 106 => ⟨S102400x20, .f32⟩
  | 107 => ⟨S_, .f32⟩
  | 108 => ⟨S102400, .f32⟩
  | 109 => ⟨S_, .f32⟩
  | 110 => ⟨S512, .f32⟩
  | 111 => ⟨S102400x1, .i32⟩
  | 112 => ⟨S512, .f32⟩
  | 113 => ⟨S_, .f32⟩
  | 114 => ⟨S512x20, .f32⟩
  | 115 => ⟨S102400x1, .i32⟩
  | 116 => ⟨S512x20, .f32⟩
  | 117 => ⟨S512x1, .f32⟩
  | 118 => ⟨S512x20, .f32⟩
  | 119 => ⟨S512x20, .f32⟩
  | 120 => ⟨S512x520, .f32⟩
  | 121 => ⟨S512x128, .f32⟩
  | 122 => ⟨S1x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S102400x64, .f32⟩

abbrev hbmTy0_1 (i : Nat) : BufTy := match i % 128 with
  | 0 => ⟨S512x3, .f32⟩
  | 1 => ⟨S1x3, .f32⟩
  | 2 => ⟨S512x3, .f32⟩
  | 3 => ⟨S512x3, .f32⟩
  | 4 => ⟨S_, .f32⟩
  | 5 => ⟨S512, .f32⟩
  | 6 => ⟨S_, .f32⟩
  | 7 => ⟨S512, .f32⟩
  | 8 => ⟨S512, .f32⟩
  | 9 => ⟨S512x1, .f32⟩
  | 10 => ⟨S512x3, .f32⟩
  | 11 => ⟨S512x3, .f32⟩
  | 12 => ⟨S512x3, .f32⟩
  | 13 => ⟨S_, .f32⟩
  | 14 => ⟨S512, .f32⟩
  | 15 => ⟨S512x1, .f32⟩
  | 16 => ⟨S512x3, .f32⟩
  | 17 => ⟨S512x3, .f32⟩
  | 18 => ⟨S512x1, .f32⟩
  | 19 => ⟨S512x20, .f32⟩
  | 20 => ⟨S512x20, .f32⟩
  | 21 => ⟨S512x1, .f32⟩
  | 22 => ⟨S512x200, .f32⟩
  | 23 => ⟨S512x200, .f32⟩
  | 24 => ⟨S512x1, .f32⟩
  | 25 => ⟨S512x300, .f32⟩
  | 26 => ⟨S512x300, .f32⟩
  | 27 => ⟨S512x64, .f32⟩
  | 28 => ⟨S1x64, .f32⟩
  | 29 => ⟨S512x64, .f32⟩
  | 30 => ⟨S512x64, .f32⟩
  | 31 => ⟨S_, .f32⟩
  | 32 => ⟨S512, .f32⟩
  | 33 => ⟨S512x1, .f32⟩
  | 34 => ⟨S_, .f32⟩
  | 35 => ⟨S512x1, .f32⟩
  | 36 => ⟨S512x1, .f32⟩
  | 37 => ⟨S512x64, .f32⟩
  | 38 => ⟨S512x64, .f32⟩
  | 39 => ⟨S512x64, .f32⟩
  | 40 => ⟨S_, .f32⟩
  | 41 => ⟨S512, .f32⟩
  | 42 => ⟨S512x1, .f32⟩
  | 43 => ⟨S_, .f32⟩
  | 44 => ⟨S512x1, .f32⟩
  | 45 => ⟨S512x1, .f32⟩
  | 46 => ⟨S512x64, .f32⟩
  | 47 => ⟨S512x64, .f32⟩
  | 48 => ⟨S1x64, .f32⟩
  | 49 => ⟨S512x64, .f32⟩
  | 50 => ⟨S512x64, .f32⟩
  | 51 => ⟨S_, .f32⟩
  | 52 => ⟨S512x1, .f32⟩
  | 53 => ⟨S512x1, .f32⟩
  | 54 => ⟨S512x1, .f32⟩
  | 55 => ⟨S512x64, .f32⟩
  | 56 => ⟨S512x64, .f32⟩
  | 57 => ⟨S1x64, .f32⟩
  | 58 => ⟨S512x64, .f32⟩
  | 59 => ⟨S512x64, .f32⟩
  | 60 => ⟨S_, .f32⟩
  | 61 => ⟨S512x64, .f32⟩
  | 62 => ⟨S512x64, .f32⟩
  | 63 => ⟨S512x64, .f32⟩
  | 64 => ⟨S1x64, .f32⟩
  | 65 => ⟨S512x64, .f32⟩
  | 66 => ⟨S512x64, .f32⟩
  | 67 => ⟨S_, .f32⟩
  | 68 => ⟨S512, .f32⟩
  | 69 => ⟨S512x1, .f32⟩
  | 70 => ⟨S_, .f32⟩
  | 71 => ⟨S512x1, .f32⟩
  | 72 => ⟨S512x1, .f32⟩
  | 73 => ⟨S512x64, .f32⟩
  | 74 => ⟨S512x64, .f32⟩
  | 75 => ⟨S512x64, .f32⟩
  | 76 => ⟨S_, .f32⟩
  | 77 => ⟨S512, .f32⟩
  | 78 => ⟨S512x1, .f32⟩
  | 79 => ⟨S_, .f32⟩
  | 80 => ⟨S512x1, .f32⟩
  | 81 => ⟨S512x1, .f32⟩
  | 82 => ⟨S512x64, .f32⟩
  | 83 => ⟨S512x64, .f32⟩
  | 84 => ⟨S1x64, .f32⟩
  | 85 => ⟨S512x64, .f32⟩
  | 86 => ⟨S512x64, .f32⟩
  | 87 => ⟨S_, .f32⟩
  | 88 => ⟨S512x1, .f32⟩
  | 89 => ⟨S512x1, .f32⟩
  | 90 => ⟨S512x1, .f32⟩
  | 91 => ⟨S512x64, .f32⟩
  | 92 => ⟨S512x64, .f32⟩
  | 93 => ⟨S1x64, .f32⟩
  | 94 => ⟨S512x64, .f32⟩
  | 95 => ⟨S512x64, .f32⟩
  | 96 => ⟨S_, .f32⟩
  | 97 => ⟨S512x64, .f32⟩
  | 98 => ⟨S512x64, .f32⟩
  | 99 => ⟨S512x64, .f32⟩
  | 100 => ⟨S1x64, .f32⟩
  | 101 => ⟨S512x64, .f32⟩
  | 102 => ⟨S512x64, .f32⟩
  | 103 => ⟨S_, .f32⟩
  | 104 => ⟨S512, .f32⟩
  | 105 => ⟨S512x1, .f32⟩
  | 106 => ⟨S_, .f32⟩
  | 107 => ⟨S512x1, .f32⟩
  | 108 => ⟨S512x1, .f32⟩
  | 109 => ⟨S512x64, .f32⟩
  | 110 => ⟨S512x64, .f32⟩
  | 111 => ⟨S512x64, .f32⟩
  | 112 => ⟨S_, .f32⟩
  | 113 => ⟨S512, .f32⟩
  | 114 => ⟨S512x1, .f32⟩
  | 115 => ⟨S_, .f32⟩
  | 116 => ⟨S512x1, .f32⟩
  | 117 => ⟨S512x1, .f32⟩
  | 118 => ⟨S512x64, .f32⟩
  | 119 => ⟨S512x64, .f32⟩
  | 120 => ⟨S1x64, .f32⟩
  | 121 => ⟨S512x64, .f32⟩
  | 122 => ⟨S512x64, .f32⟩
  | 123 => ⟨S_, .f32⟩
  | 124 => ⟨S512x1, .f32⟩
  | 125 => ⟨S512x1, .f32⟩
  | 126 => ⟨S512x1, .f32⟩
  | 127 => ⟨S512x64, .f32⟩
  | _ => ⟨S102400x64, .f32⟩

abbrev hbmTy0_2 (i : Nat) : BufTy := match i % 128 with
  | 0 => ⟨S512x64, .f32⟩
  | 1 => ⟨S1x64, .f32⟩
  | 2 => ⟨S512x64, .f32⟩
  | 3 => ⟨S512x64, .f32⟩
  | 4 => ⟨S_, .f32⟩
  | 5 => ⟨S512x64, .f32⟩
  | 6 => ⟨S512x64, .f32⟩
  | 7 => ⟨S512x512, .f32⟩
  | 8 => ⟨S512x8x64, .f32⟩
  | 9 => ⟨S512x512, .f32⟩
  | 10 => ⟨S512x8x64, .f32⟩
  | 11 => ⟨S512x512, .f32⟩
  | 12 => ⟨S512x8x64, .f32⟩
  | 13 => ⟨S512x8x64, .f32⟩
  | 14 => ⟨S512x8x64, .f32⟩
  | 15 => ⟨S512x520, .f32⟩
  | 16 => ⟨S512x128, .f32⟩
  | 17 => ⟨S1x128, .f32⟩
  | 18 => ⟨S512x128, .f32⟩
  | 19 => ⟨S512x128, .f32⟩
  | 20 => ⟨S_, .f32⟩
  | 21 => ⟨S512x128, .f32⟩
  | 22 => ⟨S512x128, .f32⟩
  | 23 => ⟨S512x8, .f32⟩
  | 24 => ⟨S1x8, .f32⟩
  | 25 => ⟨S512x8, .f32⟩
  | 26 => ⟨S512x8, .f32⟩
  | 27 => ⟨S_, .f32⟩
  | 28 => ⟨S512, .f32⟩
  | 29 => ⟨S_, .f32⟩
  | 30 => ⟨S512, .f32⟩
  | 31 => ⟨S512, .f32⟩
  | 32 => ⟨S512x1, .f32⟩
  | 33 => ⟨S512x8, .f32⟩
  | 34 => ⟨S512x8, .f32⟩
  | 35 => ⟨S512x8, .f32⟩
  | 36 => ⟨S_, .f32⟩
  | 37 => ⟨S512, .f32⟩
  | 38 => ⟨S512x1, .f32⟩
  | 39 => ⟨S512x8, .f32⟩
  | 40 => ⟨S512x8, .f32⟩
  | 41 => ⟨S512x8x1, .f32⟩
  | 42 => ⟨S512x8x64, .f32⟩
  | 43 => ⟨S512x8x64, .f32⟩
  | 44 => ⟨S_, .f32⟩
  | 45 => ⟨S512x64, .f32⟩
  | 46 => ⟨S512x128, .f32⟩
  | 47 => ⟨S1x128, .f32⟩
  | 48 => ⟨S512x128, .f32⟩
  | 49 => ⟨S512x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S512x128, .f32⟩
  | 57 => ⟨S512x128, .f32⟩
  | 58 => ⟨S512x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S512x128, .f32⟩
  | 66 => ⟨S512x128, .f32⟩
  | 67 => ⟨S1x128, .f32⟩
  | 68 => ⟨S512x128, .f32⟩
  | 69 => ⟨S512x128, .f32⟩
  | 70 => ⟨S_, .f32⟩
  | 71 => ⟨S128, .f32⟩
  | 72 => ⟨S128, .f32⟩
  | 73 => ⟨S128, .f32⟩
  | 74 => ⟨S1x128, .f32⟩
  | 75 => ⟨S512x128, .f32⟩
  | 76 => ⟨S512x128, .f32⟩
  | 77 => ⟨S1x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S512x32, .f32⟩
  | 84 => ⟨S1x32, .f32⟩
  | 85 => ⟨S512x32, .f32⟩
  | 86 => ⟨S512x32, .f32⟩
  | 87 => ⟨S_, .f32⟩
  | 88 => ⟨S32, .f32⟩
  | 89 => ⟨S_, .f32⟩
  | 90 => ⟨S32, .f32⟩
  | 91 => ⟨S32, .f32⟩
  | 92 => ⟨S1x32, .f32⟩
  | 93 => ⟨S512x32, .f32⟩
  | 94 => ⟨S512x32, .f32⟩
  | 95 => ⟨S512x32, .f32⟩
  | 96 => ⟨S_, .f32⟩
  | 97 => ⟨S32, .f32⟩
  | 98 => ⟨S_, .f32⟩
  | 99 => ⟨S32, .f32⟩
  | 100 => ⟨S32, .f32⟩
  | 101 => ⟨S1x32, .f32⟩
  | 102 => ⟨S512x32, .f32⟩
  | 103 => ⟨S512x32, .f32⟩
  | 104 => ⟨S1x32, .f32⟩
  | 105 => ⟨S512x32, .f32⟩
  | 106 => ⟨S512x32, .f32⟩
  | 107 => ⟨S_, .f32⟩
  | 108 => ⟨S32, .f32⟩
  | 109 => ⟨S32, .f32⟩
  | 110 => ⟨S32, .f32⟩
  | 111 => ⟨S1x32, .f32⟩
  | 112 => ⟨S512x32, .f32⟩
  | 113 => ⟨S512x32, .f32⟩
  | 114 => ⟨S1x32, .f32⟩
  | 115 => ⟨S512x32, .f32⟩
  | 116 => ⟨S512x32, .f32⟩
  | 117 => ⟨S_, .f32⟩
  | 118 => ⟨S512x32, .f32⟩
  | 119 => ⟨S512x32, .f32⟩
  | 120 => ⟨S512x1, .f32⟩
  | 121 => ⟨S1x1, .f32⟩
  | 122 => ⟨S512x1, .f32⟩
  | 123 => ⟨S512x1, .f32⟩
  | _ => ⟨S102400x64, .f32⟩

abbrev hbmTy (i : Nat) : BufTy := match i / 128 with
  | 0 => hbmTy0_0 i
  | 1 => hbmTy0_1 i
  | 2 => hbmTy0_2 i
  | _ => ⟨S102400x64, .f32⟩

abbrev bufTy : (tb : Table) → Fin (tcTables nBuf tb) → BufTy
  | .hbm, ⟨i, _⟩ => hbmTy i
  | _, _ => ⟨S102400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_c : Ref sig .tc := ⟨.hbm, 43, rfl⟩
abbrev main_v0 : Ref sig .tc := ⟨.hbm, 44, rfl⟩
abbrev main_v1 : Ref sig .tc := ⟨.hbm, 45, rfl⟩
abbrev main_c_0 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_cst_1 : Ref sig .tc := ⟨.hbm, 56, rfl⟩
abbrev main_v10 : Ref sig .tc := ⟨.hbm, 57, rfl⟩
abbrev main_cst_2 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_3 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_call0_cst : Ref sig .tc := ⟨.hbm, 72, rfl⟩
abbrev main_call0_v0 : Ref sig .tc := ⟨.hbm, 73, rfl⟩
abbrev main_v23 : Ref sig .tc := ⟨.hbm, 74, rfl⟩
abbrev main_c_4 : Ref sig .tc := ⟨.hbm, 75, rfl⟩
abbrev main_v24 : Ref sig .tc := ⟨.hbm, 76, rfl⟩
abbrev main_v25 : Ref sig .tc := ⟨.hbm, 77, rfl⟩
abbrev main_c_5 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_6 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_7 : Ref sig .tc := ⟨.hbm, 88, rfl⟩
abbrev main_v34 : Ref sig .tc := ⟨.hbm, 89, rfl⟩
abbrev main_cst_8 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_9 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_call1_cst : Ref sig .tc := ⟨.hbm, 104, rfl⟩
abbrev main_call1_v0 : Ref sig .tc := ⟨.hbm, 105, rfl⟩
abbrev main_v47 : Ref sig .tc := ⟨.hbm, 106, rfl⟩
abbrev main_cst_10 : Ref sig .tc := ⟨.hbm, 107, rfl⟩
abbrev main_v48 : Ref sig .tc := ⟨.hbm, 108, rfl⟩
abbrev main_cst_11 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_12 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_call2_cst : Ref sig .tc := ⟨.hbm, 125, rfl⟩
abbrev main_call2_v0 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_13 : Ref sig .tc := ⟨.hbm, 132, rfl⟩
abbrev main_v68 : Ref sig .tc := ⟨.hbm, 133, rfl⟩
abbrev main_cst_14 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_15 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_16 : Ref sig .tc := ⟨.hbm, 159, rfl⟩
abbrev main_v92 : Ref sig .tc := ⟨.hbm, 160, rfl⟩
abbrev main_v93 : Ref sig .tc := ⟨.hbm, 161, rfl⟩
abbrev main_cst_17 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_18 : Ref sig .tc := ⟨.hbm, 168, rfl⟩
abbrev main_v99 : Ref sig .tc := ⟨.hbm, 169, rfl⟩
abbrev main_v100 : Ref sig .tc := ⟨.hbm, 170, rfl⟩
abbrev main_cst_19 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst_20 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_call3_cst : Ref sig .tc := ⟨.hbm, 188, rfl⟩
abbrev main_call3_v0 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_cst_21 : Ref sig .tc := ⟨.hbm, 195, rfl⟩
abbrev main_v121 : Ref sig .tc := ⟨.hbm, 196, rfl⟩
abbrev main_v122 : Ref sig .tc := ⟨.hbm, 197, rfl⟩
abbrev main_cst_22 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_23 : Ref sig .tc := ⟨.hbm, 204, rfl⟩
abbrev main_v128 : Ref sig .tc := ⟨.hbm, 205, rfl⟩
abbrev main_v129 : Ref sig .tc := ⟨.hbm, 206, rfl⟩
abbrev main_cst_24 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_25 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_call4_cst : Ref sig .tc := ⟨.hbm, 224, rfl⟩
abbrev main_call4_v0 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_cst_26 : Ref sig .tc := ⟨.hbm, 231, rfl⟩
abbrev main_v150 : Ref sig .tc := ⟨.hbm, 232, rfl⟩
abbrev main_v151 : Ref sig .tc := ⟨.hbm, 233, rfl⟩
abbrev main_cst_27 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_cst_28 : Ref sig .tc := ⟨.hbm, 240, rfl⟩
abbrev main_v157 : Ref sig .tc := ⟨.hbm, 241, rfl⟩
abbrev main_v158 : Ref sig .tc := ⟨.hbm, 242, rfl⟩
abbrev main_cst_29 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_30 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_call5_cst : Ref sig .tc := ⟨.hbm, 260, rfl⟩
abbrev main_call5_v0 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_call6_cst : Ref sig .tc := ⟨.hbm, 276, rfl⟩
abbrev main_call6_v0 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_cst_31 : Ref sig .tc := ⟨.hbm, 283, rfl⟩
abbrev main_v193 : Ref sig .tc := ⟨.hbm, 284, rfl⟩
abbrev main_cst_32 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_cst_33 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_cst_34 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_cst_35 : Ref sig .tc := ⟨.hbm, 306, rfl⟩
abbrev main_v212 : Ref sig .tc := ⟨.hbm, 307, rfl⟩
abbrev main_cst_36 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_cst_37 : Ref sig .tc := ⟨.hbm, 315, rfl⟩
abbrev main_v219 : Ref sig .tc := ⟨.hbm, 316, rfl⟩
abbrev main_cst_38 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_cst_39 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_call7_cst : Ref sig .tc := ⟨.hbm, 336, rfl⟩
abbrev main_call7_v0 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_cst_40 : Ref sig .tc := ⟨.hbm, 343, rfl⟩
abbrev main_v242 : Ref sig .tc := ⟨.hbm, 344, rfl⟩
abbrev main_cst_41 : Ref sig .tc := ⟨.hbm, 345, rfl⟩
abbrev main_v243 : Ref sig .tc := ⟨.hbm, 346, rfl⟩
abbrev main_v244 : Ref sig .tc := ⟨.hbm, 347, rfl⟩
abbrev main_v245 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_cst_42 : Ref sig .tc := ⟨.hbm, 352, rfl⟩
abbrev main_v249 : Ref sig .tc := ⟨.hbm, 353, rfl⟩
abbrev main_cst_43 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_cst_44 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_call8_cst : Ref sig .tc := ⟨.hbm, 373, rfl⟩
abbrev main_call8_v0 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩

abbrev nD : Nat := 1
abbrev τ : Topo := Topo.v7x

variable {F : FTy → Type} [FloatOps F]

class Facts₀ : Prop where
  bcast_S_S1638400 : S_.BroadcastsInDim S1638400 (![] : Fin 0 → Fin S1638400.rank)
  bcast_S1638400_S1638400x1_0 : S1638400.BroadcastsInDim S1638400x1 (![0] : Fin 1 → Fin S1638400x1.rank)
  bcast_S_S102400x64 : S_.BroadcastsInDim S102400x64 (![] : Fin 0 → Fin S102400x64.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x64_0_1 : S102400x1.BroadcastsInDim S102400x64 (![0, 1] : Fin 2 → Fin S102400x64.rank)
  bcast_S100_S1x100_1 : S100.BroadcastsInDim S1x100 (![1] : Fin 1 → Fin S1x100.rank)
  bcast_S1x100_S102400x100_0_1 : S1x100.BroadcastsInDim S102400x100 (![0, 1] : Fin 2 → Fin S102400x100.rank)
  bcast_S_S102400x100 : S_.BroadcastsInDim S102400x100 (![] : Fin 0 → Fin S102400x100.rank)
  bcast_S102400x1_S102400x100_0_1 : S102400x1.BroadcastsInDim S102400x100 (![0, 1] : Fin 2 → Fin S102400x100.rank)
  bcast_S20_S1x20_1 : S20.BroadcastsInDim S1x20 (![1] : Fin 1 → Fin S1x20.rank)
  bcast_S1x20_S102400x20_0_1 : S1x20.BroadcastsInDim S102400x20 (![0, 1] : Fin 2 → Fin S102400x20.rank)
  bcast_S_S102400x20 : S_.BroadcastsInDim S102400x20 (![] : Fin 0 → Fin S102400x20.rank)
  bcast_S_S512 : S_.BroadcastsInDim S512 (![] : Fin 0 → Fin S512.rank)
  bcast_S_S512x20 : S_.BroadcastsInDim S512x20 (![] : Fin 0 → Fin S512x20.rank)
  bcast_S512_S512x1_0 : S512.BroadcastsInDim S512x1 (![0] : Fin 1 → Fin S512x1.rank)
  bcast_S512x1_S512x20_0_1 : S512x1.BroadcastsInDim S512x20 (![0, 1] : Fin 2 → Fin S512x20.rank)
  concatenates_S512x20_S512x200_S512x300_S512x520_d1 : Shape.Concatenates [S512x20, S512x200, S512x300] S512x520 1
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  reducesTo_S512x3_S512_d1 : S512x3.ReducesTo [1] S512
  h_S_ : 0 < S_.numel
  bcast_S512x1_S512x3_0_1 : S512x1.BroadcastsInDim S512x3 (![0, 1] : Fin 2 → Fin S512x3.rank)
  slices_S512x3_S512x1_0_0 : S512x3.Slices ![0, 0] S512x1
  slices_S512x3_S512x1_0_1 : S512x3.Slices ![0, 1] S512x1
  bcast_S512x1_S512x200_0_1 : S512x1.BroadcastsInDim S512x200 (![0, 1] : Fin 2 → Fin S512x200.rank)
  slices_S512x3_S512x1_0_2 : S512x3.Slices ![0, 2] S512x1
  bcast_S512x1_S512x300_0_1 : S512x1.BroadcastsInDim S512x300 (![0, 1] : Fin 2 → Fin S512x300.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  reducesTo_S512x64_S512_d1 : S512x64.ReducesTo [1] S512
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S_S512x64 : S_.BroadcastsInDim S512x64 (![] : Fin 0 → Fin S512x64.rank)
  shapeCasts_S512x512_S512x8x64 : S512x512.ShapeCasts S512x8x64
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  reducesTo_S512x8_S512_d1 : S512x8.ReducesTo [1] S512
  bcast_S512x1_S512x8_0_1 : S512x1.BroadcastsInDim S512x8 (![0, 1] : Fin 2 → Fin S512x8.rank)
  bcast_S512x8_S512x8x1_0_1 : S512x8.BroadcastsInDim S512x8x1 (![0, 1] : Fin 2 → Fin S512x8x1.rank)
  bcast_S512x8x1_S512x8x64_0_1_2 : S512x8x1.BroadcastsInDim S512x8x64 (![0, 1, 2] : Fin 3 → Fin S512x8x64.rank)
  reducesTo_S512x8x64_S512x64_d1 : S512x8x64.ReducesTo [1] S512x64
  reducesTo_S512x128_S128_d0 : S512x128.ReducesTo [0] S128
  bcast_S_S128 : S_.BroadcastsInDim S128 (![] : Fin 0 → Fin S128.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S32_d0 : S512x32.ReducesTo [0] S32
  bcast_S_S32 : S_.BroadcastsInDim S32 (![] : Fin 0 → Fin S32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S102400x64_S1638400x1_S1638400x64_1_0_n_n_0_1_164_wf : GatherDims.WF S102400x64 S1638400x1 S1638400x64 [1] [0] [] [0] [] 1 ![1, 64]
  scatter_S102400x64_S1638400x1_S1638400x64_1_0_0_1_wf : ScatterDims.WF S102400x64 S1638400x1 S1638400x64 [1] [0] [0] 1
  scatter_S102400_S1638400x1_S1638400_n_0_0_1_wf : ScatterDims.WF S102400 S1638400x1 S1638400 [] [0] [0] 1
  dot_S102400x64_S64x100_S102400x100_1_0_0_1_n_n_wf : DotDims.WF S102400x64 S64x100 S102400x100 [1] [0] [0] [1] [] []
  gather_S102400x100_S1638400x1_S1638400x100_1_0_n_n_0_1_1100_wf : GatherDims.WF S102400x100 S1638400x1 S1638400x100 [1] [0] [] [0] [] 1 ![1, 100]
  scatter_S102400x100_S1638400x1_S1638400x100_1_0_0_1_wf : ScatterDims.WF S102400x100 S1638400x1 S1638400x100 [1] [0] [0] 1
  dot_S102400x100_S100x20_S102400x20_1_0_0_1_n_n_wf : DotDims.WF S102400x100 S100x20 S102400x20 [1] [0] [0] [1] [] []
  scatter_S512_S102400x1_S102400_n_0_0_1_wf : ScatterDims.WF S512 S102400x1 S102400 [] [0] [0] 1
  scatter_S512x20_S102400x1_S102400x20_1_0_0_1_wf : ScatterDims.WF S512x20 S102400x1 S102400x20 [1] [0] [0] 1
  dot_S512x520_S520x128_S512x128_1_0_0_1_n_n_wf : DotDims.WF S512x520 S520x128 S512x128 [1] [0] [0] [1] [] []
  dot_S512x128_S128x3_S512x3_1_0_0_1_n_n_wf : DotDims.WF S512x128 S128x3 S512x3 [1] [0] [0] [1] [] []
  dot_S512x20_S20x64_S512x64_1_0_0_1_n_n_wf : DotDims.WF S512x20 S20x64 S512x64 [1] [0] [0] [1] [] []
  dot_S512x200_S200x64_S512x64_1_0_0_1_n_n_wf : DotDims.WF S512x200 S200x64 S512x64 [1] [0] [0] [1] [] []
  dot_S512x300_S300x64_S512x64_1_0_0_1_n_n_wf : DotDims.WF S512x300 S300x64 S512x64 [1] [0] [0] [1] [] []
  dot_S512x64_S64x512_S512x512_1_0_0_1_n_n_wf : DotDims.WF S512x64 S64x512 S512x512 [1] [0] [0] [1] [] []
  dot_S512x128_S128x8_S512x8_1_0_0_1_n_n_wf : DotDims.WF S512x128 S128x8 S512x8 [1] [0] [0] [1] [] []
  dot_S512x64_S64x128_S512x128_1_0_0_1_n_n_wf : DotDims.WF S512x64 S64x128 S512x128 [1] [0] [0] [1] [] []
  dot_S512x128_S128x32_S512x32_1_0_0_1_n_n_wf : DotDims.WF S512x128 S128x32 S512x32 [1] [0] [0] [1] [] []
  dot_S512x32_S32x1_S512x1_1_0_0_1_n_n_wf : DotDims.WF S512x32 S32x1 S512x1 [1] [0] [0] [1] [] []

variable [Facts₀]

def gather_S102400x64_S1638400x1_S1638400x64_1_0_n_n_0_1_164 : GatherDims S102400x64 S1638400x1 S1638400x64 where
  offsetDims := [1]
  collapsedSliceDims := [0]
  operandBatchingDims := []
  startIndicesBatchingDims := []
  startIndexMap := [0]
  indexVectorDim := 1
  sliceSizes := ![1, 64]
  wf := gather_S102400x64_S1638400x1_S1638400x64_1_0_n_n_0_1_164_wf
def scatter_S102400x64_S1638400x1_S1638400x64_1_0_0_1 : ScatterDims S102400x64 S1638400x1 S1638400x64 where
  updateWindowDims := [1]
  insertedWindowDims := [0]
  scatterDimsToOperandDims := [0]
  indexVectorDim := 1
  wf := scatter_S102400x64_S1638400x1_S1638400x64_1_0_0_1_wf
def scatter_S102400_S1638400x1_S1638400_n_0_0_1 : ScatterDims S102400 S1638400x1 S1638400 where
  updateWindowDims := []
  insertedWindowDims := [0]
  scatterDimsToOperandDims := [0]
  indexVectorDim := 1
  wf := scatter_S102400_S1638400x1_S1638400_n_0_0_1_wf
def dot_S102400x64_S64x100_S102400x100_1_0_0_1_n_n : DotDims S102400x64 S64x100 S102400x100 where
  lhsContracting := [1]
  rhsContracting := [0]
  lhsNonContracting := [0]
  rhsNonContracting := [1]
  lhsBatch := []
  rhsBatch := []
  wf := dot_S102400x64_S64x100_S102400x100_1_0_0_1_n_n_wf
def gather_S102400x100_S1638400x1_S1638400x100_1_0_n_n_0_1_1100 : GatherDims S102400x100 S1638400x1 S1638400x100 where
  offsetDims := [1]
  collapsedSliceDims := [0]
  operandBatchingDims := []
  startIndicesBatchingDims := []
  startIndexMap := [0]
  indexVectorDim := 1
  sliceSizes := ![1, 100]
  wf := gather_S102400x100_S1638400x1_S1638400x100_1_0_n_n_0_1_1100_wf
def scatter_S102400x100_S1638400x1_S1638400x100_1_0_0_1 : ScatterDims S102400x100 S1638400x1 S1638400x100 where
  updateWindowDims := [1]
  insertedWindowDims := [0]
  scatterDimsToOperandDims := [0]
  indexVectorDim := 1
  wf := scatter_S102400x100_S1638400x1_S1638400x100_1_0_0_1_wf
def dot_S102400x100_S100x20_S102400x20_1_0_0_1_n_n : DotDims S102400x100 S100x20 S102400x20 where
  lhsContracting := [1]
  rhsContracting := [0]
  lhsNonContracting := [0]
  rhsNonContracting := [1]
  lhsBatch := []
  rhsBatch := []
  wf := dot_S102400x100_S100x20_S102400x20_1_0_0_1_n_n_wf
def scatter_S512_S102400x1_S102400_n_0_0_1 : ScatterDims S512 S102400x1 S102400 where
  updateWindowDims := []
  insertedWindowDims := [0]
  scatterDimsToOperandDims := [0]
  indexVectorDim := 1
  wf := scatter_S512_S102400x1_S102400_n_0_0_1_wf
def scatter_S512x20_S102400x1_S102400x20_1_0_0_1 : ScatterDims S512x20 S102400x1 S102400x20 where
  updateWindowDims := [1]
  insertedWindowDims := [0]
  scatterDimsToOperandDims := [0]
  indexVectorDim := 1
  wf := scatter_S512x20_S102400x1_S102400x20_1_0_0_1_wf
def dot_S512x520_S520x128_S512x128_1_0_0_1_n_n : DotDims S512x520 S520x128 S512x128 where
  lhsContracting := [1]
  rhsContracting := [0]
  lhsNonContracting := [0]
  rhsNonContracting := [1]
  lhsBatch := []
  rhsBatch := []
  wf := dot_S512x520_S520x128_S512x128_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf
def dot_S512x20_S20x64_S512x64_1_0_0_1_n_n : DotDims S512x20 S20x64 S512x64 where
  lhsContracting := [1]
  rhsContracting := [0]
  lhsNonContracting := [0]
  rhsNonContracting := [1]
  lhsBatch := []
  rhsBatch := []
  wf := dot_S512x20_S20x64_S512x64_1_0_0_1_n_n_wf
def dot_S512x200_S200x64_S512x64_1_0_0_1_n_n : DotDims S512x200 S200x64 S512x64 where
  lhsContracting := [1]
  rhsContracting := [0]
  lhsNonContracting := [0]
  rhsNonContracting := [1]
  lhsBatch := []
  rhsBatch := []
  wf := dot_S512x200_S200x64_S512x64_1_0_0_1_n_n_wf
def dot_S512x300_S300x64_S512x64_1_0_0_1_n_n : DotDims S512x300 S300x64 S512x64 where
  lhsContracting := [1]
  rhsContracting := [0]
  lhsNonContracting := [0]
  rhsNonContracting := [1]
  lhsBatch := []
  rhsBatch := []
  wf := dot_S512x300_S300x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x128_S128x8_S512x8_1_0_0_1_n_n : DotDims S512x128 S128x8 S512x8 where
  lhsContracting := [1]
  rhsContracting := [0]
  lhsNonContracting := [0]
  rhsNonContracting := [1]
  lhsBatch := []
  rhsBatch := []
  wf := dot_S512x128_S128x8_S512x8_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.KRun.lean ====
/-
  The idealized kernel's run, with its RESULT named.

  The frame of the three-region program ends with every unscoped buffer of a core at the last boundary's contents
  (the fold W6 of the host stretches and of the three regions' write-backs over the launch memory). Read at the
  result buffer instead of only at the arguments, the same run says what the result holds: W6 at that buffer.
-/
import proofs.«168914_j82609400971796_1_alg».proof.Proof.FrameKI

set_option maxRecDepth 16384

noncomputable section

namespace Cert.KernelIdeal.Val

open Cert.KernelIdeal Cert.KernelIdeal.Gen Cert.KernelIdeal.GenP

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this statement, which
-- takes unfolding plain definitions in a metavariable's type
set_option backward.isDefEq.respectTransparency.types false in
/-- Every weakly fair execution of the idealized kernel's @main terminates, nothing faulting, with the result buffer
    at the last boundary's contents and every argument as launched. -/
theorem run_value : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c),
       (h c _ (mem_uc main_arg27 (by decide))).trans (W6_main_arg27 m ρ c),
       (h c _ (mem_uc main_arg28 (by decide))).trans (W6_main_arg28 m ρ c),
       (h c _ (mem_uc main_arg29 (by decide))).trans (W6_main_arg29 m ρ c),
       (h c _ (mem_uc main_arg30 (by decide))).trans (W6_main_arg30 m ρ c),
       (h c _ (mem_uc main_arg31 (by decide))).trans (W6_main_arg31 m ρ c),
       (h c _ (mem_uc main_arg32 (by decide))).trans (W6_main_arg32 m ρ c),
       (h c _ (mem_uc main_arg33 (by decide))).trans (W6_main_arg33 m ρ c),
       (h c _ (mem_uc main_arg34 (by decide))).trans (W6_main_arg34 m ρ c),
       (h c _ (mem_uc main_arg35 (by decide))).trans (W6_main_arg35 m ρ c),
       (h c _ (mem_uc main_arg36 (by decide))).trans (W6_main_arg36 m ρ c),
       (h c _ (mem_uc main_arg37 (by decide))).trans (W6_main_arg37 m ρ c),
       (h c _ (mem_uc main_arg38 (by decide))).trans (W6_main_arg38 m ρ c),
       (h c _ (mem_uc main_arg39 (by decide))).trans (W6_main_arg39 m ρ c),
       (h c _ (mem_uc main_arg40 (by decide))).trans (W6_main_arg40 m ρ c),
       (h c _ (mem_uc main_arg41 (by decide))).trans (W6_main_arg41 m ρ c),
       (h c _ (mem_uc main_arg42 (by decide))).trans (W6_main_arg42 m ρ c)⟩)

end Cert.KernelIdeal.Val

end
-- ==== Proof.FusionVal.lean ====
/-
  The fused call's output array, as one function of its 36 input arrays.

  The third region runs its body at a single grid point on whole arrays: every window's block is its whole array,
  the body's one store covers the whole output block, and the block it writes back is the whole output array. So the
  output array after the region is the body's stored value — a tree of the body's pure payload functions — of the
  arrays the region finds on entry.
-/
import proofs.«168914_j82609400971796_1_alg».proof.Proof.FrameKI
import Idealize.ShloMosaic.Lib.Pipeline.Value

set_option maxRecDepth 16384

noncomputable section

namespace Cert.KernelIdeal.Val

open Cert.KernelIdeal Cert.KernelIdeal.Gen Cert.KernelIdeal.GenP
open Idealize.ShloMosaic Idealize.ShloMosaic.TcCoe Idealize.SL.Sem
open Idealize.ShloMosaic.Pipeline (Dat Cfg Window)

variable {F : FTy → Type} [FloatOps F]

/-- The value the fused body stores, from the 36 whole input arrays (in the order of the call's operands): the
    body's payload functions composed as the body composes them. -/
def fused (x0 : Vec F S512x20 .f32) (x1 : Vec F S512x200 .f32) (x2 : Vec F S512x300 .f32) (x3 : Vec F S520x128 .f32) (x4 : Vec F S128 .f32) (x5 : Vec F S128x3 .f32) (x6 : Vec F S3 .f32) (x7 : Vec F S20x64 .f32) (x8 : Vec F S64 .f32) (x9 : Vec F S200x64 .f32) (x10 : Vec F S64 .f32) (x11 : Vec F S300x64 .f32) (x12 : Vec F S64 .f32) (x13 : Vec F S64 .f32) (x14 : Vec F S64 .f32) (x15 : Vec F S64 .f32) (x16 : Vec F S64 .f32) (x17 : Vec F S64 .f32) (x18 : Vec F S64 .f32) (x19 : Vec F S64x512 .f32) (x20 : Vec F S64x512 .f32) (x21 : Vec F S64x512 .f32) (x22 : Vec F S520x128 .f32) (x23 : Vec F S128 .f32) (x24 : Vec F S128x8 .f32) (x25 : Vec F S8 .f32) (x26 : Vec F S64x128 .f32) (x27 : Vec F S128 .f32) (x28 : Vec F S128x32 .f32) (x29 : Vec F S32 .f32) (x30 : Vec F S32x1 .f32) (x31 : Vec F S1 .f32) (x32 : Vec F S128 .f32) (x33 : Vec F S128 .f32) (x34 : Vec F S32 .f32) (x35 : Vec F S32 .f32) : FVec F S512x1 .f32 :=
  k2_pay1 x35 (k2_pay25 (k2_pay20 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) x32 x33 (k2_pay21 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) (k2_pay22 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) x28 x29) (k2_pay26 (k2_pay20 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) x32 x33 (k2_pay21 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) (k2_pay22 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay17 (k2_pay16 (k2_pay4 x0 x1 x2 x3 x4 x5 x6) (k2_pay5 x0 x1 x2 x3 x4 x5 x6) (k2_pay6 x0 x1 x2 x3 x4 x5 x6) x22 x23) x24 x25) (k2_pay18 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) (k2_pay19 (k2_pay13 (k2_pay7 (k2_pay4 x0 x1 x2 x3 x4 x5 x6) x7 x8 x13 x14) x19) (k2_pay14 (k2_pay9 (k2_pay8 (k2_pay5 x0 x1 x2 x3 x4 x5 x6) x9 x10) x15 x16) x20) (k2_pay15 (k2_pay10 (k2_pay6 x0 x1 x2 x3 x4 x5 x6) x11 x12) x17 x18 (k2_pay11 (k2_pay6 x0 x1 x2 x3 x4 x5 x6) x11 x12) (k2_pay12 (k2_pay6 x0 x1 x2 x3 x4 x5 x6) x11 x12) x21) (k2_pay16 (k2_pay4 x0 x1 x2 x3 x4 x5 x6) (k2_pay5 x0 x1 x2 x3 x4 x5 x6) (k2_pay6 x0 x1 x2 x3 x4 x5 x6) x22 x23) x24 x25) x26 x27) x28 x29) (k2_pay27 x34) x30 x31

/-! ## Every input window's one block is its whole array -/

theorem hz2 : (![0, 0] : Fin 2 → Nat) = fun _ => 0 := funext fun a => by fin_cases a <;> rfl
theorem hz1 : (![0] : Fin 1 → Nat) = fun _ => 0 := funext fun a => by fin_cases a <;> rfl

theorem idx2_0 : ∀ t : Fin cfg2.N, win2_0.index t (0 : Fin 2) = 0 ∧ win2_0.index t (1 : Fin 2) = 0 :=
  (by decide +kernel : ∀ t : Fin grid2.N, _)
theorem blk2_0 (V : (c : Dev nD) → (b : Ref sig .tc) → Buf (Elt F) ((c : Thread nD τ).loc b)) (c : Dev nD) (t : Fin cfg2.N) :
    (iblk2 V c 0 t : S512x20.Idx → Elt F .f32) = V c main_v36 := by
  funext j
  show V c main_v36 (((cfg2.win 0).blk t).view.emb j) = V c main_v36 j
  refine congrArg _ ?_
  obtain ⟨e0, e1⟩ := idx2_0 t
  funext a; apply Fin.ext
  match a with
    | ⟨0, _⟩ => show win2_0.index t (0 : Fin 2) * 512 + 1 * (j 0).val = (j 0).val; omega
    | ⟨1, _⟩ => show win2_0.index t (1 : Fin 2) * 20 + 1 * (j 1).val = (j 1).val; omega

theorem idx2_1 : ∀ t : Fin cfg2.N, win2_1.index t (0 : Fin 2) = 0 ∧ win2_1.index t (1 : Fin 2) = 0 :=
  (by decide +kernel : ∀ t : Fin grid2.N, _)
theorem blk2_1 (V : (c : Dev nD) → (b : Ref sig .tc) → Buf (Elt F) ((c : Thread nD τ).loc b)) (c : Dev nD) (t : Fin cfg2.N) :
    (iblk2 V c 1 t : S512x200.Idx → Elt F .f32) = V c main_arg1 := by
  funext j
  show V c main_arg1 (((cfg2.win 1).blk t).view.emb j) = V c main_arg1 j
  refine congrArg _ ?_
  obtain ⟨e0, e1⟩ := idx2_1 t
  funext a; apply Fin.ext
  match a with
    | ⟨0, _⟩ => show win2_1.index t (0 : Fin 2) * 512 + 1 * (j 0).val = (j 0).val; omega
    | ⟨1, _⟩ => show win2_1.index t (1 : Fin 2) * 200 + 1 * (j 1).val = (j 1).val; omega

theorem idx2_2 : ∀ t : Fin cfg2.N, win2_2.index t (0 : Fin 2) = 0 ∧ win2_2.index t (1 : Fin 2) = 0 :=
  (by decide +kernel : ∀ t : Fin grid2.N, _)
theorem blk2_2 (V : (c : Dev nD) → (b : Ref sig .tc) → Buf (Elt F) ((c : Thread nD τ).loc b)) (c : Dev nD) (t : Fin cfg2.N) :
    (iblk2 V c 2 t : S512x300.Idx → Elt F .f32) = V c main_arg2 := by
  funext j
  show V c main_arg2 (((cfg2.win 2).blk t).view.emb j) = V c main_arg2 j
  refine congrArg _ ?_
  obtain ⟨e0, e1⟩ := idx2_2 t
  funext a; apply Fin.ext
  match a with
    | ⟨0, _⟩ => show win2_2.index t (0 : Fin 2) * 512 + 1 * (j 0).val = (j 0).val; omega
    | ⟨1, _⟩ => show win2_2.index t (1 : Fin 2) * 300 + 1 * (j 1).val = (j 1).val; omega

theorem idx2_3 : ∀ t : Fin cfg2.N, win2_3.index t (0 : Fin 2) = 0 ∧ win2_3.index t (1 : Fin 2) = 0 :=
  (by decide +kernel : ∀ t : Fin grid2.N, _)
theorem blk2_3 (V : (c : Dev nD) → (b : Ref sig .tc) → Buf (Elt F) ((c : Thread nD τ).loc b)) (c : Dev nD) (t : Fin cfg2.N) :
    (iblk2 V c 3 t : S520x128.Idx → Elt F .f32) = V c main_arg10 := by
  funext j
  show V c main_arg10 (((cfg2.win 3).blk t).view.emb j) = V c main_arg10 j
  refine congrArg _ ?_
  obtain ⟨e0, e1⟩ := idx2_3 t
  funext a; apply Fin.ext
  match a with
    | ⟨0, _⟩ => show win2_3.index t (0 : Fin 2) * 520 + 1 * (j 0).val = (j 0).val; omega
    | ⟨1, _⟩ => show win2_3.index t (1 : Fin 2) * 128 + 1 * (j 1).val = (j 1).val; omega

theorem idx2_4 : ∀ t : Fin cfg2.N, win2_4.index t (0 : Fin 1) = 0 :=
  (by decide +kernel : ∀ t : Fin grid2.N, _)
theorem blk2_4 (V : (c : Dev nD) → (b : Ref sig .tc) → Buf (Elt F) ((c : Thread nD τ).loc b)) (c : Dev nD) (t : Fin cfg2.N) :
    (iblk2 V c 4 t : S128.Idx → Elt F .f32) = V c main_arg11 := by
  funext j
  show V c main_arg11 (((cfg2.win 4).blk t).view.emb j) = V c main_arg11 j
  refine congrArg _ ?_
  have e0 := idx2_4 t
  funext a; apply Fin.ext
  match a with
    | ⟨0, _⟩ => show win2_4.index t (0 : Fin 1) * 128 + 1 * (j 0).val = (j 0).val; omega

theorem idx2_5 : ∀ t : Fin cfg2.N, win2_5.index t (0 : Fin 2) = 0 ∧ win2_5.index t (1 : Fin 2) = 0 :=
  (by decide +kernel : ∀ t : Fin grid2.N, _)
theorem blk2_5 (V : (c : Dev nD) → (b : Ref sig .tc) → Buf (Elt F) ((c : Thread nD τ).loc b)) (c : Dev nD) (t : Fin cfg2.N) :
    (iblk2 V c 5 t : S128x3.Idx → Elt F .f32) = V c main_arg12 := by
  funext j
  show V c main_arg12 (((cfg2.win 5).blk t).view.emb j) = V c main_arg12 j
  refine congrArg _ ?_
  obtain ⟨e0, e1⟩ := idx2_5 t
  funext a; apply Fin.ext
  match a with
    | ⟨0, _⟩ => show win2_5.index t (0 : Fin 2) * 128 + 1 * (j 0).val = (j 0).val; omega
    | ⟨1, _⟩ => show win2_5.index t (1 : Fin 2) * 3 + 1 * (j 1).val = (j 1).val; omega

theorem idx2_6 : ∀ t : Fin cfg2.N, win2_6.index t (0 : Fin 1) = 0 :=
  (by decide +kernel : ∀ t : Fin grid2.N, _)
theorem blk2_6 (V : (c : Dev nD) → (b : Ref sig .tc) → Buf (Elt F) ((c : Thread nD τ).loc b)) (c : Dev nD) (t : Fin cfg2.N) :
    (iblk2 V c 6 t : S3.Idx → Elt F .f32) = V c main_arg13 := by
  funext j
  show V c main_arg13 (((cfg2.win 6).blk t).view.emb j) = V c main_arg13 j
  refine congrArg _ ?_
  have e0 := idx2_6 t
  funext a; apply Fin.ext
  match a with
    | ⟨0, _⟩ => show win2_6.index t (0 : Fin 1) * 3 + 1 * (j 0).val = (j 0).val; omega

theorem idx2_7 : ∀ t : Fin cfg2.N, win2_7.index t (0 : Fin 2) = 0 ∧ win2_7.index t (1 : Fin 2) = 0 :=
  (by decide +kernel : ∀ t : Fin grid2.N, _)
theorem blk2_7 (V : (c : Dev nD) → (b : Ref sig .tc) → Buf (Elt F) ((c : Thread nD τ).loc b)) (c : Dev nD) (t : Fin cfg2.N) :
    (iblk2 V c 7 t : S20x64.Idx → Elt F .f32) = V c main_arg14 := by
  funext j
  show V c main_arg14 (((cfg2.win 7).blk t).view.emb j) = V c main_arg14 j
  refine congrArg _ ?_
  obtain ⟨e0, e1⟩ := idx2_7 t
  funext a; apply Fin.ext
  match a with
    | ⟨0, _⟩ => show win2_7.index t (0 : Fin 2) * 20 + 1 * (j 0).val = (j 0).val; omega
    | ⟨1, _⟩ => show win2_7.index t (1 : Fin 2) * 64 + 1 * (j 1).val = (j 1).val; omega

theorem idx2_8 : ∀ t : Fin cfg2.N, win2_8.index t (0 : Fin 1) = 0 :=
  (by decide +kernel : ∀ t : Fin grid2.N, _)
theorem blk2_8 (V : (c : Dev nD) → (b : Ref sig .tc) → Buf (Elt F) ((c : Thread nD τ).loc b)) (c : Dev nD) (t : Fin cfg2.N) :
    (iblk2 V c 8 t : S64.Idx → Elt F .f32) = V c main_arg15 := by
  funext j
  show V c main_arg15 (((cfg2.win 8).blk t).view.emb j) = V c main_arg15 j
  refine congrArg _ ?_
  have e0 := idx2_8 t
  funext a; apply Fin.ext
  match a with
    | ⟨0, _⟩ => show win2_8.index t (0 : Fin 1) * 64 + 1 * (j 0).val = (j 0).val; omega

theorem idx2_9 : ∀ t : Fin cfg2.N, win2_9.index t (0 : Fin 2) = 0 ∧ win2_9.index t (1 : Fin 2) = 0 :=
  (by decide +kernel : ∀ t : Fin grid2.N, _)
theorem blk2_9 (V : (c : Dev nD) → (b : Ref sig .tc) → Buf (Elt F) ((c : Thread nD τ).loc b)) (c : Dev nD) (t : Fin cfg2.N) :
    (iblk2 V c 9 t : S200x64.Idx → Elt F .f32) = V c main_arg16 := by
  funext j
  show V c main_arg16 (((cfg2.win 9).blk t).view.emb j) = V c main_arg16 j
  refine congrArg _ ?_
  obtain ⟨e0, e1⟩ := idx2_9 t
  funext a; apply Fin.ext
  match a with
    | ⟨0, _⟩ => show win2_9.index t (0 : Fin 2) * 200 + 1 * (j 0).val = (j 0).val; omega
    | ⟨1, _⟩ => show win2_9.index t (1 : Fin 2) * 64 + 1 * (j 1).val = (j 1).val; omega

theorem idx2_10 : ∀ t : Fin cfg2.N, win2_10.index t (0 : Fin 1) = 0 :=
  (by decide +kernel : ∀ t : Fin grid2.N, _)
theorem blk2_10 (V : (c : Dev nD) → (b : Ref sig .tc) → Buf (Elt F) ((c : Thread nD τ).loc b)) (c : Dev nD) (t : Fin cfg2.N) :
    (iblk2 V c 10 t : S64.Idx → Elt F .f32) = V c main_arg17 := by
  funext j
  show V c main_arg17 (((cfg2.win 10).blk t).view.emb j) = V c main_arg17 j
  refine congrArg _ ?_
  have e0 := idx2_10 t
  funext a; apply Fin.ext
  match a with
    | ⟨0, _⟩ => show win2_10.index t (0 : Fin 1) * 64 + 1 * (j 0).val = (j 0).val; omega

theorem idx2_11 : ∀ t : Fin cfg2.N, win2_11.index t (0 : Fin 2) = 0 ∧ win2_11.index t (1 : Fin 2) = 0 :=
  (by decide +kernel : ∀ t : Fin grid2.N, _)
theorem blk2_11 (V : (c : Dev nD) → (b : Ref sig .tc) → Buf (Elt F) ((c : Thread nD τ).loc b)) (c : Dev nD) (t : Fin cfg2.N) :
    (iblk2 V c 11 t : S300x64.Idx → Elt F .f32) = V c main_arg18 := by
  funext j
  show V c main_arg18 (((cfg2.win 11).blk t).view.emb j) = V c main_arg18 j
  refine congrArg _ ?_
  obtain ⟨e0, e1⟩ := idx2_11 t
  funext a; apply Fin.ext
  match a with
    | ⟨0, _⟩ => show win2_11.index t (0 : Fin 2) * 300 + 1 * (j 0).val = (j 0).val; omega
    | ⟨1, _⟩ => show win2_11.index t (1 : Fin 2) * 64 + 1 * (j 1).val = (j 1).val; omega

theorem idx2_12 : ∀ t : Fin cfg2.N, win2_12.index t (0 : Fin 1) = 0 :=
  (by decide +kernel : ∀ t : Fin grid2.N, _)
theorem blk2_12 (V : (c : Dev nD) → (b : Ref sig .tc) → Buf (Elt F) ((c : Thread nD τ).loc b)) (c : Dev nD) (t : Fin cfg2.N) :
    (iblk2 V c 12 t : S64.Idx → Elt F .f32) = V c main_arg19 := by
  funext j
  show V c main_arg19 (((cfg2.win 12).blk t).view.emb j) = V c main_arg19 j
  refine congrArg _ ?_
  have e0 := idx2_12 t
  funext a; apply Fin.ext
  match a with
    | ⟨0, _⟩ => show win2_12.index t (0 : Fin 1) * 64 + 1 * (j 0).val = (j 0).val; omega

theorem idx2_13 : ∀ t : Fin cfg2.N, win2_13.index t (0 : Fin 1) = 0 :=
  (by decide +kernel : ∀ t : Fin grid2.N, _)
theorem blk2_13 (V : (c : Dev nD) → (b : Ref sig .tc) → Buf (Elt F) ((c : Thread nD τ).loc b)) (c : Dev nD) (t : Fin cfg2.N) :
    (iblk2 V c 13 t : S64.Idx → Elt F .f32) = V c main_arg20 := by
  funext j
  show V c main_arg20 (((cfg2.win 13).blk t).view.emb j) = V c main_arg20 j
  refine congrArg _ ?_
  have e0 := idx2_13 t
  funext a; apply Fin.ext
  match a with
    | ⟨0, _⟩ => show win2_13.index t (0 : Fin 1) * 64 + 1 * (j 0).val = (j 0).val; omega

theorem idx2_14 : ∀ t : Fin cfg2.N, win2_14.index t (0 : Fin 1) = 0 :=
  (by decide +kernel : ∀ t : Fin grid2.N, _)
theorem blk2_14 (V : (c : Dev nD) → (b : Ref sig .tc) → Buf (Elt F) ((c : Thread nD τ).loc b)) (c : Dev nD) (t : Fin cfg2.N) :
    (iblk2 V c 14 t : S64.Idx → Elt F .f32) = V c main_arg21 := by
  funext j
  show V c main_arg21 (((cfg2.win 14).blk t).view.emb j) = V c main_arg21 j
  refine congrArg _ ?_
  have e0 := idx2_14 t
  funext a; apply Fin.ext
  match a with
    | ⟨0, _⟩ => show win2_14.index t (0 : Fin 1) * 64 + 1 * (j 0).val = (j 0).val; omega

theorem idx2_15 : ∀ t : Fin cfg2.N, win2_15.index t (0 : Fin 1) = 0 :=
  (by decide +kernel : ∀ t : Fin grid2.N, _)
theorem blk2_15 (V : (c : Dev nD) → (b : Ref sig .tc) → Buf (Elt F) ((c : Thread nD τ).loc b)) (c : Dev nD) (t : Fin cfg2.N) :
    (iblk2 V c 15 t : S64.Idx → Elt F .f32) = V c main_arg22 := by
  funext j
  show V c main_arg22 (((cfg2.win 15).blk t).view.emb j) = V c main_arg22 j
  refine congrArg _ ?_
  have e0 := idx2_15 t
  funext a; apply Fin.ext
  match a with
    | ⟨0, _⟩ => show win2_15.index t (0 : Fin 1) * 64 + 1 * (j 0).val = (j 0).val; omega

theorem idx2_16 : ∀ t : Fin cfg2.N, win2_16.index t (0 : Fin 1) = 0 :=
  (by decide +kernel : ∀ t : Fin grid2.N, _)
theorem blk2_16 (V : (c : Dev nD) → (b : Ref sig .tc) → Buf (Elt F) ((c : Thread nD τ).loc b)) (c : Dev nD) (t : Fin cfg2.N) :
    (iblk2 V c 16 t : S64.Idx → Elt F .f32) = V c main_arg23 := by
  funext j
  show V c main_arg23 (((cfg2.win 16).blk t).view.emb j) = V c main_arg23 j
  refine congrArg _ ?_
  have e0 := idx2_16 t
  funext a; apply Fin.ext
  match a with
    | ⟨0, _⟩ => show win2_16.index t (0 : Fin 1) * 64 + 1 * (j 0).val = (j 0).val; omega

theorem idx2_17 : ∀ t : Fin cfg2.N, win2_17.index t (0 : Fin 1) = 0 :=
  (by decide +kernel : ∀ t : Fin grid2.N, _)
theorem blk2_17 (V : (c : Dev nD) → (b : Ref sig .tc) → Buf (Elt F) ((c : Thread nD τ).loc b)) (c : Dev nD) (t : Fin cfg2.N) :
    (iblk2 V c 17 t : S64.Idx → Elt F .f32) = V c main_arg24 := by
  funext j
  show V c main_arg24 (((cfg2.win 17).blk t).view.emb j) = V c main_arg24 j
  refine congrArg _ ?_
  have e0 := idx2_17 t
  funext a; apply Fin.ext
  match a with
    | ⟨0, _⟩ => show win2_17.index t (0 : Fin 1) * 64 + 1 * (j 0).val = (j 0).val; omega

theorem idx2_18 : ∀ t : Fin cfg2.N, win2_18.index t (0 : Fin 1) = 0 :=
  (by decide +kernel : ∀ t : Fin grid2.N, _)
theorem blk2_18 (V : (c : Dev nD) → (b : Ref sig .tc) → Buf (Elt F) ((c : Thread nD τ).loc b)) (c : Dev nD) (t : Fin cfg2.N) :
    (iblk2 V c 18 t : S64.Idx → Elt F .f32) = V c main_arg25 := by
  funext j
  show V c main_arg25 (((cfg2.win 18).blk t).view.emb j) = V c main_arg25 j
  refine congrArg _ ?_
  have e0 := idx2_18 t
  funext a; apply Fin.ext
  match a with
    | ⟨0, _⟩ => show win2_18.index t (0 : Fin 1) * 64 + 1 * (j 0).val = (j 0).val; omega

theorem idx2_19 : ∀ t : Fin cfg2.N, win2_19.index t (0 : Fin 2) = 0 ∧ win2_19.index t (1 : Fin 2) = 0 :=
  (by decide +kernel : ∀ t : Fin grid2.N, _)
theorem blk2_19 (V : (c : Dev nD) → (b : Ref sig .tc) → Buf (Elt F) ((c : Thread nD τ).loc b)) (c : Dev nD) (t : Fin cfg2.N) :
    (iblk2 V c 19 t : S64x512.Idx → Elt F .f32) = V c main_arg26 := by
  funext j
  show V c main_arg26 (((cfg2.win 19).blk t).view.emb j) = V c main_arg26 j
  refine congrArg _ ?_
  obtain ⟨e0, e1⟩ := idx2_19 t
  funext a; apply Fin.ext
  match a with
    | ⟨0, _⟩ => show win2_19.index t (0 : Fin 2) * 64 + 1 * (j 0).val = (j 0).val; omega
    | ⟨1, _⟩ => show win2_19.index t (1 : Fin 2) * 512 + 1 * (j 1).val = (j 1).val; omega

theorem idx2_20 : ∀ t : Fin cfg2.N, win2_20.index t (0 : Fin 2) = 0 ∧ win2_20.index t (1 : Fin 2) = 0 :=
  (by decide +kernel : ∀ t : Fin grid2.N, _)
theorem blk2_20 (V : (c : Dev nD) → (b : Ref sig .tc) → Buf (Elt F) ((c : Thread nD τ).loc b)) (c : Dev nD) (t : Fin cfg2.N) :
    (iblk2 V c 20 t : S64x512.Idx → Elt F .f32) = V c main_arg27 := by
  funext j
  show V c main_arg27 (((cfg2.win 20).blk t).view.emb j) = V c main_arg27 j
  refine congrArg _ ?_
  obtain ⟨e0, e1⟩ := idx2_20 t
  funext a; apply Fin.ext
  match a with
    | ⟨0, _⟩ => show win2_20.index t (0 : Fin 2) * 64 + 1 * (j 0).val = (j 0).val; omega
    | ⟨1, _⟩ => show win2_20.index t (1 : Fin 2) * 512 + 1 * (j 1).val = (j 1).val; omega

theorem idx2_21 : ∀ t : Fin cfg2.N, win2_21.index t (0 : Fin 2) = 0 ∧ win2_21.index t (1 : Fin 2) = 0 :=
  (by decide +kernel : ∀ t : Fin grid2.N, _)
theorem blk2_21 (V : (c : Dev nD) → (b : Ref sig .tc) → Buf (Elt F) ((c : Thread nD τ).loc b)) (c : Dev nD) (t : Fin cfg2.N) :
    (iblk2 V c 21 t : S64x512.Idx → Elt F .f32) = V c main_arg28 := by
  funext j
  show V c main_arg28 (((cfg2.win 21).blk t).view.emb j) = V c main_arg28 j
  refine congrArg _ ?_
  obtain ⟨e0, e1⟩ := idx2_21 t
  funext a; apply Fin.ext
  match a with
    | ⟨0, _⟩ => show win2_21.index t (0 : Fin 2) * 64 + 1 * (j 0).val = (j 0).val; omega
    | ⟨1, _⟩ => show win2_21.index t (1 : Fin 2) * 512 + 1 * (j 1).val = (j 1).val; omega

theorem idx2_22 : ∀ t : Fin cfg2.N, win2_22.index t (0 : Fin 2) = 0 ∧ win2_22.index t (1 : Fin 2) = 0 :=
  (by decide +kernel : ∀ t : Fin grid2.N, _)
theorem blk2_22 (V : (c : Dev nD) → (b : Ref sig .tc) → Buf (Elt F) ((c : Thread nD τ).loc b)) (c : Dev nD) (t : Fin cfg2.N) :
    (iblk2 V c 22 t : S520x128.Idx → Elt F .f32) = V c main_arg29 := by
  funext j
  show V c main_arg29 (((cfg2.win 22).blk t).view.emb j) = V c main_arg29 j
  refine congrArg _ ?_
  obtain ⟨e0, e1⟩ := idx2_22 t
  funext a; apply Fin.ext
  match a with
    | ⟨0, _⟩ => show win2_22.index t (0 : Fin 2) * 520 + 1 * (j 0).val = (j 0).val; omega
    | ⟨1, _⟩ => show win2_22.index t (1 : Fin 2) * 128 + 1 * (j 1).val = (j 1).val; omega

theorem idx2_23 : ∀ t : Fin cfg2.N, win2_23.index t (0 : Fin 1) = 0 :=
  (by decide +kernel : ∀ t : Fin grid2.N, _)
theorem blk2_23 (V : (c : Dev nD) → (b : Ref sig .tc) → Buf (Elt F) ((c : Thread nD τ).loc b)) (c : Dev nD) (t : Fin cfg2.N) :
    (iblk2 V c 23 t : S128.Idx → Elt F .f32) = V c main_arg30 := by
  funext j
  show V c main_arg30 (((cfg2.win 23).blk t).view.emb j) = V c main_arg30 j
  refine congrArg _ ?_
  have e0 := idx2_23 t
  funext a; apply Fin.ext
  match a with
    | ⟨0, _⟩ => show win2_23.index t (0 : Fin 1) * 128 + 1 * (j 0).val = (j 0).val; omega

theorem idx2_24 : ∀ t : Fin cfg2.N, win2_24.index t (0 : Fin 2) = 0 ∧ win2_24.index t (1 : Fin 2) = 0 :=
  (by decide +kernel : ∀ t : Fin grid2.N, _)
theorem blk2_24 (V : (c : Dev nD) → (b : Ref sig .tc) → Buf (Elt F) ((c : Thread nD τ).loc b)) (c : Dev nD) (t : Fin cfg2.N) :
    (iblk2 V c 24 t : S128x8.Idx → Elt F .f32) = V c main_arg31 := by
  funext j
  show V c main_arg31 (((cfg2.win 24).blk t).view.emb j) = V c main_arg31 j
  refine congrArg _ ?_
  obtain ⟨e0, e1⟩ := idx2_24 t
  funext a; apply Fin.ext
  match a with
    | ⟨0, _⟩ => show win2_24.index t (0 : Fin 2) * 128 + 1 * (j 0).val = (j 0).val; omega
    | ⟨1, _⟩ => show win2_24.index t (1 : Fin 2) * 8 + 1 * (j 1).val = (j 1).val; omega

theorem idx2_25 : ∀ t : Fin cfg2.N, win2_25.index t (0 : Fin 1) = 0 :=
  (by decide +kernel : ∀ t : Fin grid2.N, _)
theorem blk2_25 (V : (c : Dev nD) → (b : Ref sig .tc) → Buf (Elt F) ((c : Thread nD τ).loc b)) (c : Dev nD) (t : Fin cfg2.N) :
    (iblk2 V c 25 t : S8.Idx → Elt F .f32) = V c main_arg32 := by
  funext j
  show V c main_arg32 (((cfg2.win 25).blk t).view.emb j) = V c main_arg32 j
  refine congrArg _ ?_
  have e0 := idx2_25 t
  funext a; apply Fin.ext
  match a with
    | ⟨0, _⟩ => show win2_25.index t (0 : Fin 1) * 8 + 1 * (j 0).val = (j 0).val; omega

theorem idx2_26 : ∀ t : Fin cfg2.N, win2_26.index t (0 : Fin 2) = 0 ∧ win2_26.index t (1 : Fin 2) = 0 :=
  (by decide +kernel : ∀ t : Fin grid2.N, _)
theorem blk2_26 (V : (c : Dev nD) → (b : Ref sig .tc) → Buf (Elt F) ((c : Thread nD τ).loc b)) (c : Dev nD) (t : Fin cfg2.N) :
    (iblk2 V c 26 t : S64x128.Idx → Elt F .f32) = V c main_arg33 := by
  funext j
  show V c main_arg33 (((cfg2.win 26).blk t).view.emb j) = V c main_arg33 j
  refine congrArg _ ?_
  obtain ⟨e0, e1⟩ := idx2_26 t
  funext a; apply Fin.ext
  match a with
    | ⟨0, _⟩ => show win2_26.index t (0 : Fin 2) * 64 + 1 * (j 0).val = (j 0).val; omega
    | ⟨1, _⟩ => show win2_26.index t (1 : Fin 2) * 128 + 1 * (j 1).val = (j 1).val; omega

theorem idx2_27 : ∀ t : Fin cfg2.N, win2_27.index t (0 : Fin 1) = 0 :=
  (by decide +kernel : ∀ t : Fin grid2.N, _)
theorem blk2_27 (V : (c : Dev nD) → (b : Ref sig .tc) → Buf (Elt F) ((c : Thread nD τ).loc b)) (c : Dev nD) (t : Fin cfg2.N) :
    (iblk2 V c 27 t : S128.Idx → Elt F .f32) = V c main_arg34 := by
  funext j
  show V c main_arg34 (((cfg2.win 27).blk t).view.emb j) = V c main_arg34 j
  refine congrArg _ ?_
  have e0 := idx2_27 t
  funext a; apply Fin.ext
  match a with
    | ⟨0, _⟩ => show win2_27.index t (0 : Fin 1) * 128 + 1 * (j 0).val = (j 0).val; omega

theorem idx2_28 : ∀ t : Fin cfg2.N, win2_28.index t (0 : Fin 2) = 0 ∧ win2_28.index t (1 : Fin 2) = 0 :=
  (by decide +kernel : ∀ t : Fin grid2.N, _)
theorem blk2_28 (V : (c : Dev nD) → (b : Ref sig .tc) → Buf (Elt F) ((c : Thread nD τ).loc b)) (c : Dev nD) (t : Fin cfg2.N) :
    (iblk2 V c 28 t : S128x32.Idx → Elt F .f32) = V c main_arg35 := by
  funext j
  show V c main_arg35 (((cfg2.win 28).blk t).view.emb j) = V c main_arg35 j
  refine congrArg _ ?_
  obtain ⟨e0, e1⟩ := idx2_28 t
  funext a; apply Fin.ext
  match a with
    | ⟨0, _⟩ => show win2_28.index t (0 : Fin 2) * 128 + 1 * (j 0).val = (j 0).val; omega
    | ⟨1, _⟩ => show win2_28.index t (1 : Fin 2) * 32 + 1 * (j 1).val = (j 1).val; omega

theorem idx2_29 : ∀ t : Fin cfg2.N, win2_29.index t (0 : Fin 1) = 0 :=
  (by decide +kernel : ∀ t : Fin grid2.N, _)
theorem blk2_29 (V : (c : Dev nD) → (b : Ref sig .tc) → Buf (Elt F) ((c : Thread nD τ).loc b)) (c : Dev nD) (t : Fin cfg2.N) :
    (iblk2 V c 29 t : S32.Idx → Elt F .f32) = V c main_arg36 := by
  funext j
  show V c main_arg36 (((cfg2.win 29).blk t).view.emb j) = V c main_arg36 j
  refine congrArg _ ?_
  have e0 := idx2_29 t
  funext a; apply Fin.ext
  match a with
    | ⟨0, _⟩ => show win2_29.index t (0 : Fin 1) * 32 + 1 * (j 0).val = (j 0).val; omega

theorem idx2_30 : ∀ t : Fin cfg2.N, win2_30.index t (0 : Fin 2) = 0 ∧ win2_30.index t (1 : Fin 2) = 0 :=
  (by decide +kernel : ∀ t : Fin grid2.N, _)
theorem blk2_30 (V : (c : Dev nD) → (b : Ref sig .tc) → Buf (Elt F) ((c : Thread nD τ).loc b)) (c : Dev nD) (t : Fin cfg2.N) :
    (iblk2 V c 30 t : S32x1.Idx → Elt F .f32) = V c main_arg37 := by
  funext j
  show V c main_arg37 (((cfg2.win 30).blk t).view.emb j) = V c main_arg37 j
  refine congrArg _ ?_
  obtain ⟨e0, e1⟩ := idx2_30 t
  funext a; apply Fin.ext
  match a with
    | ⟨0, _⟩ => show win2_30.index t (0 : Fin 2) * 32 + 1 * (j 0).val = (j 0).val; omega
    | ⟨1, _⟩ => show win2_30.index t (1 : Fin 2) * 1 + 1 * (j 1).val = (j 1).val; omega

theorem idx2_31 : ∀ t : Fin cfg2.N, win2_31.index t (0 : Fin 1) = 0 :=
  (by decide +kernel : ∀ t : Fin grid2.N, _)
theorem blk2_31 (V : (c : Dev nD) → (b : Ref sig .tc) → Buf (Elt F) ((c : Thread nD τ).loc b)) (c : Dev nD) (t : Fin cfg2.N) :
    (iblk2 V c 31 t : S1.Idx → Elt F .f32) = V c main_arg38 := by
  funext j
  show V c main_arg38 (((cfg2.win 31).blk t).view.emb j) = V c main_arg38 j
  refine congrArg _ ?_
  have e0 := idx2_31 t
  funext a; apply Fin.ext
  match a with
    | ⟨0, _⟩ => show win2_31.index t (0 : Fin 1) * 1 + 1 * (j 0).val = (j 0).val; omega

theorem idx2_32 : ∀ t : Fin cfg2.N, win2_32.index t (0 : Fin 1) = 0 :=
  (by decide +kernel : ∀ t : Fin grid2.N, _)
theorem blk2_32 (V : (c : Dev nD) → (b : Ref sig .tc) → Buf (Elt F) ((c : Thread nD τ).loc b)) (c : Dev nD) (t : Fin cfg2.N) :
    (iblk2 V c 32 t : S128.Idx → Elt F .f32) = V c main_arg39 := by
  funext j
  show V c main_arg39 (((cfg2.win 32).blk t).view.emb j) = V c main_arg39 j
  refine congrArg _ ?_
  have e0 := idx2_32 t
  funext a; apply Fin.ext
  match a with
    | ⟨0, _⟩ => show win2_32.index t (0 : Fin 1) * 128 + 1 * (j 0).val = (j 0).val; omega

theorem idx2_33 : ∀ t : Fin cfg2.N, win2_33.index t (0 : Fin 1) = 0 :=
  (by decide +kernel : ∀ t : Fin grid2.N, _)
theorem blk2_33 (V : (c : Dev nD) → (b : Ref sig .tc) → Buf (Elt F) ((c : Thread nD τ).loc b)) (c : Dev nD) (t : Fin cfg2.N) :
    (iblk2 V c 33 t : S128.Idx → Elt F .f32) = V c main_arg40 := by
  funext j
  show V c main_arg40 (((cfg2.win 33).blk t).view.emb j) = V c main_arg40 j
  refine congrArg _ ?_
  have e0 := idx2_33 t
  funext a; apply Fin.ext
  match a with
    | ⟨0, _⟩ => show win2_33.index t (0 : Fin 1) * 128 + 1 * (j 0).val = (j 0).val; omega

theorem idx2_34 : ∀ t : Fin cfg2.N, win2_34.index t (0 : Fin 1) = 0 :=
  (by decide +kernel : ∀ t : Fin grid2.N, _)
theorem blk2_34 (V : (c : Dev nD) → (b : Ref sig .tc) → Buf (Elt F) ((c : Thread nD τ).loc b)) (c : Dev nD) (t : Fin cfg2.N) :
    (iblk2 V c 34 t : S32.Idx → Elt F .f32) = V c main_arg41 := by
  funext j
  show V c main_arg41 (((cfg2.win 34).blk t).view.emb j) = V c main_arg41 j
  refine congrArg _ ?_
  have e0 := idx2_34 t
  funext a; apply Fin.ext
  match a with
    | ⟨0, _⟩ => show win2_34.index t (0 : Fin 1) * 32 + 1 * (j 0).val = (j 0).val; omega

theorem idx2_35 : ∀ t : Fin cfg2.N, win2_35.index t (0 : Fin 1) = 0 :=
  (by decide +kernel : ∀ t : Fin grid2.N, _)
theorem blk2_35 (V : (c : Dev nD) → (b : Ref sig .tc) → Buf (Elt F) ((c : Thread nD τ).loc b)) (c : Dev nD) (t : Fin cfg2.N) :
    (iblk2 V c 35 t : S32.Idx → Elt F .f32) = V c main_arg42 := by
  funext j
  show V c main_arg42 (((cfg2.win 35).blk t).view.emb j) = V c main_arg42 j
  refine congrArg _ ?_
  have e0 := idx2_35 t
  funext a; apply Fin.ext
  match a with
    | ⟨0, _⟩ => show win2_35.index t (0 : Fin 1) * 32 + 1 * (j 0).val = (j 0).val; omega

/-! ## The output window -/

theorem idx2_36 : ∀ t : Fin cfg2.N, win2_36.index t (0 : Fin 2) = 0 ∧ win2_36.index t (1 : Fin 2) = 0 :=
  (by decide +kernel : ∀ t : Fin grid2.N, _)

set_option maxHeartbeats 8000000 in
/-- What the one point writes back is the block (the whole) of the fused value of the arrays the region finds. -/
theorem flushed36 (V : (c : Dev nD) → (b : Ref sig .tc) → Buf (Elt F) ((c : Thread nD τ).loc b)) (c : Dev nD) (t : Fin cfg2.N) :
    (dat2 V c).flushed 36 t = ((cfg2.win 36).blk t).view.read (Elt F) (fused (V c main_v36) (V c main_arg1) (V c main_arg2) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) (V c main_arg27) (V c main_arg28) (V c main_arg29) (V c main_arg30) (V c main_arg31) (V c main_arg32) (V c main_arg33) (V c main_arg34) (V c main_arg35) (V c main_arg36) (V c main_arg37) (V c main_arg38) (V c main_arg39) (V c main_arg40) (V c main_arg41) (V c main_arg42)) := by
  show (cfg2.win 36).cut (grid2.coords t) ((dat2 V c).after 36 t) = _
  rw [after2_36]
  unfold out2_36
  rw [View.canon_unit_zero hz2]
  simp only [View.ld_unit_zero (S := S512x20) hz2, View.ld_unit_zero (S := S512x200) hz2, View.ld_unit_zero (S := S512x300) hz2, View.ld_unit_zero (S := S520x128) hz2, View.ld_unit_zero (S := S128) hz1, View.ld_unit_zero (S := S128x3) hz2, View.ld_unit_zero (S := S3) hz1, View.ld_unit_zero (S := S20x64) hz2, View.ld_unit_zero (S := S64) hz1, View.ld_unit_zero (S := S200x64) hz2, View.ld_unit_zero (S := S300x64) hz2, View.ld_unit_zero (S := S64x512) hz2, View.ld_unit_zero (S := S128x8) hz2, View.ld_unit_zero (S := S8) hz1, View.ld_unit_zero (S := S64x128) hz2, View.ld_unit_zero (S := S128x32) hz2, View.ld_unit_zero (S := S32) hz1, View.ld_unit_zero (S := S32x1) hz2, View.ld_unit_zero (S := S1) hz1, View.ld_unit_zero (S := S512x1) hz2]
  rw [blk2_0 V c t, blk2_1 V c t, blk2_2 V c t, blk2_3 V c t, blk2_4 V c t, blk2_5 V c t, blk2_6 V c t, blk2_7 V c t, blk2_8 V c t, blk2_9 V c t, blk2_10 V c t, blk2_11 V c t, blk2_12 V c t, blk2_13 V c t, blk2_14 V c t, blk2_15 V c t, blk2_16 V c t, blk2_17 V c t, blk2_18 V c t, blk2_19 V c t, blk2_20 V c t, blk2_21 V c t, blk2_22 V c t, blk2_23 V c t, blk2_24 V c t, blk2_25 V c t, blk2_26 V c t, blk2_27 V c t, blk2_28 V c t, blk2_29 V c t, blk2_30 V c t, blk2_31 V c t, blk2_32 V c t, blk2_33 V c t, blk2_34 V c t, blk2_35 V c t]
  funext j
  show fused (V c main_v36) (V c main_arg1) (V c main_arg2) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) (V c main_arg27) (V c main_arg28) (V c main_arg29) (V c main_arg30) (V c main_arg31) (V c main_arg32) (V c main_arg33) (V c main_arg34) (V c main_arg35) (V c main_arg36) (V c main_arg37) (V c main_arg38) (V c main_arg39) (V c main_arg40) (V c main_arg41) (V c main_arg42) j = fused (V c main_v36) (V c main_arg1) (V c main_arg2) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) (V c main_arg27) (V c main_arg28) (V c main_arg29) (V c main_arg30) (V c main_arg31) (V c main_arg32) (V c main_arg33) (V c main_arg34) (V c main_arg35) (V c main_arg36) (V c main_arg37) (V c main_arg38) (V c main_arg39) (V c main_arg40) (V c main_arg41) (V c main_arg42) (((cfg2.win 36).blk t).view.emb j)
  refine congrArg _ ?_
  obtain ⟨e0, e1⟩ := idx2_36 t
  funext a; apply Fin.ext
  match a with
    | ⟨0, _⟩ => show (j 0).val = win2_36.index t (0 : Fin 2) * 512 + 1 * (j 0).val; omega
    | ⟨1, _⟩ => show (j 1).val = win2_36.index t (1 : Fin 2) * 1 + 1 * (j 1).val; omega

/-- An index of the output array is in the point's block iff each coordinate is in the block's range. -/
theorem mem_blk36 (t : Fin cfg2.N) (i : S512x1.Idx) :
    i ∈ ((cfg2.win 36).blk t).view.set ↔ ∀ a : Fin 2, win2_36.index t a * S512x1.size a ≤ (i a).val ∧ (i a).val < win2_36.index t a * S512x1.size a + S512x1.size a := by
  show i ∈ ((View.whole main_v37).slice (win2_36.rect t)).set ↔ _
  rw [View.set_slice_whole, Rect.mem_set_unit]
  exact Iff.rfl

/-- THE OUTPUT ARRAY after the region: the fused value of the arrays the region finds on entry. -/
theorem region2_value (V : (c : Dev nD) → (b : Ref sig .tc) → Buf (Elt F) ((c : Thread nD τ).loc b)) (c : Dev nD) :
    (dat2 V c).arrAt 36 cfg2.N = fused (V c main_v36) (V c main_arg1) (V c main_arg2) (V c main_arg10) (V c main_arg11) (V c main_arg12) (V c main_arg13) (V c main_arg14) (V c main_arg15) (V c main_arg16) (V c main_arg17) (V c main_arg18) (V c main_arg19) (V c main_arg20) (V c main_arg21) (V c main_arg22) (V c main_arg23) (V c main_arg24) (V c main_arg25) (V c main_arg26) (V c main_arg27) (V c main_arg28) (V c main_arg29) (V c main_arg30) (V c main_arg31) (V c main_arg32) (V c main_arg33) (V c main_arg34) (V c main_arg35) (V c main_arg36) (V c main_arg37) (V c main_arg38) (V c main_arg39) (V c main_arg40) (V c main_arg41) (V c main_arg42) := by
  refine (dat2 V c).arrAt_eq_of_cover 36 _ (fun t _ => flushed36 V c t) fun i => ?_
  refine ⟨⟨0, by decide⟩, flush2_36 _, ?_⟩
  rw [mem_blk36]
  obtain ⟨e0, e1⟩ := idx2_36 ⟨0, by decide⟩
  intro a
  have h0 : (i 0).val < 512 := (i 0).isLt
  have h1 : (i 1).val < 1 := (i 1).isLt
  match a with
    | ⟨0, _⟩ => show win2_36.index ⟨0, by decide⟩ (0 : Fin 2) * 512 ≤ (i 0).val ∧ (i 0).val < win2_36.index ⟨0, by decide⟩ (0 : Fin 2) * 512 + 512; omega
    | ⟨1, _⟩ => show win2_36.index ⟨0, by decide⟩ (1 : Fin 2) * 1 ≤ (i 1).val ∧ (i 1).val < win2_36.index ⟨0, by decide⟩ (1 : Fin 2) * 1 + 1; omega

end Cert.KernelIdeal.Val

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«168914_j82609400971796_1_alg».proof.Proof.LibPlainContract
import proofs.«168914_j82609400971796_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.Gcn.lean ====
/-
  The two graph-convolution projections, each as one function of whole arrays.

  One projection takes the gathered messages msg (n rows of K features), the in-degree deg of each of the n nodes, a
  weight matrix W (K by C) and a bias b (C entries) and returns the n-by-C array whose entry (p, q) is

      max( Σ_k (msg[p, k] / max(deg[p], 1)) · W[k, q] + b[q], 0 ).

  The tiled program computes it 6400 rows at a time: point t of a grid of 16 points reads rows 6400·t … 6400·t + 6399
  of msg and of the degree column, the whole of W and b, and writes the same rows of the result. The host program
  computes all n = 102400 rows at once. Both are read here at one entry as the formula above — at exact (extended
  real) values the narrowing of the matrix unit's operands changes nothing, and a product accumulated from zero is
  the host's dot product — and the 16 blocks of rows tile the result, so the tiled program's result array after its
  last point is the host's array.
-/
import proofs.«168914_j82609400971796_1_alg».proof.Proof.FrameKI
import proofs.«168914_j82609400971796_1_alg».proof.Proof.ReadP
import proofs.«168914_j82609400971796_1_alg».proof.Proof.LibDenseRows
import proofs.«168914_j82609400971796_1_alg».proof.Proof.LibKeepdims
import proofs.«168914_j82609400971796_1_alg».proof.Proof.LibColumn
import Idealize.ShloMosaic.Lib.Pipeline.Value

noncomputable section

namespace Cert.Gcn

open Idealize.ShloMosaic Idealize.ShloMosaic.ValueIdx

/-! ## One entry of a projection, for any sizes -/

/-- Entry (p, q) of a projection of n rows: the row p of msg divided by max(deg[p], 1), times column q of W, plus
    b[q], rectified. The degree is given as a function of the row, so that a column and a vector both fit. -/
def entry {n K C : Nat} (msg : (⟨2, ![n, K]⟩ : Shape).Idx → EReal) (deg : Fin n → EReal)
    (w : (⟨2, ![K, C]⟩ : Shape).Idx → EReal) (b : (⟨1, ![C]⟩ : Shape).Idx → EReal) (p : Fin n) (q : Fin C) : EReal :=
  max ((∑ k : Fin K, Ideal.div (msg (ix2 p k)) (max (deg p) (Ideal.ofBits .f32 0x3F800000#32)) * w (ix2 k q))
    + b (ix1 q)) 0

/-- Two entries agree when the rows, the degrees, the weight columns and the bias entries they read agree. -/
theorem entry_congr {n n' K C : Nat} (msg : (⟨2, ![n, K]⟩ : Shape).Idx → EReal) (msg' : (⟨2, ![n', K]⟩ : Shape).Idx → EReal)
    (deg : Fin n → EReal) (deg' : Fin n' → EReal) (w w' : (⟨2, ![K, C]⟩ : Shape).Idx → EReal)
    (b b' : (⟨1, ![C]⟩ : Shape).Idx → EReal) (p : Fin n) (P : Fin n') (q : Fin C)
    (e0 : ∀ k : Fin K, msg (ix2 p k) = msg' (ix2 P k)) (e1 : deg p = deg' P)
    (e2 : ∀ k : Fin K, w (ix2 k q) = w' (ix2 k q)) (e3 : b (ix1 q) = b' (ix1 q)) :
    entry msg deg w b p q = entry msg' deg' w' b' P q := by
  unfold entry
  rw [e1, e3]
  refine congrArg (fun z => max (z + b' (ix1 q)) 0) (Finset.sum_congr rfl fun k _ => ?_)
  rw [e0 k, e2 k]

/-- The tiled body on one block of M rows, at entry (p, q): the block's rows divided by the degree column (floored
    at 1 and spread over the K features), narrowed, multiplied by the narrowed weights from a zero accumulator, the
    bias laid along every row, rectified against a splat zero. -/
theorem tile_entry (M K C : Nat)
    (hs0 : (⟨2, ![M, K]⟩ : Shape).ShapeCasts ⟨2, ![M, K]⟩) (hs1 : (⟨2, ![M, 1]⟩ : Shape).ShapeCasts ⟨2, ![M, 1]⟩)
    (hb1 : (⟨2, ![M, 1]⟩ : Shape).Broadcasts ⟨2, ![M, K]⟩) (h0 h1 : FTy.bf16.bits < FTy.f32.bits)
    (hsb : (⟨1, ![C]⟩ : Shape).ShapeCasts ⟨2, ![1, C]⟩) (hbb : (⟨2, ![1, C]⟩ : Shape).Broadcasts ⟨2, ![M, C]⟩)
    (x0 : FVec Ideal ⟨2, ![M, K]⟩ .f32) (x1 : FVec Ideal ⟨2, ![M, 1]⟩ .f32) (x2 : FVec Ideal ⟨2, ![K, C]⟩ .f32)
    (x3 : FVec Ideal ⟨1, ![C]⟩ .f32) (p : Fin M) (q : Fin C) :
    maximumf (addf (matmul (DotDims.plain M K C) none
          (truncf .bf16 (divf (shapeCast ⟨2, ![M, K]⟩ x0 hs0) (broadcastTo ⟨2, ![M, K]⟩
            (maximumf (shapeCast ⟨2, ![M, 1]⟩ x1 hs1) (broadcast ⟨2, ![M, 1]⟩ (Scalar.ofBits (F := Ideal) .f32 0x3F800000#32))) hb1)) h0)
          (truncf .bf16 x2 h1) (constant ⟨2, ![M, C]⟩ .f32 0x00000000#32))
        (broadcastTo ⟨2, ![M, C]⟩ (shapeCast ⟨2, ![1, C]⟩ x3 hsb) hbb))
      (broadcast ⟨2, ![M, C]⟩ (Scalar.ofBits (F := Ideal) .f32 0x00000000#32)) (ix2 p q)
    = entry x0 (fun r => x1 (ix2 r (0 : Fin 1))) x2 x3 p q := by
  refine (Cert.Dense.tileRelu_apply M C _ (ix2 p q)).trans ?_
  refine congrArg (fun z => max z 0) ?_
  refine (addf_apply _ _ (ix2 p q)).trans ?_
  refine congrArg₂ (· + ·) ?_ ?_
  · refine (Cert.Dense.tileProduct_apply M K C none h0 h1 _ x2 p q).trans ?_
    refine Finset.sum_congr rfl fun k _ => congrArg (· * x2 (ix2 k q)) ?_
    refine (divf_apply _ _ (ix2 p k)).trans ?_
    refine congrArg₂ Ideal.div (congrFun (shapeCast_self x0 hs0) (ix2 p k)) ?_
    refine (Cert.Lib.Keepdims.broadcastTo_a1_ab_apply _ hb1 p k).trans ?_
    refine (maximumf_apply _ _ (ix2 p (0 : Fin 1))).trans ?_
    exact congrArg (fun z => max z (Ideal.ofBits .f32 0x3F800000#32)) (congrFun (shapeCast_self x1 hs1) (ix2 p (0 : Fin 1)))
  · refine (broadcastTo_1b_ab_apply _ hbb p q).trans ?_
    exact Cert.LibLreluRows.rowCast_apply hsb x3 q

/-- The host program on all n rows, at entry (P, q): msg divided by the degree vector (floored at 1, kept as a
    column and spread over the K features), the dot product with the weights, the bias broadcast twice, the
    rectifier against a rank-0 zero. -/
theorem host_entry (n K C : Nat)
    (h14 : (⟨0, ![]⟩ : Shape).BroadcastsInDim ⟨1, ![n]⟩ ![])
    (h16 : (⟨1, ![n]⟩ : Shape).BroadcastsInDim ⟨2, ![n, 1]⟩ (![0] : Fin 1 → Fin (⟨2, ![n, 1]⟩ : Shape).rank))
    (h17 : (⟨2, ![n, 1]⟩ : Shape).BroadcastsInDim ⟨2, ![n, K]⟩ (![0, 1] : Fin 2 → Fin (⟨2, ![n, K]⟩ : Shape).rank))
    (h20 : (⟨1, ![C]⟩ : Shape).BroadcastsInDim ⟨2, ![1, C]⟩ ![1])
    (h21 : (⟨2, ![1, C]⟩ : Shape).BroadcastsInDim ⟨2, ![n, C]⟩ ![0, 1])
    (hr : (⟨0, ![]⟩ : Shape).BroadcastsInDim ⟨2, ![n, C]⟩ ![])
    (msg : FVec Ideal ⟨2, ![n, K]⟩ .f32) (deg : FVec Ideal ⟨1, ![n]⟩ .f32) (w : FVec Ideal ⟨2, ![K, C]⟩ .f32)
    (b : FVec Ideal ⟨1, ![C]⟩ .f32) (P : Fin n) (q : Fin C) :
    maximumf (addf (Host.dotGeneral (F := Ideal) (DotDims.plain n K C) none
          (Host.divf (F := Ideal) msg (broadcastInDim ⟨2, ![n, K]⟩ ![0, 1] h17 (broadcastInDim ⟨2, ![n, 1]⟩ ![0] h16
            (maximumf deg (broadcastInDim ⟨1, ![n]⟩ ![] h14 (constant (F := Ideal) ⟨0, ![]⟩ .f32 0x3F800000#32)))))) w)
        (broadcastInDim ⟨2, ![n, C]⟩ ![0, 1] h21 (broadcastInDim ⟨2, ![1, C]⟩ ![1] h20 b)))
      (broadcastInDim ⟨2, ![n, C]⟩ ![] hr (constant (F := Ideal) ⟨0, ![]⟩ .f32 0x00000000#32)) (ix2 P q)
    = entry msg (fun r => deg (ix1 r)) w b P q := by
  refine (Cert.Dense.hostRelu_apply n C hr _ (ix2 P q)).trans ?_
  refine congrArg (fun z => max z 0) ?_
  refine (Cert.Dense.hostAddRow_apply n C h20 h21 _ b P q).trans ?_
  refine congrArg (· + b (ix1 q)) ?_
  refine (Cert.Dense.hostProduct_apply n K C none _ w P q).trans ?_
  refine Finset.sum_congr rfl fun k _ => congrArg (· * w (ix2 k q)) ?_
  show Ideal.div (msg (ix2 P k)) _ = _
  refine congrArg (Ideal.div (msg (ix2 P k))) ?_
  refine (Cert.Lib.Keepdims.broadcastInDim_a1_ab_apply _ h17 P k).trans ?_
  refine (Cert.Lib.Keepdims.broadcastInDim_a_a1_apply _ h16 P (0 : Fin 1)).trans ?_
  rfl

/-! ## The host program's two projections -/

section Reference
open Cert.ReferenceIdeal Cert.ReferenceIdeal.Facts₀ Cert.ReferenceIdeal.ReadP

/-- The first projection as the host program writes it: 64 features to 100. -/
def layer1 (msg : FVec Ideal S102400x64 .f32) (deg : FVec Ideal S102400 .f32) (w : FVec Ideal S64x100 .f32)
    (b : FVec Ideal S100 .f32) : FVec Ideal S102400x100 .f32 :=
  maximumf (addf (Host.dotGeneral (F := Ideal) dot_S102400x64_S64x100_S102400x100_1_0_0_1_n_n none
        (Host.divf (F := Ideal) msg (broadcastInDim S102400x64 ![0, 1] bcast_S102400x1_S102400x64_0_1
          (broadcastInDim S102400x1 ![0] bcast_S102400_S102400x1_0
            (maximumf deg (broadcastInDim S102400 ![] bcast_S_S102400 (constant (F := Ideal) S_ .f32 0x3F800000#32)))))) w)
      (broadcastInDim S102400x100 ![0, 1] bcast_S1x100_S102400x100_0_1 (broadcastInDim S1x100 ![1] bcast_S100_S1x100_1 b)))
    (broadcastInDim S102400x100 ![] bcast_S_S102400x100 (constant (F := Ideal) S_ .f32 0x00000000#32))

/-- The second projection: 100 features to 20. -/
def layer2 (msg : FVec Ideal S102400x100 .f32) (deg : FVec Ideal S102400 .f32) (w : FVec Ideal S100x20 .f32)
    (b : FVec Ideal S20 .f32) : FVec Ideal S102400x20 .f32 :=
  maximumf (addf (Host.dotGeneral (F := Ideal) dot_S102400x100_S100x20_S102400x20_1_0_0_1_n_n none
        (Host.divf (F := Ideal) msg (broadcastInDim S102400x100 ![0, 1] bcast_S102400x1_S102400x100_0_1
          (broadcastInDim S102400x1 ![0] bcast_S102400_S102400x1_0
            (maximumf deg (broadcastInDim S102400 ![] bcast_S_S102400 (constant (F := Ideal) S_ .f32 0x3F800000#32)))))) w)
      (broadcastInDim S102400x20 ![0, 1] bcast_S1x20_S102400x20_0_1 (broadcastInDim S1x20 ![1] bcast_S20_S1x20_1 b)))
    (broadcastInDim S102400x20 ![] bcast_S_S102400x20 (constant (F := Ideal) S_ .f32 0x00000000#32))

/-- The host program's rectified first projection is layer1 of its gathered messages and its degree vector. -/
theorem ref_layer1 (x0 : (⟨S102400x64, .f32⟩ : BufTy).Contents (Elt Ideal)) (x3 x4 : (⟨S1638400, .i32⟩ : BufTy).Contents (Elt Ideal))
    (x6 : (⟨S64x100, .f32⟩ : BufTy).Contents (Elt Ideal)) (x7 : (⟨S100, .f32⟩ : BufTy).Contents (Elt Ideal)) :
    val_main_v23 (F := Ideal) x0 x3 x4 x6 x7
      = layer1 (val_main_v9 (F := Ideal) x0 x3 x4) (val_main_v13 (F := Ideal) x4) x6 x7 := by
  unfold val_main_v23 val_main_v22 val_main_v21 val_main_v20 val_main_v19 val_main_v18 val_main_v17 val_main_v16
    val_main_v15 val_main_v14 val_main_cst_3 val_main_call0_v0 val_main_call0_cst layer1
  rfl

/-- The same for the second projection. -/
theorem ref_layer2 (x0 : (⟨S102400x64, .f32⟩ : BufTy).Contents (Elt Ideal)) (x3 x4 : (⟨S1638400, .i32⟩ : BufTy).Contents (Elt Ideal))
    (x6 : (⟨S64x100, .f32⟩ : BufTy).Contents (Elt Ideal)) (x7 : (⟨S100, .f32⟩ : BufTy).Contents (Elt Ideal))
    (x8 : (⟨S100x20, .f32⟩ : BufTy).Contents (Elt Ideal)) (x9 : (⟨S20, .f32⟩ : BufTy).Contents (Elt Ideal)) :
    val_main_v47 (F := Ideal) x0 x3 x4 x6 x7 x8 x9
      = layer2 (val_main_v33 (F := Ideal) x0 x3 x4 x6 x7) (val_main_v37 (F := Ideal) x4) x8 x9 := by
  unfold val_main_v47 val_main_v46 val_main_v45 val_main_v44 val_main_v43 val_main_v42 val_main_v41 val_main_v40
    val_main_v39 val_main_v38 val_main_cst_9 val_main_call1_v0 val_main_call1_cst layer2
  rfl

/-- layer1 at one entry. -/
theorem layer1_entry (msg : FVec Ideal S102400x64 .f32) (deg : FVec Ideal S102400 .f32) (w : FVec Ideal S64x100 .f32)
    (b : FVec Ideal S100 .f32) (P : Fin 102400) (q : Fin 100) :
    layer1 msg deg w b (ix2 P q) = entry msg (fun r => deg (ix1 r)) w b P q := by
  unfold layer1
  exact host_entry 102400 64 100 _ _ _ _ _ _ msg deg w b P q

/-- layer2 at one entry. -/
theorem layer2_entry (msg : FVec Ideal S102400x100 .f32) (deg : FVec Ideal S102400 .f32) (w : FVec Ideal S100x20 .f32)
    (b : FVec Ideal S20 .f32) (P : Fin 102400) (q : Fin 20) :
    layer2 msg deg w b (ix2 P q) = entry msg (fun r => deg (ix1 r)) w b P q := by
  unfold layer2
  exact host_entry 102400 100 20 _ _ _ _ _ _ msg deg w b P q

end Reference

/-! ## The tiled program's two projections -/

section Kernel
open Cert.KernelIdeal Cert.KernelIdeal.Gen Cert.KernelIdeal.GenP Idealize.ShloMosaic.TcCoe Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ### The first projection: blocks of 6400 rows, 64 features to 100 -/

/-- The body's arithmetic on one block, at one entry. -/
theorem pay0_entry (x0 : Vec Ideal S6400x64 .f32) (x1 : Vec Ideal S6400x1 .f32) (x2 : Vec Ideal S64x100 .f32)
    (x3 : Vec Ideal S100 .f32) (p : Fin 6400) (q : Fin 100) :
    k0_pay1 (F := Ideal) x0 x1 x2 x3 (ix2 p q) = entry x0 (fun r => x1 (ix2 r (0 : Fin 1))) x2 x3 p q := by
  unfold k0_pay1
  exact tile_entry 6400 64 100 _ _ _ _ _ _ _ x0 x1 x2 x3 p q

/-- One block against the whole arrays: when row p of the block is row P of msg and of the degree vector, and the
    weights and the bias are the whole arrays', entry (p, q) of the body's result is entry (P, q) of layer1. -/
theorem point0 (msg : FVec Ideal S102400x64 .f32) (deg : FVec Ideal S102400 .f32) (w : FVec Ideal S64x100 .f32)
    (b : FVec Ideal S100 .f32) (x0 : Vec Ideal S6400x64 .f32) (x1 : Vec Ideal S6400x1 .f32) (x2 : Vec Ideal S64x100 .f32)
    (x3 : Vec Ideal S100 .f32) (p : Fin 6400) (q : Fin 100) (P : Fin 102400)
    (e0 : ∀ k : Fin 64, x0 (ix2 p k) = msg (ix2 P k)) (e1 : x1 (ix2 p (0 : Fin 1)) = deg (ix1 P))
    (e2 : ∀ k : Fin 64, x2 (ix2 k q) = w (ix2 k q)) (e3 : x3 (ix1 q) = b (ix1 q)) :
    k0_pay1 (F := Ideal) x0 x1 x2 x3 (ix2 p q) = layer1 msg deg w b (ix2 P q) := by
  rw [pay0_entry, layer1_entry]
  exact entry_congr _ _ _ _ _ _ _ _ p P q e0 e1 e2 e3

/-- The printed index maps over the grid: windows 0, 1 and 4 are at block (t, 0), windows 2 and 3 at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem lt0 (t : Fin cfg0.N) : t.val < 16 := lt_of_lt_of_eq t.isLt N_0

variable (V : (c : Dev nD) → (b : Ref sig .tc) → Buf (Elt Ideal) ((c : Thread nD τ).loc b))

/-- Window 0's block at point t is rows 6400·t … of msg. -/
theorem blk0_0 (c : Dev nD) (t : Fin cfg0.N) (p : Fin 6400) (k : Fin 64) (P : Fin 102400) (hP : P.val = t.val * 6400 + p.val) :
    (iblk0 (F := Ideal) V c 0 t : Vec Ideal S6400x64 .f32) (ix2 p k) = (V c main_v14 : S102400x64.Idx → EReal) (ix2 P k) := by
  obtain ⟨i00, i01, -⟩ := idx0 t
  show (V c main_v14 : S102400x64.Idx → EReal) (((cfg0.win 0).blk t).view.emb (ix2 p k)) = _
  refine congrArg (V c main_v14 : S102400x64.Idx → EReal) (funext fun a => Fin.ext ?_)
  match a with
  | ⟨0, _⟩ => show win0_0.index t (0 : Fin 2) * 6400 + 1 * p.val = P.val; omega
  | ⟨1, _⟩ => show win0_0.index t (1 : Fin 2) * 64 + 1 * k.val = k.val; omega

/-- Window 1's block at point t is rows 6400·t … of the degree column. -/
theorem blk0_1 (c : Dev nD) (t : Fin cfg0.N) (p : Fin 6400) (P : Fin 102400) (hP : P.val = t.val * 6400 + p.val) :
    (iblk0 (F := Ideal) V c 1 t : Vec Ideal S6400x1 .f32) (ix2 p (0 : Fin 1)) = (V c main_v4 : S102400x1.Idx → EReal) (ix2 P (0 : Fin 1)) := by
  obtain ⟨-, -, i10, i11, -⟩ := idx0 t
  show (V c main_v4 : S102400x1.Idx → EReal) (((cfg0.win 1).blk t).view.emb (ix2 p (0 : Fin 1))) = _
  refine congrArg (V c main_v4 : S102400x1.Idx → EReal) (funext fun a => Fin.ext ?_)
  match a with
  | ⟨0, _⟩ => show win0_1.index t (0 : Fin 2) * 6400 + 1 * p.val = P.val; omega
  | ⟨1, _⟩ => show win0_1.index t (1 : Fin 2) * 1 + 1 * 0 = 0; omega

/-- Window 2's block at every point is the whole weight matrix. -/
theorem blk0_2 (c : Dev nD) (t : Fin cfg0.N) (k : Fin 64) (q : Fin 100) :
    (iblk0 (F := Ideal) V c 2 t : Vec Ideal S64x100 .f32) (ix2 k q) = (V c main_arg6 : S64x100.Idx → EReal) (ix2 k q) := by
  obtain ⟨-, -, -, -, i20, i21, -⟩ := idx0 t
  show (V c main_arg6 : S64x100.Idx → EReal) (((cfg0.win 2).blk t).view.emb (ix2 k q)) = _
  refine congrArg (V c main_arg6 : S64x100.Idx → EReal) (funext fun a => Fin.ext ?_)
  match a with
  | ⟨0, _⟩ => show win0_2.index t (0 : Fin 2) * 64 + 1 * k.val = k.val; omega
  | ⟨1, _⟩ => show win0_2.index t (1 : Fin 2) * 100 + 1 * q.val = q.val; omega

/-- Window 3's block at every point is the whole bias. -/
theorem blk0_3 (c : Dev nD) (t : Fin cfg0.N) (q : Fin 100) :
    (iblk0 (F := Ideal) V c 3 t : Vec Ideal S100 .f32) (ix1 q) = (V c main_arg7 : S100.Idx → EReal) (ix1 q) := by
  obtain ⟨-, -, -, -, -, -, i30, -⟩ := idx0 t
  show (V c main_arg7 : S100.Idx → EReal) (((cfg0.win 3).blk t).view.emb (ix1 q)) = _
  refine congrArg (V c main_arg7 : S100.Idx → EReal) (funext fun a => Fin.ext ?_)
  match a with
  | ⟨0, _⟩ => show win0_3.index t (0 : Fin 1) * 100 + 1 * q.val = q.val; omega

/-- What point t writes back is block t of layer1 of the arrays the region finds. -/
theorem flushed0 (c : Dev nD) (deg : FVec Ideal S102400 .f32)
    (hdeg : ∀ i, V c main_v4 i = shapeCast S102400x1 deg shapeCasts_S102400_S102400x1 i) (t : Fin cfg0.N) :
    (dat0 (F := Ideal) V c).flushed 4 t
      = ((cfg0.win 4).blk t).view.read (Elt Ideal) (layer1 (V c main_v14) deg (V c main_arg6) (V c main_arg7)) := by
  show (cfg0.win 4).cut (grid0.coords t) ((dat0 V c).after 4 t) = _
  rw [after0_4]
  unfold out0_4
  rw [View.canon_unit_zero hz2]
  simp only [View.ld_unit_zero (S := S6400x64) hz2, View.ld_unit_zero (S := S6400x1) hz2,
    View.ld_unit_zero (S := S64x100) hz2, View.ld_unit_zero (S := S100) hz1]
  obtain ⟨-, -, -, -, -, -, -, i40, i41⟩ := idx0 t
  have ht := lt0 t
  funext j
  obtain ⟨p, q, rfl⟩ : ∃ (p : Fin 6400) (q : Fin 100), j = ix2 p q := ⟨j 0, j 1, eq_ix2 j⟩
  have hemb : ((cfg0.win 4).blk t).view.emb (ix2 p q) = (ix2 (⟨t.val * 6400 + p.val, by omega⟩ : Fin 102400) q : S102400x100.Idx) := by
    funext a; apply Fin.ext
    match a with
    | ⟨0, _⟩ => show win0_4.index t (0 : Fin 2) * 6400 + 1 * p.val = t.val * 6400 + p.val; omega
    | ⟨1, _⟩ => show win0_4.index t (1 : Fin 2) * 100 + 1 * q.val = q.val; omega
  show k0_pay1 (F := Ideal) (iblk0 V c 0 t) (iblk0 V c 1 t) (iblk0 V c 2 t) (iblk0 V c 3 t) (ix2 p q)
    = layer1 (V c main_v14) deg (V c main_arg6) (V c main_arg7) (((cfg0.win 4).blk t).view.emb (ix2 p q))
  rw [hemb]
  exact point0 (V c main_v14) deg (V c main_arg6) (V c main_arg7) (iblk0 V c 0 t) (iblk0 V c 1 t) (iblk0 V c 2 t) (iblk0 V c 3 t)
    p q ⟨t.val * 6400 + p.val, by omega⟩ (fun k => blk0_0 V c t p k _ rfl)
    ((blk0_1 V c t p _ rfl).trans ((hdeg _).trans (Cert.LibColumn.shapeCast_a_a1_apply deg shapeCasts_S102400_S102400x1 _ (0 : Fin 1))))
    (fun k => blk0_2 V c t k q) (blk0_3 V c t q)

/-- An index of the result array is in point t's block iff each coordinate is in the block's range on its axis. -/
theorem mem_blk0 (t : Fin cfg0.N) (i : S102400x100.Idx) :
    i ∈ ((cfg0.win 4).blk t).view.set ↔ ∀ a : Fin 2, win0_4.index t a * S6400x100.size a ≤ (i a).val ∧ (i a).val < win0_4.index t a * S6400x100.size a + S6400x100.size a := by
  show i ∈ ((View.whole main_v15).slice (win0_4.rect t)).set ↔ _
  rw [View.set_slice_whole, Rect.mem_set_unit]
  exact Iff.rfl

/-- Every row is in the block of the point its number divided by 6400 names. -/
theorem cover0 (i : S102400x100.Idx) : ∃ t : Fin cfg0.N, (cfg0.win 4).flush t = true ∧ i ∈ ((cfg0.win 4).blk t).view.set := by
  have hi0 : (i 0).val < 102400 := (i 0).isLt
  have hi1 : (i 1).val < 100 := (i 1).isLt
  have hN : cfg0.N = 16 := N_0
  let t : Fin cfg0.N := ⟨(i 0).val / 6400, by rw [hN]; omega⟩
  obtain ⟨-, -, -, -, -, -, -, i40, i41⟩ := idx0 t
  have htv : t.val = (i 0).val / 6400 := rfl
  refine ⟨t, flush0_4 t, ?_⟩
  rw [mem_blk0]
  intro a
  match a with
  | ⟨0, _⟩ => show win0_4.index t (0 : Fin 2) * 6400 ≤ (i 0).val ∧ (i 0).val < win0_4.index t (0 : Fin 2) * 6400 + 6400; omega
  | ⟨1, _⟩ => show win0_4.index t (1 : Fin 2) * 100 ≤ (i 1).val ∧ (i 1).val < win0_4.index t (1 : Fin 2) * 100 + 100; omega

/-- THE FIRST PROJECTION: after the last point the result array is layer1 of the arrays the region found. -/
theorem region0_value (c : Dev nD) (deg : FVec Ideal S102400 .f32)
    (hdeg : ∀ i, V c main_v4 i = shapeCast S102400x1 deg shapeCasts_S102400_S102400x1 i) :
    (dat0 (F := Ideal) V c).arrAt 4 cfg0.N = layer1 (V c main_v14) deg (V c main_arg6) (V c main_arg7) :=
  (dat0 (F := Ideal) V c).arrAt_eq_of_cover 4 (layer1 (V c main_v14) deg (V c main_arg6) (V c main_arg7))
    (fun t _ => flushed0 V c deg hdeg t) cover0

/-! ### The second projection: blocks of 6400 rows, 100 features to 20 -/

/-- The body's arithmetic on one block, at one entry. -/
theorem pay1_entry (x0 : Vec Ideal S6400x100 .f32) (x1 : Vec Ideal S6400x1 .f32) (x2 : Vec Ideal S100x20 .f32)
    (x3 : Vec Ideal S20 .f32) (p : Fin 6400) (q : Fin 20) :
    k1_pay1 (F := Ideal) x0 x1 x2 x3 (ix2 p q) = entry x0 (fun r => x1 (ix2 r (0 : Fin 1))) x2 x3 p q := by
  unfold k1_pay1
  exact tile_entry 6400 100 20 _ _ _ _ _ _ _ x0 x1 x2 x3 p q

/-- One block against the whole arrays: when row p of the block is row P of msg and of the degree vector, and the
    weights and the bias are the whole arrays', entry (p, q) of the body's result is entry (P, q) of layer2. -/
theorem point1 (msg : FVec Ideal S102400x100 .f32) (deg : FVec Ideal S102400 .f32) (w : FVec Ideal S100x20 .f32)
    (b : FVec Ideal S20 .f32) (x0 : Vec Ideal S6400x100 .f32) (x1 : Vec Ideal S6400x1 .f32) (x2 : Vec Ideal S100x20 .f32)
    (x3 : Vec Ideal S20 .f32) (p : Fin 6400) (q : Fin 20) (P : Fin 102400)
    (e0 : ∀ k : Fin 100, x0 (ix2 p k) = msg (ix2 P k)) (e1 : x1 (ix2 p (0 : Fin 1)) = deg (ix1 P))
    (e2 : ∀ k : Fin 100, x2 (ix2 k q) = w (ix2 k q)) (e3 : x3 (ix1 q) = b (ix1 q)) :
    k1_pay1 (F := Ideal) x0 x1 x2 x3 (ix2 p q) = layer2 msg deg w b (ix2 P q) := by
  rw [pay1_entry, layer2_entry]
  exact entry_congr _ _ _ _ _ _ _ _ p P q e0 e1 e2 e3

/-- The printed index maps over the grid: windows 0, 1 and 4 are at block (t, 0), windows 2 and 3 at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem lt1 (t : Fin cfg1.N) : t.val < 16 := lt_of_lt_of_eq t.isLt N_1

/-- Window 0's block at point t is rows 6400·t … of msg. -/
theorem blk1_0 (c : Dev nD) (t : Fin cfg1.N) (p : Fin 6400) (k : Fin 100) (P : Fin 102400) (hP : P.val = t.val * 6400 + p.val) :
    (iblk1 (F := Ideal) V c 0 t : Vec Ideal S6400x100 .f32) (ix2 p k) = (V c main_v25 : S102400x100.Idx → EReal) (ix2 P k) := by
  obtain ⟨i00, i01, -⟩ := idx1 t
  show (V c main_v25 : S102400x100.Idx → EReal) (((cfg1.win 0).blk t).view.emb (ix2 p k)) = _
  refine congrArg (V c main_v25 : S102400x100.Idx → EReal) (funext fun a => Fin.ext ?_)
  match a with
  | ⟨0, _⟩ => show win1_0.index t (0 : Fin 2) * 6400 + 1 * p.val = P.val; omega
  | ⟨1, _⟩ => show win1_0.index t (1 : Fin 2) * 100 + 1 * k.val = k.val; omega

/-- Window 1's block at point t is rows 6400·t … of the degree column. -/
theorem blk1_1 (c : Dev nD) (t : Fin cfg1.N) (p : Fin 6400) (P : Fin 102400) (hP : P.val = t.val * 6400 + p.val) :
    (iblk1 (F := Ideal) V c 1 t : Vec Ideal S6400x1 .f32) (ix2 p (0 : Fin 1)) = (V c main_v4 : S102400x1.Idx → EReal) (ix2 P (0 : Fin 1)) := by
  obtain ⟨-, -, i10, i11, -⟩ := idx1 t
  show (V c main_v4 : S102400x1.Idx → EReal) (((cfg1.win 1).blk t).view.emb (ix2 p (0 : Fin 1))) = _
  refine congrArg (V c main_v4 : S102400x1.Idx → EReal) (funext fun a => Fin.ext ?_)
  match a with
  | ⟨0, _⟩ => show win1_1.index t (0 : Fin 2) * 6400 + 1 * p.val = P.val; omega
  | ⟨1, _⟩ => show win1_1.index t (1 : Fin 2) * 1 + 1 * 0 = 0; omega

/-- Window 2's block at every point is the whole weight matrix. -/
theorem blk1_2 (c : Dev nD) (t : Fin cfg1.N) (k : Fin 100) (q : Fin 20) :
    (iblk1 (F := Ideal) V c 2 t : Vec Ideal S100x20 .f32) (ix2 k q) = (V c main_arg8 : S100x20.Idx → EReal) (ix2 k q) := by
  obtain ⟨-, -, -, -, i20, i21, -⟩ := idx1 t
  show (V c main_arg8 : S100x20.Idx → EReal) (((cfg1.win 2).blk t).view.emb (ix2 k q)) = _
  refine congrArg (V c main_arg8 : S100x20.Idx → EReal) (funext fun a => Fin.ext ?_)
  match a with
  | ⟨0, _⟩ => show win1_2.index t (0 : Fin 2) * 100 + 1 * k.val = k.val; omega
  | ⟨1, _⟩ => show win1_2.index t (1 : Fin 2) * 20 + 1 * q.val = q.val; omega

/-- Window 3's block at every point is the whole bias. -/
theorem blk1_3 (c : Dev nD) (t : Fin cfg1.N) (q : Fin 20) :
    (iblk1 (F := Ideal) V c 3 t : Vec Ideal S20 .f32) (ix1 q) = (V c main_arg9 : S20.Idx → EReal) (ix1 q) := by
  obtain ⟨-, -, -, -, -, -, i30, -⟩ := idx1 t
  show (V c main_arg9 : S20.Idx → EReal) (((cfg1.win 3).blk t).view.emb (ix1 q)) = _
  refine congrArg (V c main_arg9 : S20.Idx → EReal) (funext fun a => Fin.ext ?_)
  match a with
  | ⟨0, _⟩ => show win1_3.index t (0 : Fin 1) * 20 + 1 * q.val = q.val; omega

/-- What point t writes back is block t of layer2 of the arrays the region finds. -/
theorem flushed1 (c : Dev nD) (deg : FVec Ideal S102400 .f32)
    (hdeg : ∀ i, V c main_v4 i = shapeCast S102400x1 deg shapeCasts_S102400_S102400x1 i) (t : Fin cfg1.N) :
    (dat1 (F := Ideal) V c).flushed 4 t
      = ((cfg1.win 4).blk t).view.read (Elt Ideal) (layer2 (V c main_v25) deg (V c main_arg8) (V c main_arg9)) := by
  show (cfg1.win 4).cut (grid1.coords t) ((dat1 V c).after 4 t) = _
  rw [after1_4]
  unfold out1_4
  rw [View.canon_unit_zero hz2]
  simp only [View.ld_unit_zero (S := S6400x100) hz2, View.ld_unit_zero (S := S6400x1) hz2,
    View.ld_unit_zero (S := S100x20) hz2, View.ld_unit_zero (S := S20) hz1]
  obtain ⟨-, -, -, -, -, -, -, i40, i41⟩ := idx1 t
  have ht := lt1 t
  funext j
  obtain ⟨p, q, rfl⟩ : ∃ (p : Fin 6400) (q : Fin 20), j = ix2 p q := ⟨j 0, j 1, eq_ix2 j⟩
  have hemb : ((cfg1.win 4).blk t).view.emb (ix2 p q) = (ix2 (⟨t.val * 6400 + p.val, by omega⟩ : Fin 102400) q : S102400x20.Idx) := by
    funext a; apply Fin.ext
    match a with
    | ⟨0, _⟩ => show win1_4.index t (0 : Fin 2) * 6400 + 1 * p.val = t.val * 6400 + p.val; omega
    | ⟨1, _⟩ => show win1_4.index t (1 : Fin 2) * 20 + 1 * q.val = q.val; omega
  show k1_pay1 (F := Ideal) (iblk1 V c 0 t) (iblk1 V c 1 t) (iblk1 V c 2 t) (iblk1 V c 3 t) (ix2 p q)
    = layer2 (V c main_v25) deg (V c main_arg8) (V c main_arg9) (((cfg1.win 4).blk t).view.emb (ix2 p q))
  rw [hemb]
  exact point1 (V c main_v25) deg (V c main_arg8) (V c main_arg9) (iblk1 V c 0 t) (iblk1 V c 1 t) (iblk1 V c 2 t) (iblk1 V c 3 t)
    p q ⟨t.val * 6400 + p.val, by omega⟩ (fun k => blk1_0 V c t p k _ rfl)
    ((blk1_1 V c t p _ rfl).trans ((hdeg _).trans (Cert.LibColumn.shapeCast_a_a1_apply deg shapeCasts_S102400_S102400x1 _ (0 : Fin 1))))
    (fun k => blk1_2 V c t k q) (blk1_3 V c t q)

/-- An index of the result array is in point t's block iff each coordinate is in the block's range on its axis. -/
theorem mem_blk1 (t : Fin cfg1.N) (i : S102400x20.Idx) :
    i ∈ ((cfg1.win 4).blk t).view.set ↔ ∀ a : Fin 2, win1_4.index t a * S6400x20.size a ≤ (i a).val ∧ (i a).val < win1_4.index t a * S6400x20.size a + S6400x20.size a := by
  show i ∈ ((View.whole main_v26).slice (win1_4.rect t)).set ↔ _
  rw [View.set_slice_whole, Rect.mem_set_unit]
  exact Iff.rfl

/-- Every row is in the block of the point its number divided by 6400 names. -/
theorem cover1 (i : S102400x20.Idx) : ∃ t : Fin cfg1.N, (cfg1.win 4).flush t = true ∧ i ∈ ((cfg1.win 4).blk t).view.set := by
  have hi0 : (i 0).val < 102400 := (i 0).isLt
  have hi1 : (i 1).val < 20 := (i 1).isLt
  have hN : cfg1.N = 16 := N_1
  let t : Fin cfg1.N := ⟨(i 0).val / 6400, by rw [hN]; omega⟩
  obtain ⟨-, -, -, -, -, -, -, i40, i41⟩ := idx1 t
  have htv : t.val = (i 0).val / 6400 := rfl
  refine ⟨t, flush1_4 t, ?_⟩
  rw [mem_blk1]
  intro a
  match a with
  | ⟨0, _⟩ => show win1_4.index t (0 : Fin 2) * 6400 ≤ (i 0).val ∧ (i 0).val < win1_4.index t (0 : Fin 2) * 6400 + 6400; omega
  | ⟨1, _⟩ => show win1_4.index t (1 : Fin 2) * 20 ≤ (i 1).val ∧ (i 1).val < win1_4.index t (1 : Fin 2) * 20 + 20; omega

/-- THE SECOND PROJECTION: after the last point the result array is layer2 of the arrays the region found. -/
theorem region1_value (c : Dev nD) (deg : FVec Ideal S102400 .f32)
    (hdeg : ∀ i, V c main_v4 i = shapeCast S102400x1 deg shapeCasts_S102400_S102400x1 i) :
    (dat1 (F := Ideal) V c).arrAt 4 cfg1.N = layer2 (V c main_v25) deg (V c main_arg8) (V c main_arg9) :=
  (dat1 (F := Ideal) V c).arrAt_eq_of_cover 4 (layer2 (V c main_v25) deg (V c main_arg8) (V c main_arg9))
    (fun t _ => flushed1 V c deg hdeg t) cover1

end Kernel

end Cert.Gcn

end
-- ==== Proof.KVal.lean ====
import proofs.«168914_j82609400971796_1_alg».proof.Proof.FrameKI
import proofs.«168914_j82609400971796_1_alg».proof.Proof.FusionVal
import proofs.«168914_j82609400971796_1_alg».proof.Proof.ReadP
import proofs.«168914_j82609400971796_1_alg».proof.Proof.Gcn
import Idealize.ShloMosaic.Lib.StableHlo.Run

set_option maxRecDepth 16384

noncomputable section

namespace Cert.KernelIdeal.Val

open Cert.KernelIdeal Cert.KernelIdeal.Gen Cert.KernelIdeal.GenP
open Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-- Argument k of @main as the launch memory holds it on core c. -/
abbrev arg (b : Ref sig .tc) : Buf (Elt Ideal) ((c : Thread nD τ).loc b) := m ((c : Thread nD τ).loc b)

/-- A buffer that no operation of a host stretch writes keeps its contents (the written references compared one by one). -/
macro "host_keep" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## Before the first call: the messages and the degrees, as the reference computes them -/

theorem W1_keep (b : Ref sig .tc) (h : W1 m ρ c (Proc.devRef .tc b) = W0 m ρ c (Proc.devRef .tc b)) :
    W1 m ρ c (Proc.devRef .tc b) = arg m c b := h

theorem W1_arg3 : W1 m ρ c (Proc.devRef .tc main_arg3) = arg m c main_arg3 := by
  show StableHlo.after hostOps0 (W0 m ρ c) (Proc.devRef .tc main_arg3) = W0 m ρ c (Proc.devRef .tc main_arg3); host_keep hostOps0
theorem W1_arg4 : W1 m ρ c (Proc.devRef .tc main_arg4) = arg m c main_arg4 := by
  show StableHlo.after hostOps0 (W0 m ρ c) (Proc.devRef .tc main_arg4) = W0 m ρ c (Proc.devRef .tc main_arg4); host_keep hostOps0
theorem W1_arg5 : W1 m ρ c (Proc.devRef .tc main_arg5) = arg m c main_arg5 := by
  show StableHlo.after hostOps0 (W0 m ρ c) (Proc.devRef .tc main_arg5) = W0 m ρ c (Proc.devRef .tc main_arg5); host_keep hostOps0
theorem W1_arg6 : W1 m ρ c (Proc.devRef .tc main_arg6) = arg m c main_arg6 := by
  show StableHlo.after hostOps0 (W0 m ρ c) (Proc.devRef .tc main_arg6) = W0 m ρ c (Proc.devRef .tc main_arg6); host_keep hostOps0
theorem W1_arg7 : W1 m ρ c (Proc.devRef .tc main_arg7) = arg m c main_arg7 := by
  show StableHlo.after hostOps0 (W0 m ρ c) (Proc.devRef .tc main_arg7) = W0 m ρ c (Proc.devRef .tc main_arg7); host_keep hostOps0
theorem W1_arg8 : W1 m ρ c (Proc.devRef .tc main_arg8) = arg m c main_arg8 := by
  show StableHlo.after hostOps0 (W0 m ρ c) (Proc.devRef .tc main_arg8) = W0 m ρ c (Proc.devRef .tc main_arg8); host_keep hostOps0
theorem W1_arg9 : W1 m ρ c (Proc.devRef .tc main_arg9) = arg m c main_arg9 := by
  show StableHlo.after hostOps0 (W0 m ρ c) (Proc.devRef .tc main_arg9) = W0 m ρ c (Proc.devRef .tc main_arg9); host_keep hostOps0

set_option maxHeartbeats 8000000 in
/-- The first layer's messages: the rows of the node features gathered at the sources and summed at the destinations. -/
theorem W1_msg : W1 m ρ c (Proc.devRef .tc main_v14) = val_main_v9 (F := Ideal) (arg m c main_arg0) (arg m c main_arg3) (arg m c main_arg4) := by
  show StableHlo.after hostOps0 (W0 m ρ c) (Proc.devRef .tc main_v14) = _
  after_results_simp
  rfl

set_option maxHeartbeats 8000000 in
/-- The degrees, as a column: the vector the reference computes, reshaped. -/
theorem W1_deg (i : S102400x1.Idx) :
    V1 m ρ c main_v4 i = shapeCast S102400x1 (val_main_v13 (F := Ideal) (arg m c main_arg4)) Facts₀.shapeCasts_S102400_S102400x1 i := by
  show StableHlo.after hostOps0 (W0 m ρ c) (Proc.devRef .tc main_v4) i = _
  after_results_simp
  rfl

/-! ## The first call -/

theorem W2_h1 : W2 m ρ c (Proc.devRef .tc main_v15) = val_main_v23 (F := Ideal) (arg m c main_arg0) (arg m c main_arg3) (arg m c main_arg4) (arg m c main_arg6) (arg m c main_arg7) := by
  refine (W2_arr m ρ c 4).trans ((Cert.Gcn.region0_value (V1 m ρ) c (val_main_v13 (F := Ideal) (arg m c main_arg4)) (W1_deg m ρ c)).trans ?_)
  rw [show V1 m ρ c main_v14 = val_main_v9 (F := Ideal) (arg m c main_arg0) (arg m c main_arg3) (arg m c main_arg4) from W1_msg m ρ c,
    show V1 m ρ c main_arg6 = arg m c main_arg6 from W1_arg6 m ρ c, show V1 m ρ c main_arg7 = arg m c main_arg7 from W1_arg7 m ρ c]
  exact (Cert.Gcn.ref_layer1 _ _ _ _ _).symm

theorem W2_arg3 : W2 m ρ c (Proc.devRef .tc main_arg3) = arg m c main_arg3 := (W2_of_ne m ρ c main_arg3 (by decide)).trans (W1_arg3 m ρ c)
theorem W2_arg4 : W2 m ρ c (Proc.devRef .tc main_arg4) = arg m c main_arg4 := (W2_of_ne m ρ c main_arg4 (by decide)).trans (W1_arg4 m ρ c)
theorem W2_arg5 : W2 m ρ c (Proc.devRef .tc main_arg5) = arg m c main_arg5 := (W2_of_ne m ρ c main_arg5 (by decide)).trans (W1_arg5 m ρ c)
theorem W2_arg8 : W2 m ρ c (Proc.devRef .tc main_arg8) = arg m c main_arg8 := (W2_of_ne m ρ c main_arg8 (by decide)).trans (W1_arg8 m ρ c)
theorem W2_arg9 : W2 m ρ c (Proc.devRef .tc main_arg9) = arg m c main_arg9 := (W2_of_ne m ρ c main_arg9 (by decide)).trans (W1_arg9 m ρ c)
/-- The degree column is an input of the first call: it leaves it as it found it. -/
theorem W2_deg : W2 m ρ c (Proc.devRef .tc main_v4) = W1 m ρ c (Proc.devRef .tc main_v4) :=
  (W2_arr m ρ c 1).trans (((dat0 (V1 m ρ) c).arrAt_in 1 rfl _).trans (A_eq0 (V1 m ρ) c 1))

/-! ## Between the calls: the second layer's messages -/

theorem W3_arg5 : W3 m ρ c (Proc.devRef .tc main_arg5) = arg m c main_arg5 := by
  refine Eq.trans ?_ (W2_arg5 m ρ c)
  show StableHlo.after hostOps1 (W2 m ρ c) (Proc.devRef .tc main_arg5) = W2 m ρ c (Proc.devRef .tc main_arg5); host_keep hostOps1
theorem W3_arg8 : W3 m ρ c (Proc.devRef .tc main_arg8) = arg m c main_arg8 := by
  refine Eq.trans ?_ (W2_arg8 m ρ c)
  show StableHlo.after hostOps1 (W2 m ρ c) (Proc.devRef .tc main_arg8) = W2 m ρ c (Proc.devRef .tc main_arg8); host_keep hostOps1
theorem W3_arg9 : W3 m ρ c (Proc.devRef .tc main_arg9) = arg m c main_arg9 := by
  refine Eq.trans ?_ (W2_arg9 m ρ c)
  show StableHlo.after hostOps1 (W2 m ρ c) (Proc.devRef .tc main_arg9) = W2 m ρ c (Proc.devRef .tc main_arg9); host_keep hostOps1
theorem W3_deg : W3 m ρ c (Proc.devRef .tc main_v4) = W1 m ρ c (Proc.devRef .tc main_v4) := by
  refine Eq.trans ?_ (W2_deg m ρ c)
  show StableHlo.after hostOps1 (W2 m ρ c) (Proc.devRef .tc main_v4) = W2 m ρ c (Proc.devRef .tc main_v4); host_keep hostOps1

set_option maxHeartbeats 8000000 in
theorem W3_msg : W3 m ρ c (Proc.devRef .tc main_v25) = val_main_v33 (F := Ideal) (arg m c main_arg0) (arg m c main_arg3) (arg m c main_arg4) (arg m c main_arg6) (arg m c main_arg7) := by
  show StableHlo.after hostOps1 (W2 m ρ c) (Proc.devRef .tc main_v25) = _
  after_results_simp
  rw [W2_h1 m ρ c, W2_arg3 m ρ c, W2_arg4 m ρ c]
  rfl

/-- The reference computes the degrees a second time, by the same operations. -/
theorem deg_again (x4 : (⟨Cert.ReferenceIdeal.S1638400, .i32⟩ : BufTy).Contents (Elt Ideal)) :
    val_main_v37 (F := Ideal) x4 = val_main_v13 (F := Ideal) x4 := rfl

theorem W3_degcol (i : S102400x1.Idx) :
    V3 m ρ c main_v4 i = shapeCast S102400x1 (val_main_v37 (F := Ideal) (arg m c main_arg4)) Facts₀.shapeCasts_S102400_S102400x1 i := by
  rw [deg_again]
  exact (congrFun (W3_deg m ρ c) i).trans (W1_deg m ρ c i)

/-! ## The second call -/

theorem W4_h2 : W4 m ρ c (Proc.devRef .tc main_v26) = val_main_v47 (F := Ideal) (arg m c main_arg0) (arg m c main_arg3) (arg m c main_arg4) (arg m c main_arg6) (arg m c main_arg7) (arg m c main_arg8) (arg m c main_arg9) := by
  refine (W4_arr m ρ c 4).trans ((Cert.Gcn.region1_value (V3 m ρ) c (val_main_v37 (F := Ideal) (arg m c main_arg4)) (W3_degcol m ρ c)).trans ?_)
  rw [show V3 m ρ c main_v25 = val_main_v33 (F := Ideal) (arg m c main_arg0) (arg m c main_arg3) (arg m c main_arg4) (arg m c main_arg6) (arg m c main_arg7) from W3_msg m ρ c,
    show V3 m ρ c main_arg8 = arg m c main_arg8 from W3_arg8 m ρ c, show V3 m ρ c main_arg9 = arg m c main_arg9 from W3_arg9 m ρ c]
  exact (Cert.Gcn.ref_layer2 _ _ _ _ _ _ _).symm

theorem W4_arg5 : W4 m ρ c (Proc.devRef .tc main_arg5) = arg m c main_arg5 := (W4_of_ne m ρ c main_arg5 (by decide)).trans (W3_arg5 m ρ c)

/-! ## Before the fused call: the per-graph mean readout -/

set_option maxHeartbeats 8000000 in
theorem W5_hg : W5 m ρ c (Proc.devRef .tc main_v36) = val_main_v57 (F := Ideal) (arg m c main_arg0) (arg m c main_arg3) (arg m c main_arg4) (arg m c main_arg5) (arg m c main_arg6) (arg m c main_arg7) (arg m c main_arg8) (arg m c main_arg9) := by
  show StableHlo.after hostOps2 (W4 m ρ c) (Proc.devRef .tc main_v36) = _
  after_results_simp
  rw [W4_h2 m ρ c, W4_arg5 m ρ c]
  rfl

theorem W5_main_arg1 : W5 m ρ c (Proc.devRef .tc main_arg1) = arg m c main_arg1 :=
  ((W6_arr m ρ c 1).trans (((dat2 (V5 m ρ) c).arrAt_in 1 rfl _).trans (A_eq2 (V5 m ρ) c 1))).symm.trans (W6_main_arg1 m ρ c)
theorem W5_main_arg2 : W5 m ρ c (Proc.devRef .tc main_arg2) = arg m c main_arg2 :=
  ((W6_arr m ρ c 2).trans (((dat2 (V5 m ρ) c).arrAt_in 2 rfl _).trans (A_eq2 (V5 m ρ) c 2))).symm.trans (W6_main_arg2 m ρ c)
theorem W5_main_arg10 : W5 m ρ c (Proc.devRef .tc main_arg10) = arg m c main_arg10 :=
  ((W6_arr m ρ c 3).trans (((dat2 (V5 m ρ) c).arrAt_in 3 rfl _).trans (A_eq2 (V5 m ρ) c 3))).symm.trans (W6_main_arg10 m ρ c)
theorem W5_main_arg11 : W5 m ρ c (Proc.devRef .tc main_arg11) = arg m c main_arg11 :=
  ((W6_arr m ρ c 4).trans (((dat2 (V5 m ρ) c).arrAt_in 4 rfl _).trans (A_eq2 (V5 m ρ) c 4))).symm.trans (W6_main_arg11 m ρ c)
theorem W5_main_arg12 : W5 m ρ c (Proc.devRef .tc main_arg12) = arg m c main_arg12 :=
  ((W6_arr m ρ c 5).trans (((dat2 (V5 m ρ) c).arrAt_in 5 rfl _).trans (A_eq2 (V5 m ρ) c 5))).symm.trans (W6_main_arg12 m ρ c)
theorem W5_main_arg13 : W5 m ρ c (Proc.devRef .tc main_arg13) = arg m c main_arg13 :=
  ((W6_arr m ρ c 6).trans (((dat2 (V5 m ρ) c).arrAt_in 6 rfl _).trans (A_eq2 (V5 m ρ) c 6))).symm.trans (W6_main_arg13 m ρ c)
theorem W5_main_arg14 : W5 m ρ c (Proc.devRef .tc main_arg14) = arg m c main_arg14 :=
  ((W6_arr m ρ c 7).trans (((dat2 (V5 m ρ) c).arrAt_in 7 rfl _).trans (A_eq2 (V5 m ρ) c 7))).symm.trans (W6_main_arg14 m ρ c)
theorem W5_main_arg15 : W5 m ρ c (Proc.devRef .tc main_arg15) = arg m c main_arg15 :=
  ((W6_arr m ρ c 8).trans (((dat2 (V5 m ρ) c).arrAt_in 8 rfl _).trans (A_eq2 (V5 m ρ) c 8))).symm.trans (W6_main_arg15 m ρ c)
theorem W5_main_arg16 : W5 m ρ c (Proc.devRef .tc main_arg16) = arg m c main_arg16 :=
  ((W6_arr m ρ c 9).trans (((dat2 (V5 m ρ) c).arrAt_in 9 rfl _).trans (A_eq2 (V5 m ρ) c 9))).symm.trans (W6_main_arg16 m ρ c)
theorem W5_main_arg17 : W5 m ρ c (Proc.devRef .tc main_arg17) = arg m c main_arg17 :=
  ((W6_arr m ρ c 10).trans (((dat2 (V5 m ρ) c).arrAt_in 10 rfl _).trans (A_eq2 (V5 m ρ) c 10))).symm.trans (W6_main_arg17 m ρ c)
theorem W5_main_arg18 : W5 m ρ c (Proc.devRef .tc main_arg18) = arg m c main_arg18 :=
  ((W6_arr m ρ c 11).trans (((dat2 (V5 m ρ) c).arrAt_in 11 rfl _).trans (A_eq2 (V5 m ρ) c 11))).symm.trans (W6_main_arg18 m ρ c)
theorem W5_main_arg19 : W5 m ρ c (Proc.devRef .tc main_arg19) = arg m c main_arg19 :=
  ((W6_arr m ρ c 12).trans (((dat2 (V5 m ρ) c).arrAt_in 12 rfl _).trans (A_eq2 (V5 m ρ) c 12))).symm.trans (W6_main_arg19 m ρ c)
theorem W5_main_arg20 : W5 m ρ c (Proc.devRef .tc main_arg20) = arg m c main_arg20 :=
  ((W6_arr m ρ c 13).trans (((dat2 (V5 m ρ) c).arrAt_in 13 rfl _).trans (A_eq2 (V5 m ρ) c 13))).symm.trans (W6_main_arg20 m ρ c)
theorem W5_main_arg21 : W5 m ρ c (Proc.devRef .tc main_arg21) = arg m c main_arg21 :=
  ((W6_arr m ρ c 14).trans (((dat2 (V5 m ρ) c).arrAt_in 14 rfl _).trans (A_eq2 (V5 m ρ) c 14))).symm.trans (W6_main_arg21 m ρ c)
theorem W5_main_arg22 : W5 m ρ c (Proc.devRef .tc main_arg22) = arg m c main_arg22 :=
  ((W6_arr m ρ c 15).trans (((dat2 (V5 m ρ) c).arrAt_in 15 rfl _).trans (A_eq2 (V5 m ρ) c 15))).symm.trans (W6_main_arg22 m ρ c)
theorem W5_main_arg23 : W5 m ρ c (Proc.devRef .tc main_arg23) = arg m c main_arg23 :=
  ((W6_arr m ρ c 16).trans (((dat2 (V5 m ρ) c).arrAt_in 16 rfl _).trans (A_eq2 (V5 m ρ) c 16))).symm.trans (W6_main_arg23 m ρ c)
theorem W5_main_arg24 : W5 m ρ c (Proc.devRef .tc main_arg24) = arg m c main_arg24 :=
  ((W6_arr m ρ c 17).trans (((dat2 (V5 m ρ) c).arrAt_in 17 rfl _).trans (A_eq2 (V5 m ρ) c 17))).symm.trans (W6_main_arg24 m ρ c)
theorem W5_main_arg25 : W5 m ρ c (Proc.devRef .tc main_arg25) = arg m c main_arg25 :=
  ((W6_arr m ρ c 18).trans (((dat2 (V5 m ρ) c).arrAt_in 18 rfl _).trans (A_eq2 (V5 m ρ) c 18))).symm.trans (W6_main_arg25 m ρ c)
theorem W5_main_arg26 : W5 m ρ c (Proc.devRef .tc main_arg26) = arg m c main_arg26 :=
  ((W6_arr m ρ c 19).trans (((dat2 (V5 m ρ) c).arrAt_in 19 rfl _).trans (A_eq2 (V5 m ρ) c 19))).symm.trans (W6_main_arg26 m ρ c)
theorem W5_main_arg27 : W5 m ρ c (Proc.devRef .tc main_arg27) = arg m c main_arg27 :=
  ((W6_arr m ρ c 20).trans (((dat2 (V5 m ρ) c).arrAt_in 20 rfl _).trans (A_eq2 (V5 m ρ) c 20))).symm.trans (W6_main_arg27 m ρ c)
theorem W5_main_arg28 : W5 m ρ c (Proc.devRef .tc main_arg28) = arg m c main_arg28 :=
  ((W6_arr m ρ c 21).trans (((dat2 (V5 m ρ) c).arrAt_in 21 rfl _).trans (A_eq2 (V5 m ρ) c 21))).symm.trans (W6_main_arg28 m ρ c)
theorem W5_main_arg29 : W5 m ρ c (Proc.devRef .tc main_arg29) = arg m c main_arg29 :=
  ((W6_arr m ρ c 22).trans (((dat2 (V5 m ρ) c).arrAt_in 22 rfl _).trans (A_eq2 (V5 m ρ) c 22))).symm.trans (W6_main_arg29 m ρ c)
theorem W5_main_arg30 : W5 m ρ c (Proc.devRef .tc main_arg30) = arg m c main_arg30 :=
  ((W6_arr m ρ c 23).trans (((dat2 (V5 m ρ) c).arrAt_in 23 rfl _).trans (A_eq2 (V5 m ρ) c 23))).symm.trans (W6_main_arg30 m ρ c)
theorem W5_main_arg31 : W5 m ρ c (Proc.devRef .tc main_arg31) = arg m c main_arg31 :=
  ((W6_arr m ρ c 24).trans (((dat2 (V5 m ρ) c).arrAt_in 24 rfl _).trans (A_eq2 (V5 m ρ) c 24))).symm.trans (W6_main_arg31 m ρ c)
theorem W5_main_arg32 : W5 m ρ c (Proc.devRef .tc main_arg32) = arg m c main_arg32 :=
  ((W6_arr m ρ c 25).trans (((dat2 (V5 m ρ) c).arrAt_in 25 rfl _).trans (A_eq2 (V5 m ρ) c 25))).symm.trans (W6_main_arg32 m ρ c)
theorem W5_main_arg33 : W5 m ρ c (Proc.devRef .tc main_arg33) = arg m c main_arg33 :=
  ((W6_arr m ρ c 26).trans (((dat2 (V5 m ρ) c).arrAt_in 26 rfl _).trans (A_eq2 (V5 m ρ) c 26))).symm.trans (W6_main_arg33 m ρ c)
theorem W5_main_arg34 : W5 m ρ c (Proc.devRef .tc main_arg34) = arg m c main_arg34 :=
  ((W6_arr m ρ c 27).trans (((dat2 (V5 m ρ) c).arrAt_in 27 rfl _).trans (A_eq2 (V5 m ρ) c 27))).symm.trans (W6_main_arg34 m ρ c)
theorem W5_main_arg35 : W5 m ρ c (Proc.devRef .tc main_arg35) = arg m c main_arg35 :=
  ((W6_arr m ρ c 28).trans (((dat2 (V5 m ρ) c).arrAt_in 28 rfl _).trans (A_eq2 (V5 m ρ) c 28))).symm.trans (W6_main_arg35 m ρ c)
theorem W5_main_arg36 : W5 m ρ c (Proc.devRef .tc main_arg36) = arg m c main_arg36 :=
  ((W6_arr m ρ c 29).trans (((dat2 (V5 m ρ) c).arrAt_in 29 rfl _).trans (A_eq2 (V5 m ρ) c 29))).symm.trans (W6_main_arg36 m ρ c)
theorem W5_main_arg37 : W5 m ρ c (Proc.devRef .tc main_arg37) = arg m c main_arg37 :=
  ((W6_arr m ρ c 30).trans (((dat2 (V5 m ρ) c).arrAt_in 30 rfl _).trans (A_eq2 (V5 m ρ) c 30))).symm.trans (W6_main_arg37 m ρ c)
theorem W5_main_arg38 : W5 m ρ c (Proc.devRef .tc main_arg38) = arg m c main_arg38 :=
  ((W6_arr m ρ c 31).trans (((dat2 (V5 m ρ) c).arrAt_in 31 rfl _).trans (A_eq2 (V5 m ρ) c 31))).symm.trans (W6_main_arg38 m ρ c)
theorem W5_main_arg39 : W5 m ρ c (Proc.devRef .tc main_arg39) = arg m c main_arg39 :=
  ((W6_arr m ρ c 32).trans (((dat2 (V5 m ρ) c).arrAt_in 32 rfl _).trans (A_eq2 (V5 m ρ) c 32))).symm.trans (W6_main_arg39 m ρ c)
theorem W5_main_arg40 : W5 m ρ c (Proc.devRef .tc main_arg40) = arg m c main_arg40 :=
  ((W6_arr m ρ c 33).trans (((dat2 (V5 m ρ) c).arrAt_in 33 rfl _).trans (A_eq2 (V5 m ρ) c 33))).symm.trans (W6_main_arg40 m ρ c)
theorem W5_main_arg41 : W5 m ρ c (Proc.devRef .tc main_arg41) = arg m c main_arg41 :=
  ((W6_arr m ρ c 34).trans (((dat2 (V5 m ρ) c).arrAt_in 34 rfl _).trans (A_eq2 (V5 m ρ) c 34))).symm.trans (W6_main_arg41 m ρ c)
theorem W5_main_arg42 : W5 m ρ c (Proc.devRef .tc main_arg42) = arg m c main_arg42 :=
  ((W6_arr m ρ c 35).trans (((dat2 (V5 m ρ) c).arrAt_in 35 rfl _).trans (A_eq2 (V5 m ρ) c 35))).symm.trans (W6_main_arg42 m ρ c)

/-! ## The fused call -/

set_option maxHeartbeats 8000000 in
/-- The result buffer at the end of the run: the fused value of the reference's readout and the arguments. -/
theorem W6_out : W6 m ρ c (Proc.devRef .tc main_v37) = fused (val_main_v57 (F := Ideal) (arg m c main_arg0) (arg m c main_arg3) (arg m c main_arg4) (arg m c main_arg5) (arg m c main_arg6) (arg m c main_arg7) (arg m c main_arg8) (arg m c main_arg9)) (arg m c main_arg1) (arg m c main_arg2) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) (arg m c main_arg32) (arg m c main_arg33) (arg m c main_arg34) (arg m c main_arg35) (arg m c main_arg36) (arg m c main_arg37) (arg m c main_arg38) (arg m c main_arg39) (arg m c main_arg40) (arg m c main_arg41) (arg m c main_arg42) := by
  refine (W6_arr m ρ c 36).trans ((region2_value (V5 m ρ) c).trans ?_)
  rw [show V5 m ρ c main_v36 = _ from W5_hg m ρ c, show V5 m ρ c main_arg1 = _ from W5_main_arg1 m ρ c,
    show V5 m ρ c main_arg2 = _ from W5_main_arg2 m ρ c,
    show V5 m ρ c main_arg10 = _ from W5_main_arg10 m ρ c,
    show V5 m ρ c main_arg11 = _ from W5_main_arg11 m ρ c,
    show V5 m ρ c main_arg12 = _ from W5_main_arg12 m ρ c,
    show V5 m ρ c main_arg13 = _ from W5_main_arg13 m ρ c,
    show V5 m ρ c main_arg14 = _ from W5_main_arg14 m ρ c,
    show V5 m ρ c main_arg15 = _ from W5_main_arg15 m ρ c,
    show V5 m ρ c main_arg16 = _ from W5_main_arg16 m ρ c,
    show V5 m ρ c main_arg17 = _ from W5_main_arg17 m ρ c,
    show V5 m ρ c main_arg18 = _ from W5_main_arg18 m ρ c,
    show V5 m ρ c main_arg19 = _ from W5_main_arg19 m ρ c,
    show V5 m ρ c main_arg20 = _ from W5_main_arg20 m ρ c,
    show V5 m ρ c main_arg21 = _ from W5_main_arg21 m ρ c,
    show V5 m ρ c main_arg22 = _ from W5_main_arg22 m ρ c,
    show V5 m ρ c main_arg23 = _ from W5_main_arg23 m ρ c,
    show V5 m ρ c main_arg24 = _ from W5_main_arg24 m ρ c,
    show V5 m ρ c main_arg25 = _ from W5_main_arg25 m ρ c,
    show V5 m ρ c main_arg26 = _ from W5_main_arg26 m ρ c,
    show V5 m ρ c main_arg27 = _ from W5_main_arg27 m ρ c,
    show V5 m ρ c main_arg28 = _ from W5_main_arg28 m ρ c,
    show V5 m ρ c main_arg29 = _ from W5_main_arg29 m ρ c,
    show V5 m ρ c main_arg30 = _ from W5_main_arg30 m ρ c,
    show V5 m ρ c main_arg31 = _ from W5_main_arg31 m ρ c,
    show V5 m ρ c main_arg32 = _ from W5_main_arg32 m ρ c,
    show V5 m ρ c main_arg33 = _ from W5_main_arg33 m ρ c,
    show V5 m ρ c main_arg34 = _ from W5_main_arg34 m ρ c,
    show V5 m ρ c main_arg35 = _ from W5_main_arg35 m ρ c,
    show V5 m ρ c main_arg36 = _ from W5_main_arg36 m ρ c,
    show V5 m ρ c main_arg37 = _ from W5_main_arg37 m ρ c,
    show V5 m ρ c main_arg38 = _ from W5_main_arg38 m ρ c,
    show V5 m ρ c main_arg39 = _ from W5_main_arg39 m ρ c,
    show V5 m ρ c main_arg40 = _ from W5_main_arg40 m ρ c,
    show V5 m ρ c main_arg41 = _ from W5_main_arg41 m ρ c,
    show V5 m ρ c main_arg42 = _ from W5_main_arg42 m ρ c]

end Cert.KernelIdeal.Val

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.StageB.lean ====
/-
  The gate softmax, the three inputs scaled by its columns, and the rank-attention softmax: each kernel payload,
  applied to the reference's values of its inputs, is the reference's value of the stage's output.

  Every stage is a composition of three pieces, each written differently by the two programs but denoting the same
  array of extended reals: a dense layer (a matrix product plus a bias laid along the rows), the rectifier, and a row
  softmax. The first part proves the three bridges for arrays of any extents; the second chains them stage by stage.
-/
import proofs.«168914_j82609400971796_1_alg».proof.Proof.Gen.KernelIdeal.Skeleton
import proofs.«168914_j82609400971796_1_alg».proof.Proof.ReadP
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«168914_j82609400971796_1_alg».proof.Proof.LibRowFold
import proofs.«168914_j82609400971796_1_alg».proof.Proof.LibKeepdims
import proofs.«168914_j82609400971796_1_alg».proof.Proof.LibLreluRows

noncomputable section

namespace Cert.StageB

open Idealize.ShloMosaic Idealize.ShloMosaic.ValueIdx Cert.ReferenceIdeal Cert.ReferenceIdeal.ReadP

/-! ## Two spellings of one dense layer, one rectifier and one row softmax, as whole arrays of extended reals -/

/-- A matrix product of two operands narrowed to half precision, accumulated into zero, is the host's product of the
    operands themselves: at exact values narrowing is the identity and both are the same contraction sum. -/
theorem product_eq {sl sr so : Shape} (d d' : DotDims sl sr so) (hd : d = d') (prec : Option ContractPrecision)
    (h0 h1 : FTy.bf16.bits < FTy.f32.bits) (x : FVec Ideal sl .f32) (w : FVec Ideal sr .f32) :
    matmul d prec (truncf .bf16 x h0) (truncf .bf16 w h1) (constant (F := Ideal) so .f32 0x00000000#32)
      = Host.dotGeneral d' prec x w := by
  subst hd
  funext j
  show FloatOps.matmul d prec (truncf .bf16 x h0) (truncf .bf16 w h1) (constant so .f32 0x00000000#32) j
      = FloatOps.dotGeneral d prec _ x w j
  rw [Ideal.matmul_constant_zero_apply, Ideal.dotGeneral_apply]
  rfl

/-- A bias vector laid along every row: cast to one row and broadcast down the rows, or broadcast along axis 1 of a
    one-row matrix and that row broadcast down the rows. Entry (p, k) is the vector's entry k either way. -/
theorem biasRow_eq {α : Type} {m n : Nat} (b : (⟨1, ![n]⟩ : Shape).Idx → α)
    (hs : (⟨1, ![n]⟩ : Shape).ShapeCasts ⟨2, ![1, n]⟩) (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![m, n]⟩ ![0, 1]) :
    broadcastTo ⟨2, ![m, n]⟩ (shapeCast ⟨2, ![1, n]⟩ b hs) hb
      = broadcastInDim ⟨2, ![m, n]⟩ ![0, 1] h2 (broadcastInDim ⟨2, ![1, n]⟩ ![1] h1 b) := by
  funext i
  obtain ⟨p, k, rfl⟩ : ∃ (p : Fin m) (k : Fin n), i = ix2 p k := ⟨i 0, i 1, eq_ix2 i⟩
  rw [broadcastTo_1b_ab_apply, Cert.LibLreluRows.rowCast_apply, Cert.LibLreluRows.biasRows_apply]

/-- A per-row value kept as a column and spread over the columns: cast [a] → [a, 1] and broadcast, or broadcast along
    the axes [0] and then [0, 1]. Entry (p, c) is the vector's entry p either way. -/
theorem keepdims_eq {α : Type} {a b : Nat} (v : (⟨1, ![a]⟩ : Shape).Idx → α)
    (hs : (⟨1, ![a]⟩ : Shape).ShapeCasts ⟨2, ![a, 1]⟩) (hb : (⟨2, ![a, 1]⟩ : Shape).Broadcasts ⟨2, ![a, b]⟩)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank)) :
    broadcastTo ⟨2, ![a, b]⟩ (shapeCast ⟨2, ![a, 1]⟩ v hs) hb
      = broadcastInDim ⟨2, ![a, b]⟩ ![0, 1] h2 (broadcastInDim ⟨2, ![a, 1]⟩ ![0] h1 v) := by
  funext i
  obtain ⟨p, c, rfl⟩ : ∃ (p : Fin a) (c : Fin b), i = ix2 p c := ⟨i 0, i 1, eq_ix2 i⟩
  rw [Cert.Lib.Keepdims.broadcastTo_a1_ab_apply, Cert.Lib.Keepdims.shapeCast_a_a1_apply,
    Cert.Lib.Keepdims.broadcastInDim_a1_ab_apply, Cert.Lib.Keepdims.broadcastInDim_a_a1_apply]

/-- The rectifier against a splat zero is the rectifier against a rank-0 zero broadcast over the array. -/
theorem relu_eq {s : Shape} (h : (⟨0, ![]⟩ : Shape).BroadcastsInDim s ![]) (y : FVec Ideal s .f32) :
    maximumf y (broadcast s (Scalar.ofBits (F := Ideal) .f32 0x00000000#32))
      = maximumf y (broadcastInDim s ![] h (constant (F := Ideal) ⟨0, ![]⟩ .f32 0x00000000#32)) :=
  funext fun _ => rfl

/-- The maximum over each row from an accumulator c is unchanged by a further maximum with c: the fold of max from c
    is at least c. So the kernel's row maximum is the host's max(c, row maximum from c), whatever the word c denotes. -/
theorem rowMax_eq {R C : Nat} (y : FVec Ideal ⟨2, ![R, C]⟩ .f32) (acc : BitVec 32)
    (hr : (⟨2, ![R, C]⟩ : Shape).Reduces [1] ⟨1, ![R]⟩) (hφ : FKind.Formats .f32)
    (hacc : acc = FKind.maximumf.neutral .f32 hφ)
    (h0 : (⟨0, ![]⟩ : Shape).BroadcastsInDim ⟨1, ![R]⟩ ![])
    (hrt : (⟨2, ![R, C]⟩ : Shape).ReducesTo [1] ⟨1, ![R]⟩) (hu : 0 < (⟨0, ![]⟩ : Shape).numel) :
    multiReduction .maximumf [1] ⟨1, ![R]⟩ y acc hr hφ hacc
      = maximumf (broadcastInDim ⟨1, ![R]⟩ ![] h0 (constant (F := Ideal) ⟨0, ![]⟩ .f32 acc))
          (Host.reduce (FloatOps.maximumf (F := Ideal) (φ := .f32)) y (constant (F := Ideal) ⟨0, ![]⟩ .f32 acc) hrt hu) := by
  funext j
  obtain ⟨p, rfl⟩ : ∃ p : Fin R, j = ix1 p := ⟨j 0, eq_ix1 j⟩
  refine (Cert.Lib.RowFold.multiReduction_maximumf_row y acc hr hφ hacc p).trans ?_
  show _ = max (Ideal.ofBits .f32 acc) (Host.reduce (FloatOps.maximumf (F := Ideal) (φ := .f32)) y
      (constant (F := Ideal) ⟨0, ![]⟩ .f32 acc) hrt hu (ix1 p))
  rw [Cert.Lib.RowFold.hostReduce_maximumf_row y _ hrt hr hu p]
  exact (max_eq_right ((Finset.le_fold_max _).mpr (Or.inl le_rfl))).symm

/-- The row softmax in its two spellings. The kernel takes each row's maximum from the accumulator word cm, keeps it
    as a column by a cast and spreads it by a broadcast, subtracts, exponentiates, sums each row from zero, and divides.
    The host takes the row maximum from cm, takes a further maximum with cm (which changes nothing), keeps and spreads
    it by two broadcasts, and sums each row from a zero initial value. Entry by entry these are the same extended reals. -/
theorem softmax_eq {R C : Nat} (y : FVec Ideal ⟨2, ![R, C]⟩ .f32) (cm : BitVec 32)
    (hr : (⟨2, ![R, C]⟩ : Shape).Reduces [1] ⟨1, ![R]⟩) (hφ hφ' : FKind.Formats .f32)
    (haccm : cm = FKind.maximumf.neutral .f32 hφ) (haccs : (0x00000000#32 : BitVec 32) = FKind.add.neutral .f32 hφ')
    (hsc : (⟨1, ![R]⟩ : Shape).ShapeCasts ⟨2, ![R, 1]⟩) (hbc : (⟨2, ![R, 1]⟩ : Shape).Broadcasts ⟨2, ![R, C]⟩)
    (h0 : (⟨0, ![]⟩ : Shape).BroadcastsInDim ⟨1, ![R]⟩ ![])
    (h1 : (⟨1, ![R]⟩ : Shape).BroadcastsInDim ⟨2, ![R, 1]⟩ (![0] : Fin 1 → Fin (⟨2, ![R, 1]⟩ : Shape).rank))
    (h2 : (⟨2, ![R, 1]⟩ : Shape).BroadcastsInDim ⟨2, ![R, C]⟩ (![0, 1] : Fin 2 → Fin (⟨2, ![R, C]⟩ : Shape).rank))
    (hrt : (⟨2, ![R, C]⟩ : Shape).ReducesTo [1] ⟨1, ![R]⟩) (hu : 0 < (⟨0, ![]⟩ : Shape).numel) :
    divf (exp (subf y (broadcastTo ⟨2, ![R, C]⟩ (shapeCast ⟨2, ![R, 1]⟩ (multiReduction .maximumf [1] ⟨1, ![R]⟩ y cm hr hφ haccm) hsc) hbc))) (broadcastTo ⟨2, ![R, C]⟩ (shapeCast ⟨2, ![R, 1]⟩ (multiReduction .add [1] ⟨1, ![R]⟩ (exp (subf y (broadcastTo ⟨2, ![R, C]⟩ (shapeCast ⟨2, ![R, 1]⟩ (multiReduction .maximumf [1] ⟨1, ![R]⟩ y cm hr hφ haccm) hsc) hbc))) 0x00000000#32 hr hφ' haccs) hsc) hbc)
      = Host.divf (Host.exp (subf y (broadcastInDim ⟨2, ![R, C]⟩ ![0, 1] h2 (broadcastInDim ⟨2, ![R, 1]⟩ ![0] h1 (maximumf (broadcastInDim ⟨1, ![R]⟩ ![] h0 (constant (F := Ideal) ⟨0, ![]⟩ .f32 cm)) (Host.reduce (FloatOps.maximumf (F := Ideal) (φ := .f32)) y (constant (F := Ideal) ⟨0, ![]⟩ .f32 cm) hrt hu)))))) (broadcastInDim ⟨2, ![R, C]⟩ ![0, 1] h2 (broadcastInDim ⟨2, ![R, 1]⟩ ![0] h1 (Host.reduceAdd (Host.exp (subf y (broadcastInDim ⟨2, ![R, C]⟩ ![0, 1] h2 (broadcastInDim ⟨2, ![R, 1]⟩ ![0] h1 (maximumf (broadcastInDim ⟨1, ![R]⟩ ![] h0 (constant (F := Ideal) ⟨0, ![]⟩ .f32 cm)) (Host.reduce (FloatOps.maximumf (F := Ideal) (φ := .f32)) y (constant (F := Ideal) ⟨0, ![]⟩ .f32 cm) hrt hu)))))) (constant (F := Ideal) ⟨0, ![]⟩ .f32 0x00000000#32) hrt hu))) := by
  have hm : broadcastTo ⟨2, ![R, C]⟩ (shapeCast ⟨2, ![R, 1]⟩ (multiReduction .maximumf [1] ⟨1, ![R]⟩ y cm hr hφ haccm) hsc) hbc = broadcastInDim ⟨2, ![R, C]⟩ ![0, 1] h2 (broadcastInDim ⟨2, ![R, 1]⟩ ![0] h1 (maximumf (broadcastInDim ⟨1, ![R]⟩ ![] h0 (constant (F := Ideal) ⟨0, ![]⟩ .f32 cm)) (Host.reduce (FloatOps.maximumf (F := Ideal) (φ := .f32)) y (constant (F := Ideal) ⟨0, ![]⟩ .f32 cm) hrt hu))) :=
    (congrArg (fun v => broadcastTo ⟨2, ![R, C]⟩ (shapeCast ⟨2, ![R, 1]⟩ v hsc) hbc) (rowMax_eq y cm hr hφ haccm h0 hrt hu)).trans
      (keepdims_eq _ hsc hbc h1 h2)
  rw [hm, multiReduction_add_eq_hostReduceAdd _ _ hr hφ' haccs (constant (F := Ideal) ⟨0, ![]⟩ .f32 0x00000000#32) hrt hu Ideal.ofBits_zero_f32,
    keepdims_eq _ hsc hbc h1 h2]
  rfl

/-! ## The same bridges with the operands' equality as a hypothesis, for chaining stage after stage -/

/-- A dense layer (product plus a bias along every row) in its two spellings, of equal inputs. -/
theorem dense_eq {M K N : Nat} (d d' : DotDims ⟨2, ![M, K]⟩ ⟨2, ![K, N]⟩ ⟨2, ![M, N]⟩) (hd : d = d')
    (prec : Option ContractPrecision) (h0 h1 : FTy.bf16.bits < FTy.f32.bits)
    (x x' : FVec Ideal ⟨2, ![M, K]⟩ .f32) (hx : x = x') (w : FVec Ideal ⟨2, ![K, N]⟩ .f32) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (matmul d prec (truncf .bf16 x h0) (truncf .bf16 w h1) (constant (F := Ideal) ⟨2, ![M, N]⟩ .f32 0x00000000#32))
        (broadcastTo ⟨2, ![M, N]⟩ (shapeCast ⟨2, ![1, N]⟩ b hs) hb)
      = addf (Host.dotGeneral d' prec x' w)
        (broadcastInDim ⟨2, ![M, N]⟩ ![0, 1] hb2 (broadcastInDim ⟨2, ![1, N]⟩ ![1] hb1 b)) := by
  subst hx
  rw [product_eq d d' hd prec h0 h1 x w, biasRow_eq b hs hb hb1 hb2]

/-- The rectifier in its two spellings, of equal inputs. -/
theorem relu_eq' {s : Shape} (h : (⟨0, ![]⟩ : Shape).BroadcastsInDim s ![]) (y y' : FVec Ideal s .f32) (hy : y = y') :
    maximumf y (broadcast s (Scalar.ofBits (F := Ideal) .f32 0x00000000#32))
      = maximumf y' (broadcastInDim s ![] h (constant (F := Ideal) ⟨0, ![]⟩ .f32 0x00000000#32)) := by
  subst hy
  exact relu_eq h y

/-- The row softmax in its two spellings, of equal logits. -/
theorem softmax_eq' {R C : Nat} (y y' : FVec Ideal ⟨2, ![R, C]⟩ .f32) (hy : y = y') (cm : BitVec 32)
    (hr : (⟨2, ![R, C]⟩ : Shape).Reduces [1] ⟨1, ![R]⟩) (hφ hφ' : FKind.Formats .f32)
    (haccm : cm = FKind.maximumf.neutral .f32 hφ) (haccs : (0x00000000#32 : BitVec 32) = FKind.add.neutral .f32 hφ')
    (hsc : (⟨1, ![R]⟩ : Shape).ShapeCasts ⟨2, ![R, 1]⟩) (hbc : (⟨2, ![R, 1]⟩ : Shape).Broadcasts ⟨2, ![R, C]⟩)
    (h0 : (⟨0, ![]⟩ : Shape).BroadcastsInDim ⟨1, ![R]⟩ ![])
    (h1 : (⟨1, ![R]⟩ : Shape).BroadcastsInDim ⟨2, ![R, 1]⟩ (![0] : Fin 1 → Fin (⟨2, ![R, 1]⟩ : Shape).rank))
    (h2 : (⟨2, ![R, 1]⟩ : Shape).BroadcastsInDim ⟨2, ![R, C]⟩ (![0, 1] : Fin 2 → Fin (⟨2, ![R, C]⟩ : Shape).rank))
    (hrt : (⟨2, ![R, C]⟩ : Shape).ReducesTo [1] ⟨1, ![R]⟩) (hu : 0 < (⟨0, ![]⟩ : Shape).numel) :
    divf (exp (subf y (broadcastTo ⟨2, ![R, C]⟩ (shapeCast ⟨2, ![R, 1]⟩ (multiReduction .maximumf [1] ⟨1, ![R]⟩ y cm hr hφ haccm) hsc) hbc))) (broadcastTo ⟨2, ![R, C]⟩ (shapeCast ⟨2, ![R, 1]⟩ (multiReduction .add [1] ⟨1, ![R]⟩ (exp (subf y (broadcastTo ⟨2, ![R, C]⟩ (shapeCast ⟨2, ![R, 1]⟩ (multiReduction .maximumf [1] ⟨1, ![R]⟩ y cm hr hφ haccm) hsc) hbc))) 0x00000000#32 hr hφ' haccs) hsc) hbc)
      = Host.divf (Host.exp (subf y' (broadcastInDim ⟨2, ![R, C]⟩ ![0, 1] h2 (broadcastInDim ⟨2, ![R, 1]⟩ ![0] h1 (maximumf (broadcastInDim ⟨1, ![R]⟩ ![] h0 (constant (F := Ideal) ⟨0, ![]⟩ .f32 cm)) (Host.reduce (FloatOps.maximumf (F := Ideal) (φ := .f32)) y' (constant (F := Ideal) ⟨0, ![]⟩ .f32 cm) hrt hu)))))) (broadcastInDim ⟨2, ![R, C]⟩ ![0, 1] h2 (broadcastInDim ⟨2, ![R, 1]⟩ ![0] h1 (Host.reduceAdd (Host.exp (subf y' (broadcastInDim ⟨2, ![R, C]⟩ ![0, 1] h2 (broadcastInDim ⟨2, ![R, 1]⟩ ![0] h1 (maximumf (broadcastInDim ⟨1, ![R]⟩ ![] h0 (constant (F := Ideal) ⟨0, ![]⟩ .f32 cm)) (Host.reduce (FloatOps.maximumf (F := Ideal) (φ := .f32)) y' (constant (F := Ideal) ⟨0, ![]⟩ .f32 cm) hrt hu)))))) (constant (F := Ideal) ⟨0, ![]⟩ .f32 0x00000000#32) hrt hu))) := by
  subst hy
  exact softmax_eq y cm hr hφ hφ' haccm haccs hsc hbc h0 h1 h2 hrt hu

/-- A column spread over b columns: the kernel's broadcast [a, 1] → [a, b] is the host's broadcast along the axes [0, 1]. -/
theorem colSpread_eq {α : Type} {a b : Nat} (v : (⟨2, ![a, 1]⟩ : Shape).Idx → α)
    (hb : (⟨2, ![a, 1]⟩ : Shape).Broadcasts ⟨2, ![a, b]⟩)
    (h2 : (⟨2, ![a, 1]⟩ : Shape).BroadcastsInDim ⟨2, ![a, b]⟩ (![0, 1] : Fin 2 → Fin (⟨2, ![a, b]⟩ : Shape).rank)) :
    broadcastTo ⟨2, ![a, b]⟩ v hb = broadcastInDim ⟨2, ![a, b]⟩ ![0, 1] h2 v := by
  funext i
  obtain ⟨p, c, rfl⟩ : ∃ (p : Fin a) (c : Fin b), i = ix2 p c := ⟨i 0, i 1, eq_ix2 i⟩
  rw [Cert.Lib.Keepdims.broadcastTo_a1_ab_apply, Cert.Lib.Keepdims.broadcastInDim_a1_ab_apply]

/-- An array scaled row by row by one column of a weight array, in the two spellings of the column's spread, of equal
    operands. -/
theorem scaled_eq {a b n : Nat} (x x' : FVec Ideal ⟨2, ![a, b]⟩ .f32) (hx : x = x')
    (al al' : FVec Ideal ⟨2, ![a, n]⟩ .f32) (hal : al = al') (off : Fin 2 → Nat)
    (hsl hsl' : (⟨2, ![a, n]⟩ : Shape).Slices off ⟨2, ![a, 1]⟩)
    (hb : (⟨2, ![a, 1]⟩ : Shape).Broadcasts ⟨2, ![a, b]⟩)
    (h2 : (⟨2, ![a, 1]⟩ : Shape).BroadcastsInDim ⟨2, ![a, b]⟩ (![0, 1] : Fin 2 → Fin (⟨2, ![a, b]⟩ : Shape).rank)) :
    mulf x (broadcastTo ⟨2, ![a, b]⟩ (extractStridedSlice ⟨2, ![a, 1]⟩ off al hsl) hb)
      = mulf x' (broadcastInDim ⟨2, ![a, b]⟩ ![0, 1] h2 (extractStridedSlice ⟨2, ![a, 1]⟩ off al' hsl')) := by
  subst hx hal
  rw [colSpread_eq _ hb h2]

/-! ## The stages -/

variable (x0 : (⟨S102400x64, .f32⟩ : BufTy).Contents (Elt Ideal)) (x1 : (⟨S512x200, .f32⟩ : BufTy).Contents (Elt Ideal)) (x2 : (⟨S512x300, .f32⟩ : BufTy).Contents (Elt Ideal)) (x3 : (⟨S1638400, .i32⟩ : BufTy).Contents (Elt Ideal)) (x4 : (⟨S1638400, .i32⟩ : BufTy).Contents (Elt Ideal)) (x5 : (⟨S102400, .i32⟩ : BufTy).Contents (Elt Ideal)) (x6 : (⟨S64x100, .f32⟩ : BufTy).Contents (Elt Ideal)) (x7 : (⟨S100, .f32⟩ : BufTy).Contents (Elt Ideal)) (x8 : (⟨S100x20, .f32⟩ : BufTy).Contents (Elt Ideal)) (x9 : (⟨S20, .f32⟩ : BufTy).Contents (Elt Ideal)) (x10 : (⟨S520x128, .f32⟩ : BufTy).Contents (Elt Ideal)) (x11 : (⟨S128, .f32⟩ : BufTy).Contents (Elt Ideal)) (x12 : (⟨S128x3, .f32⟩ : BufTy).Contents (Elt Ideal)) (x13 : (⟨S3, .f32⟩ : BufTy).Contents (Elt Ideal)) (x14 : (⟨S20x64, .f32⟩ : BufTy).Contents (Elt Ideal)) (x15 : (⟨S64, .f32⟩ : BufTy).Contents (Elt Ideal)) (x16 : (⟨S200x64, .f32⟩ : BufTy).Contents (Elt Ideal)) (x17 : (⟨S64, .f32⟩ : BufTy).Contents (Elt Ideal)) (x18 : (⟨S300x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64x512, .f32⟩ : BufTy).Contents (Elt Ideal)) (x27 : (⟨S64x512, .f32⟩ : BufTy).Contents (Elt Ideal)) (x28 : (⟨S64x512, .f32⟩ : BufTy).Contents (Elt Ideal)) (x29 : (⟨S520x128, .f32⟩ : BufTy).Contents (Elt Ideal)) (x30 : (⟨S128, .f32⟩ : BufTy).Contents (Elt Ideal)) (x31 : (⟨S128x8, .f32⟩ : BufTy).Contents (Elt Ideal)) (x32 : (⟨S8, .f32⟩ : BufTy).Contents (Elt Ideal)) (x33 : (⟨S64x128, .f32⟩ : BufTy).Contents (Elt Ideal)) (x34 : (⟨S128, .f32⟩ : BufTy).Contents (Elt Ideal)) (x35 : (⟨S128x32, .f32⟩ : BufTy).Contents (Elt Ideal)) (x36 : (⟨S32, .f32⟩ : BufTy).Contents (Elt Ideal)) (x37 : (⟨S32x1, .f32⟩ : BufTy).Contents (Elt Ideal)) (x38 : (⟨S1, .f32⟩ : BufTy).Contents (Elt Ideal)) (x39 : (⟨S128, .f32⟩ : BufTy).Contents (Elt Ideal)) (x40 : (⟨S128, .f32⟩ : BufTy).Contents (Elt Ideal)) (x41 : (⟨S32, .f32⟩ : BufTy).Contents (Elt Ideal)) (x42 : (⟨S32, .f32⟩ : BufTy).Contents (Elt Ideal))

theorem alpha_eq :
    Cert.KernelIdeal.Gen.k2_pay3 (F := Ideal) (val_main_v57 (F := Ideal) x0 x3 x4 x5 x6 x7 x8 x9) x1 x2 x10 x11 x12 x13 = (val_main_v78 (F := Ideal) x0 x1 x2 x3 x4 x5 x6 x7 x8 x9 x10 x11 x12 x13) := by
  unfold Cert.KernelIdeal.Gen.k2_pay3 Cert.KernelIdeal.Gen.k2_pay2
  unfold val_main_v78 val_main_v77 val_main_v76 val_main_v75 val_main_v74 val_main_v73 val_main_v72 val_main_v71
    val_main_v70 val_main_v69 val_main_v68 val_main_v67 val_main_v66 val_main_v65 val_main_v64 val_main_v63
    val_main_v62 val_main_v61 val_main_v60 val_main_v59 val_main_v58 val_main_cst_13 val_main_cst_14 val_main_cst_15
    val_main_call2_v0 val_main_call2_cst
  generalize val_main_v57 (F := Ideal) x0 x3 x4 x5 x6 x7 x8 x9 = hg
  refine softmax_eq' _ _ ?_ _ _ _ _ _ _ _ _ _ _ _ _ _
  refine dense_eq _ _ rfl _ _ _ _ _ ?_ _ _ _ _ _ _
  refine relu_eq' _ _ _ ?_
  refine dense_eq _ _ rfl _ _ _ _ _ ?_ _ _ _ _ _ _
  rw [shapeCast_self]

theorem hg2_eq :
    Cert.KernelIdeal.Gen.k2_pay4 (F := Ideal) (val_main_v57 (F := Ideal) x0 x3 x4 x5 x6 x7 x8 x9) x1 x2 x10 x11 x12 x13 = (val_main_v81 (F := Ideal) x0 x1 x2 x3 x4 x5 x6 x7 x8 x9 x10 x11 x12 x13) := by
  unfold Cert.KernelIdeal.Gen.k2_pay4 Cert.KernelIdeal.Gen.k2_pay2
  unfold val_main_v81 val_main_v80 val_main_v79
  exact scaled_eq _ _ (shapeCast_self _ _) _ _ (alpha_eq x0 x1 x2 x3 x4 x5 x6 x7 x8 x9 x10 x11 x12 x13) _ _ _ _ _

theorem sf2_eq :
    Cert.KernelIdeal.Gen.k2_pay5 (F := Ideal) (val_main_v57 (F := Ideal) x0 x3 x4 x5 x6 x7 x8 x9) x1 x2 x10 x11 x12 x13 = (val_main_v84 (F := Ideal) x0 x1 x2 x3 x4 x5 x6 x7 x8 x9 x10 x11 x12 x13) := by
  unfold Cert.KernelIdeal.Gen.k2_pay5
  unfold val_main_v84 val_main_v83 val_main_v82
  exact scaled_eq _ _ rfl _ _ (alpha_eq x0 x1 x2 x3 x4 x5 x6 x7 x8 x9 x10 x11 x12 x13) _ _ _ _ _

theorem x32_eq :
    Cert.KernelIdeal.Gen.k2_pay6 (F := Ideal) (val_main_v57 (F := Ideal) x0 x3 x4 x5 x6 x7 x8 x9) x1 x2 x10 x11 x12 x13 = (val_main_v87 (F := Ideal) x0 x1 x2 x3 x4 x5 x6 x7 x8 x9 x10 x11 x12 x13) := by
  unfold Cert.KernelIdeal.Gen.k2_pay6
  unfold val_main_v87 val_main_v86 val_main_v85
  exact scaled_eq _ _ rfl _ _ (alpha_eq x0 x1 x2 x3 x4 x5 x6 x7 x8 x9 x10 x11 x12 x13) _ _ _ _ _

theorem attnh_eq :
    Cert.KernelIdeal.Gen.k2_pay16 (F := Ideal) (val_main_v81 (F := Ideal) x0 x1 x2 x3 x4 x5 x6 x7 x8 x9 x10 x11 x12 x13) (val_main_v84 (F := Ideal) x0 x1 x2 x3 x4 x5 x6 x7 x8 x9 x10 x11 x12 x13) (val_main_v87 (F := Ideal) x0 x1 x2 x3 x4 x5 x6 x7 x8 x9 x10 x11 x12 x13) x29 x30 = (val_main_v188 (F := Ideal) x0 x1 x2 x3 x4 x5 x6 x7 x8 x9 x10 x11 x12 x13 x29 x30) := by
  unfold Cert.KernelIdeal.Gen.k2_pay16
  unfold val_main_v188 val_main_v187 val_main_v186 val_main_v185 val_main_v184 val_main_v183 val_main_call6_v0
    val_main_call6_cst
  generalize val_main_v81 (F := Ideal) x0 x1 x2 x3 x4 x5 x6 x7 x8 x9 x10 x11 x12 x13 = a
  generalize val_main_v84 (F := Ideal) x0 x1 x2 x3 x4 x5 x6 x7 x8 x9 x10 x11 x12 x13 = b
  generalize val_main_v87 (F := Ideal) x0 x1 x2 x3 x4 x5 x6 x7 x8 x9 x10 x11 x12 x13 = c
  refine relu_eq' _ _ _ ?_
  refine dense_eq _ _ rfl _ _ _ _ _ ?_ _ _ _ _ _ _
  rfl

theorem beta_eq :
    Cert.KernelIdeal.Gen.k2_pay17 (F := Ideal) (val_main_v188 (F := Ideal) x0 x1 x2 x3 x4 x5 x6 x7 x8 x9 x10 x11 x12 x13 x29 x30) x31 x32 = (val_main_v203 (F := Ideal) x0 x1 x2 x3 x4 x5 x6 x7 x8 x9 x10 x11 x12 x13 x29 x30 x31 x32) := by
  unfold Cert.KernelIdeal.Gen.k2_pay17
  unfold val_main_v203 val_main_v202 val_main_v201 val_main_v200 val_main_v199 val_main_v198 val_main_v197 val_main_v196
    val_main_v195 val_main_v194 val_main_v193 val_main_v192 val_main_v191 val_main_v190 val_main_v189 val_main_cst_31
    val_main_cst_32 val_main_cst_33
  generalize val_main_v188 (F := Ideal) x0 x1 x2 x3 x4 x5 x6 x7 x8 x9 x10 x11 x12 x13 x29 x30 = h
  refine softmax_eq' _ _ ?_ _ _ _ _ _ _ _ _ _ _ _ _ _
  exact dense_eq _ _ rfl _ _ _ _ _ rfl _ _ _ _ _ _

end Cert.StageB

end
-- ==== Proof.LibUnitAxis.lean ====
/-
  A vector of n entries laid out as an [n,1] column, or as a [1,n] row, holds the same entries whichever way the unit
  axis was added: by a reshape (row-major order is unchanged by an axis of extent one) or by a broadcast that places the
  vector's axis at position 0 (for the column) or 1 (for the row). Stated for every n and every element type, with the
  side conditions of the two operations as arbitrary proofs, so that a printed program's own proofs unify.
-/
import Idealize.ShloMosaic.Lib.Pipeline.Value
import Idealize.ShloMosaic.Lib.ValueIdx

namespace Cert.LibUnitAxis

open Idealize.ShloMosaic Idealize.ShloMosaic.ValueIdx

variable {α : Type}

/-- [n] → [n,1]: the reshape and the broadcast along axis 0 are one function. -/
theorem column_cast_eq_spread (n : ℕ) (v : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  have hj0 : (j 0).val < n := (j 0).isLt
  rw [shapeCast_apply v h j (ix1 (j 0)) (by
        rw [Shape.rowMajor_val_one, Shape.rowMajor_val_two]; show (j 0).val = (j 0).val * 1 + (j 1).val; omega),
    broadcastInDim_apply ![0] hb v j (ix1 (j 0)) (fun a => by
        match a with
        | ⟨0, _⟩ =>
          show (j 0).val = if n = 1 then 0 else (j 0).val
          split
          · omega
          · rfl)]

/-- [n] → [1,n]: the reshape and the broadcast along axis 1 are one function. -/
theorem row_cast_eq_spread (n : ℕ) (v : (⟨1, ![n]⟩ : Shape).Idx → α)
    (h : (⟨1, ![n]⟩ : Shape).ShapeCasts ⟨2, ![1, n]⟩)
    (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  have hj1 : (j 1).val < n := (j 1).isLt
  rw [shapeCast_apply v h j (ix1 (j 1)) (by
        rw [Shape.rowMajor_val_one, Shape.rowMajor_val_two]; show (j 1).val = (j 0).val * n + (j 1).val; rw [hj0]; omega),
    broadcastInDim_apply ![1] hb v j (ix1 (j 1)) (fun a => by
        match a with
        | ⟨0, _⟩ =>
          show (j 1).val = if n = 1 then 0 else (j 1).val
          split
          · omega
          · rfl)]

end Cert.LibUnitAxis
-- ==== Proof.StageC.lean ====
/-
  Three branches of a fused graph-network readout, each a dense layer followed by layer normalisation and the rectifier,
  and the product of each branch with a rank-factor matrix: the tiled program's values equal the reference program's,
  as whole arrays of extended reals. Nothing here needs the inputs finite: every step is the same function in its two
  spellings.
-/
import proofs.«168914_j82609400971796_1_alg».proof.Proof.Gen.KernelIdeal.Skeleton
import proofs.«168914_j82609400971796_1_alg».proof.Proof.ReadP
import Idealize.ShloMosaic.PureOps.Ideal.Laws
import Idealize.ShloMosaic.Lib.ValueIdx
import Idealize.ShloMosaic.Lib.ValueLayout
import Idealize.ShloMosaic.Lib.Pipeline.Value
import proofs.«168914_j82609400971796_1_alg».proof.Proof.LibDenseRows
import proofs.«168914_j82609400971796_1_alg».proof.Proof.LibKeepdims
import proofs.«168914_j82609400971796_1_alg».proof.Proof.LibRowFold
import proofs.«168914_j82609400971796_1_alg».proof.Proof.LibUnitAxis

noncomputable section

namespace Cert.StageC

/-! ## The two spellings of each layout / reduction step, as whole arrays

Every equation below is between two functions on the extended reals; each is read entry by entry. -/

section Whole

open Idealize.ShloMosaic Idealize.ShloMosaic.ValueIdx

variable {R C : Nat}

/-- The sum of every row taken on the vector unit from the zero accumulator is the host's row sum started at
    the rank-0 constant 0: at row p both are Σ_j y[p, j] (the host's initial value 0 adds nothing). -/
theorem rowSum_eq (y : FVec Ideal ⟨2, ![R, C]⟩ .f32)
    (hr : (⟨2, ![R, C]⟩ : Shape).Reduces [1] ⟨1, ![R]⟩) (hφ : FKind.Formats .f32)
    (hacc : (0x00000000#32 : BitVec FTy.f32.bits) = FKind.add.neutral .f32 hφ)
    (h' : (⟨2, ![R, C]⟩ : Shape).ReducesTo [1] ⟨1, ![R]⟩) (hu : 0 < (⟨0, ![]⟩ : Shape).numel) :
    multiReduction .add [1] ⟨1, ![R]⟩ y 0x00000000#32 hr hφ hacc
      = Host.reduceAdd y (constant (F := Ideal) ⟨0, ![]⟩ .f32 0x00000000#32) h' hu := by
  funext i
  obtain ⟨p, rfl⟩ : ∃ p, i = ix1 p := ⟨i 0, eq_ix1 i⟩
  refine (Cert.Lib.RowFold.multiReduction_add_row y _ hr hφ hacc p).trans ?_
  refine Eq.trans ?_ (Cert.Lib.RowFold.hostReduceAdd_row y _ h' hr hu p).symm
  show _ = Ideal.ofBits .f32 0x00000000#32 + _
  rw [Ideal.ofBits_zero_f32, zero_add]

/-- A scalar splat over a shape is the rank-0 constant broadcast over it: every entry is the constant. -/
theorem splat_eq {s : Shape} (c : BitVec FTy.f32.bits) (h : (⟨0, ![]⟩ : Shape).BroadcastsInDim s ![]) :
    broadcast s (Scalar.ofBits (F := Ideal) .f32 c)
      = broadcastInDim s ![] h (constant (F := Ideal) ⟨0, ![]⟩ .f32 c) := by
  funext i
  rfl

/-- A column [R, 1] spread over C columns, in the vector unit's and in the host's spelling: entry (p, k) is
    the column's entry (p, 0). -/
theorem spreadCol_eq {α : Type} (v : (⟨2, ![R, 1]⟩ : Shape).Idx → α)
    (hb : (⟨2, ![R, 1]⟩ : Shape).Broadcasts ⟨2, ![R, C]⟩)
    (h : (⟨2, ![R, 1]⟩ : Shape).BroadcastsInDim ⟨2, ![R, C]⟩ ![0, 1]) :
    broadcastTo ⟨2, ![R, C]⟩ v hb = broadcastInDim ⟨2, ![R, C]⟩ ![0, 1] h v := by
  funext i
  obtain ⟨p, k, rfl⟩ : ∃ p k, i = ix2 p k := ⟨i 0, i 1, eq_ix2 i⟩
  exact (Cert.Lib.Keepdims.broadcastTo_a1_ab_apply v hb p k).trans
    (Cert.Lib.Keepdims.broadcastInDim_a1_ab_apply v h p k).symm

/-- A vector of C entries laid along every one of R rows, in the two spellings (cast to one row and
    broadcast down; broadcast to one row and broadcast down): entry (p, k) is the vector's entry k. -/
theorem biasRows_eq {α : Type} (g : (⟨1, ![C]⟩ : Shape).Idx → α)
    (hs : (⟨1, ![C]⟩ : Shape).ShapeCasts ⟨2, ![1, C]⟩) (hb : (⟨2, ![1, C]⟩ : Shape).Broadcasts ⟨2, ![R, C]⟩)
    (h1 : (⟨1, ![C]⟩ : Shape).BroadcastsInDim ⟨2, ![1, C]⟩ ![1])
    (h2 : (⟨2, ![1, C]⟩ : Shape).BroadcastsInDim ⟨2, ![R, C]⟩ ![0, 1]) :
    broadcastTo ⟨2, ![R, C]⟩ (shapeCast ⟨2, ![1, C]⟩ g hs) hb
      = broadcastInDim ⟨2, ![R, C]⟩ ![0, 1] h2 (broadcastInDim ⟨2, ![1, C]⟩ ![1] h1 g) := by
  funext i
  obtain ⟨p, k, rfl⟩ : ∃ p k, i = ix2 p k := ⟨i 0, i 1, eq_ix2 i⟩
  refine (broadcastTo_1b_ab_apply _ hb p k).trans ?_
  refine (Cert.LibLreluRows.rowCast_apply hs g k).trans ?_
  exact (Cert.LibLreluRows.biasRows_apply h1 h2 g p k).symm

/-- The matrix unit's product of two operands narrowed to half precision, into the zero accumulator, is the
    host's dot product of the operands: at (p, q) both are Σ_k x[p, k] · w[k, q] (narrowing is the identity on
    exact values). -/
theorem product_eq {M K N : Nat} (prec : Option ContractPrecision) (h0 h1 : FTy.bf16.bits < FTy.f32.bits)
    (x : FVec Ideal ⟨2, ![M, K]⟩ .f32) (w : FVec Ideal ⟨2, ![K, N]⟩ .f32) :
    matmul (DotDims.plain M K N) prec (truncf .bf16 x h0) (truncf .bf16 w h1)
        (constant ⟨2, ![M, N]⟩ .f32 0x00000000#32)
      = Host.dotGeneral (DotDims.plain M K N) prec x w := by
  funext i
  obtain ⟨p, q, rfl⟩ : ∃ p q, i = ix2 p q := ⟨i 0, i 1, eq_ix2 i⟩
  exact (Cert.Dense.tileProduct_apply M K N prec h0 h1 x w p q).trans
    (Cert.Dense.hostProduct_apply M K N prec x w p q).symm

end Whole

/-! ## Layer normalisation of the rows of an [R, C] array, followed by the rectifier

    LN(y; g, b)[p, k] = max(g[k] · (y[p, k] − m[p]) · rsqrt(v[p] + ε) + b[k], 0),
    m[p] = (Σ_j y[p, j]) / n,   v[p] = (Σ_j (y[p, j] − m[p])²) / n,

with n and ε the two single-precision constants 64 and 1e-5, kept as their words (the same words on both sides). The
vector unit's spelling reduces with a zero accumulator, keeps the reduced axis by a reshape and spreads columns and bias
rows by vector broadcasts; the host's spelling reduces from a rank-0 zero and uses broadcasts along named axes. Each
step is the same function of its operand, so the two compositions agree on every input array of extended reals. -/

section LayerNorm

open Idealize.ShloMosaic Idealize.ShloMosaic.ValueIdx

variable {R C : Nat}

/-- Row sums divided by n, kept as a column: the vector unit's spelling. -/
def kerStat (x : FVec Ideal ⟨2, ![R, C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩) : FVec Ideal ⟨2, ![R, 1]⟩ .f32 :=
  divf (shapeCast ⟨2, ![R, 1]⟩ (multiReduction .add [1] ⟨1, ![R]⟩ x 0x00000000#32 hr hφ hacc) hsc)
    (broadcast ⟨2, ![R, 1]⟩ (Scalar.ofBits (F := Ideal) .f32 0x42800000#32))

/-- Row sums divided by n, kept as a column: the host's spelling. -/
def refStat (x : FVec Ideal ⟨2, ![R, C]⟩ .f32) (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![]) : FVec Ideal ⟨2, ![R, 1]⟩ .f32 :=
  Host.divf
    (broadcastInDim ⟨2, ![R, 1]⟩ ![0] k0
      (Host.reduceAdd x (constant (F := Ideal) ⟨0, ![]⟩ .f32 0x00000000#32) h' hu))
    (broadcastInDim ⟨2, ![R, 1]⟩ ![] ks (constant (F := Ideal) ⟨0, ![]⟩ .f32 0x42800000#32))

theorem stat_eq (x : FVec Ideal ⟨2, ![R, C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![]) :
    kerStat x hr hφ hacc hsc = refStat x h' hu k0 ks := by
  unfold kerStat refStat
  rw [rowSum_eq x hr hφ hacc h' hu, Cert.LibUnitAxis.column_cast_eq_spread R _ hsc k0, splat_eq _ ks]
  rfl

/-- The deviation of every entry from its row's mean: the vector unit's spelling. -/
def kerDev (x : FVec Ideal ⟨2, ![R, C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩) : FVec Ideal ⟨2, ![R, C]⟩ .f32 :=
  subf x (broadcastTo ⟨2, ![R, C]⟩ (kerStat x hr hφ hacc hsc) hbc)

/-- The deviation of every entry from its row's mean: the host's spelling. -/
def refDev (x : FVec Ideal ⟨2, ![R, C]⟩ .f32) (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1]) : FVec Ideal ⟨2, ![R, C]⟩ .f32 :=
  subf x (broadcastInDim ⟨2, ![R, C]⟩ ![0, 1] kc (refStat x h' hu k0 ks))

theorem dev_eq (x : FVec Ideal ⟨2, ![R, C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩)
    (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1]) :
    kerDev x hr hφ hacc hsc hbc = refDev x h' hu k0 ks kc := by
  unfold kerDev refDev
  rw [stat_eq x hr hφ hacc hsc h' hu k0 ks, spreadCol_eq _ hbc kc]

/-- Layer normalisation and rectifier: the vector unit's spelling. -/
def kerLN (y : FVec Ideal ⟨2, ![R, C]⟩ .f32) (g b : FVec Ideal ⟨1, ![C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩)
    (hsr : (⟨1, ![C]⟩ : Shape).ShapeCasts ⟨2, ![1, C]⟩) (hbr : (⟨2, ![1, C]⟩ : Shape).Broadcasts ⟨2, ![R, C]⟩) : FVec Ideal ⟨2, ![R, C]⟩ .f32 :=
  maximumf
    (addf
      (mulf
        (mulf (broadcastTo ⟨2, ![R, C]⟩ (shapeCast ⟨2, ![1, C]⟩ g hsr) hbr) (kerDev y hr hφ hacc hsc hbc))
        (broadcastTo ⟨2, ![R, C]⟩
          (rsqrt
            (addf (kerStat (mulf (kerDev y hr hφ hacc hsc hbc) (kerDev y hr hφ hacc hsc hbc)) hr hφ hacc hsc)
              (broadcast ⟨2, ![R, 1]⟩ (Scalar.ofBits (F := Ideal) .f32 0x3727C5AC#32))))
          hbc))
      (broadcastTo ⟨2, ![R, C]⟩ (shapeCast ⟨2, ![1, C]⟩ b hsr) hbr))
    (broadcast ⟨2, ![R, C]⟩ (Scalar.ofBits (F := Ideal) .f32 0x00000000#32))

/-- Layer normalisation and rectifier: the host's spelling. -/
def refLN (y : FVec Ideal ⟨2, ![R, C]⟩ .f32) (g b : FVec Ideal ⟨1, ![C]⟩ .f32) (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1])
    (k1 : (⟨1, ![C]⟩ : Shape).BroadcastsInDim ⟨2, ![1, C]⟩ ![1])
    (k2 : (⟨2, ![1, C]⟩ : Shape).BroadcastsInDim ⟨2, ![R, C]⟩ ![0, 1])
    (kz : (⟨0, ![]⟩ : Shape).BroadcastsInDim ⟨2, ![R, C]⟩ ![]) : FVec Ideal ⟨2, ![R, C]⟩ .f32 :=
  maximumf
    (addf
      (mulf
        (mulf (broadcastInDim ⟨2, ![R, C]⟩ ![0, 1] k2 (broadcastInDim ⟨2, ![1, C]⟩ ![1] k1 g))
          (refDev y h' hu k0 ks kc))
        (broadcastInDim ⟨2, ![R, C]⟩ ![0, 1] kc
          (Host.rsqrt
            (addf (refStat (mulf (refDev y h' hu k0 ks kc) (refDev y h' hu k0 ks kc)) h' hu k0 ks)
              (broadcastInDim ⟨2, ![R, 1]⟩ ![] ks (constant (F := Ideal) ⟨0, ![]⟩ .f32 0x3727C5AC#32))))))
      (broadcastInDim ⟨2, ![R, C]⟩ ![0, 1] k2 (broadcastInDim ⟨2, ![1, C]⟩ ![1] k1 b)))
    (broadcastInDim ⟨2, ![R, C]⟩ ![] kz (constant (F := Ideal) ⟨0, ![]⟩ .f32 0x00000000#32))

/-- The two spellings of layer normalisation followed by the rectifier are one function. -/
theorem ln_bridge (y : FVec Ideal ⟨2, ![R, C]⟩ .f32) (g b : FVec Ideal ⟨1, ![C]⟩ .f32) (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩)
    (hsr : (⟨1, ![C]⟩ : Shape).ShapeCasts ⟨2, ![1, C]⟩) (hbr : (⟨2, ![1, C]⟩ : Shape).Broadcasts ⟨2, ![R, C]⟩)
    (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1])
    (k1 : (⟨1, ![C]⟩ : Shape).BroadcastsInDim ⟨2, ![1, C]⟩ ![1])
    (k2 : (⟨2, ![1, C]⟩ : Shape).BroadcastsInDim ⟨2, ![R, C]⟩ ![0, 1])
    (kz : (⟨0, ![]⟩ : Shape).BroadcastsInDim ⟨2, ![R, C]⟩ ![]) :
    kerLN y g b hr hφ hacc hsc hbc hsr hbr = refLN y g b h' hu k0 ks kc k1 k2 kz := by
  unfold kerLN refLN
  rw [dev_eq y hr hφ hacc hsc hbc h' hu k0 ks kc, stat_eq _ hr hφ hacc hsc h' hu k0 ks,
    splat_eq 0x3727C5AC#32 ks, spreadCol_eq _ hbc kc, biasRows_eq g hsr hbr k1 k2, biasRows_eq b hsr hbr k1 k2,
    splat_eq 0x00000000#32 kz]
  rfl

/-- A dense layer (product with a weight matrix, bias along the rows), then layer normalisation and the
    rectifier: the vector unit's spelling. -/
def kerBranch {K : Nat} (prec : Option ContractPrecision) (h0 h1 : FTy.bf16.bits < FTy.f32.bits)
    (x : FVec Ideal ⟨2, ![R, K]⟩ .f32) (w : FVec Ideal ⟨2, ![K, C]⟩ .f32) (c g b : FVec Ideal ⟨1, ![C]⟩ .f32)
    (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩)
    (hsr : (⟨1, ![C]⟩ : Shape).ShapeCasts ⟨2, ![1, C]⟩) (hbr : (⟨2, ![1, C]⟩ : Shape).Broadcasts ⟨2, ![R, C]⟩) : FVec Ideal ⟨2, ![R, C]⟩ .f32 :=
  kerLN
    (addf
      (matmul (DotDims.plain R K C) prec (truncf .bf16 x h0) (truncf .bf16 w h1)
        (constant ⟨2, ![R, C]⟩ .f32 0x00000000#32))
      (broadcastTo ⟨2, ![R, C]⟩ (shapeCast ⟨2, ![1, C]⟩ c hsr) hbr))
    g b hr hφ hacc hsc hbc hsr hbr

/-- The same dense layer, layer normalisation and rectifier: the host's spelling. -/
def refBranch {K : Nat} (prec : Option ContractPrecision)
    (x : FVec Ideal ⟨2, ![R, K]⟩ .f32) (w : FVec Ideal ⟨2, ![K, C]⟩ .f32) (c g b : FVec Ideal ⟨1, ![C]⟩ .f32)
    (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1])
    (k1 : (⟨1, ![C]⟩ : Shape).BroadcastsInDim ⟨2, ![1, C]⟩ ![1])
    (k2 : (⟨2, ![1, C]⟩ : Shape).BroadcastsInDim ⟨2, ![R, C]⟩ ![0, 1])
    (kz : (⟨0, ![]⟩ : Shape).BroadcastsInDim ⟨2, ![R, C]⟩ ![]) : FVec Ideal ⟨2, ![R, C]⟩ .f32 :=
  refLN
    (addf (Host.dotGeneral (DotDims.plain R K C) prec x w)
      (broadcastInDim ⟨2, ![R, C]⟩ ![0, 1] k2 (broadcastInDim ⟨2, ![1, C]⟩ ![1] k1 c)))
    g b h' hu k0 ks kc k1 k2 kz

theorem branch_eq {K : Nat} (prec : Option ContractPrecision) (h0 h1 : FTy.bf16.bits < FTy.f32.bits)
    (x : FVec Ideal ⟨2, ![R, K]⟩ .f32) (w : FVec Ideal ⟨2, ![K, C]⟩ .f32) (c g b : FVec Ideal ⟨1, ![C]⟩ .f32)
    (hr : (⟨2, ![R, C]⟩ : Shape).Reduces [1] ⟨1, ![R]⟩) (hφ : FKind.Formats .f32)
    (hacc : (0x00000000#32 : BitVec FTy.f32.bits) = FKind.add.neutral .f32 hφ)
    (hsc : (⟨1, ![R]⟩ : Shape).ShapeCasts ⟨2, ![R, 1]⟩)
    (hbc : (⟨2, ![R, 1]⟩ : Shape).Broadcasts ⟨2, ![R, C]⟩)
    (hsr : (⟨1, ![C]⟩ : Shape).ShapeCasts ⟨2, ![1, C]⟩) (hbr : (⟨2, ![1, C]⟩ : Shape).Broadcasts ⟨2, ![R, C]⟩)
    (h' : (⟨2, ![R, C]⟩ : Shape).ReducesTo [1] ⟨1, ![R]⟩) (hu : 0 < (⟨0, ![]⟩ : Shape).numel)
    (k0 : (⟨1, ![R]⟩ : Shape).BroadcastsInDim ⟨2, ![R, 1]⟩ ![0])
    (ks : (⟨0, ![]⟩ : Shape).BroadcastsInDim ⟨2, ![R, 1]⟩ ![])
    (kc : (⟨2, ![R, 1]⟩ : Shape).BroadcastsInDim ⟨2, ![R, C]⟩ ![0, 1])
    (k1 : (⟨1, ![C]⟩ : Shape).BroadcastsInDim ⟨2, ![1, C]⟩ ![1])
    (k2 : (⟨2, ![1, C]⟩ : Shape).BroadcastsInDim ⟨2, ![R, C]⟩ ![0, 1])
    (kz : (⟨0, ![]⟩ : Shape).BroadcastsInDim ⟨2, ![R, C]⟩ ![]) :
    kerBranch prec h0 h1 x w c g b hr hφ hacc hsc hbc hsr hbr
      = refBranch prec x w c g b h' hu k0 ks kc k1 k2 kz := by
  unfold kerBranch refBranch
  rw [product_eq prec h0 h1 x w, biasRows_eq c hsr hbr k1 k2]
  exact ln_bridge _ g b hr hφ hacc hsc hbc hsr hbr h' hu k0 ks kc k1 k2 kz

end LayerNorm

/-! ## The side conditions of the layout steps at the sizes of this program (512 rows, 64 columns) -/

section Sizes

open Idealize.ShloMosaic

theorem cHr : (⟨2, ![512, 64]⟩ : Shape).Reduces [1] ⟨1, ![512]⟩ := by decide
theorem cHphi : FKind.Formats .f32 := .inl rfl
theorem cHacc : (0x00000000#32 : BitVec FTy.f32.bits) = FKind.add.neutral .f32 cHphi := rfl
theorem cHsc : (⟨1, ![512]⟩ : Shape).ShapeCasts ⟨2, ![512, 1]⟩ := by decide
theorem cHbc : (⟨2, ![512, 1]⟩ : Shape).Broadcasts ⟨2, ![512, 64]⟩ := by decide
theorem cHsr : (⟨1, ![64]⟩ : Shape).ShapeCasts ⟨2, ![1, 64]⟩ := by decide
theorem cHbr : (⟨2, ![1, 64]⟩ : Shape).Broadcasts ⟨2, ![512, 64]⟩ := by decide
theorem cH' : (⟨2, ![512, 64]⟩ : Shape).ReducesTo [1] ⟨1, ![512]⟩ := by decide
theorem cHu : 0 < (⟨0, ![]⟩ : Shape).numel := by decide
theorem cK0 : (⟨1, ![512]⟩ : Shape).BroadcastsInDim ⟨2, ![512, 1]⟩ ![0] := by decide
theorem cKs : (⟨0, ![]⟩ : Shape).BroadcastsInDim ⟨2, ![512, 1]⟩ ![] := by decide
theorem cKc : (⟨2, ![512, 1]⟩ : Shape).BroadcastsInDim ⟨2, ![512, 64]⟩ ![0, 1] := by decide
theorem cK1 : (⟨1, ![64]⟩ : Shape).BroadcastsInDim ⟨2, ![1, 64]⟩ ![1] := by decide
theorem cK2 : (⟨2, ![1, 64]⟩ : Shape).BroadcastsInDim ⟨2, ![512, 64]⟩ ![0, 1] := by decide
theorem cKz : (⟨0, ![]⟩ : Shape).BroadcastsInDim ⟨2, ![512, 64]⟩ ![] := by decide
theorem cBits : FTy.bf16.bits < FTy.f32.bits := by decide

end Sizes

open Idealize.ShloMosaic Idealize.ShloMosaic.ValueIdx Cert.ReferenceIdeal Cert.ReferenceIdeal.ReadP

variable (x0 : (⟨S102400x64, .f32⟩ : BufTy).Contents (Elt Ideal)) (x1 : (⟨S512x200, .f32⟩ : BufTy).Contents (Elt Ideal)) (x2 : (⟨S512x300, .f32⟩ : BufTy).Contents (Elt Ideal)) (x3 : (⟨S1638400, .i32⟩ : BufTy).Contents (Elt Ideal)) (x4 : (⟨S1638400, .i32⟩ : BufTy).Contents (Elt Ideal)) (x5 : (⟨S102400, .i32⟩ : BufTy).Contents (Elt Ideal)) (x6 : (⟨S64x100, .f32⟩ : BufTy).Contents (Elt Ideal)) (x7 : (⟨S100, .f32⟩ : BufTy).Contents (Elt Ideal)) (x8 : (⟨S100x20, .f32⟩ : BufTy).Contents (Elt Ideal)) (x9 : (⟨S20, .f32⟩ : BufTy).Contents (Elt Ideal)) (x10 : (⟨S520x128, .f32⟩ : BufTy).Contents (Elt Ideal)) (x11 : (⟨S128, .f32⟩ : BufTy).Contents (Elt Ideal)) (x12 : (⟨S128x3, .f32⟩ : BufTy).Contents (Elt Ideal)) (x13 : (⟨S3, .f32⟩ : BufTy).Contents (Elt Ideal)) (x14 : (⟨S20x64, .f32⟩ : BufTy).Contents (Elt Ideal)) (x15 : (⟨S64, .f32⟩ : BufTy).Contents (Elt Ideal)) (x16 : (⟨S200x64, .f32⟩ : BufTy).Contents (Elt Ideal)) (x17 : (⟨S64, .f32⟩ : BufTy).Contents (Elt Ideal)) (x18 : (⟨S300x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64x512, .f32⟩ : BufTy).Contents (Elt Ideal)) (x27 : (⟨S64x512, .f32⟩ : BufTy).Contents (Elt Ideal)) (x28 : (⟨S64x512, .f32⟩ : BufTy).Contents (Elt Ideal)) (x29 : (⟨S520x128, .f32⟩ : BufTy).Contents (Elt Ideal)) (x30 : (⟨S128, .f32⟩ : BufTy).Contents (Elt Ideal)) (x31 : (⟨S128x8, .f32⟩ : BufTy).Contents (Elt Ideal)) (x32 : (⟨S8, .f32⟩ : BufTy).Contents (Elt Ideal)) (x33 : (⟨S64x128, .f32⟩ : BufTy).Contents (Elt Ideal)) (x34 : (⟨S128, .f32⟩ : BufTy).Contents (Elt Ideal)) (x35 : (⟨S128x32, .f32⟩ : BufTy).Contents (Elt Ideal)) (x36 : (⟨S32, .f32⟩ : BufTy).Contents (Elt Ideal)) (x37 : (⟨S32x1, .f32⟩ : BufTy).Contents (Elt Ideal)) (x38 : (⟨S1, .f32⟩ : BufTy).Contents (Elt Ideal)) (x39 : (⟨S128, .f32⟩ : BufTy).Contents (Elt Ideal)) (x40 : (⟨S128, .f32⟩ : BufTy).Contents (Elt Ideal)) (x41 : (⟨S32, .f32⟩ : BufTy).Contents (Elt Ideal)) (x42 : (⟨S32, .f32⟩ : BufTy).Contents (Elt Ideal))

theorem gp_eq :
    Cert.KernelIdeal.Gen.k2_pay7 (F := Ideal) (val_main_v81 (F := Ideal) x0 x1 x2 x3 x4 x5 x6 x7 x8 x9 x10 x11 x12 x13) x14 x15 x20 x21 = (val_main_v116 (F := Ideal) x0 x1 x2 x3 x4 x5 x6 x7 x8 x9 x10 x11 x12 x13 x14 x15 x20 x21) := by
  unfold
    val_main_v116 val_main_v115 val_main_v114 val_main_v113 val_main_v112 val_main_v111 val_main_v110
    val_main_v109 val_main_v108 val_main_v107 val_main_v106 val_main_v105 val_main_v104 val_main_v103
    val_main_v102 val_main_v101 val_main_v100 val_main_v99 val_main_v98 val_main_v97 val_main_v96 val_main_v95
    val_main_v94 val_main_v93 val_main_v92 val_main_v91 val_main_v90 val_main_v89 val_main_v88 val_main_call3_v0
    val_main_cst_16 val_main_cst_17 val_main_cst_18 val_main_cst_19 val_main_cst_20 val_main_call3_cst
  generalize val_main_v81 (F := Ideal) x0 x1 x2 x3 x4 x5 x6 x7 x8 x9 x10 x11 x12 x13 = y
  exact branch_eq (R := 512) (C := 64) (K := 20) none cBits cBits y x14 x15 x20 x21
    cHr cHphi cHacc cHsc cHbc cHsr cHbr cH' cHu cK0 cKs cKc cK1 cK2 cKz

theorem d2_eq :
    Cert.KernelIdeal.Gen.k2_pay9 (F := Ideal) (Cert.KernelIdeal.Gen.k2_pay8 (F := Ideal) (val_main_v84 (F := Ideal) x0 x1 x2 x3 x4 x5 x6 x7 x8 x9 x10 x11 x12 x13) x16 x17) x22 x23 = (val_main_v145 (F := Ideal) x0 x1 x2 x3 x4 x5 x6 x7 x8 x9 x10 x11 x12 x13 x16 x17 x22 x23) := by
  unfold
    val_main_v145 val_main_v144 val_main_v143 val_main_v142 val_main_v141 val_main_v140 val_main_v139
    val_main_v138 val_main_v137 val_main_v136 val_main_v135 val_main_v134 val_main_v133 val_main_v132
    val_main_v131 val_main_v130 val_main_v129 val_main_v128 val_main_v127 val_main_v126 val_main_v125
    val_main_v124 val_main_v123 val_main_v122 val_main_v121 val_main_v120 val_main_v119 val_main_v118
    val_main_v117 val_main_call4_v0 val_main_cst_21 val_main_cst_22 val_main_cst_23 val_main_cst_24
    val_main_cst_25 val_main_call4_cst
  generalize val_main_v84 (F := Ideal) x0 x1 x2 x3 x4 x5 x6 x7 x8 x9 x10 x11 x12 x13 = y
  exact branch_eq (R := 512) (C := 64) (K := 200) none cBits cBits y x16 x17 x22 x23
    cHr cHphi cHacc cHsc cHbc cHsr cHbr cH' cHu cK0 cKs cKc cK1 cK2 cKz

theorem gflat_eq :
    Cert.KernelIdeal.Gen.k2_pay13 (F := Ideal) (val_main_v116 (F := Ideal) x0 x1 x2 x3 x4 x5 x6 x7 x8 x9 x10 x11 x12 x13 x14 x15 x20 x21) x26 = (val_main_v175 (F := Ideal) x0 x1 x2 x3 x4 x5 x6 x7 x8 x9 x10 x11 x12 x13 x14 x15 x20 x21 x26) := by
  unfold val_main_v175
  generalize val_main_v116 (F := Ideal) x0 x1 x2 x3 x4 x5 x6 x7 x8 x9 x10 x11 x12 x13 x14 x15 x20 x21 = y
  exact product_eq (M := 512) (K := 64) (N := 512) none cBits cBits y x26

theorem d2flat_eq :
    Cert.KernelIdeal.Gen.k2_pay14 (F := Ideal) (val_main_v145 (F := Ideal) x0 x1 x2 x3 x4 x5 x6 x7 x8 x9 x10 x11 x12 x13 x16 x17 x22 x23) x27 = (val_main_v177 (F := Ideal) x0 x1 x2 x3 x4 x5 x6 x7 x8 x9 x10 x11 x12 x13 x16 x17 x22 x23 x27) := by
  unfold val_main_v177
  generalize val_main_v145 (F := Ideal) x0 x1 x2 x3 x4 x5 x6 x7 x8 x9 x10 x11 x12 x13 x16 x17 x22 x23 = y
  exact product_eq (M := 512) (K := 64) (N := 512) none cBits cBits y x27

theorem d3flat_eq :
    Cert.KernelIdeal.Gen.k2_pay15 (F := Ideal) (Cert.KernelIdeal.Gen.k2_pay10 (F := Ideal) (val_main_v87 (F := Ideal) x0 x1 x2 x3 x4 x5 x6 x7 x8 x9 x10 x11 x12 x13) x18 x19) x24 x25 (Cert.KernelIdeal.Gen.k2_pay11 (F := Ideal) (val_main_v87 (F := Ideal) x0 x1 x2 x3 x4 x5 x6 x7 x8 x9 x10 x11 x12 x13) x18 x19) (Cert.KernelIdeal.Gen.k2_pay12 (F := Ideal) (val_main_v87 (F := Ideal) x0 x1 x2 x3 x4 x5 x6 x7 x8 x9 x10 x11 x12 x13) x18 x19) x28 = (val_main_v179 (F := Ideal) x0 x1 x2 x3 x4 x5 x6 x7 x8 x9 x10 x11 x12 x13 x18 x19 x24 x25 x28) := by
  unfold val_main_v179
    val_main_v174 val_main_v173 val_main_v172 val_main_v171 val_main_v170 val_main_v169 val_main_v168
    val_main_v167 val_main_v166 val_main_v165 val_main_v164 val_main_v163 val_main_v162 val_main_v161
    val_main_v160 val_main_v159 val_main_v158 val_main_v157 val_main_v156 val_main_v155 val_main_v154
    val_main_v153 val_main_v152 val_main_v151 val_main_v150 val_main_v149 val_main_v148 val_main_v147
    val_main_v146 val_main_call5_v0 val_main_cst_26 val_main_cst_27 val_main_cst_28 val_main_cst_29
    val_main_cst_30 val_main_call5_cst
  generalize val_main_v87 (F := Ideal) x0 x1 x2 x3 x4 x5 x6 x7 x8 x9 x10 x11 x12 x13 = y
  refine Eq.trans (product_eq (M := 512) (K := 64) (N := 512) none cBits cBits
    (kerBranch (R := 512) (C := 64) (K := 300) none cBits cBits y x18 x19 x24 x25
      cHr cHphi cHacc cHsc cHbc cHsr cHbr) x28) ?_
  exact congrArg (fun z => Host.dotGeneral (DotDims.plain 512 64 512) none z x28)
    (branch_eq (R := 512) (C := 64) (K := 300) none cBits cBits y x18 x19 x24 x25
      cHr cHphi cHacc cHsc cHbc cHsr cHbr cH' cHu cK0 cKs cKc cK1 cK2 cKz)

end Cert.StageC

end
-- ==== Proof.LibRank3Ref.lean ====
/-
  Rank-3 arrays read at an index given by coordinates.

  A reduction over the last axis of an [a, b, c] array gives an [a, b] array; read at (p, q) it ranges over the
  entries (p, q, k). Its result is spread back over a third axis in two ways: kept as an [a, b, 1] column and
  broadcast to [a, b, c] (constant along the last axis), or kept as an [a, 1, b] row and broadcast to [a, c, b]
  (constant along the middle axis). A batched contraction of the last axes of an [B, M, K] and an [B, N, K] array
  reads at (b, m, n) the sum over k of l[b, m, k] · r[b, n, k]. All at the exact (extended real) reading of floats.
-/
import Idealize.ShloMosaic.PureOps.Ideal.Laws
import Idealize.ShloMosaic.Lib.ValueIdx
import Idealize.ShloMosaic.Lib.ValueLayout
import Idealize.ShloMosaic.PureOps.Reduce

open scoped BigOperators

noncomputable section

namespace Cert.Lib.Rank3
open Idealize.ShloMosaic Idealize.ShloMosaic.ValueIdx

/-! ## A reduction over the last axis -/

/-- Over a rank-3 array reduced along its last axis, the source index over (p, q) with last coordinate `k`
    inserted is the index (p, q, k). -/
theorem lift_ix2 {a b c : Nat} (h : (⟨3, ![a, b, c]⟩ : Shape).Reduces [2] ⟨2, ![a, b]⟩) (p : Fin a) (q : Fin b)
    (k : Fin c) : h.lift (ix2 p q) k = ix3 p q k := by
  funext d
  match d with
  | ⟨0, _⟩ => rfl
  | ⟨1, _⟩ => rfl
  | ⟨2, _⟩ => rfl

/-- The host's float sum over the last axis of a rank-3 array, at the extended reals and read at (p, q): the
    initial value plus the sum over `k` of the entries (p, q, k). -/
theorem hostReduceAdd_last {a b c : Nat} {u : Shape} (x : FVec Ideal ⟨3, ![a, b, c]⟩ .f32)
    (init : FVec Ideal u .f32) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduceAdd x init h' hu (ix2 p q) = init (Shape.Idx.first hu) + ∑ k : Fin c, x (ix3 p q k) := by
  show Ideal.hostReduceAdd h' x (init (Shape.Idx.first hu)) (ix2 p q) = _
  rw [Ideal.hostReduceAdd_single h' h]
  exact congrArg (init (Shape.Idx.first hu) + ·)
    (Finset.sum_congr rfl fun k _ => congrArg x (lift_ix2 h p q k))

/-- The host's reduction with the maximum as its body over the last axis of a rank-3 array of extended reals, read
    at (p, q): the fold of `max` from the initial value over `k` of the entries (p, q, k). -/
theorem hostReduce_maximumf_last {a b c : Nat} {u : Shape} (x : (⟨3, ![a, b, c]⟩ : Shape).Idx → EReal)
    (init : u.Idx → EReal) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q)) = fun k : Fin c => x (ix3 p q k) :=
    funext fun k => congrArg x (lift_ix2 h p q k)
  rw [e]
  rfl

/-! ## Keeping the reduced axis and spreading over it -/

variable {α : Type}

/-- An [a, b] array broadcast along the axes [0, 1] to [a, b, 1] reads, at (p, q, u), the array at (p, q). -/
theorem broadcastInDim_ab_ab1_apply {a b : ℕ} (v : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) : broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1] column broadcast along the axes [0, 1, 2] to [a, b, c] reads, at (p, q, r), the column at (p, q). -/
theorem broadcastInDim_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, b] array broadcast along the axes [0, 2] to [a, 1, b] reads, at (p, u, q), the array at (p, q). -/
theorem broadcastInDim_ab_a1b_apply {a b : ℕ} (v : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) : broadcastInDim ⟨3, ![a, 1, b]⟩ ![0, 2] h v (ix3 p u q) = v (ix2 p q) := by
  refine broadcastInDim_apply _ h v (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, 1, b] row broadcast along the axes [0, 1, 2] to [a, c, b] reads, at (p, r, q), the row at (p, q). -/
theorem broadcastInDim_a1b_acb_apply {a b c : ℕ} (v : (⟨3, ![a, 1, b]⟩ : Shape).Idx → α)
    (h : (⟨3, ![a, 1, b]⟩ : Shape).BroadcastsInDim ⟨3, ![a, c, b]⟩ (![0, 1, 2] : Fin 3 → Fin (⟨3, ![a, c, b]⟩ : Shape).rank))
    (p : Fin a) (r : Fin c) (q : Fin b) :
    broadcastInDim ⟨3, ![a, c, b]⟩ ![0, 1, 2] h v (ix3 p r q) = v (ix3 p (0 : Fin 1) q) := by
  refine broadcastInDim_apply _ h v (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A scalar broadcast to any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

/-! ## A batched contraction of last axes -/

/-- The dimension numbers of a batched product of rows: [B, M, K] with [B, N, K], the first axes the batch, the last
    axes contracted. -/
abbrev batchRowsDims (B M K N : Nat)
    (h : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := h

variable (B M K N : Nat) (h : DotDims.WF ⟨3, ![B, M, K]⟩ ⟨3, ![B, N, K]⟩ ⟨3, ![B, M, N]⟩ [2] [2] [1] [1] [0] [0])

/-- The contraction index has one axis, of extent K. -/
theorem batchRows_rank : (batchRowsDims B M K N h).contr.rank = 1 := rfl
theorem batchRows_size : (batchRowsDims B M K N h).contr.size ⟨0, Nat.one_pos⟩ = K := rfl

/-- At result entry (b, m, n) and contraction position k the left operand is read at (b, m, k) … -/
theorem batchRows_lhsIdx (b : Fin B) (m : Fin M) (n : Fin N) (k : Fin K) :
    (batchRowsDims B M K N h).lhsIdx (ix3 b m n) ((contrEquiv1 (batchRowsDims B M K N h) K rfl rfl).symm k) = ix3 b m k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).lhsIdx_val_of_single rfl _ _).trans hk)

/-- … and the right operand at (b, n, k). -/
theorem batchRows_rhsIdx (b : Fin B) (m : Fin M) (n : Fin N) (k : Fin K) :
    (batchRowsDims B M K N h).rhsIdx (ix3 b m n) ((contrEquiv1 (batchRowsDims B M K N h) K rfl rfl).symm k) = ix3 b n k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).rhsIdx_val_of_single rfl _ _).trans hk)

/-- The contraction sum at entry (b, m, n) is the sum over k of l[b, m, k] · r[b, n, k]. -/
theorem batchRows_sum (l : (⟨3, ![B, M, K]⟩ : Shape).Idx → EReal) (r : (⟨3, ![B, N, K]⟩ : Shape).Idx → EReal)
    (b : Fin B) (m : Fin M) (n : Fin N) :
    ∑ k : (batchRowsDims B M K N h).contr.Idx,
        l ((batchRowsDims B M K N h).lhsIdx (ix3 b m n) k) * r ((batchRowsDims B M K N h).rhsIdx (ix3 b m n) k)
      = ∑ k : Fin K, l (ix3 b m k) * r (ix3 b n k) := by
  rw [← Equiv.sum_comp (contrEquiv1 (batchRowsDims B M K N h) K rfl rfl).symm]
  refine Finset.sum_congr rfl fun k _ => ?_
  rw [batchRows_lhsIdx, batchRows_rhsIdx]

/-- A host batched dot product of rows, at entry (b, m, n). -/
theorem dotGeneral_batchRows_apply {φ₁ φ₂ : FTy} (prec : Option ContractPrecision) (sched : HostSchedule)
    (l : FVec Ideal ⟨3, ![B, M, K]⟩ φ₁) (r : FVec Ideal ⟨3, ![B, N, K]⟩ φ₂) (b : Fin B) (m : Fin M) (n : Fin N) :
    FloatOps.dotGeneral (batchRowsDims B M K N h) prec sched l r (ix3 b m n) = ∑ k : Fin K, l (ix3 b m k) * r (ix3 b n k) :=
  (Ideal.dotGeneral_apply (batchRowsDims B M K N h) prec sched l r (ix3 b m n)).trans (batchRows_sum B M K N h l r b m n)

end Cert.Lib.Rank3

end
-- ==== Proof.StageD.lean ====
import proofs.«168914_j82609400971796_1_alg».proof.Proof.Gen.KernelIdeal.Skeleton
import proofs.«168914_j82609400971796_1_alg».proof.Proof.ReadP
import Idealize.ShloMosaic.PureOps.Ideal.Laws
import Idealize.ShloMosaic.Lib.ValueIdx
import Idealize.ShloMosaic.Lib.ValueLayout
import Idealize.ShloMosaic.Lib.Pipeline.Value
import proofs.«168914_j82609400971796_1_alg».proof.Proof.LibLreluRows
import proofs.«168914_j82609400971796_1_alg».proof.Proof.LibKeepdims
import proofs.«168914_j82609400971796_1_alg».proof.Proof.LibRank3Ref

noncomputable section

namespace Cert.StageD

open Idealize.ShloMosaic Idealize.ShloMosaic.ValueIdx Cert.ReferenceIdeal Cert.ReferenceIdeal.ReadP

/-! ## Width-general bridges between the two spellings of the head's operations

Each lemma says that a vector-unit spelling of an operation and the host program's spelling of it are one function on
arrays of extended reals. -/

section General

variable {R C : Nat}

/-- A scalar splat and a rank-0 constant broadcast to the same shape are one constant array. -/
theorem splat_eq {s : Shape} (w : BitVec 32) (h : (⟨0, ![]⟩ : Shape).BroadcastsInDim s ![]) :
    (broadcast s (Scalar.ofBits (F := Ideal) .f32 w) : FVec Ideal s .f32)
      = broadcastInDim s ![] h (constant (F := Ideal) ⟨0, ![]⟩ .f32 w) := rfl

/-- A vector of C entries laid along each of R rows: the vector cast to a one-row matrix and that row repeated, or the
    vector broadcast to a one-row matrix and that row broadcast down the rows. -/
theorem rows_eq {α : Type} (v : (⟨1, ![C]⟩ : Shape).Idx → α) (hs : (⟨1, ![C]⟩ : Shape).ShapeCasts ⟨2, ![1, C]⟩)
    (hb : (⟨2, ![1, C]⟩ : Shape).Broadcasts ⟨2, ![R, C]⟩)
    (h1 : (⟨1, ![C]⟩ : Shape).BroadcastsInDim ⟨2, ![1, C]⟩ ![1])
    (h2 : (⟨2, ![1, C]⟩ : Shape).BroadcastsInDim ⟨2, ![R, C]⟩ ![0, 1]) :
    broadcastTo ⟨2, ![R, C]⟩ (shapeCast ⟨2, ![1, C]⟩ v hs) hb
      = broadcastInDim ⟨2, ![R, C]⟩ ![0, 1] h2 (broadcastInDim ⟨2, ![1, C]⟩ ![1] h1 v) := by
  funext j
  obtain ⟨p, q, rfl⟩ : ∃ (p : Fin R) (q : Fin C), j = ix2 p q := ⟨j 0, j 1, eq_ix2 j⟩
  rw [broadcastTo_1b_ab_apply, Cert.LibLreluRows.rowCast_apply, Cert.LibLreluRows.biasRows_apply]

/-- Summing down the rows: the source index over column q with row coordinate p inserted is (p, q). -/
theorem lift_col (h : (⟨2, ![R, C]⟩ : Shape).Reduces [0] ⟨1, ![C]⟩) (q : Fin C) (p : Fin R) :
    h.lift (ix1 q) p = ix2 p q := by
  funext a
  match a with
  | ⟨0, _⟩ => rfl
  | ⟨1, _⟩ => rfl

/-- The vector unit's sum down the rows from the zero accumulator, at column q: the sum over the rows. -/
theorem colSumK_apply (x : FVec Ideal ⟨2, ![R, C]⟩ .f32) (h : (⟨2, ![R, C]⟩ : Shape).Reduces [0] ⟨1, ![C]⟩)
    (hφ : FKind.Formats .f32) (hacc : (0x00000000#32 : BitVec 32) = 0x00000000#32) (q : Fin C) :
    multiReduction .add [0] ⟨1, ![C]⟩ x 0x00000000#32 h hφ hacc (ix1 q) = ∑ p : Fin R, x (ix2 p q) := by
  refine (Ideal.multiReduction_add_single x 0x00000000#32 h hφ hacc (ix1 q)).trans ?_
  exact Finset.sum_congr rfl fun p _ => congrArg x (lift_col h q p)

/-- The host's sum down the rows, at column q: the initial value plus the sum over the rows. -/
theorem colSumH_apply {u : Shape} (x : FVec Ideal ⟨2, ![R, C]⟩ .f32) (init : FVec Ideal u .f32)
    (h' : (⟨2, ![R, C]⟩ : Shape).ReducesTo [0] ⟨1, ![C]⟩) (h : (⟨2, ![R, C]⟩ : Shape).Reduces [0] ⟨1, ![C]⟩)
    (hu : 0 < u.numel) (q : Fin C) :
    Host.reduceAdd x init h' hu (ix1 q) = init (Shape.Idx.first hu) + ∑ p : Fin R, x (ix2 p q) := by
  show Ideal.hostReduceAdd h' x (init (Shape.Idx.first hu)) (ix1 q) = _
  rw [Ideal.hostReduceAdd_single h' h]
  exact congrArg (init (Shape.Idx.first hu) + ·) (Finset.sum_congr rfl fun p _ => congrArg x (lift_col h q p))

/-- The two sums down the rows are one function: the host starts from a zero it adds to the same sum. -/
theorem colSum_eq (x : FVec Ideal ⟨2, ![R, C]⟩ .f32) (h : (⟨2, ![R, C]⟩ : Shape).Reduces [0] ⟨1, ![C]⟩)
    (hφ : FKind.Formats .f32) (hacc : (0x00000000#32 : BitVec 32) = 0x00000000#32)
    (h' : (⟨2, ![R, C]⟩ : Shape).ReducesTo [0] ⟨1, ![C]⟩) (hu : 0 < (⟨0, ![]⟩ : Shape).numel) :
    multiReduction .add [0] ⟨1, ![C]⟩ x 0x00000000#32 h hφ hacc
      = Host.reduceAdd x (constant (F := Ideal) ⟨0, ![]⟩ .f32 0x00000000#32) h' hu := by
  funext j
  obtain ⟨q, rfl⟩ : ∃ q : Fin C, j = ix1 q := ⟨j 0, eq_ix1 j⟩
  refine (colSumK_apply x h hφ hacc q).trans ?_
  refine Eq.symm ((colSumH_apply x _ h' h hu q).trans ?_)
  show Ideal.ofBits .f32 0x00000000#32 + _ = _
  rw [Ideal.ofBits_zero_f32, zero_add]

/-- The matrix unit's product of two operands narrowed to half precision, into a zero accumulator, is the host's dot
    product of the operands: the same contraction sum, the narrowing the identity on extended reals. -/
theorem dense_eq {sl sr so : Shape} (D : DotDims sl sr so) (prec : Option ContractPrecision)
    (h0 h1 : FTy.bf16.bits < FTy.f32.bits) (x : FVec Ideal sl .f32) (w : FVec Ideal sr .f32) :
    matmul D prec (truncf .bf16 x h0) (truncf .bf16 w h1) (constant so .f32 0x00000000#32)
      = Host.dotGeneral D prec x w := by
  funext j
  simp only [Host.dotGeneral]
  rw [Ideal.dotGeneral_apply]
  exact Ideal.matmul_constant_zero_apply D prec (truncf .bf16 x h0) (truncf .bf16 w h1) j

/-- On extended reals the host's quotient and reciprocal square root are the vector unit's. -/
theorem hostDivf_eq {s : Shape} (a b : FVec Ideal s .f32) : Host.divf a b = divf a b := rfl
theorem hostRsqrt_eq {s : Shape} (a : FVec Ideal s .f32) : Host.rsqrt a = rsqrt a := rfl

end General

/-! ## The rank-weighted sum of three-way products

Column r·64 + d of a 512-wide array is entry (r, d) of its reshape to 8 blocks of 64; the eight-term sum the vector unit
writes out term by term is the sum over the block index that the host program takes by a reduction. -/

section Weighted

variable {α : Type}

/-- An [a, m] matrix with m = b·c cast to [a, b, c] reads, at (p, q, e), the matrix at column q·c + e of row p. -/
theorem shapeCast_am_abc_apply {a b c m : ℕ} (x : (⟨2, ![a, m]⟩ : Shape).Idx → α)
    (h : (⟨2, ![a, m]⟩ : Shape).ShapeCasts ⟨3, ![a, b, c]⟩) (hm : m = b * c) (p : Fin a) (q : Fin b) (e : Fin c)
    (k : Fin m) (hk : k.val = q.val * c + e.val) :
    shapeCast ⟨3, ![a, b, c]⟩ x h (ix3 p q e) = x (ix2 p k) :=
  shapeCast_apply x h _ _ (by
    rw [Shape.rowMajor_val_two, Shape.rowMajor_val_three]
    show p.val * m + k.val = (p.val * b + q.val) * c + e.val
    rw [hk, hm, Nat.add_mul, Nat.mul_assoc, Nat.add_assoc])

/-- Summing a rank-3 array along its middle axis: the source index over (p, e) with middle coordinate q inserted
    is (p, q, e). -/
theorem lift_mid {a b c : Nat} (h : (⟨3, ![a, b, c]⟩ : Shape).Reduces [1] ⟨2, ![a, c]⟩) (p : Fin a) (e : Fin c)
    (q : Fin b) : h.lift (ix2 p e) q = ix3 p q e := by
  funext d
  match d with
  | ⟨0, _⟩ => rfl
  | ⟨1, _⟩ => rfl
  | ⟨2, _⟩ => rfl

/-- The host's sum along the middle axis of a rank-3 array, at (p, e): the initial value plus the sum over q of the
    entries (p, q, e). -/
theorem hostReduceAdd_mid {a b c : Nat} {u : Shape} (x : FVec Ideal ⟨3, ![a, b, c]⟩ .f32)
    (init : FVec Ideal u .f32) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduceAdd x init h' hu (ix2 p e) = init (Shape.Idx.first hu) + ∑ q : Fin b, x (ix3 p q e) := by
  show Ideal.hostReduceAdd h' x (init (Shape.Idx.first hu)) (ix2 p e) = _
  rw [Ideal.hostReduceAdd_single h' h]
  exact congrArg (init (Shape.Idx.first hu) + ·) (Finset.sum_congr rfl fun q _ => congrArg x (lift_mid h p e q))

/-- Column r·64 + d of a 512-wide row. -/
def col (r : Fin 8) (d : Fin 64) : Fin 512 := ⟨r.val * 64 + d.val, by have := r.isLt; have := d.isLt; omega⟩

/-- One term of the vector unit's sum at (p, d): the three blocks of d columns starting at column o multiplied together,
    times column r of the weights spread over the block. -/
theorem term_apply {n m dd rr : Nat} (A B C : FVec Ideal ⟨2, ![n, m]⟩ .f32) (β : FVec Ideal ⟨2, ![n, rr]⟩ .f32) (o r : Nat)
    (hs : (⟨2, ![n, m]⟩ : Shape).Slices ![0, o] ⟨2, ![n, dd]⟩)
    (hr : (⟨2, ![n, rr]⟩ : Shape).Slices ![0, r] ⟨2, ![n, 1]⟩)
    (hb : (⟨2, ![n, 1]⟩ : Shape).Broadcasts ⟨2, ![n, dd]⟩)
    (p : Fin n) (d : Fin dd) (k : Fin m) (hk : k.val = o + d.val) (r' : Fin rr) (hr' : r'.val = r) :
    mulf (mulf (mulf (extractStridedSlice ⟨2, ![n, dd]⟩ ![0, o] A hs) (extractStridedSlice ⟨2, ![n, dd]⟩ ![0, o] B hs))
        (extractStridedSlice ⟨2, ![n, dd]⟩ ![0, o] C hs))
      (broadcastTo ⟨2, ![n, dd]⟩ (extractStridedSlice ⟨2, ![n, 1]⟩ ![0, r] β hr) hb) (ix2 p d)
    = A (ix2 p k) * B (ix2 p k) * C (ix2 p k) * β (ix2 p r') := by
  show extractStridedSlice ⟨2, ![n, dd]⟩ ![0, o] A hs (ix2 p d) * extractStridedSlice ⟨2, ![n, dd]⟩ ![0, o] B hs (ix2 p d)
      * extractStridedSlice ⟨2, ![n, dd]⟩ ![0, o] C hs (ix2 p d)
      * broadcastTo ⟨2, ![n, dd]⟩ (extractStridedSlice ⟨2, ![n, 1]⟩ ![0, r] β hr) hb (ix2 p d) = _
  rw [slice2_axis1_apply o A hs p d k hk, slice2_axis1_apply o B hs p d k hk, slice2_axis1_apply o C hs p d k hk,
    Cert.Lib.Keepdims.broadcastTo_a1_ab_apply, slice2_axis1_apply r β hr p (0 : Fin 1) r' (by rw [hr']; rfl)]

/-- Eight terms added one after another onto a starting value are the starting value plus their sum. -/
theorem chain8 (T : Fin 8 → EReal) (c : EReal) :
    c + T 0 + T 1 + T 2 + T 3 + T 4 + T 5 + T 6 + T 7 = c + ∑ r : Fin 8, T r := by
  rw [Fin.sum_univ_eight]
  simp only [add_assoc]

end Weighted

variable (x0 : (⟨S102400x64, .f32⟩ : BufTy).Contents (Elt Ideal)) (x1 : (⟨S512x200, .f32⟩ : BufTy).Contents (Elt Ideal)) (x2 : (⟨S512x300, .f32⟩ : BufTy).Contents (Elt Ideal)) (x3 : (⟨S1638400, .i32⟩ : BufTy).Contents (Elt Ideal)) (x4 : (⟨S1638400, .i32⟩ : BufTy).Contents (Elt Ideal)) (x5 : (⟨S102400, .i32⟩ : BufTy).Contents (Elt Ideal)) (x6 : (⟨S64x100, .f32⟩ : BufTy).Contents (Elt Ideal)) (x7 : (⟨S100, .f32⟩ : BufTy).Contents (Elt Ideal)) (x8 : (⟨S100x20, .f32⟩ : BufTy).Contents (Elt Ideal)) (x9 : (⟨S20, .f32⟩ : BufTy).Contents (Elt Ideal)) (x10 : (⟨S520x128, .f32⟩ : BufTy).Contents (Elt Ideal)) (x11 : (⟨S128, .f32⟩ : BufTy).Contents (Elt Ideal)) (x12 : (⟨S128x3, .f32⟩ : BufTy).Contents (Elt Ideal)) (x13 : (⟨S3, .f32⟩ : BufTy).Contents (Elt Ideal)) (x14 : (⟨S20x64, .f32⟩ : BufTy).Contents (Elt Ideal)) (x15 : (⟨S64, .f32⟩ : BufTy).Contents (Elt Ideal)) (x16 : (⟨S200x64, .f32⟩ : BufTy).Contents (Elt Ideal)) (x17 : (⟨S64, .f32⟩ : BufTy).Contents (Elt Ideal)) (x18 : (⟨S300x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64x512, .f32⟩ : BufTy).Contents (Elt Ideal)) (x27 : (⟨S64x512, .f32⟩ : BufTy).Contents (Elt Ideal)) (x28 : (⟨S64x512, .f32⟩ : BufTy).Contents (Elt Ideal)) (x29 : (⟨S520x128, .f32⟩ : BufTy).Contents (Elt Ideal)) (x30 : (⟨S128, .f32⟩ : BufTy).Contents (Elt Ideal)) (x31 : (⟨S128x8, .f32⟩ : BufTy).Contents (Elt Ideal)) (x32 : (⟨S8, .f32⟩ : BufTy).Contents (Elt Ideal)) (x33 : (⟨S64x128, .f32⟩ : BufTy).Contents (Elt Ideal)) (x34 : (⟨S128, .f32⟩ : BufTy).Contents (Elt Ideal)) (x35 : (⟨S128x32, .f32⟩ : BufTy).Contents (Elt Ideal)) (x36 : (⟨S32, .f32⟩ : BufTy).Contents (Elt Ideal)) (x37 : (⟨S32x1, .f32⟩ : BufTy).Contents (Elt Ideal)) (x38 : (⟨S1, .f32⟩ : BufTy).Contents (Elt Ideal)) (x39 : (⟨S128, .f32⟩ : BufTy).Contents (Elt Ideal)) (x40 : (⟨S128, .f32⟩ : BufTy).Contents (Elt Ideal)) (x41 : (⟨S32, .f32⟩ : BufTy).Contents (Elt Ideal)) (x42 : (⟨S32, .f32⟩ : BufTy).Contents (Elt Ideal))

/-- The weighted sum of the three-way products and the first dense layer, given the weights (the softmax of the
    attention scores) as the reference's. -/
theorem fc1_eq_of_beta (hβ : Cert.KernelIdeal.Gen.k2_pay17 (F := Ideal) (val_main_v188 (F := Ideal) x0 x1 x2 x3 x4 x5 x6 x7 x8 x9 x10 x11 x12 x13 x29 x30) x31 x32 = (val_main_v203 (F := Ideal) x0 x1 x2 x3 x4 x5 x6 x7 x8 x9 x10 x11 x12 x13 x29 x30 x31 x32)) :
    Cert.KernelIdeal.Gen.k2_pay20 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v203 (F := Ideal) x0 x1 x2 x3 x4 x5 x6 x7 x8 x9 x10 x11 x12 x13 x29 x30 x31 x32) (Cert.KernelIdeal.Gen.k2_pay18 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) (Cert.KernelIdeal.Gen.k2_pay19 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) x33 x34 = (val_main_v211 (F := Ideal) x0 x1 x2 x3 x4 x5 x6 x7 x8 x9 x10 x11 x12 x13 x14 x15 x16 x17 x18 x19 x20 x21 x22 x23 x24 x25 x26 x27 x28 x29 x30 x31 x32 x33 x34) := by
  unfold val_main_v211 val_main_v210 val_main_v209 val_main_v208 val_main_v207 val_main_v206 val_main_v205 val_main_v204 val_main_v182 val_main_v181 val_main_v180 val_main_v178 val_main_v176
  simp only [Cert.KernelIdeal.Gen.k2_pay20, Cert.KernelIdeal.Gen.k2_pay18, Cert.KernelIdeal.Gen.k2_pay19]
  rw [hβ]
  generalize (val_main_v203 (F := Ideal) x0 x1 x2 x3 x4 x5 x6 x7 x8 x9 x10 x11 x12 x13 x29 x30 x31 x32) = β
  generalize (val_main_v179 (F := Ideal) x0 x1 x2 x3 x4 x5 x6 x7 x8 x9 x10 x11 x12 x13 x18 x19 x24 x25 x28) = C
  generalize (val_main_v177 (F := Ideal) x0 x1 x2 x3 x4 x5 x6 x7 x8 x9 x10 x11 x12 x13 x16 x17 x22 x23 x27) = B
  generalize (val_main_v175 (F := Ideal) x0 x1 x2 x3 x4 x5 x6 x7 x8 x9 x10 x11 x12 x13 x14 x15 x20 x21 x26) = A
  simp only [rows_eq (h1 := Gen.bcast_S128_S1x128_1) (h2 := Gen.bcast_S1x128_S512x128_0_1), dense_eq]
  have hD : Cert.KernelIdeal.dot_S512x64_S64x128_S512x128_1_0_0_1_n_n
      = Cert.ReferenceIdeal.dot_S512x64_S64x128_S512x128_1_0_0_1_n_n := rfl
  rw [hD]
  congr 2
  funext j
  obtain ⟨p, d, rfl⟩ : ∃ (p : Fin 512) (d : Fin 64), j = ix2 p d := ⟨j 0, j 1, eq_ix2 j⟩
  refine Eq.trans ?_ (Eq.symm (hostReduceAdd_mid _ _ Gen.reducesTo_S512x8x64_S512x64_d1 (by decide) Gen.h_S_ p d))
  have hA : ∀ (X : FVec Ideal S512x512 .f32) (q : Fin 8),
      shapeCast S512x8x64 X Gen.shapeCasts_S512x512_S512x8x64 (ix3 p q d) = X (ix2 p (col q d)) :=
    fun X q => shapeCast_am_abc_apply X _ rfl p q d (col q d) rfl
  have hw : ∀ q : Fin 8, broadcastInDim S512x8x64 ![0, 1, 2] Gen.bcast_S512x8x1_S512x8x64_0_1_2
      (broadcastInDim S512x8x1 ![0, 1] Gen.bcast_S512x8_S512x8x1_0_1 β) (ix3 p q d) = β (ix2 p q) := fun q => by
    rw [Cert.Lib.Rank3.broadcastInDim_ab1_abc_apply, Cert.Lib.Rank3.broadcastInDim_ab_ab1_apply]
  simp only [mulf_apply, hA, hw]
  refine Eq.trans ?_ (chain8 (fun r => A (ix2 p (col r d)) * B (ix2 p (col r d)) * C (ix2 p (col r d)) * β (ix2 p r)) _)
  simp only [addf_apply]
  rw [term_apply A B C β 0 0 _ _ _ p d (col 0 d) rfl 0 rfl,
    term_apply A B C β 64 1 _ _ _ p d (col 1 d) rfl 1 rfl,
    term_apply A B C β 128 2 _ _ _ p d (col 2 d) rfl 2 rfl,
    term_apply A B C β 192 3 _ _ _ p d (col 3 d) rfl 3 rfl,
    term_apply A B C β 256 4 _ _ _ p d (col 4 d) rfl 4 rfl,
    term_apply A B C β 320 5 _ _ _ p d (col 5 d) rfl 5 rfl,
    term_apply A B C β 384 6 _ _ _ p d (col 6 d) rfl 6 rfl,
    term_apply A B C β 448 7 _ _ _ p d (col 7 d) rfl 7 rfl]
  rfl

/-- The column means of the first dense layer's output. -/
theorem mean1_eq_of_beta (hβ : Cert.KernelIdeal.Gen.k2_pay17 (F := Ideal) (val_main_v188 (F := Ideal) x0 x1 x2 x3 x4 x5 x6 x7 x8 x9 x10 x11 x12 x13 x29 x30) x31 x32 = (val_main_v203 (F := Ideal) x0 x1 x2 x3 x4 x5 x6 x7 x8 x9 x10 x11 x12 x13 x29 x30 x31 x32)) :
    Cert.KernelIdeal.Gen.k2_pay21 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v203 (F := Ideal) x0 x1 x2 x3 x4 x5 x6 x7 x8 x9 x10 x11 x12 x13 x29 x30 x31 x32) (Cert.KernelIdeal.Gen.k2_pay18 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) (Cert.KernelIdeal.Gen.k2_pay19 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) x33 x34 = (val_main_v214 (F := Ideal) x0 x1 x2 x3 x4 x5 x6 x7 x8 x9 x10 x11 x12 x13 x14 x15 x16 x17 x18 x19 x20 x21 x22 x23 x24 x25 x26 x27 x28 x29 x30 x31 x32 x33 x34) := by
  unfold val_main_v214 val_main_v213 val_main_v212
  simp only [Cert.KernelIdeal.Gen.k2_pay21]
  rw [fc1_eq_of_beta x0 x1 x2 x3 x4 x5 x6 x7 x8 x9 x10 x11 x12 x13 x14 x15 x16 x17 x18 x19 x20 x21 x22 x23 x24 x25 x26 x27 x28 x29 x30 x31 x32 x33 x34 hβ]
  generalize (val_main_v211 (F := Ideal) x0 x1 x2 x3 x4 x5 x6 x7 x8 x9 x10 x11 x12 x13 x14 x15 x16 x17 x18 x19 x20 x21 x22 x23 x24 x25 x26 x27 x28 x29 x30 x31 x32 x33 x34) = y
  simp only [colSum_eq (h' := Gen.reducesTo_S512x128_S128_d0) (hu := Gen.h_S_)]
  rfl

/-- Those means laid along every row. -/
theorem mean1rows_eq_of_beta (hβ : Cert.KernelIdeal.Gen.k2_pay17 (F := Ideal) (val_main_v188 (F := Ideal) x0 x1 x2 x3 x4 x5 x6 x7 x8 x9 x10 x11 x12 x13 x29 x30) x31 x32 = (val_main_v203 (F := Ideal) x0 x1 x2 x3 x4 x5 x6 x7 x8 x9 x10 x11 x12 x13 x29 x30 x31 x32)) :
    Cert.KernelIdeal.Gen.k2_pay22 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v203 (F := Ideal) x0 x1 x2 x3 x4 x5 x6 x7 x8 x9 x10 x11 x12 x13 x29 x30 x31 x32) (Cert.KernelIdeal.Gen.k2_pay18 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) (Cert.KernelIdeal.Gen.k2_pay19 (F := Ideal) (val_main_v175 (F := Ideal) x0 x1 x2 x3 x4 x5 x6 x7 x8 x9 x10 x11 x12 x13 x14 x15 x20 x21 x26) (val_main_v177 (F := Ideal) x0 x1 x2 x3 x4 x5 x6 x7 x8 x9 x10 x11 x12 x13 x16 x17 x22 x23 x27) (val_main_v179 (F := Ideal) x0 x1 x2 x3 x4 x5 x6 x7 x8 x9 x10 x11 x12 x13 x18 x19 x24 x25 x28) (val_main_v188 (F := Ideal) x0 x1 x2 x3 x4 x5 x6 x7 x8 x9 x10 x11 x12 x13 x29 x30) x31 x32) x33 x34 = (val_main_v216 (F := Ideal) x0 x1 x2 x3 x4 x5 x6 x7 x8 x9 x10 x11 x12 x13 x14 x15 x16 x17 x18 x19 x20 x21 x22 x23 x24 x25 x26 x27 x28 x29 x30 x31 x32 x33 x34) := by
  unfold val_main_v216 val_main_v215
  simp only [Cert.KernelIdeal.Gen.k2_pay22]
  rw [mean1_eq_of_beta x0 x1 x2 x3 x4 x5 x6 x7 x8 x9 x10 x11 x12 x13 x14 x15 x16 x17 x18 x19 x20 x21 x22 x23 x24 x25 x26 x27 x28 x29 x30 x31 x32 x33 x34 hβ]
  generalize (val_main_v214 (F := Ideal) x0 x1 x2 x3 x4 x5 x6 x7 x8 x9 x10 x11 x12 x13 x14 x15 x16 x17 x18 x19 x20 x21 x22 x23 x24 x25 x26 x27 x28 x29 x30 x31 x32 x33 x34) = m
  exact rows_eq m _ _ Gen.bcast_S128_S1x128_1 Gen.bcast_S1x128_S512x128_0_1

/-- The first normalisation layer, the rectifier and the second dense layer. -/
theorem fc2_eq :
    Cert.KernelIdeal.Gen.k2_pay23 (F := Ideal) (val_main_v211 (F := Ideal) x0 x1 x2 x3 x4 x5 x6 x7 x8 x9 x10 x11 x12 x13 x14 x15 x16 x17 x18 x19 x20 x21 x22 x23 x24 x25 x26 x27 x28 x29 x30 x31 x32 x33 x34) x39 x40 (val_main_v214 (F := Ideal) x0 x1 x2 x3 x4 x5 x6 x7 x8 x9 x10 x11 x12 x13 x14 x15 x16 x17 x18 x19 x20 x21 x22 x23 x24 x25 x26 x27 x28 x29 x30 x31 x32 x33 x34) (val_main_v216 (F := Ideal) x0 x1 x2 x3 x4 x5 x6 x7 x8 x9 x10 x11 x12 x13 x14 x15 x16 x17 x18 x19 x20 x21 x22 x23 x24 x25 x26 x27 x28 x29 x30 x31 x32 x33 x34) x35 x36 = (val_main_v241 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) := by
  unfold val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217
  generalize (val_main_v216 (F := Ideal) x0 x1 x2 x3 x4 x5 x6 x7 x8 x9 x10 x11 x12 x13 x14 x15 x16 x17 x18 x19 x20 x21 x22 x23 x24 x25 x26 x27 x28 x29 x30 x31 x32 x33 x34) = M
  generalize (val_main_v214 (F := Ideal) x0 x1 x2 x3 x4 x5 x6 x7 x8 x9 x10 x11 x12 x13 x14 x15 x16 x17 x18 x19 x20 x21 x22 x23 x24 x25 x26 x27 x28 x29 x30 x31 x32 x33 x34) = m
  generalize (val_main_v211 (F := Ideal) x0 x1 x2 x3 x4 x5 x6 x7 x8 x9 x10 x11 x12 x13 x14 x15 x16 x17 x18 x19 x20 x21 x22 x23 x24 x25 x26 x27 x28 x29 x30 x31 x32 x33 x34) = y
  simp only [Cert.KernelIdeal.Gen.k2_pay23]
  simp only [rows_eq (h1 := Gen.bcast_S128_S1x128_1) (h2 := Gen.bcast_S1x128_S512x128_0_1),
    rows_eq (h1 := Gen.bcast_S32_S1x32_1) (h2 := Gen.bcast_S1x32_S512x32_0_1),
    colSum_eq (h' := Gen.reducesTo_S512x128_S128_d0) (hu := Gen.h_S_), dense_eq]
  rfl

/-- The column variance of the second dense layer's output. -/
theorem var2_eq :
    Cert.KernelIdeal.Gen.k2_pay25 (F := Ideal) (val_main_v211 (F := Ideal) x0 x1 x2 x3 x4 x5 x6 x7 x8 x9 x10 x11 x12 x13 x14 x15 x16 x17 x18 x19 x20 x21 x22 x23 x24 x25 x26 x27 x28 x29 x30 x31 x32 x33 x34) x39 x40 (val_main_v214 (F := Ideal) x0 x1 x2 x3 x4 x5 x6 x7 x8 x9 x10 x11 x12 x13 x14 x15 x16 x17 x18 x19 x20 x21 x22 x23 x24 x25 x26 x27 x28 x29 x30 x31 x32 x33 x34) (val_main_v216 (F := Ideal) x0 x1 x2 x3 x4 x5 x6 x7 x8 x9 x10 x11 x12 x13 x14 x15 x16 x17 x18 x19 x20 x21 x22 x23 x24 x25 x26 x27 x28 x29 x30 x31 x32 x33 x34) x35 x36 = (val_main_v251 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) := by
  unfold val_main_v251 val_main_v250 val_main_v249 val_main_v248 val_main_v247 val_main_v246 val_main_v245 val_main_v244 val_main_v243 val_main_v242
  simp only [Cert.KernelIdeal.Gen.k2_pay25, Cert.KernelIdeal.Gen.k2_pay24]
  rw [fc2_eq]
  generalize (val_main_v241 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) = z
  simp only [rows_eq (h1 := Gen.bcast_S32_S1x32_1) (h2 := Gen.bcast_S1x32_S512x32_0_1),
    colSum_eq (h' := Gen.reducesTo_S512x32_S32_d0) (hu := Gen.h_S_)]
  rfl

/-- The second dense layer's output less its column means. -/
theorem dev2_eq :
    Cert.KernelIdeal.Gen.k2_pay26 (F := Ideal) (val_main_v211 (F := Ideal) x0 x1 x2 x3 x4 x5 x6 x7 x8 x9 x10 x11 x12 x13 x14 x15 x16 x17 x18 x19 x20 x21 x22 x23 x24 x25 x26 x27 x28 x29 x30 x31 x32 x33 x34) x39 x40 (val_main_v214 (F := Ideal) x0 x1 x2 x3 x4 x5 x6 x7 x8 x9 x10 x11 x12 x13 x14 x15 x16 x17 x18 x19 x20 x21 x22 x23 x24 x25 x26 x27 x28 x29 x30 x31 x32 x33 x34) (val_main_v216 (F := Ideal) x0 x1 x2 x3 x4 x5 x6 x7 x8 x9 x10 x11 x12 x13 x14 x15 x16 x17 x18 x19 x20 x21 x22 x23 x24 x25 x26 x27 x28 x29 x30 x31 x32 x33 x34) x35 x36 = (val_main_v254 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) := by
  unfold val_main_v254 val_main_v253 val_main_v252 val_main_v244 val_main_v243 val_main_v242
  simp only [Cert.KernelIdeal.Gen.k2_pay26, Cert.KernelIdeal.Gen.k2_pay24]
  rw [fc2_eq]
  generalize (val_main_v241 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) = z
  simp only [rows_eq (h1 := Gen.bcast_S32_S1x32_1) (h2 := Gen.bcast_S1x32_S512x32_0_1),
    colSum_eq (h' := Gen.reducesTo_S512x32_S32_d0) (hu := Gen.h_S_)]
  rfl

/-- The second normalisation layer, the rectifier and the last dense layer. -/
theorem out_eq :
    Cert.KernelIdeal.Gen.k2_pay1 (F := Ideal) x42 (val_main_v251 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) (val_main_v254 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) (Cert.KernelIdeal.Gen.k2_pay27 (F := Ideal) x41) x37 x38 = (val_main_v271 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42) := by
  unfold val_main_v271 val_main_v270 val_main_v269 val_main_v268 val_main_v267 val_main_v266 val_main_v265 val_main_v264 val_main_v263 val_main_v262 val_main_v261 val_main_v260 val_main_v259 val_main_v258 val_main_v257 val_main_v256 val_main_v255
  generalize (val_main_v254 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) = dv
  generalize (val_main_v251 (F := Ideal) x0 x1 x2 x3 x4 x5 x6 x7 x8 x9 x10 x11 x12 x13 x14 x15 x16 x17 x18 x19 x20 x21 x22 x23 x24 x25 x26 x27 x28 x29 x30 x31 x32 x33 x34 x35 x36 x39 x40) = vr
  simp only [Cert.KernelIdeal.Gen.k2_pay1, Cert.KernelIdeal.Gen.k2_pay27]
  simp only [rows_eq (h1 := Gen.bcast_S32_S1x32_1) (h2 := Gen.bcast_S1x32_S512x32_0_1),
    rows_eq (h1 := Gen.bcast_S1_S1x1_1) (h2 := Gen.bcast_S1x1_S512x1_0_1), dense_eq]
  rfl

end Cert.StageD

end
-- ==== Proof.Bridge.lean ====
/-
  The fused call against the reference's tail.

  The fused body's stored value, read as the tree of its payload functions, is rewritten from the leaves up: each payload
  applied to the reference's values of its inputs is the reference's value of its output (the stage equalities), until the
  whole tree is the reference's result.
-/
import proofs.«168914_j82609400971796_1_alg».proof.Proof.FusionVal
import proofs.«168914_j82609400971796_1_alg».proof.Proof.StageB
import proofs.«168914_j82609400971796_1_alg».proof.Proof.StageC
import proofs.«168914_j82609400971796_1_alg».proof.Proof.StageD

set_option maxRecDepth 16384

noncomputable section

namespace Cert.Bridge

open Idealize.ShloMosaic Cert.ReferenceIdeal Cert.ReferenceIdeal.ReadP

variable (x0 : (⟨S102400x64, .f32⟩ : BufTy).Contents (Elt Ideal)) (x1 : (⟨S512x200, .f32⟩ : BufTy).Contents (Elt Ideal)) (x2 : (⟨S512x300, .f32⟩ : BufTy).Contents (Elt Ideal)) (x3 : (⟨S1638400, .i32⟩ : BufTy).Contents (Elt Ideal)) (x4 : (⟨S1638400, .i32⟩ : BufTy).Contents (Elt Ideal)) (x5 : (⟨S102400, .i32⟩ : BufTy).Contents (Elt Ideal)) (x6 : (⟨S64x100, .f32⟩ : BufTy).Contents (Elt Ideal)) (x7 : (⟨S100, .f32⟩ : BufTy).Contents (Elt Ideal)) (x8 : (⟨S100x20, .f32⟩ : BufTy).Contents (Elt Ideal)) (x9 : (⟨S20, .f32⟩ : BufTy).Contents (Elt Ideal)) (x10 : (⟨S520x128, .f32⟩ : BufTy).Contents (Elt Ideal)) (x11 : (⟨S128, .f32⟩ : BufTy).Contents (Elt Ideal)) (x12 : (⟨S128x3, .f32⟩ : BufTy).Contents (Elt Ideal)) (x13 : (⟨S3, .f32⟩ : BufTy).Contents (Elt Ideal)) (x14 : (⟨S20x64, .f32⟩ : BufTy).Contents (Elt Ideal)) (x15 : (⟨S64, .f32⟩ : BufTy).Contents (Elt Ideal)) (x16 : (⟨S200x64, .f32⟩ : BufTy).Contents (Elt Ideal)) (x17 : (⟨S64, .f32⟩ : BufTy).Contents (Elt Ideal)) (x18 : (⟨S300x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64x512, .f32⟩ : BufTy).Contents (Elt Ideal)) (x27 : (⟨S64x512, .f32⟩ : BufTy).Contents (Elt Ideal)) (x28 : (⟨S64x512, .f32⟩ : BufTy).Contents (Elt Ideal)) (x29 : (⟨S520x128, .f32⟩ : BufTy).Contents (Elt Ideal)) (x30 : (⟨S128, .f32⟩ : BufTy).Contents (Elt Ideal)) (x31 : (⟨S128x8, .f32⟩ : BufTy).Contents (Elt Ideal)) (x32 : (⟨S8, .f32⟩ : BufTy).Contents (Elt Ideal)) (x33 : (⟨S64x128, .f32⟩ : BufTy).Contents (Elt Ideal)) (x34 : (⟨S128, .f32⟩ : BufTy).Contents (Elt Ideal)) (x35 : (⟨S128x32, .f32⟩ : BufTy).Contents (Elt Ideal)) (x36 : (⟨S32, .f32⟩ : BufTy).Contents (Elt Ideal)) (x37 : (⟨S32x1, .f32⟩ : BufTy).Contents (Elt Ideal)) (x38 : (⟨S1, .f32⟩ : BufTy).Contents (Elt Ideal)) (x39 : (⟨S128, .f32⟩ : BufTy).Contents (Elt Ideal)) (x40 : (⟨S128, .f32⟩ : BufTy).Contents (Elt Ideal)) (x41 : (⟨S32, .f32⟩ : BufTy).Contents (Elt Ideal)) (x42 : (⟨S32, .f32⟩ : BufTy).Contents (Elt Ideal))

set_option maxHeartbeats 4000000 in
/-- The fused value of the reference's readout and the arguments is the reference's result. -/
theorem fused_eq :
    Cert.KernelIdeal.Val.fused (F := Ideal) (val_main_v57 (F := Ideal) x0 x3 x4 x5 x6 x7 x8 x9) x1 x2 x10 x11 x12 x13 x14 x15 x16 x17 x18 x19 x20 x21 x22 x23 x24 x25 x26 x27 x28 x29 x30 x31 x32 x33 x34 x35 x36 x37 x38 x39 x40 x41 x42 = (val_main_v271 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42) := by
  unfold Cert.KernelIdeal.Val.fused
  rw [Cert.StageB.hg2_eq, Cert.StageB.sf2_eq, Cert.StageB.x32_eq]
  rw [Cert.StageC.gp_eq, Cert.StageC.d2_eq, Cert.StageC.gflat_eq, Cert.StageC.d2flat_eq, Cert.StageC.d3flat_eq]
  rw [Cert.StageB.attnh_eq]
  have hβ := Cert.StageB.beta_eq x0 x1 x2 x3 x4 x5 x6 x7 x8 x9 x10 x11 x12 x13 x29 x30 x31 x32
  rw [hβ]
  rw [Cert.StageD.fc1_eq_of_beta x0 x1 x2 x3 x4 x5 x6 x7 x8 x9 x10 x11 x12 x13 x14 x15 x16 x17 x18 x19 x20 x21 x22 x23 x24 x25 x26 x27 x28 x29 x30 x31 x32 x33 x34 hβ, Cert.StageD.mean1_eq_of_beta x0 x1 x2 x3 x4 x5 x6 x7 x8 x9 x10 x11 x12 x13 x14 x15 x16 x17 x18 x19 x20 x21 x22 x23 x24 x25 x26 x27 x28 x29 x30 x31 x32 x33 x34 hβ, Cert.StageD.mean1rows_eq_of_beta x0 x1 x2 x3 x4 x5 x6 x7 x8 x9 x10 x11 x12 x13 x14 x15 x16 x17 x18 x19 x20 x21 x22 x23 x24 x25 x26 x27 x28 x29 x30 x31 x32 x33 x34 hβ]
  rw [Cert.StageD.var2_eq, Cert.StageD.dev2_eq, Cert.StageD.out_eq]

end Cert.Bridge

end
-- ==== Proof.RefArgs.lean ====
/-
  The reference program's 337 operations, in order, each write one buffer: its result. None of those 337 result
  buffers is one of the program's 43 argument buffers, so running the whole list leaves every argument buffer as it was.
  `written` lists the result references in program order; `ops_writes` says each operation writes only inside that
  list; `after_kept` is the consequence for any reference outside it, and the last block names the 43 arguments.
-/
import proofs.«168914_j82609400971796_1_alg».proof.Proof.RunP
import Idealize.ShloMosaic.Lib.StableHlo.Run

noncomputable section

namespace Cert.ReferenceIdeal.Val

open Cert.ReferenceIdeal Cert.ReferenceIdeal.Gen Cert.ReferenceIdeal.ValueP Idealize.ShloMosaic Idealize.ShloMosaic.TcCoe
  Idealize.ShloMosaic.StableHlo Idealize.SL.Sem

variable {F : FTy → Type} [FloatOps F]

/-- The result reference of every operation of the program, in program order. -/
def written : List (Ref sig .tc) :=
  [main_c, main_v0, main_v1, main_c_0, main_v2, main_v3, main_v4, main_v5, main_v6, main_cst, main_v7, main_v8,
  main_v9, main_cst_1, main_v10, main_cst_2, main_v11, main_v12, main_v13, main_cst_3, main_v14, main_v15,
  main_v16, main_v17, main_v18, main_v19, main_v20, main_v21, main_v22, main_call0_cst, main_call0_v0, main_v23,
  main_c_4, main_v24, main_v25, main_c_5, main_v26, main_v27, main_v28, main_v29, main_v30, main_cst_6,
  main_v31, main_v32, main_v33, main_cst_7, main_v34, main_cst_8, main_v35, main_v36, main_v37, main_cst_9,
  main_v38, main_v39, main_v40, main_v41, main_v42, main_v43, main_v44, main_v45, main_v46, main_call1_cst,
  main_call1_v0, main_v47, main_cst_10, main_v48, main_cst_11, main_v49, main_v50, main_v51, main_cst_12,
  main_v52, main_v53, main_v54, main_v55, main_v56, main_v57, main_v58, main_v59, main_v60, main_v61, main_v62,
  main_call2_cst, main_call2_v0, main_v63, main_v64, main_v65, main_v66, main_v67, main_cst_13, main_v68,
  main_cst_14, main_v69, main_v70, main_v71, main_v72, main_v73, main_v74, main_cst_15, main_v75, main_v76,
  main_v77, main_v78, main_v79, main_v80, main_v81, main_v82, main_v83, main_v84, main_v85, main_v86, main_v87,
  main_v88, main_v89, main_v90, main_v91, main_cst_16, main_v92, main_v93, main_cst_17, main_v94, main_v95,
  main_v96, main_v97, main_v98, main_cst_18, main_v99, main_v100, main_cst_19, main_v101, main_v102, main_v103,
  main_v104, main_v105, main_v106, main_v107, main_cst_20, main_v108, main_v109, main_v110, main_v111,
  main_v112, main_v113, main_v114, main_v115, main_call3_cst, main_call3_v0, main_v116, main_v117, main_v118,
  main_v119, main_v120, main_cst_21, main_v121, main_v122, main_cst_22, main_v123, main_v124, main_v125,
  main_v126, main_v127, main_cst_23, main_v128, main_v129, main_cst_24, main_v130, main_v131, main_v132,
  main_v133, main_v134, main_v135, main_v136, main_cst_25, main_v137, main_v138, main_v139, main_v140,
  main_v141, main_v142, main_v143, main_v144, main_call4_cst, main_call4_v0, main_v145, main_v146, main_v147,
  main_v148, main_v149, main_cst_26, main_v150, main_v151, main_cst_27, main_v152, main_v153, main_v154,
  main_v155, main_v156, main_cst_28, main_v157, main_v158, main_cst_29, main_v159, main_v160, main_v161,
  main_v162, main_v163, main_v164, main_v165, main_cst_30, main_v166, main_v167, main_v168, main_v169,
  main_v170, main_v171, main_v172, main_v173, main_call5_cst, main_call5_v0, main_v174, main_v175, main_v176,
  main_v177, main_v178, main_v179, main_v180, main_v181, main_v182, main_v183, main_v184, main_v185, main_v186,
  main_v187, main_call6_cst, main_call6_v0, main_v188, main_v189, main_v190, main_v191, main_v192, main_cst_31,
  main_v193, main_cst_32, main_v194, main_v195, main_v196, main_v197, main_v198, main_v199, main_cst_33,
  main_v200, main_v201, main_v202, main_v203, main_v204, main_v205, main_v206, main_cst_34, main_v207,
  main_v208, main_v209, main_v210, main_v211, main_cst_35, main_v212, main_cst_36, main_v213, main_v214,
  main_v215, main_v216, main_v217, main_v218, main_cst_37, main_v219, main_cst_38, main_v220, main_v221,
  main_v222, main_v223, main_v224, main_v225, main_v226, main_v227, main_cst_39, main_v228, main_v229,
  main_v230, main_v231, main_v232, main_v233, main_v234, main_v235, main_v236, main_call7_cst, main_call7_v0,
  main_v237, main_v238, main_v239, main_v240, main_v241, main_cst_40, main_v242, main_cst_41, main_v243,
  main_v244, main_v245, main_v246, main_v247, main_v248, main_cst_42, main_v249, main_cst_43, main_v250,
  main_v251, main_v252, main_v253, main_v254, main_v255, main_v256, main_v257, main_cst_44, main_v258,
  main_v259, main_v260, main_v261, main_v262, main_v263, main_v264, main_v265, main_v266, main_call8_cst,
  main_call8_v0, main_v267, main_v268, main_v269, main_v270, main_v271]

set_option maxRecDepth 8192 in
/-- The buffers written by the operations, in order, are exactly the buffers of the listed references, one each:
    every builder's operation writes its result buffer and nothing else. -/
theorem ops_writes_eq :
    (ops : List (HloOp τ sig (Elt F))).map (fun op => op.writes)
      = written.map (fun y => ({Proc.devRef .tc y} : Finset (DevRef τ sig))) := rfl

/-- Every operation writes only buffers of listed references. -/
theorem ops_writes :
    (ops : List (HloOp τ sig (Elt F))).Forall fun op =>
      op.writes ⊆ (written.map (Proc.devRef (τ := τ) .tc)).toFinset :=
  List.forall_iff_forall_mem.mpr fun op hop => by
    have hmem : op.writes ∈ (ops : List (HloOp τ sig (Elt F))).map (fun op => op.writes) :=
      List.mem_map.mpr ⟨op, hop, rfl⟩
    rw [ops_writes_eq] at hmem
    obtain ⟨y, hy, he⟩ := List.mem_map.mp hmem
    rw [← he]
    exact Finset.singleton_subset_iff.mpr (List.mem_toFinset.mpr (List.mem_map.mpr ⟨y, hy, rfl⟩))

/-- A reference that no operation writes holds, after the whole program, what it held before. -/
theorem after_kept (V : Valuation τ sig (Elt F)) (r : Ref sig .tc) (hr : r ∉ written) :
    after ops V (Proc.devRef .tc r) = V (Proc.devRef .tc r) :=
  after_of_writes_sub ops V ops_writes hr

/-! ## The 43 argument references are not written -/

theorem arg0_not_written : main_arg0 ∉ written := by decide
theorem arg1_not_written : main_arg1 ∉ written := by decide
theorem arg2_not_written : main_arg2 ∉ written := by decide
theorem arg3_not_written : main_arg3 ∉ written := by decide
theorem arg4_not_written : main_arg4 ∉ written := by decide
theorem arg5_not_written : main_arg5 ∉ written := by decide
theorem arg6_not_written : main_arg6 ∉ written := by decide
theorem arg7_not_written : main_arg7 ∉ written := by decide
theorem arg8_not_written : main_arg8 ∉ written := by decide
theorem arg9_not_written : main_arg9 ∉ written := by decide
theorem arg10_not_written : main_arg10 ∉ written := by decide
theorem arg11_not_written : main_arg11 ∉ written := by decide
theorem arg12_not_written : main_arg12 ∉ written := by decide
theorem arg13_not_written : main_arg13 ∉ written := by decide
theorem arg14_not_written : main_arg14 ∉ written := by decide
theorem arg15_not_written : main_arg15 ∉ written := by decide
theorem arg16_not_written : main_arg16 ∉ written := by decide
theorem arg17_not_written : main_arg17 ∉ written := by decide
theorem arg18_not_written : main_arg18 ∉ written := by decide
theorem arg19_not_written : main_arg19 ∉ written := by decide
theorem arg20_not_written : main_arg20 ∉ written := by decide
theorem arg21_not_written : main_arg21 ∉ written := by decide
theorem arg22_not_written : main_arg22 ∉ written := by decide
theorem arg23_not_written : main_arg23 ∉ written := by decide
theorem arg24_not_written : main_arg24 ∉ written := by decide
theorem arg25_not_written : main_arg25 ∉ written := by decide
theorem arg26_not_written : main_arg26 ∉ written := by decide
theorem arg27_not_written : main_arg27 ∉ written := by decide
theorem arg28_not_written : main_arg28 ∉ written := by decide
theorem arg29_not_written : main_arg29 ∉ written := by decide
theorem arg30_not_written : main_arg30 ∉ written := by decide
theorem arg31_not_written : main_arg31 ∉ written := by decide
theorem arg32_not_written : main_arg32 ∉ written := by decide
theorem arg33_not_written : main_arg33 ∉ written := by decide
theorem arg34_not_written : main_arg34 ∉ written := by decide
theorem arg35_not_written : main_arg35 ∉ written := by decide
theorem arg36_not_written : main_arg36 ∉ written := by decide
theorem arg37_not_written : main_arg37 ∉ written := by decide
theorem arg38_not_written : main_arg38 ∉ written := by decide
theorem arg39_not_written : main_arg39 ∉ written := by decide
theorem arg40_not_written : main_arg40 ∉ written := by decide
theorem arg41_not_written : main_arg41 ∉ written := by decide
theorem arg42_not_written : main_arg42 ∉ written := by decide

/-! ## Hence every argument buffer holds after the program what it held before -/

theorem after_arg0 (V : Valuation τ sig (Elt F)) :
    after ops V (Proc.devRef .tc main_arg0) = V (Proc.devRef .tc main_arg0) := after_kept V _ arg0_not_written
theorem after_arg1 (V : Valuation τ sig (Elt F)) :
    after ops V (Proc.devRef .tc main_arg1) = V (Proc.devRef .tc main_arg1) := after_kept V _ arg1_not_written
theorem after_arg2 (V : Valuation τ sig (Elt F)) :
    after ops V (Proc.devRef .tc main_arg2) = V (Proc.devRef .tc main_arg2) := after_kept V _ arg2_not_written
theorem after_arg3 (V : Valuation τ sig (Elt F)) :
    after ops V (Proc.devRef .tc main_arg3) = V (Proc.devRef .tc main_arg3) := after_kept V _ arg3_not_written
theorem after_arg4 (V : Valuation τ sig (Elt F)) :
    after ops V (Proc.devRef .tc main_arg4) = V (Proc.devRef .tc main_arg4) := after_kept V _ arg4_not_written
theorem after_arg5 (V : Valuation τ sig (Elt F)) :
    after ops V (Proc.devRef .tc main_arg5) = V (Proc.devRef .tc main_arg5) := after_kept V _ arg5_not_written
theorem after_arg6 (V : Valuation τ sig (Elt F)) :
    after ops V (Proc.devRef .tc main_arg6) = V (Proc.devRef .tc main_arg6) := after_kept V _ arg6_not_written
theorem after_arg7 (V : Valuation τ sig (Elt F)) :
    after ops V (Proc.devRef .tc main_arg7) = V (Proc.devRef .tc main_arg7) := after_kept V _ arg7_not_written
theorem after_arg8 (V : Valuation τ sig (Elt F)) :
    after ops V (Proc.devRef .tc main_arg8) = V (Proc.devRef .tc main_arg8) := after_kept V _ arg8_not_written
theorem after_arg9 (V : Valuation τ sig (Elt F)) :
    after ops V (Proc.devRef .tc main_arg9) = V (Proc.devRef .tc main_arg9) := after_kept V _ arg9_not_written
theorem after_arg10 (V : Valuation τ sig (Elt F)) :
    after ops V (Proc.devRef .tc main_arg10) = V (Proc.devRef .tc main_arg10) := after_kept V _ arg10_not_written
theorem after_arg11 (V : Valuation τ sig (Elt F)) :
    after ops V (Proc.devRef .tc main_arg11) = V (Proc.devRef .tc main_arg11) := after_kept V _ arg11_not_written
theorem after_arg12 (V : Valuation τ sig (Elt F)) :
    after ops V (Proc.devRef .tc main_arg12) = V (Proc.devRef .tc main_arg12) := after_kept V _ arg12_not_written
theorem after_arg13 (V : Valuation τ sig (Elt F)) :
    after ops V (Proc.devRef .tc main_arg13) = V (Proc.devRef .tc main_arg13) := after_kept V _ arg13_not_written
theorem after_arg14 (V : Valuation τ sig (Elt F)) :
    after ops V (Proc.devRef .tc main_arg14) = V (Proc.devRef .tc main_arg14) := after_kept V _ arg14_not_written
theorem after_arg15 (V : Valuation τ sig (Elt F)) :
    after ops V (Proc.devRef .tc main_arg15) = V (Proc.devRef .tc main_arg15) := after_kept V _ arg15_not_written
theorem after_arg16 (V : Valuation τ sig (Elt F)) :
    after ops V (Proc.devRef .tc main_arg16) = V (Proc.devRef .tc main_arg16) := after_kept V _ arg16_not_written
theorem after_arg17 (V : Valuation τ sig (Elt F)) :
    after ops V (Proc.devRef .tc main_arg17) = V (Proc.devRef .tc main_arg17) := after_kept V _ arg17_not_written
theorem after_arg18 (V : Valuation τ sig (Elt F)) :
    after ops V (Proc.devRef .tc main_arg18) = V (Proc.devRef .tc main_arg18) := after_kept V _ arg18_not_written
theorem after_arg19 (V : Valuation τ sig (Elt F)) :
    after ops V (Proc.devRef .tc main_arg19) = V (Proc.devRef .tc main_arg19) := after_kept V _ arg19_not_written
theorem after_arg20 (V : Valuation τ sig (Elt F)) :
    after ops V (Proc.devRef .tc main_arg20) = V (Proc.devRef .tc main_arg20) := after_kept V _ arg20_not_written
theorem after_arg21 (V : Valuation τ sig (Elt F)) :
    after ops V (Proc.devRef .tc main_arg21) = V (Proc.devRef .tc main_arg21) := after_kept V _ arg21_not_written
theorem after_arg22 (V : Valuation τ sig (Elt F)) :
    after ops V (Proc.devRef .tc main_arg22) = V (Proc.devRef .tc main_arg22) := after_kept V _ arg22_not_written
theorem after_arg23 (V : Valuation τ sig (Elt F)) :
    after ops V (Proc.devRef .tc main_arg23) = V (Proc.devRef .tc main_arg23) := after_kept V _ arg23_not_written
theorem after_arg24 (V : Valuation τ sig (Elt F)) :
    after ops V (Proc.devRef .tc main_arg24) = V (Proc.devRef .tc main_arg24) := after_kept V _ arg24_not_written
theorem after_arg25 (V : Valuation τ sig (Elt F)) :
    after ops V (Proc.devRef .tc main_arg25) = V (Proc.devRef .tc main_arg25) := after_kept V _ arg25_not_written
theorem after_arg26 (V : Valuation τ sig (Elt F)) :
    after ops V (Proc.devRef .tc main_arg26) = V (Proc.devRef .tc main_arg26) := after_kept V _ arg26_not_written
theorem after_arg27 (V : Valuation τ sig (Elt F)) :
    after ops V (Proc.devRef .tc main_arg27) = V (Proc.devRef .tc main_arg27) := after_kept V _ arg27_not_written
theorem after_arg28 (V : Valuation τ sig (Elt F)) :
    after ops V (Proc.devRef .tc main_arg28) = V (Proc.devRef .tc main_arg28) := after_kept V _ arg28_not_written
theorem after_arg29 (V : Valuation τ sig (Elt F)) :
    after ops V (Proc.devRef .tc main_arg29) = V (Proc.devRef .tc main_arg29) := after_kept V _ arg29_not_written
theorem after_arg30 (V : Valuation τ sig (Elt F)) :
    after ops V (Proc.devRef .tc main_arg30) = V (Proc.devRef .tc main_arg30) := after_kept V _ arg30_not_written
theorem after_arg31 (V : Valuation τ sig (Elt F)) :
    after ops V (Proc.devRef .tc main_arg31) = V (Proc.devRef .tc main_arg31) := after_kept V _ arg31_not_written
theorem after_arg32 (V : Valuation τ sig (Elt F)) :
    after ops V (Proc.devRef .tc main_arg32) = V (Proc.devRef .tc main_arg32) := after_kept V _ arg32_not_written
theorem after_arg33 (V : Valuation τ sig (Elt F)) :
    after ops V (Proc.devRef .tc main_arg33) = V (Proc.devRef .tc main_arg33) := after_kept V _ arg33_not_written
theorem after_arg34 (V : Valuation τ sig (Elt F)) :
    after ops V (Proc.devRef .tc main_arg34) = V (Proc.devRef .tc main_arg34) := after_kept V _ arg34_not_written
theorem after_arg35 (V : Valuation τ sig (Elt F)) :
    after ops V (Proc.devRef .tc main_arg35) = V (Proc.devRef .tc main_arg35) := after_kept V _ arg35_not_written
theorem after_arg36 (V : Valuation τ sig (Elt F)) :
    after ops V (Proc.devRef .tc main_arg36) = V (Proc.devRef .tc main_arg36) := after_kept V _ arg36_not_written
theorem after_arg37 (V : Valuation τ sig (Elt F)) :
    after ops V (Proc.devRef .tc main_arg37) = V (Proc.devRef .tc main_arg37) := after_kept V _ arg37_not_written
theorem after_arg38 (V : Valuation τ sig (Elt F)) :
    after ops V (Proc.devRef .tc main_arg38) = V (Proc.devRef .tc main_arg38) := after_kept V _ arg38_not_written
theorem after_arg39 (V : Valuation τ sig (Elt F)) :
    after ops V (Proc.devRef .tc main_arg39) = V (Proc.devRef .tc main_arg39) := after_kept V _ arg39_not_written
theorem after_arg40 (V : Valuation τ sig (Elt F)) :
    after ops V (Proc.devRef .tc main_arg40) = V (Proc.devRef .tc main_arg40) := after_kept V _ arg40_not_written
theorem after_arg41 (V : Valuation τ sig (Elt F)) :
    after ops V (Proc.devRef .tc main_arg41) = V (Proc.devRef .tc main_arg41) := after_kept V _ arg41_not_written
theorem after_arg42 (V : Valuation τ sig (Elt F)) :
    after ops V (Proc.devRef .tc main_arg42) = V (Proc.devRef .tc main_arg42) := after_kept V _ arg42_not_written

end Cert.ReferenceIdeal.Val

end
-- ==== Proof.RefVal.lean ====
import proofs.«168914_j82609400971796_1_alg».proof.Proof.ReadP
import Idealize.ShloMosaic.Lib.StableHlo.Run

noncomputable section

namespace Cert.ReferenceIdeal.Val

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Running two lists of operations one after the other is running their concatenation. -/
theorem after_append' : ∀ (l₁ l₂ : List (HloOp τ sig (Elt F))) (U : Valuation τ sig (Elt F)), after (l₁ ++ l₂) U = after l₂ (after l₁ U)
  | [], _, _ => rfl
  | op :: l₁, l₂, U => by rw [List.cons_append, after_cons, after_cons, after_append' l₁ l₂]

/-! ## The values still read after the stage that computes them, as functions of the arguments -/

abbrev E_main_v6 (V0 : Valuation τ sig (Elt F)) := val_main_v6 (F := F) (V0 (Proc.devRef .tc main_arg0)) (V0 (Proc.devRef .tc main_arg3))
abbrev E_main_v9 (V0 : Valuation τ sig (Elt F)) := val_main_v9 (F := F) (V0 (Proc.devRef .tc main_arg0)) (V0 (Proc.devRef .tc main_arg3)) (V0 (Proc.devRef .tc main_arg4))
abbrev E_main_v13 (V0 : Valuation τ sig (Elt F)) := val_main_v13 (F := F) (V0 (Proc.devRef .tc main_arg4))
abbrev E_main_v22 (V0 : Valuation τ sig (Elt F)) := val_main_v22 (F := F) (V0 (Proc.devRef .tc main_arg0)) (V0 (Proc.devRef .tc main_arg3)) (V0 (Proc.devRef .tc main_arg4)) (V0 (Proc.devRef .tc main_arg6)) (V0 (Proc.devRef .tc main_arg7))
abbrev E_main_v30 (V0 : Valuation τ sig (Elt F)) := val_main_v30 (F := F) (V0 (Proc.devRef .tc main_arg0)) (V0 (Proc.devRef .tc main_arg3)) (V0 (Proc.devRef .tc main_arg4)) (V0 (Proc.devRef .tc main_arg6)) (V0 (Proc.devRef .tc main_arg7))
abbrev E_main_v33 (V0 : Valuation τ sig (Elt F)) := val_main_v33 (F := F) (V0 (Proc.devRef .tc main_arg0)) (V0 (Proc.devRef .tc main_arg3)) (V0 (Proc.devRef .tc main_arg4)) (V0 (Proc.devRef .tc main_arg6)) (V0 (Proc.devRef .tc main_arg7))
abbrev E_main_v37 (V0 : Valuation τ sig (Elt F)) := val_main_v37 (F := F) (V0 (Proc.devRef .tc main_arg4))
abbrev E_main_v46 (V0 : Valuation τ sig (Elt F)) := val_main_v46 (F := F) (V0 (Proc.devRef .tc main_arg0)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9))
abbrev E_main_v47 (V0 : Valuation τ sig (Elt F)) := val_main_v47 (F := F) (V0 (Proc.devRef .tc main_arg0)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9))
abbrev E_main_v51 (V0 : Valuation τ sig (Elt F)) := val_main_v51 (F := F) (V0 (Proc.devRef .tc main_arg5))
abbrev E_main_v57 (V0 : Valuation τ sig (Elt F)) := val_main_v57 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
abbrev E_main_v67 (V0 : Valuation τ sig (Elt F)) := val_main_v67 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v74 (V0 : Valuation τ sig (Elt F)) := val_main_v74 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v78 (V0 : Valuation τ sig (Elt F)) := val_main_v78 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v81 (V0 : Valuation τ sig (Elt F)) := val_main_v81 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v84 (V0 : Valuation τ sig (Elt F)) := val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v87 (V0 : Valuation τ sig (Elt F)) := val_main_v87 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
abbrev E_main_v91 (V0 : Valuation τ sig (Elt F)) := val_main_v91 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
abbrev E_main_v95 (V0 : Valuation τ sig (Elt F)) := val_main_v95 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
abbrev E_main_v102 (V0 : Valuation τ sig (Elt F)) := val_main_v102 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
abbrev E_main_v104 (V0 : Valuation τ sig (Elt F)) := val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
abbrev E_main_v115 (V0 : Valuation τ sig (Elt F)) := val_main_v115 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg20)) (V0 (Proc.devRef .tc main_arg21))
abbrev E_main_v116 (V0 : Valuation τ sig (Elt F)) := val_main_v116 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg20)) (V0 (Proc.devRef .tc main_arg21))
abbrev E_main_v120 (V0 : Valuation τ sig (Elt F)) := val_main_v120 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17))
abbrev E_main_v124 (V0 : Valuation τ sig (Elt F)) := val_main_v124 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17))
abbrev E_main_v131 (V0 : Valuation τ sig (Elt F)) := val_main_v131 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17))
abbrev E_main_v133 (V0 : Valuation τ sig (Elt F)) := val_main_v133 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17))
abbrev E_main_v144 (V0 : Valuation τ sig (Elt F)) := val_main_v144 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) (V0 (Proc.devRef .tc main_arg22)) (V0 (Proc.devRef .tc main_arg23))
abbrev E_main_v145 (V0 : Valuation τ sig (Elt F)) := val_main_v145 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg16)) (V0 (Proc.devRef .tc main_arg17)) (V0 (Proc.devRef .tc main_arg22)) (V0 (Proc.devRef .tc main_arg23))
abbrev E_main_v149 (V0 : Valuation τ sig (Elt F)) := val_main_v149 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19))
abbrev E_main_v153 (V0 : Valuation τ sig (Elt F)) := val_main_v153 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19))
abbrev E_main_v160 (V0 : Valuation τ sig (Elt F)) := val_main_v160 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19))
abbrev E_main_v162 (V0 : Valuation τ sig (Elt F)) := val_main_v162 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19))
abbrev E_main_v173 (V0 : Valuation τ sig (Elt F)) := val_main_v173 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg18)) (V0 (Proc.devRef .tc main_arg19)) (V0 (Proc.devRef .tc main_arg24)) (V0 (Proc.devRef .tc main_arg25))
abbrev E_main_v182 (V0 : Valuation τ sig (Elt F)) := val_main_v182 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28))
abbrev E_main_v192 (V0 : Valuation τ sig (Elt F)) := val_main_v192 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg29)) (V0 (Proc.devRef .tc main_arg30)) (V0 (Proc.devRef .tc main_arg31)) (V0 (Proc.devRef .tc main_arg32))
abbrev E_main_v199 (V0 : Valuation τ sig (Elt F)) := val_main_v199 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg29)) (V0 (Proc.devRef .tc main_arg30)) (V0 (Proc.devRef .tc main_arg31)) (V0 (Proc.devRef .tc main_arg32))
abbrev E_main_v208 (V0 : Valuation τ sig (Elt F)) := val_main_v208 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33))
abbrev E_main_v211 (V0 : Valuation τ sig (Elt F)) := val_main_v211 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34))
abbrev E_main_v214 (V0 : Valuation τ sig (Elt F)) := val_main_v214 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34))
abbrev E_main_v221 (V0 : Valuation τ sig (Elt F)) := val_main_v221 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34))
abbrev E_main_v224 (V0 : Valuation τ sig (Elt F)) := val_main_v224 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34))
abbrev E_main_v233 (V0 : Valuation τ sig (Elt F)) := val_main_v233 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg39))
abbrev E_main_v241 (V0 : Valuation τ sig (Elt F)) := val_main_v241 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg39)) (V0 (Proc.devRef .tc main_arg40))
abbrev E_main_v244 (V0 : Valuation τ sig (Elt F)) := val_main_v244 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg39)) (V0 (Proc.devRef .tc main_arg40))
abbrev E_main_v249 (V0 : Valuation τ sig (Elt F)) := val_main_v249 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg39)) (V0 (Proc.devRef .tc main_arg40))
abbrev E_main_v257 (V0 : Valuation τ sig (Elt F)) := val_main_v257 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg39)) (V0 (Proc.devRef .tc main_arg40)) (V0 (Proc.devRef .tc main_arg41))
abbrev E_main_v259 (V0 : Valuation τ sig (Elt F)) := val_main_v259 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg39)) (V0 (Proc.devRef .tc main_arg40))
abbrev E_main_v271 (V0 : Valuation τ sig (Elt F)) := val_main_v271 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) (V0 (Proc.devRef .tc main_arg33)) (V0 (Proc.devRef .tc main_arg34)) (V0 (Proc.devRef .tc main_arg35)) (V0 (Proc.devRef .tc main_arg36)) (V0 (Proc.devRef .tc main_arg37)) (V0 (Proc.devRef .tc main_arg38)) (V0 (Proc.devRef .tc main_arg39)) (V0 (Proc.devRef .tc main_arg40)) (V0 (Proc.devRef .tc main_arg41)) (V0 (Proc.devRef .tc main_arg42))

/-! ## The operations in consecutive stages, and the buffer contents after each stage -/

/-- Operations 1 … 9 of the 337. -/
abbrev part1 : List (HloOp τ sig (Elt F)) :=
  [ nullary main_c (constantI S_ 32 0#32),
    unary main_c main_v0 (broadcastInDim S1638400 ![] bcast_S_S1638400 : (⟨S_, .i32⟩ : BufTy).Contents (Elt F) → (⟨S1638400, .i32⟩ : BufTy).Contents (Elt F)),
    binary main_arg3 main_v0 main_v1 (cmpi .slt : (⟨S1638400, .i32⟩ : BufTy).Contents (Elt F) → (⟨S1638400, .i32⟩ : BufTy).Contents (Elt F) → (⟨S1638400, .i1⟩ : BufTy).Contents (Elt F)),
    nullary main_c_0 (constantI S_ 32 102400#32),
    unary main_c_0 main_v2 (broadcastInDim S1638400 ![] bcast_S_S1638400 : (⟨S_, .i32⟩ : BufTy).Contents (Elt F) → (⟨S1638400, .i32⟩ : BufTy).Contents (Elt F)),
    binary main_arg3 main_v2 main_v3 (addi : (⟨S1638400, .i32⟩ : BufTy).Contents (Elt F) → (⟨S1638400, .i32⟩ : BufTy).Contents (Elt F) → (⟨S1638400, .i32⟩ : BufTy).Contents (Elt F)),
    ternary main_v1 main_v3 main_arg3 main_v4 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v4 main_v5 (broadcastInDim S1638400x1 ![0] bcast_S1638400_S1638400x1_0 : (⟨S1638400, .i32⟩ : BufTy).Contents (Elt F) → (⟨S1638400x1, .i32⟩ : BufTy).Contents (Elt F)),
    binary main_arg0 main_v5 main_v6 ((fun x i => Host.gather gather_S102400x64_S1638400x1_S1638400x64_1_0_n_n_0_1_164 x i) : (⟨S102400x64, .f32⟩ : BufTy).Contents (Elt F) → (⟨S1638400x1, .i32⟩ : BufTy).Contents (Elt F) → (⟨S1638400x64, .f32⟩ : BufTy).Contents (Elt F)) ]

/-- Operations 10 … 19 of the 337. -/
abbrev part2 : List (HloOp τ sig (Elt F)) :=
  [ nullary main_cst (constant S_ .f32 0x00000000#32),
    unary main_cst main_v7 (broadcastInDim S102400x64 ![] bcast_S_S102400x64 : (⟨S_, .f32⟩ : BufTy).Contents (Elt F) → (⟨S102400x64, .f32⟩ : BufTy).Contents (Elt F)),
    unary main_arg4 main_v8 (broadcastInDim S1638400x1 ![0] bcast_S1638400_S1638400x1_0 : (⟨S1638400, .i32⟩ : BufTy).Contents (Elt F) → (⟨S1638400x1, .i32⟩ : BufTy).Contents (Elt F)),
    ternary main_v7 main_v8 main_v6 main_v9 ((fun x i u => Host.scatterAdd scatter_S102400x64_S1638400x1_S1638400x64_1_0_0_1 x i u) : (⟨S102400x64, .f32⟩ : BufTy).Contents (Elt F) → (⟨S1638400x1, .i32⟩ : BufTy).Contents (Elt F) → (⟨S1638400x64, .f32⟩ : BufTy).Contents (Elt F) → (⟨S102400x64, .f32⟩ : BufTy).Contents (Elt F)),
    nullary main_cst_1 (constant S_ .f32 0x3F800000#32),
    unary main_cst_1 main_v10 (broadcastInDim S1638400 ![] bcast_S_S1638400 : (⟨S_, .f32⟩ : BufTy).Contents (Elt F) → (⟨S1638400, .f32⟩ : BufTy).Contents (Elt F)),
    nullary main_cst_2 (constant S_ .f32 0x00000000#32),
    unary main_cst_2 main_v11 (broadcastInDim S102400 ![] bcast_S_S102400 : (⟨S_, .f32⟩ : BufTy).Contents (Elt F) → (⟨S102400, .f32⟩ : BufTy).Contents (Elt F)),
    unary main_arg4 main_v12 (broadcastInDim S1638400x1 ![0] bcast_S1638400_S1638400x1_0 : (⟨S1638400, .i32⟩ : BufTy).Contents (Elt F) → (⟨S1638400x1, .i32⟩ : BufTy).Contents (Elt F)),
    ternary main_v11 main_v12 main_v10 main_v13 ((fun x i u => Host.scatterAdd scatter_S102400_S1638400x1_S1638400_n_0_0_1 x i u) : (⟨S102400, .f32⟩ : BufTy).Contents (Elt F) → (⟨S1638400x1, .i32⟩ : BufTy).Contents (Elt F) → (⟨S1638400, .f32⟩ : BufTy).Contents (Elt F) → (⟨S102400, .f32⟩ : BufTy).Contents (Elt F)) ]

/-- Operations 20 … 29 of the 337. -/
abbrev part3 : List (HloOp τ sig (Elt F)) :=
  [ nullary main_cst_3 (constant S_ .f32 0x3F800000#32),
    unary main_cst_3 main_v14 (broadcastInDim S102400 ![] bcast_S_S102400 : (⟨S_, .f32⟩ : BufTy).Contents (Elt F) → (⟨S102400, .f32⟩ : BufTy).Contents (Elt F)),
    binary main_v13 main_v14 main_v15 (maximumf : (⟨S102400, .f32⟩ : BufTy).Contents (Elt F) → (⟨S102400, .f32⟩ : BufTy).Contents (Elt F) → (⟨S102400, .f32⟩ : BufTy).Contents (Elt F)),
    unary main_v15 main_v16 (broadcastInDim S102400x1 ![0] bcast_S102400_S102400x1_0 : (⟨S102400, .f32⟩ : BufTy).Contents (Elt F) → (⟨S102400x1, .f32⟩ : BufTy).Contents (Elt F)),
    unary main_v16 main_v17 (broadcastInDim S102400x64 ![0, 1] bcast_S102400x1_S102400x64_0_1 : (⟨S102400x1, .f32⟩ : BufTy).Contents (Elt F) → (⟨S102400x64, .f32⟩ : BufTy).Contents (Elt F)),
    binary main_v9 main_v17 main_v18 (Host.divf : (⟨S102400x64, .f32⟩ : BufTy).Contents (Elt F) → (⟨S102400x64, .f32⟩ : BufTy).Contents (Elt F) → (⟨S102400x64, .f32⟩ : BufTy).Contents (Elt F)),
    binary main_v18 main_arg6 main_v19 ((fun l r => Host.dotGeneral dot_S102400x64_S64x100_S102400x100_1_0_0_1_n_n none l r) : (⟨S102400x64, .f32⟩ : BufTy).Contents (Elt F) → (⟨S64x100, .f32⟩ : BufTy).Contents (Elt F) → (⟨S102400x100, .f32⟩ : BufTy).Contents (Elt F)),
    unary main_arg7 main_v20 (broadcastInDim S1x100 ![1] bcast_S100_S1x100_1 : (⟨S100, .f32⟩ : BufTy).Contents (Elt F) → (⟨S1x100, .f32⟩ : BufTy).Contents (Elt F)),
    unary main_v20 main_v21 (broadcastInDim S102400x100 ![0, 1] bcast_S1x100_S102400x100_0_1 : (⟨S1x100, .f32⟩ : BufTy).Contents (Elt F) → (⟨S102400x100, .f32⟩ : BufTy).Contents (Elt F)),
    binary main_v19 main_v21 main_v22 (addf : (⟨S102400x100, .f32⟩ : BufTy).Contents (Elt F) → (⟨S102400x100, .f32⟩ : BufTy).Contents (Elt F) → (⟨S102400x100, .f32⟩ : BufTy).Contents (Elt F)) ]

/-- Operations 30 … 41 of the 337. -/
abbrev part4 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S102400x100, .f32⟩) main_call0_v0) (broadcastInDim S102400x100 ![] bcast_S_S102400x100),
    TRef.binary (TRef.of (T := ⟨S102400x100, .f32⟩) main_v22) (TRef.of (T := ⟨S102400x100, .f32⟩) main_call0_v0) (TRef.of (T := ⟨S102400x100, .f32⟩) main_v23) maximumf,
    nullary main_c_4 (constantI S_ 32 0#32),
    unary main_c_4 main_v24 (broadcastInDim S1638400 ![] bcast_S_S1638400 : (⟨S_, .i32⟩ : BufTy).Contents (Elt F) → (⟨S1638400, .i32⟩ : BufTy).Contents (Elt F)),
    binary main_arg3 main_v24 main_v25 (cmpi .slt : (⟨S1638400, .i32⟩ : BufTy).Contents (Elt F) → (⟨S1638400, .i32⟩ : BufTy).Contents (Elt F) → (⟨S1638400, .i1⟩ : BufTy).Contents (Elt F)),
    nullary main_c_5 (constantI S_ 32 102400#32),
    unary main_c_5 main_v26 (broadcastInDim S1638400 ![] bcast_S_S1638400 : (⟨S_, .i32⟩ : BufTy).Contents (Elt F) → (⟨S1638400, .i32⟩ : BufTy).Contents (Elt F)),
    binary main_arg3 main_v26 main_v27 (addi : (⟨S1638400, .i32⟩ : BufTy).Contents (Elt F) → (⟨S1638400, .i32⟩ : BufTy).Contents (Elt F) → (⟨S1638400, .i32⟩ : BufTy).Contents (Elt F)),
    ternary main_v25 main_v27 main_arg3 main_v28 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    unary main_v28 main_v29 (broadcastInDim S1638400x1 ![0] bcast_S1638400_S1638400x1_0 : (⟨S1638400, .i32⟩ : BufTy).Contents (Elt F) → (⟨S1638400x1, .i32⟩ : BufTy).Contents (Elt F)),
    binary main_v23 main_v29 main_v30 ((fun x i => Host.gather gather_S102400x100_S1638400x1_S1638400x100_1_0_n_n_0_1_1100 x i) : (⟨S102400x100, .f32⟩ : BufTy).Contents (Elt F) → (⟨S1638400x1, .i32⟩ : BufTy).Contents (Elt F) → (⟨S1638400x100, .f32⟩ : BufTy).Contents (Elt F)) ]

/-- Operations 42 … 51 of the 337. -/
abbrev part5 : List (HloOp τ sig (Elt F)) :=
  [ nullary main_cst_6 (constant S_ .f32 0x00000000#32),
    unary main_cst_6 main_v31 (broadcastInDim S102400x100 ![] bcast_S_S102400x100 : (⟨S_, .f32⟩ : BufTy).Contents (Elt F) → (⟨S102400x100, .f32⟩ : BufTy).Contents (Elt F)),
    unary main_arg4 main_v32 (broadcastInDim S1638400x1 ![0] bcast_S1638400_S1638400x1_0 : (⟨S1638400, .i32⟩ : BufTy).Contents (Elt F) → (⟨S1638400x1, .i32⟩ : BufTy).Contents (Elt F)),
    ternary main_v31 main_v32 main_v30 main_v33 ((fun x i u => Host.scatterAdd scatter_S102400x100_S1638400x1_S1638400x100_1_0_0_1 x i u) : (⟨S102400x100, .f32⟩ : BufTy).Contents (Elt F) → (⟨S1638400x1, .i32⟩ : BufTy).Contents (Elt F) → (⟨S1638400x100, .f32⟩ : BufTy).Contents (Elt F) → (⟨S102400x100, .f32⟩ : BufTy).Contents (Elt F)),
    nullary main_cst_7 (constant S_ .f32 0x3F800000#32),
    unary main_cst_7 main_v34 (broadcastInDim S1638400 ![] bcast_S_S1638400 : (⟨S_, .f32⟩ : BufTy).Contents (Elt F) → (⟨S1638400, .f32⟩ : BufTy).Contents (Elt F)),
    nullary main_cst_8 (constant S_ .f32 0x00000000#32),
    unary main_cst_8 main_v35 (broadcastInDim S102400 ![] bcast_S_S102400 : (⟨S_, .f32⟩ : BufTy).Contents (Elt F) → (⟨S102400, .f32⟩ : BufTy).Contents (Elt F)),
    unary main_arg4 main_v36 (broadcastInDim S1638400x1 ![0] bcast_S1638400_S1638400x1_0 : (⟨S1638400, .i32⟩ : BufTy).Contents (Elt F) → (⟨S1638400x1, .i32⟩ : BufTy).Contents (Elt F)),
    ternary main_v35 main_v36 main_v34 main_v37 ((fun x i u => Host.scatterAdd scatter_S102400_S1638400x1_S1638400_n_0_0_1 x i u) : (⟨S102400, .f32⟩ : BufTy).Contents (Elt F) → (⟨S1638400x1, .i32⟩ : BufTy).Contents (Elt F) → (⟨S1638400, .f32⟩ : BufTy).Contents (Elt F) → (⟨S102400, .f32⟩ : BufTy).Contents (Elt F)) ]

/-- Operations 52 … 61 of the 337. -/
abbrev part6 : List (HloOp τ sig (Elt F)) :=
  [ nullary main_cst_9 (constant S_ .f32 0x3F800000#32),
    unary main_cst_9 main_v38 (broadcastInDim S102400 ![] bcast_S_S102400 : (⟨S_, .f32⟩ : BufTy).Contents (Elt F) → (⟨S102400, .f32⟩ : BufTy).Contents (Elt F)),
    binary main_v37 main_v38 main_v39 (maximumf : (⟨S102400, .f32⟩ : BufTy).Contents (Elt F) → (⟨S102400, .f32⟩ : BufTy).Contents (Elt F) → (⟨S102400, .f32⟩ : BufTy).Contents (Elt F)),
    unary main_v39 main_v40 (broadcastInDim S102400x1 ![0] bcast_S102400_S102400x1_0 : (⟨S102400, .f32⟩ : BufTy).Contents (Elt F) → (⟨S102400x1, .f32⟩ : BufTy).Contents (Elt F)),
    unary main_v40 main_v41 (broadcastInDim S102400x100 ![0, 1] bcast_S102400x1_S102400x100_0_1 : (⟨S102400x1, .f32⟩ : BufTy).Contents (Elt F) → (⟨S102400x100, .f32⟩ : BufTy).Contents (Elt F)),
    binary main_v33 main_v41 main_v42 (Host.divf : (⟨S102400x100, .f32⟩ : BufTy).Contents (Elt F) → (⟨S102400x100, .f32⟩ : BufTy).Contents (Elt F) → (⟨S102400x100, .f32⟩ : BufTy).Contents (Elt F)),
    binary main_v42 main_arg8 main_v43 ((fun l r => Host.dotGeneral dot_S102400x100_S100x20_S102400x20_1_0_0_1_n_n none l r) : (⟨S102400x100, .f32⟩ : BufTy).Contents (Elt F) → (⟨S100x20, .f32⟩ : BufTy).Contents (Elt F) → (⟨S102400x20, .f32⟩ : BufTy).Contents (Elt F)),
    unary main_arg9 main_v44 (broadcastInDim S1x20 ![1] bcast_S20_S1x20_1 : (⟨S20, .f32⟩ : BufTy).Contents (Elt F) → (⟨S1x20, .f32⟩ : BufTy).Contents (Elt F)),
    unary main_v44 main_v45 (broadcastInDim S102400x20 ![0, 1] bcast_S1x20_S102400x20_0_1 : (⟨S1x20, .f32⟩ : BufTy).Contents (Elt F) → (⟨S102400x20, .f32⟩ : BufTy).Contents (Elt F)),
    binary main_v43 main_v45 main_v46 (addf : (⟨S102400x20, .f32⟩ : BufTy).Contents (Elt F) → (⟨S102400x20, .f32⟩ : BufTy).Contents (Elt F) → (⟨S102400x20, .f32⟩ : BufTy).Contents (Elt F)) ]

/-- Operations 62 … 70 of the 337. -/
abbrev part7 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S102400x20, .f32⟩) main_call1_v0) (broadcastInDim S102400x20 ![] bcast_S_S102400x20),
    TRef.binary (TRef.of (T := ⟨S102400x20, .f32⟩) main_v46) (TRef.of (T := ⟨S102400x20, .f32⟩) main_call1_v0) (TRef.of (T := ⟨S102400x20, .f32⟩) main_v47) maximumf,
    nullary main_cst_10 (constant S_ .f32 0x3F800000#32),
    unary main_cst_10 main_v48 (broadcastInDim S102400 ![] bcast_S_S102400 : (⟨S_, .f32⟩ : BufTy).Contents (Elt F) → (⟨S102400, .f32⟩ : BufTy).Contents (Elt F)),
    nullary main_cst_11 (constant S_ .f32 0x00000000#32),
    unary main_cst_11 main_v49 (broadcastInDim S512 ![] bcast_S_S512 : (⟨S_, .f32⟩ : BufTy).Contents (Elt F) → (⟨S512, .f32⟩ : BufTy).Contents (Elt F)),
    unary main_arg5 main_v50 (broadcastInDim S102400x1 ![0] bcast_S102400_S102400x1_0 : (⟨S102400, .i32⟩ : BufTy).Contents (Elt F) → (⟨S102400x1, .i32⟩ : BufTy).Contents (Elt F)),
    ternary main_v49 main_v50 main_v48 main_v51 ((fun x i u => Host.scatterAdd scatter_S512_S102400x1_S102400_n_0_0_1 x i u) : (⟨S512, .f32⟩ : BufTy).Contents (Elt F) → (⟨S102400x1, .i32⟩ : BufTy).Contents (Elt F) → (⟨S102400, .f32⟩ : BufTy).Contents (Elt F) → (⟨S512, .f32⟩ : BufTy).Contents (Elt F)) ]

/-- Operations 71 … 77 of the 337. -/
abbrev part8 : List (HloOp τ sig (Elt F)) :=
  [ nullary main_cst_12 (constant S_ .f32 0x00000000#32),
    unary main_cst_12 main_v52 (broadcastInDim S512x20 ![] bcast_S_S512x20 : (⟨S_, .f32⟩ : BufTy).Contents (Elt F) → (⟨S512x20, .f32⟩ : BufTy).Contents (Elt F)),
    unary main_arg5 main_v53 (broadcastInDim S102400x1 ![0] bcast_S102400_S102400x1_0 : (⟨S102400, .i32⟩ : BufTy).Contents (Elt F) → (⟨S102400x1, .i32⟩ : BufTy).Contents (Elt F)),
    ternary main_v52 main_v53 main_v47 main_v54 ((fun x i u => Host.scatterAdd scatter_S512x20_S102400x1_S102400x20_1_0_0_1 x i u) : (⟨S512x20, .f32⟩ : BufTy).Contents (Elt F) → (⟨S102400x1, .i32⟩ : BufTy).Contents (Elt F) → (⟨S102400x20, .f32⟩ : BufTy).Contents (Elt F) → (⟨S512x20, .f32⟩ : BufTy).Contents (Elt F)),
    unary main_v51 main_v55 (broadcastInDim S512x1 ![0] bcast_S512_S512x1_0 : (⟨S512, .f32⟩ : BufTy).Contents (Elt F) → (⟨S512x1, .f32⟩ : BufTy).Contents (Elt F)),
    unary main_v55 main_v56 (broadcastInDim S512x20 ![0, 1] bcast_S512x1_S512x20_0_1 : (⟨S512x1, .f32⟩ : BufTy).Contents (Elt F) → (⟨S512x20, .f32⟩ : BufTy).Contents (Elt F)),
    binary main_v54 main_v56 main_v57 (Host.divf : (⟨S512x20, .f32⟩ : BufTy).Contents (Elt F) → (⟨S512x20, .f32⟩ : BufTy).Contents (Elt F) → (⟨S512x20, .f32⟩ : BufTy).Contents (Elt F)) ]

/-- Operations 78 … 89 of the 337. -/
abbrev part9 : List (HloOp τ sig (Elt F)) :=
  [ nary ![main_v57, main_arg1, main_arg2] main_v58 (fun u => concatenate S512x520 1 [⟨S512x20, u 0⟩, ⟨S512x200, u 1⟩, ⟨S512x300, u 2⟩] concatenates_S512x20_S512x200_S512x300_S512x520_d1),
    binary main_v58 main_arg10 main_v59 ((fun l r => Host.dotGeneral dot_S512x520_S520x128_S512x128_1_0_0_1_n_n none l r) : (⟨S512x520, .f32⟩ : BufTy).Contents (Elt F) → (⟨S520x128, .f32⟩ : BufTy).Contents (Elt F) → (⟨S512x128, .f32⟩ : BufTy).Contents (Elt F)),
    unary main_arg11 main_v60 (broadcastInDim S1x128 ![1] bcast_S128_S1x128_1 : (⟨S128, .f32⟩ : BufTy).Contents (Elt F) → (⟨S1x128, .f32⟩ : BufTy).Contents (Elt F)),
    unary main_v60 main_v61 (broadcastInDim S512x128 ![0, 1] bcast_S1x128_S512x128_0_1 : (⟨S1x128, .f32⟩ : BufTy).Contents (Elt F) → (⟨S512x128, .f32⟩ : BufTy).Contents (Elt F)),
    binary main_v59 main_v61 main_v62 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x128, .f32⟩) main_call2_v0) (broadcastInDim S512x128 ![] bcast_S_S512x128),
    TRef.binary (TRef.of (T := ⟨S512x128, .f32⟩) main_v62) (TRef.of (T := ⟨S512x128, .f32⟩) main_call2_v0) (TRef.of (T := ⟨S512x128, .f32⟩) main_v63) maximumf,
    binary main_v63 main_arg12 main_v64 ((fun l r => Host.dotGeneral dot_S512x128_S128x3_S512x3_1_0_0_1_n_n none l r) : (⟨S512x128, .f32⟩ : BufTy).Contents (Elt F) → (⟨S128x3, .f32⟩ : BufTy).Contents (Elt F) → (⟨S512x3, .f32⟩ : BufTy).Contents (Elt F)),
    unary main_arg13 main_v65 (broadcastInDim S1x3 ![1] bcast_S3_S1x3_1 : (⟨S3, .f32⟩ : BufTy).Contents (Elt F) → (⟨S1x3, .f32⟩ : BufTy).Contents (Elt F)),
    unary main_v65 main_v66 (broadcastInDim S512x3 ![0, 1] bcast_S1x3_S512x3_0_1 : (⟨S1x3, .f32⟩ : BufTy).Contents (Elt F) → (⟨S512x3, .f32⟩ : BufTy).Contents (Elt F)),
    binary main_v64 main_v66 main_v67 (addf : (⟨S512x3, .f32⟩ : BufTy).Contents (Elt F) → (⟨S512x3, .f32⟩ : BufTy).Contents (Elt F) → (⟨S512x3, .f32⟩ : BufTy).Contents (Elt F)) ]

/-- Operations 90 … 98 of the 337. -/
abbrev part10 : List (HloOp τ sig (Elt F)) :=
  [ nullary main_cst_13 (constant S_ .f32 0xFF800000#32),
    binary main_v67 main_cst_13 main_v68 ((fun x v => Host.reduce FloatOps.maximumf x v reducesTo_S512x3_S512_d1 h_S_) : (⟨S512x3, .f32⟩ : BufTy).Contents (Elt F) → (⟨S_, .f32⟩ : BufTy).Contents (Elt F) → (⟨S512, .f32⟩ : BufTy).Contents (Elt F)),
    nullary main_cst_14 (constant S_ .f32 0xFF800000#32),
    unary main_cst_14 main_v69 (broadcastInDim S512 ![] bcast_S_S512 : (⟨S_, .f32⟩ : BufTy).Contents (Elt F) → (⟨S512, .f32⟩ : BufTy).Contents (Elt F)),
    binary main_v69 main_v68 main_v70 (maximumf : (⟨S512, .f32⟩ : BufTy).Contents (Elt F) → (⟨S512, .f32⟩ : BufTy).Contents (Elt F) → (⟨S512, .f32⟩ : BufTy).Contents (Elt F)),
    unary main_v70 main_v71 (broadcastInDim S512x1 ![0] bcast_S512_S512x1_0 : (⟨S512, .f32⟩ : BufTy).Contents (Elt F) → (⟨S512x1, .f32⟩ : BufTy).Contents (Elt F)),
    unary main_v71 main_v72 (broadcastInDim S512x3 ![0, 1] bcast_S512x1_S512x3_0_1 : (⟨S512x1, .f32⟩ : BufTy).Contents (Elt F) → (⟨S512x3, .f32⟩ : BufTy).Contents (Elt F)),
    binary main_v67 main_v72 main_v73 (subf : (⟨S512x3, .f32⟩ : BufTy).Contents (Elt F) → (⟨S512x3, .f32⟩ : BufTy).Contents (Elt F) → (⟨S512x3, .f32⟩ : BufTy).Contents (Elt F)),
    unary main_v73 main_v74 (Host.exp : (⟨S512x3, .f32⟩ : BufTy).Contents (Elt F) → (⟨S512x3, .f32⟩ : BufTy).Contents (Elt F)) ]

/-- Operations 99 … 106 of the 337. -/
abbrev part11 : List (HloOp τ sig (Elt F)) :=
  [ nullary main_cst_15 (constant S_ .f32 0x00000000#32),
    binary main_v74 main_cst_15 main_v75 ((fun x v => Host.reduceAdd x v reducesTo_S512x3_S512_d1 h_S_) : (⟨S512x3, .f32⟩ : BufTy).Contents (Elt F) → (⟨S_, .f32⟩ : BufTy).Contents (Elt F) → (⟨S512, .f32⟩ : BufTy).Contents (Elt F)),
    unary main_v75 main_v76 (broadcastInDim S512x1 ![0] bcast_S512_S512x1_0 : (⟨S512, .f32⟩ : BufTy).Contents (Elt F) → (⟨S512x1, .f32⟩ : BufTy).Contents (Elt F)),
    unary main_v76 main_v77 (broadcastInDim S512x3 ![0, 1] bcast_S512x1_S512x3_0_1 : (⟨S512x1, .f32⟩ : BufTy).Contents (Elt F) → (⟨S512x3, .f32⟩ : BufTy).Contents (Elt F)),
    binary main_v74 main_v77 main_v78 (Host.divf : (⟨S512x3, .f32⟩ : BufTy).Contents (Elt F) → (⟨S512x3, .f32⟩ : BufTy).Contents (Elt F) → (⟨S512x3, .f32⟩ : BufTy).Contents (Elt F)),
    unary main_v78 main_v79 ((extractStridedSlice S512x1 ![0, 0] · slices_S512x3_S512x1_0_0) : (⟨S512x3, .f32⟩ : BufTy).Contents (Elt F) → (⟨S512x1, .f32⟩ : BufTy).Contents (Elt F)),
    unary main_v79 main_v80 (broadcastInDim S512x20 ![0, 1] bcast_S512x1_S512x20_0_1 : (⟨S512x1, .f32⟩ : BufTy).Contents (Elt F) → (⟨S512x20, .f32⟩ : BufTy).Contents (Elt F)),
    binary main_v57 main_v80 main_v81 (mulf : (⟨S512x20, .f32⟩ : BufTy).Contents (Elt F) → (⟨S512x20, .f32⟩ : BufTy).Contents (Elt F) → (⟨S512x20, .f32⟩ : BufTy).Contents (Elt F)) ]

/-- Operations 107 … 112 of the 337. -/
abbrev part12 : List (HloOp τ sig (Elt F)) :=
  [ unary main_v78 main_v82 ((extractStridedSlice S512x1 ![0, 1] · slices_S512x3_S512x1_0_1) : (⟨S512x3, .f32⟩ : BufTy).Contents (Elt F) → (⟨S512x1, .f32⟩ : BufTy).Contents (Elt F)),
    unary main_v82 main_v83 (broadcastInDim S512x200 ![0, 1] bcast_S512x1_S512x200_0_1 : (⟨S512x1, .f32⟩ : BufTy).Contents (Elt F) → (⟨S512x200, .f32⟩ : BufTy).Contents (Elt F)),
    binary main_arg1 main_v83 main_v84 (mulf : (⟨S512x200, .f32⟩ : BufTy).Contents (Elt F) → (⟨S512x200, .f32⟩ : BufTy).Contents (Elt F) → (⟨S512x200, .f32⟩ : BufTy).Contents (Elt F)),
    unary main_v78 main_v85 ((extractStridedSlice S512x1 ![0, 2] · slices_S512x3_S512x1_0_2) : (⟨S512x3, .f32⟩ : BufTy).Contents (Elt F) → (⟨S512x1, .f32⟩ : BufTy).Contents (Elt F)),
    unary main_v85 main_v86 (broadcastInDim S512x300 ![0, 1] bcast_S512x1_S512x300_0_1 : (⟨S512x1, .f32⟩ : BufTy).Contents (Elt F) → (⟨S512x300, .f32⟩ : BufTy).Contents (Elt F)),
    binary main_arg2 main_v86 main_v87 (mulf : (⟨S512x300, .f32⟩ : BufTy).Contents (Elt F) → (⟨S512x300, .f32⟩ : BufTy).Contents (Elt F) → (⟨S512x300, .f32⟩ : BufTy).Contents (Elt F)) ]

/-- Operations 113 … 122 of the 337. -/
abbrev part13 : List (HloOp τ sig (Elt F)) :=
  [ binary main_v81 main_arg14 main_v88 ((fun l r => Host.dotGeneral dot_S512x20_S20x64_S512x64_1_0_0_1_n_n none l r) : (⟨S512x20, .f32⟩ : BufTy).Contents (Elt F) → (⟨S20x64, .f32⟩ : BufTy).Contents (Elt F) → (⟨S512x64, .f32⟩ : BufTy).Contents (Elt F)),
    unary main_arg15 main_v89 (broadcastInDim S1x64 ![1] bcast_S64_S1x64_1 : (⟨S64, .f32⟩ : BufTy).Contents (Elt F) → (⟨S1x64, .f32⟩ : BufTy).Contents (Elt F)),
    unary main_v89 main_v90 (broadcastInDim S512x64 ![0, 1] bcast_S1x64_S512x64_0_1 : (⟨S1x64, .f32⟩ : BufTy).Contents (Elt F) → (⟨S512x64, .f32⟩ : BufTy).Contents (Elt F)),
    binary main_v88 main_v90 main_v91 (addf : (⟨S512x64, .f32⟩ : BufTy).Contents (Elt F) → (⟨S512x64, .f32⟩ : BufTy).Contents (Elt F) → (⟨S512x64, .f32⟩ : BufTy).Contents (Elt F)),
    nullary main_cst_16 (constant S_ .f32 0x00000000#32),
    binary main_v91 main_cst_16 main_v92 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v92 main_v93 (broadcastInDim S512x1 ![0] bcast_S512_S512x1_0 : (⟨S512, .f32⟩ : BufTy).Contents (Elt F) → (⟨S512x1, .f32⟩ : BufTy).Contents (Elt F)),
    nullary main_cst_17 (constant S_ .f32 0x42800000#32),
    unary main_cst_17 main_v94 (broadcastInDim S512x1 ![] bcast_S_S512x1 : (⟨S_, .f32⟩ : BufTy).Contents (Elt F) → (⟨S512x1, .f32⟩ : BufTy).Contents (Elt F)),
    binary main_v93 main_v94 main_v95 (Host.divf : (⟨S512x1, .f32⟩ : BufTy).Contents (Elt F) → (⟨S512x1, .f32⟩ : BufTy).Contents (Elt F) → (⟨S512x1, .f32⟩ : BufTy).Contents (Elt F)) ]

/-- Operations 123 … 133 of the 337. -/
abbrev part14 : List (HloOp τ sig (Elt F)) :=
  [ unary main_v95 main_v96 (broadcastInDim S512x64 ![0, 1] bcast_S512x1_S512x64_0_1 : (⟨S512x1, .f32⟩ : BufTy).Contents (Elt F) → (⟨S512x64, .f32⟩ : BufTy).Contents (Elt F)),
    binary main_v91 main_v96 main_v97 (subf : (⟨S512x64, .f32⟩ : BufTy).Contents (Elt F) → (⟨S512x64, .f32⟩ : BufTy).Contents (Elt F) → (⟨S512x64, .f32⟩ : BufTy).Contents (Elt F)),
    binary main_v97 main_v97 main_v98 (mulf : (⟨S512x64, .f32⟩ : BufTy).Contents (Elt F) → (⟨S512x64, .f32⟩ : BufTy).Contents (Elt F) → (⟨S512x64, .f32⟩ : BufTy).Contents (Elt F)),
    nullary main_cst_18 (constant S_ .f32 0x00000000#32),
    binary main_v98 main_cst_18 main_v99 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v99 main_v100 (broadcastInDim S512x1 ![0] bcast_S512_S512x1_0 : (⟨S512, .f32⟩ : BufTy).Contents (Elt F) → (⟨S512x1, .f32⟩ : BufTy).Contents (Elt F)),
    nullary main_cst_19 (constant S_ .f32 0x42800000#32),
    unary main_cst_19 main_v101 (broadcastInDim S512x1 ![] bcast_S_S512x1 : (⟨S_, .f32⟩ : BufTy).Contents (Elt F) → (⟨S512x1, .f32⟩ : BufTy).Contents (Elt F)),
    binary main_v100 main_v101 main_v102 (Host.divf : (⟨S512x1, .f32⟩ : BufTy).Contents (Elt F) → (⟨S512x1, .f32⟩ : BufTy).Contents (Elt F) → (⟨S512x1, .f32⟩ : BufTy).Contents (Elt F)),
    unary main_v95 main_v103 (broadcastInDim S512x64 ![0, 1] bcast_S512x1_S512x64_0_1 : (⟨S512x1, .f32⟩ : BufTy).Contents (Elt F) → (⟨S512x64, .f32⟩ : BufTy).Contents (Elt F)),
    binary main_v91 main_v103 main_v104 (subf : (⟨S512x64, .f32⟩ : BufTy).Contents (Elt F) → (⟨S512x64, .f32⟩ : BufTy).Contents (Elt F) → (⟨S512x64, .f32⟩ : BufTy).Contents (Elt F)) ]

/-- Operations 134 … 145 of the 337. -/
abbrev part15 : List (HloOp τ sig (Elt F)) :=
  [ unary main_arg20 main_v105 (broadcastInDim S1x64 ![1] bcast_S64_S1x64_1 : (⟨S64, .f32⟩ : BufTy).Contents (Elt F) → (⟨S1x64, .f32⟩ : BufTy).Contents (Elt F)),
    unary main_v105 main_v106 (broadcastInDim S512x64 ![0, 1] bcast_S1x64_S512x64_0_1 : (⟨S1x64, .f32⟩ : BufTy).Contents (Elt F) → (⟨S512x64, .f32⟩ : BufTy).Contents (Elt F)),
    binary main_v106 main_v104 main_v107 (mulf : (⟨S512x64, .f32⟩ : BufTy).Contents (Elt F) → (⟨S512x64, .f32⟩ : BufTy).Contents (Elt F) → (⟨S512x64, .f32⟩ : BufTy).Contents (Elt F)),
    nullary main_cst_20 (constant S_ .f32 0x3727C5AC#32),
    unary main_cst_20 main_v108 (broadcastInDim S512x1 ![] bcast_S_S512x1 : (⟨S_, .f32⟩ : BufTy).Contents (Elt F) → (⟨S512x1, .f32⟩ : BufTy).Contents (Elt F)),
    binary main_v102 main_v108 main_v109 (addf : (⟨S512x1, .f32⟩ : BufTy).Contents (Elt F) → (⟨S512x1, .f32⟩ : BufTy).Contents (Elt F) → (⟨S512x1, .f32⟩ : BufTy).Contents (Elt F)),
    unary main_v109 main_v110 (Host.rsqrt : (⟨S512x1, .f32⟩ : BufTy).Contents (Elt F) → (⟨S512x1, .f32⟩ : BufTy).Contents (Elt F)),
    unary main_v110 main_v111 (broadcastInDim S512x64 ![0, 1] bcast_S512x1_S512x64_0_1 : (⟨S512x1, .f32⟩ : BufTy).Contents (Elt F) → (⟨S512x64, .f32⟩ : BufTy).Contents (Elt F)),
    binary main_v107 main_v111 main_v112 (mulf : (⟨S512x64, .f32⟩ : BufTy).Contents (Elt F) → (⟨S512x64, .f32⟩ : BufTy).Contents (Elt F) → (⟨S512x64, .f32⟩ : BufTy).Contents (Elt F)),
    unary main_arg21 main_v113 (broadcastInDim S1x64 ![1] bcast_S64_S1x64_1 : (⟨S64, .f32⟩ : BufTy).Contents (Elt F) → (⟨S1x64, .f32⟩ : BufTy).Contents (Elt F)),
    unary main_v113 main_v114 (broadcastInDim S512x64 ![0, 1] bcast_S1x64_S512x64_0_1 : (⟨S1x64, .f32⟩ : BufTy).Contents (Elt F) → (⟨S512x64, .f32⟩ : BufTy).Contents (Elt F)),
    binary main_v112 main_v114 main_v115 (addf : (⟨S512x64, .f32⟩ : BufTy).Contents (Elt F) → (⟨S512x64, .f32⟩ : BufTy).Contents (Elt F) → (⟨S512x64, .f32⟩ : BufTy).Contents (Elt F)) ]

/-- Operations 146 … 152 of the 337. -/
abbrev part16 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S512x64, .f32⟩) main_call3_v0) (broadcastInDim S512x64 ![] bcast_S_S512x64),
    TRef.binary (TRef.of (T := ⟨S512x64, .f32⟩) main_v115) (TRef.of (T := ⟨S512x64, .f32⟩) main_call3_v0) (TRef.of (T := ⟨S512x64, .f32⟩) main_v116) maximumf,
    binary main_v84 main_arg16 main_v117 ((fun l r => Host.dotGeneral dot_S512x200_S200x64_S512x64_1_0_0_1_n_n none l r) : (⟨S512x200, .f32⟩ : BufTy).Contents (Elt F) → (⟨S200x64, .f32⟩ : BufTy).Contents (Elt F) → (⟨S512x64, .f32⟩ : BufTy).Contents (Elt F)),
    unary main_arg17 main_v118 (broadcastInDim S1x64 ![1] bcast_S64_S1x64_1 : (⟨S64, .f32⟩ : BufTy).Contents (Elt F) → (⟨S1x64, .f32⟩ : BufTy).Contents (Elt F)),
    unary main_v118 main_v119 (broadcastInDim S512x64 ![0, 1] bcast_S1x64_S512x64_0_1 : (⟨S1x64, .f32⟩ : BufTy).Contents (Elt F) → (⟨S512x64, .f32⟩ : BufTy).Contents (Elt F)),
    binary main_v117 main_v119 main_v120 (addf : (⟨S512x64, .f32⟩ : BufTy).Contents (Elt F) → (⟨S512x64, .f32⟩ : BufTy).Contents (Elt F) → (⟨S512x64, .f32⟩ : BufTy).Contents (Elt F)) ]

/-- Operations 153 … 158 of the 337. -/
abbrev part17 : List (HloOp τ sig (Elt F)) :=
  [ nullary main_cst_21 (constant S_ .f32 0x00000000#32),
    binary main_v120 main_cst_21 main_v121 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v121 main_v122 (broadcastInDim S512x1 ![0] bcast_S512_S512x1_0 : (⟨S512, .f32⟩ : BufTy).Contents (Elt F) → (⟨S512x1, .f32⟩ : BufTy).Contents (Elt F)),
    nullary main_cst_22 (constant S_ .f32 0x42800000#32),
    unary main_cst_22 main_v123 (broadcastInDim S512x1 ![] bcast_S_S512x1 : (⟨S_, .f32⟩ : BufTy).Contents (Elt F) → (⟨S512x1, .f32⟩ : BufTy).Contents (Elt F)),
    binary main_v122 main_v123 main_v124 (Host.divf : (⟨S512x1, .f32⟩ : BufTy).Contents (Elt F) → (⟨S512x1, .f32⟩ : BufTy).Contents (Elt F) → (⟨S512x1, .f32⟩ : BufTy).Contents (Elt F)) ]

/-- Operations 159 … 169 of the 337. -/
abbrev part18 : List (HloOp τ sig (Elt F)) :=
  [ unary main_v124 main_v125 (broadcastInDim S512x64 ![0, 1] bcast_S512x1_S512x64_0_1 : (⟨S512x1, .f32⟩ : BufTy).Contents (Elt F) → (⟨S512x64, .f32⟩ : BufTy).Contents (Elt F)),
    binary main_v120 main_v125 main_v126 (subf : (⟨S512x64, .f32⟩ : BufTy).Contents (Elt F) → (⟨S512x64, .f32⟩ : BufTy).Contents (Elt F) → (⟨S512x64, .f32⟩ : BufTy).Contents (Elt F)),
    binary main_v126 main_v126 main_v127 (mulf : (⟨S512x64, .f32⟩ : BufTy).Contents (Elt F) → (⟨S512x64, .f32⟩ : BufTy).Contents (Elt F) → (⟨S512x64, .f32⟩ : BufTy).Contents (Elt F)),
    nullary main_cst_23 (constant S_ .f32 0x00000000#32),
    binary main_v127 main_cst_23 main_v128 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v128 main_v129 (broadcastInDim S512x1 ![0] bcast_S512_S512x1_0 : (⟨S512, .f32⟩ : BufTy).Contents (Elt F) → (⟨S512x1, .f32⟩ : BufTy).Contents (Elt F)),
    nullary main_cst_24 (constant S_ .f32 0x42800000#32),
    unary main_cst_24 main_v130 (broadcastInDim S512x1 ![] bcast_S_S512x1 : (⟨S_, .f32⟩ : BufTy).Contents (Elt F) → (⟨S512x1, .f32⟩ : BufTy).Contents (Elt F)),
    binary main_v129 main_v130 main_v131 (Host.divf : (⟨S512x1, .f32⟩ : BufTy).Contents (Elt F) → (⟨S512x1, .f32⟩ : BufTy).Contents (Elt F) → (⟨S512x1, .f32⟩ : BufTy).Contents (Elt F)),
    unary main_v124 main_v132 (broadcastInDim S512x64 ![0, 1] bcast_S512x1_S512x64_0_1 : (⟨S512x1, .f32⟩ : BufTy).Contents (Elt F) → (⟨S512x64, .f32⟩ : BufTy).Contents (Elt F)),
    binary main_v120 main_v132 main_v133 (subf : (⟨S512x64, .f32⟩ : BufTy).Contents (Elt F) → (⟨S512x64, .f32⟩ : BufTy).Contents (Elt F) → (⟨S512x64, .f32⟩ : BufTy).Contents (Elt F)) ]

/-- Operations 170 … 181 of the 337. -/
abbrev part19 : List (HloOp τ sig (Elt F)) :=
  [ unary main_arg22 main_v134 (broadcastInDim S1x64 ![1] bcast_S64_S1x64_1 : (⟨S64, .f32⟩ : BufTy).Contents (Elt F) → (⟨S1x64, .f32⟩ : BufTy).Contents (Elt F)),
    unary main_v134 main_v135 (broadcastInDim S512x64 ![0, 1] bcast_S1x64_S512x64_0_1 : (⟨S1x64, .f32⟩ : BufTy).Contents (Elt F) → (⟨S512x64, .f32⟩ : BufTy).Contents (Elt F)),
    binary main_v135 main_v133 main_v136 (mulf : (⟨S512x64, .f32⟩ : BufTy).Contents (Elt F) → (⟨S512x64, .f32⟩ : BufTy).Contents (Elt F) → (⟨S512x64, .f32⟩ : BufTy).Contents (Elt F)),
    nullary main_cst_25 (constant S_ .f32 0x3727C5AC#32),
    unary main_cst_25 main_v137 (broadcastInDim S512x1 ![] bcast_S_S512x1 : (⟨S_, .f32⟩ : BufTy).Contents (Elt F) → (⟨S512x1, .f32⟩ : BufTy).Contents (Elt F)),
    binary main_v131 main_v137 main_v138 (addf : (⟨S512x1, .f32⟩ : BufTy).Contents (Elt F) → (⟨S512x1, .f32⟩ : BufTy).Contents (Elt F) → (⟨S512x1, .f32⟩ : BufTy).Contents (Elt F)),
    unary main_v138 main_v139 (Host.rsqrt : (⟨S512x1, .f32⟩ : BufTy).Contents (Elt F) → (⟨S512x1, .f32⟩ : BufTy).Contents (Elt F)),
    unary main_v139 main_v140 (broadcastInDim S512x64 ![0, 1] bcast_S512x1_S512x64_0_1 : (⟨S512x1, .f32⟩ : BufTy).Contents (Elt F) → (⟨S512x64, .f32⟩ : BufTy).Contents (Elt F)),
    binary main_v136 main_v140 main_v141 (mulf : (⟨S512x64, .f32⟩ : BufTy).Contents (Elt F) → (⟨S512x64, .f32⟩ : BufTy).Contents (Elt F) → (⟨S512x64, .f32⟩ : BufTy).Contents (Elt F)),
    unary main_arg23 main_v142 (broadcastInDim S1x64 ![1] bcast_S64_S1x64_1 : (⟨S64, .f32⟩ : BufTy).Contents (Elt F) → (⟨S1x64, .f32⟩ : BufTy).Contents (Elt F)),
    unary main_v142 main_v143 (broadcastInDim S512x64 ![0, 1] bcast_S1x64_S512x64_0_1 : (⟨S1x64, .f32⟩ : BufTy).Contents (Elt F) → (⟨S512x64, .f32⟩ : BufTy).Contents (Elt F)),
    binary main_v141 main_v143 main_v144 (addf : (⟨S512x64, .f32⟩ : BufTy).Contents (Elt F) → (⟨S512x64, .f32⟩ : BufTy).Contents (Elt F) → (⟨S512x64, .f32⟩ : BufTy).Contents (Elt F)) ]

/-- Operations 182 … 188 of the 337. -/
abbrev part20 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S512x64, .f32⟩) main_call4_v0) (broadcastInDim S512x64 ![] bcast_S_S512x64),
    TRef.binary (TRef.of (T := ⟨S512x64, .f32⟩) main_v144) (TRef.of (T := ⟨S512x64, .f32⟩) main_call4_v0) (TRef.of (T := ⟨S512x64, .f32⟩) main_v145) maximumf,
    binary main_v87 main_arg18 main_v146 ((fun l r => Host.dotGeneral dot_S512x300_S300x64_S512x64_1_0_0_1_n_n none l r) : (⟨S512x300, .f32⟩ : BufTy).Contents (Elt F) → (⟨S300x64, .f32⟩ : BufTy).Contents (Elt F) → (⟨S512x64, .f32⟩ : BufTy).Contents (Elt F)),
    unary main_arg19 main_v147 (broadcastInDim S1x64 ![1] bcast_S64_S1x64_1 : (⟨S64, .f32⟩ : BufTy).Contents (Elt F) → (⟨S1x64, .f32⟩ : BufTy).Contents (Elt F)),
    unary main_v147 main_v148 (broadcastInDim S512x64 ![0, 1] bcast_S1x64_S512x64_0_1 : (⟨S1x64, .f32⟩ : BufTy).Contents (Elt F) → (⟨S512x64, .f32⟩ : BufTy).Contents (Elt F)),
    binary main_v146 main_v148 main_v149 (addf : (⟨S512x64, .f32⟩ : BufTy).Contents (Elt F) → (⟨S512x64, .f32⟩ : BufTy).Contents (Elt F) → (⟨S512x64, .f32⟩ : BufTy).Contents (Elt F)) ]

/-- Operations 189 … 194 of the 337. -/
abbrev part21 : List (HloOp τ sig (Elt F)) :=
  [ nullary main_cst_26 (constant S_ .f32 0x00000000#32),
    binary main_v149 main_cst_26 main_v150 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v150 main_v151 (broadcastInDim S512x1 ![0] bcast_S512_S512x1_0 : (⟨S512, .f32⟩ : BufTy).Contents (Elt F) → (⟨S512x1, .f32⟩ : BufTy).Contents (Elt F)),
    nullary main_cst_27 (constant S_ .f32 0x42800000#32),
    unary main_cst_27 main_v152 (broadcastInDim S512x1 ![] bcast_S_S512x1 : (⟨S_, .f32⟩ : BufTy).Contents (Elt F) → (⟨S512x1, .f32⟩ : BufTy).Contents (Elt F)),
    binary main_v151 main_v152 main_v153 (Host.divf : (⟨S512x1, .f32⟩ : BufTy).Contents (Elt F) → (⟨S512x1, .f32⟩ : BufTy).Contents (Elt F) → (⟨S512x1, .f32⟩ : BufTy).Contents (Elt F)) ]

/-- Operations 195 … 205 of the 337. -/
abbrev part22 : List (HloOp τ sig (Elt F)) :=
  [ unary main_v153 main_v154 (broadcastInDim S512x64 ![0, 1] bcast_S512x1_S512x64_0_1 : (⟨S512x1, .f32⟩ : BufTy).Contents (Elt F) → (⟨S512x64, .f32⟩ : BufTy).Contents (Elt F)),
    binary main_v149 main_v154 main_v155 (subf : (⟨S512x64, .f32⟩ : BufTy).Contents (Elt F) → (⟨S512x64, .f32⟩ : BufTy).Contents (Elt F) → (⟨S512x64, .f32⟩ : BufTy).Contents (Elt F)),
    binary main_v155 main_v155 main_v156 (mulf : (⟨S512x64, .f32⟩ : BufTy).Contents (Elt F) → (⟨S512x64, .f32⟩ : BufTy).Contents (Elt F) → (⟨S512x64, .f32⟩ : BufTy).Contents (Elt F)),
    nullary main_cst_28 (constant S_ .f32 0x00000000#32),
    binary main_v156 main_cst_28 main_v157 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v157 main_v158 (broadcastInDim S512x1 ![0] bcast_S512_S512x1_0 : (⟨S512, .f32⟩ : BufTy).Contents (Elt F) → (⟨S512x1, .f32⟩ : BufTy).Contents (Elt F)),
    nullary main_cst_29 (constant S_ .f32 0x42800000#32),
    unary main_cst_29 main_v159 (broadcastInDim S512x1 ![] bcast_S_S512x1 : (⟨S_, .f32⟩ : BufTy).Contents (Elt F) → (⟨S512x1, .f32⟩ : BufTy).Contents (Elt F)),
    binary main_v158 main_v159 main_v160 (Host.divf : (⟨S512x1, .f32⟩ : BufTy).Contents (Elt F) → (⟨S512x1, .f32⟩ : BufTy).Contents (Elt F) → (⟨S512x1, .f32⟩ : BufTy).Contents (Elt F)),
    unary main_v153 main_v161 (broadcastInDim S512x64 ![0, 1] bcast_S512x1_S512x64_0_1 : (⟨S512x1, .f32⟩ : BufTy).Contents (Elt F) → (⟨S512x64, .f32⟩ : BufTy).Contents (Elt F)),
    binary main_v149 main_v161 main_v162 (subf : (⟨S512x64, .f32⟩ : BufTy).Contents (Elt F) → (⟨S512x64, .f32⟩ : BufTy).Contents (Elt F) → (⟨S512x64, .f32⟩ : BufTy).Contents (Elt F)) ]

/-- Operations 206 … 217 of the 337. -/
abbrev part23 : List (HloOp τ sig (Elt F)) :=
  [ unary main_arg24 main_v163 (broadcastInDim S1x64 ![1] bcast_S64_S1x64_1 : (⟨S64, .f32⟩ : BufTy).Contents (Elt F) → (⟨S1x64, .f32⟩ : BufTy).Contents (Elt F)),
    unary main_v163 main_v164 (broadcastInDim S512x64 ![0, 1] bcast_S1x64_S512x64_0_1 : (⟨S1x64, .f32⟩ : BufTy).Contents (Elt F) → (⟨S512x64, .f32⟩ : BufTy).Contents (Elt F)),
    binary main_v164 main_v162 main_v165 (mulf : (⟨S512x64, .f32⟩ : BufTy).Contents (Elt F) → (⟨S512x64, .f32⟩ : BufTy).Contents (Elt F) → (⟨S512x64, .f32⟩ : BufTy).Contents (Elt F)),
    nullary main_cst_30 (constant S_ .f32 0x3727C5AC#32),
    unary main_cst_30 main_v166 (broadcastInDim S512x1 ![] bcast_S_S512x1 : (⟨S_, .f32⟩ : BufTy).Contents (Elt F) → (⟨S512x1, .f32⟩ : BufTy).Contents (Elt F)),
    binary main_v160 main_v166 main_v167 (addf : (⟨S512x1, .f32⟩ : BufTy).Contents (Elt F) → (⟨S512x1, .f32⟩ : BufTy).Contents (Elt F) → (⟨S512x1, .f32⟩ : BufTy).Contents (Elt F)),
    unary main_v167 main_v168 (Host.rsqrt : (⟨S512x1, .f32⟩ : BufTy).Contents (Elt F) → (⟨S512x1, .f32⟩ : BufTy).Contents (Elt F)),
    unary main_v168 main_v169 (broadcastInDim S512x64 ![0, 1] bcast_S512x1_S512x64_0_1 : (⟨S512x1, .f32⟩ : BufTy).Contents (Elt F) → (⟨S512x64, .f32⟩ : BufTy).Contents (Elt F)),
    binary main_v165 main_v169 main_v170 (mulf : (⟨S512x64, .f32⟩ : BufTy).Contents (Elt F) → (⟨S512x64, .f32⟩ : BufTy).Contents (Elt F) → (⟨S512x64, .f32⟩ : BufTy).Contents (Elt F)),
    unary main_arg25 main_v171 (broadcastInDim S1x64 ![1] bcast_S64_S1x64_1 : (⟨S64, .f32⟩ : BufTy).Contents (Elt F) → (⟨S1x64, .f32⟩ : BufTy).Contents (Elt F)),
    unary main_v171 main_v172 (broadcastInDim S512x64 ![0, 1] bcast_S1x64_S512x64_0_1 : (⟨S1x64, .f32⟩ : BufTy).Contents (Elt F) → (⟨S512x64, .f32⟩ : BufTy).Contents (Elt F)),
    binary main_v170 main_v172 main_v173 (addf : (⟨S512x64, .f32⟩ : BufTy).Contents (Elt F) → (⟨S512x64, .f32⟩ : BufTy).Contents (Elt F) → (⟨S512x64, .f32⟩ : BufTy).Contents (Elt F)) ]

/-- Operations 218 … 228 of the 337. -/
abbrev part24 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S512x64, .f32⟩) main_call5_v0) (broadcastInDim S512x64 ![] bcast_S_S512x64),
    TRef.binary (TRef.of (T := ⟨S512x64, .f32⟩) main_v173) (TRef.of (T := ⟨S512x64, .f32⟩) main_call5_v0) (TRef.of (T := ⟨S512x64, .f32⟩) main_v174) maximumf,
    binary main_v116 main_arg26 main_v175 ((fun l r => Host.dotGeneral dot_S512x64_S64x512_S512x512_1_0_0_1_n_n none l r) : (⟨S512x64, .f32⟩ : BufTy).Contents (Elt F) → (⟨S64x512, .f32⟩ : BufTy).Contents (Elt F) → (⟨S512x512, .f32⟩ : BufTy).Contents (Elt F)),
    reshape main_v175 main_v176 rfl shapeCasts_S512x512_S512x8x64,
    binary main_v145 main_arg27 main_v177 ((fun l r => Host.dotGeneral dot_S512x64_S64x512_S512x512_1_0_0_1_n_n none l r) : (⟨S512x64, .f32⟩ : BufTy).Contents (Elt F) → (⟨S64x512, .f32⟩ : BufTy).Contents (Elt F) → (⟨S512x512, .f32⟩ : BufTy).Contents (Elt F)),
    reshape main_v177 main_v178 rfl shapeCasts_S512x512_S512x8x64,
    binary main_v174 main_arg28 main_v179 ((fun l r => Host.dotGeneral dot_S512x64_S64x512_S512x512_1_0_0_1_n_n none l r) : (⟨S512x64, .f32⟩ : BufTy).Contents (Elt F) → (⟨S64x512, .f32⟩ : BufTy).Contents (Elt F) → (⟨S512x512, .f32⟩ : BufTy).Contents (Elt F)),
    reshape main_v179 main_v180 rfl shapeCasts_S512x512_S512x8x64,
    binary main_v176 main_v178 main_v181 (mulf : (⟨S512x8x64, .f32⟩ : BufTy).Contents (Elt F) → (⟨S512x8x64, .f32⟩ : BufTy).Contents (Elt F) → (⟨S512x8x64, .f32⟩ : BufTy).Contents (Elt F)),
    binary main_v181 main_v180 main_v182 (mulf : (⟨S512x8x64, .f32⟩ : BufTy).Contents (Elt F) → (⟨S512x8x64, .f32⟩ : BufTy).Contents (Elt F) → (⟨S512x8x64, .f32⟩ : BufTy).Contents (Elt F)) ]

/-- Operations 229 … 240 of the 337. -/
abbrev part25 : List (HloOp τ sig (Elt F)) :=
  [ nary ![main_v81, main_v84, main_v87] main_v183 (fun u => concatenate S512x520 1 [⟨S512x20, u 0⟩, ⟨S512x200, u 1⟩, ⟨S512x300, u 2⟩] concatenates_S512x20_S512x200_S512x300_S512x520_d1),
    binary main_v183 main_arg29 main_v184 ((fun l r => Host.dotGeneral dot_S512x520_S520x128_S512x128_1_0_0_1_n_n none l r) : (⟨S512x520, .f32⟩ : BufTy).Contents (Elt F) → (⟨S520x128, .f32⟩ : BufTy).Contents (Elt F) → (⟨S512x128, .f32⟩ : BufTy).Contents (Elt F)),
    unary main_arg30 main_v185 (broadcastInDim S1x128 ![1] bcast_S128_S1x128_1 : (⟨S128, .f32⟩ : BufTy).Contents (Elt F) → (⟨S1x128, .f32⟩ : BufTy).Contents (Elt F)),
    unary main_v185 main_v186 (broadcastInDim S512x128 ![0, 1] bcast_S1x128_S512x128_0_1 : (⟨S1x128, .f32⟩ : BufTy).Contents (Elt F) → (⟨S512x128, .f32⟩ : BufTy).Contents (Elt F)),
    binary main_v184 main_v186 main_v187 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S512x128, .f32⟩) main_call6_v0) (broadcastInDim S512x128 ![] bcast_S_S512x128),
    TRef.binary (TRef.of (T := ⟨S512x128, .f32⟩) main_v187) (TRef.of (T := ⟨S512x128, .f32⟩) main_call6_v0) (TRef.of (T := ⟨S512x128, .f32⟩) main_v188) maximumf,
    binary main_v188 main_arg31 main_v189 ((fun l r => Host.dotGeneral dot_S512x128_S128x8_S512x8_1_0_0_1_n_n none l r) : (⟨S512x128, .f32⟩ : BufTy).Contents (Elt F) → (⟨S128x8, .f32⟩ : BufTy).Contents (Elt F) → (⟨S512x8, .f32⟩ : BufTy).Contents (Elt F)),
    unary main_arg32 main_v190 (broadcastInDim S1x8 ![1] bcast_S8_S1x8_1 : (⟨S8, .f32⟩ : BufTy).Contents (Elt F) → (⟨S1x8, .f32⟩ : BufTy).Contents (Elt F)),
    unary main_v190 main_v191 (broadcastInDim S512x8 ![0, 1] bcast_S1x8_S512x8_0_1 : (⟨S1x8, .f32⟩ : BufTy).Contents (Elt F) → (⟨S512x8, .f32⟩ : BufTy).Contents (Elt F)),
    binary main_v189 main_v191 main_v192 (addf : (⟨S512x8, .f32⟩ : BufTy).Contents (Elt F) → (⟨S512x8, .f32⟩ : BufTy).Contents (Elt F) → (⟨S512x8, .f32⟩ : BufTy).Contents (Elt F)) ]

/-- Operations 241 … 249 of the 337. -/
abbrev part26 : List (HloOp τ sig (Elt F)) :=
  [ nullary main_cst_31 (constant S_ .f32 0xFF800000#32),
    binary main_v192 main_cst_31 main_v193 ((fun x v => Host.reduce FloatOps.maximumf x v reducesTo_S512x8_S512_d1 h_S_) : (⟨S512x8, .f32⟩ : BufTy).Contents (Elt F) → (⟨S_, .f32⟩ : BufTy).Contents (Elt F) → (⟨S512, .f32⟩ : BufTy).Contents (Elt F)),
    nullary main_cst_32 (constant S_ .f32 0xFF800000#32),
    unary main_cst_32 main_v194 (broadcastInDim S512 ![] bcast_S_S512 : (⟨S_, .f32⟩ : BufTy).Contents (Elt F) → (⟨S512, .f32⟩ : BufTy).Contents (Elt F)),
    binary main_v194 main_v193 main_v195 (maximumf : (⟨S512, .f32⟩ : BufTy).Contents (Elt F) → (⟨S512, .f32⟩ : BufTy).Contents (Elt F) → (⟨S512, .f32⟩ : BufTy).Contents (Elt F)),
    unary main_v195 main_v196 (broadcastInDim S512x1 ![0] bcast_S512_S512x1_0 : (⟨S512, .f32⟩ : BufTy).Contents (Elt F) → (⟨S512x1, .f32⟩ : BufTy).Contents (Elt F)),
    unary main_v196 main_v197 (broadcastInDim S512x8 ![0, 1] bcast_S512x1_S512x8_0_1 : (⟨S512x1, .f32⟩ : BufTy).Contents (Elt F) → (⟨S512x8, .f32⟩ : BufTy).Contents (Elt F)),
    binary main_v192 main_v197 main_v198 (subf : (⟨S512x8, .f32⟩ : BufTy).Contents (Elt F) → (⟨S512x8, .f32⟩ : BufTy).Contents (Elt F) → (⟨S512x8, .f32⟩ : BufTy).Contents (Elt F)),
    unary main_v198 main_v199 (Host.exp : (⟨S512x8, .f32⟩ : BufTy).Contents (Elt F) → (⟨S512x8, .f32⟩ : BufTy).Contents (Elt F)) ]

/-- Operations 250 … 260 of the 337. -/
abbrev part27 : List (HloOp τ sig (Elt F)) :=
  [ nullary main_cst_33 (constant S_ .f32 0x00000000#32),
    binary main_v199 main_cst_33 main_v200 ((fun x v => Host.reduceAdd x v reducesTo_S512x8_S512_d1 h_S_) : (⟨S512x8, .f32⟩ : BufTy).Contents (Elt F) → (⟨S_, .f32⟩ : BufTy).Contents (Elt F) → (⟨S512, .f32⟩ : BufTy).Contents (Elt F)),
    unary main_v200 main_v201 (broadcastInDim S512x1 ![0] bcast_S512_S512x1_0 : (⟨S512, .f32⟩ : BufTy).Contents (Elt F) → (⟨S512x1, .f32⟩ : BufTy).Contents (Elt F)),
    unary main_v201 main_v202 (broadcastInDim S512x8 ![0, 1] bcast_S512x1_S512x8_0_1 : (⟨S512x1, .f32⟩ : BufTy).Contents (Elt F) → (⟨S512x8, .f32⟩ : BufTy).Contents (Elt F)),
    binary main_v199 main_v202 main_v203 (Host.divf : (⟨S512x8, .f32⟩ : BufTy).Contents (Elt F) → (⟨S512x8, .f32⟩ : BufTy).Contents (Elt F) → (⟨S512x8, .f32⟩ : BufTy).Contents (Elt F)),
    unary main_v203 main_v204 (broadcastInDim S512x8x1 ![0, 1] bcast_S512x8_S512x8x1_0_1 : (⟨S512x8, .f32⟩ : BufTy).Contents (Elt F) → (⟨S512x8x1, .f32⟩ : BufTy).Contents (Elt F)),
    unary main_v204 main_v205 (broadcastInDim S512x8x64 ![0, 1, 2] bcast_S512x8x1_S512x8x64_0_1_2 : (⟨S512x8x1, .f32⟩ : BufTy).Contents (Elt F) → (⟨S512x8x64, .f32⟩ : BufTy).Contents (Elt F)),
    binary main_v182 main_v205 main_v206 (mulf : (⟨S512x8x64, .f32⟩ : BufTy).Contents (Elt F) → (⟨S512x8x64, .f32⟩ : BufTy).Contents (Elt F) → (⟨S512x8x64, .f32⟩ : BufTy).Contents (Elt F)),
    nullary main_cst_34 (constant S_ .f32 0x00000000#32),
    binary main_v206 main_cst_34 main_v207 ((fun x v => Host.reduceAdd x v reducesTo_S512x8x64_S512x64_d1 h_S_) : (⟨S512x8x64, .f32⟩ : BufTy).Contents (Elt F) → (⟨S_, .f32⟩ : BufTy).Contents (Elt F) → (⟨S512x64, .f32⟩ : BufTy).Contents (Elt F)),
    binary main_v207 main_arg33 main_v208 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)) ]

/-- Operations 261 … 268 of the 337. -/
abbrev part28 : List (HloOp τ sig (Elt F)) :=
  [ unary main_arg34 main_v209 (broadcastInDim S1x128 ![1] bcast_S128_S1x128_1 : (⟨S128, .f32⟩ : BufTy).Contents (Elt F) → (⟨S1x128, .f32⟩ : BufTy).Contents (Elt F)),
    unary main_v209 main_v210 (broadcastInDim S512x128 ![0, 1] bcast_S1x128_S512x128_0_1 : (⟨S1x128, .f32⟩ : BufTy).Contents (Elt F) → (⟨S512x128, .f32⟩ : BufTy).Contents (Elt F)),
    binary main_v208 main_v210 main_v211 (addf : (⟨S512x128, .f32⟩ : BufTy).Contents (Elt F) → (⟨S512x128, .f32⟩ : BufTy).Contents (Elt F) → (⟨S512x128, .f32⟩ : BufTy).Contents (Elt F)),
    nullary main_cst_35 (constant S_ .f32 0x00000000#32),
    binary main_v211 main_cst_35 main_v212 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_36 (constant S_ .f32 0x44000000#32),
    unary main_cst_36 main_v213 (broadcastInDim S128 ![] bcast_S_S128 : (⟨S_, .f32⟩ : BufTy).Contents (Elt F) → (⟨S128, .f32⟩ : BufTy).Contents (Elt F)),
    binary main_v212 main_v213 main_v214 (Host.divf : (⟨S128, .f32⟩ : BufTy).Contents (Elt F) → (⟨S128, .f32⟩ : BufTy).Contents (Elt F) → (⟨S128, .f32⟩ : BufTy).Contents (Elt F)) ]

/-- Operations 269 … 280 of the 337. -/
abbrev part29 : List (HloOp τ sig (Elt F)) :=
  [ unary main_v214 main_v215 (broadcastInDim S1x128 ![1] bcast_S128_S1x128_1 : (⟨S128, .f32⟩ : BufTy).Contents (Elt F) → (⟨S1x128, .f32⟩ : BufTy).Contents (Elt F)),
    unary main_v215 main_v216 (broadcastInDim S512x128 ![0, 1] bcast_S1x128_S512x128_0_1 : (⟨S1x128, .f32⟩ : BufTy).Contents (Elt F) → (⟨S512x128, .f32⟩ : BufTy).Contents (Elt F)),
    binary main_v211 main_v216 main_v217 (subf : (⟨S512x128, .f32⟩ : BufTy).Contents (Elt F) → (⟨S512x128, .f32⟩ : BufTy).Contents (Elt F) → (⟨S512x128, .f32⟩ : BufTy).Contents (Elt F)),
    binary main_v217 main_v217 main_v218 (mulf : (⟨S512x128, .f32⟩ : BufTy).Contents (Elt F) → (⟨S512x128, .f32⟩ : BufTy).Contents (Elt F) → (⟨S512x128, .f32⟩ : BufTy).Contents (Elt F)),
    nullary main_cst_37 (constant S_ .f32 0x00000000#32),
    binary main_v218 main_cst_37 main_v219 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    nullary main_cst_38 (constant S_ .f32 0x44000000#32),
    unary main_cst_38 main_v220 (broadcastInDim S128 ![] bcast_S_S128 : (⟨S_, .f32⟩ : BufTy).Contents (Elt F) → (⟨S128, .f32⟩ : BufTy).Contents (Elt F)),
    binary main_v219 main_v220 main_v221 (Host.divf : (⟨S128, .f32⟩ : BufTy).Contents (Elt F) → (⟨S128, .f32⟩ : BufTy).Contents (Elt F) → (⟨S128, .f32⟩ : BufTy).Contents (Elt F)),
    unary main_v214 main_v222 (broadcastInDim S1x128 ![1] bcast_S128_S1x128_1 : (⟨S128, .f32⟩ : BufTy).Contents (Elt F) → (⟨S1x128, .f32⟩ : BufTy).Contents (Elt F)),
    unary main_v222 main_v223 (broadcastInDim S512x128 ![0, 1] bcast_S1x128_S512x128_0_1 : (⟨S1x128, .f32⟩ : BufTy).Contents (Elt F) → (⟨S512x128, .f32⟩ : BufTy).Contents (Elt F)),
    binary main_v211 main_v223 main_v224 (subf : (⟨S512x128, .f32⟩ : BufTy).Contents (Elt F) → (⟨S512x128, .f32⟩ : BufTy).Contents (Elt F) → (⟨S512x128, .f32⟩ : BufTy).Contents (Elt F)) ]

/-- Operations 281 … 290 of the 337. -/
abbrev part30 : List (HloOp τ sig (Elt F)) :=
  [ unary main_arg39 main_v225 (broadcastInDim S1x128 ![1] bcast_S128_S1x128_1 : (⟨S128, .f32⟩ : BufTy).Contents (Elt F) → (⟨S1x128, .f32⟩ : BufTy).Contents (Elt F)),
    unary main_v225 main_v226 (broadcastInDim S512x128 ![0, 1] bcast_S1x128_S512x128_0_1 : (⟨S1x128, .f32⟩ : BufTy).Contents (Elt F) → (⟨S512x128, .f32⟩ : BufTy).Contents (Elt F)),
    binary main_v226 main_v224 main_v227 (mulf : (⟨S512x128, .f32⟩ : BufTy).Contents (Elt F) → (⟨S512x128, .f32⟩ : BufTy).Contents (Elt F) → (⟨S512x128, .f32⟩ : BufTy).Contents (Elt F)),
    nullary main_cst_39 (constant S_ .f32 0x3727C5AC#32),
    unary main_cst_39 main_v228 (broadcastInDim S128 ![] bcast_S_S128 : (⟨S_, .f32⟩ : BufTy).Contents (Elt F) → (⟨S128, .f32⟩ : BufTy).Contents (Elt F)),
    binary main_v221 main_v228 main_v229 (addf : (⟨S128, .f32⟩ : BufTy).Contents (Elt F) → (⟨S128, .f32⟩ : BufTy).Contents (Elt F) → (⟨S128, .f32⟩ : BufTy).Contents (Elt F)),
    unary main_v229 main_v230 (Host.rsqrt : (⟨S128, .f32⟩ : BufTy).Contents (Elt F) → (⟨S128, .f32⟩ : BufTy).Contents (Elt F)),
    unary main_v230 main_v231 (broadcastInDim S1x128 ![1] bcast_S128_S1x128_1 : (⟨S128, .f32⟩ : BufTy).Contents (Elt F) → (⟨S1x128, .f32⟩ : BufTy).Contents (Elt F)),
    unary main_v231 main_v232 (broadcastInDim S512x128 ![0, 1] bcast_S1x128_S512x128_0_1 : (⟨S1x128, .f32⟩ : BufTy).Contents (Elt F) → (⟨S512x128, .f32⟩ : BufTy).Contents (Elt F)),
    binary main_v227 main_v232 main_v233 (mulf : (⟨S512x128, .f32⟩ : BufTy).Contents (Elt F) → (⟨S512x128, .f32⟩ : BufTy).Contents (Elt F) → (⟨S512x128, .f32⟩ : BufTy).Contents (Elt F)) ]

/-- Operations 291 … 300 of the 337. -/
abbrev part31 : List (HloOp τ sig (Elt F)) :=
  [ unary main_arg40 main_v234 (broadcastInDim S1x128 ![1] bcast_S128_S1x128_1 : (⟨S128, .f32⟩ : BufTy).Contents (Elt F) → (⟨S1x128, .f32⟩ : BufTy).Contents (Elt F)),
    unary main_v234 main_v235 (broadcastInDim S512x128 ![0, 1] bcast_S1x128_S512x128_0_1 : (⟨S1x128, .f32⟩ : BufTy).Contents (Elt F) → (⟨S512x128, .f32⟩ : BufTy).Contents (Elt F)),
    binary main_v233 main_v235 main_v236 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x128, .f32⟩) main_call7_v0) (broadcastInDim S512x128 ![] bcast_S_S512x128),
    TRef.binary (TRef.of (T := ⟨S512x128, .f32⟩) main_v236) (TRef.of (T := ⟨S512x128, .f32⟩) main_call7_v0) (TRef.of (T := ⟨S512x128, .f32⟩) main_v237) maximumf,
    binary main_v237 main_arg35 main_v238 ((fun l r => Host.dotGeneral dot_S512x128_S128x32_S512x32_1_0_0_1_n_n none l r) : (⟨S512x128, .f32⟩ : BufTy).Contents (Elt F) → (⟨S128x32, .f32⟩ : BufTy).Contents (Elt F) → (⟨S512x32, .f32⟩ : BufTy).Contents (Elt F)),
    unary main_arg36 main_v239 (broadcastInDim S1x32 ![1] bcast_S32_S1x32_1 : (⟨S32, .f32⟩ : BufTy).Contents (Elt F) → (⟨S1x32, .f32⟩ : BufTy).Contents (Elt F)),
    unary main_v239 main_v240 (broadcastInDim S512x32 ![0, 1] bcast_S1x32_S512x32_0_1 : (⟨S1x32, .f32⟩ : BufTy).Contents (Elt F) → (⟨S512x32, .f32⟩ : BufTy).Contents (Elt F)),
    binary main_v238 main_v240 main_v241 (addf : (⟨S512x32, .f32⟩ : BufTy).Contents (Elt F) → (⟨S512x32, .f32⟩ : BufTy).Contents (Elt F) → (⟨S512x32, .f32⟩ : BufTy).Contents (Elt F)) ]

/-- Operations 301 … 311 of the 337. -/
abbrev part32 : List (HloOp τ sig (Elt F)) :=
  [ nullary main_cst_40 (constant S_ .f32 0x00000000#32),
    binary main_v241 main_cst_40 main_v242 ((fun x v => Host.reduceAdd x v reducesTo_S512x32_S32_d0 h_S_) : (⟨S512x32, .f32⟩ : BufTy).Contents (Elt F) → (⟨S_, .f32⟩ : BufTy).Contents (Elt F) → (⟨S32, .f32⟩ : BufTy).Contents (Elt F)),
    nullary main_cst_41 (constant S_ .f32 0x44000000#32),
    unary main_cst_41 main_v243 (broadcastInDim S32 ![] bcast_S_S32 : (⟨S_, .f32⟩ : BufTy).Contents (Elt F) → (⟨S32, .f32⟩ : BufTy).Contents (Elt F)),
    binary main_v242 main_v243 main_v244 (Host.divf : (⟨S32, .f32⟩ : BufTy).Contents (Elt F) → (⟨S32, .f32⟩ : BufTy).Contents (Elt F) → (⟨S32, .f32⟩ : BufTy).Contents (Elt F)),
    unary main_v244 main_v245 (broadcastInDim S1x32 ![1] bcast_S32_S1x32_1 : (⟨S32, .f32⟩ : BufTy).Contents (Elt F) → (⟨S1x32, .f32⟩ : BufTy).Contents (Elt F)),
    unary main_v245 main_v246 (broadcastInDim S512x32 ![0, 1] bcast_S1x32_S512x32_0_1 : (⟨S1x32, .f32⟩ : BufTy).Contents (Elt F) → (⟨S512x32, .f32⟩ : BufTy).Contents (Elt F)),
    binary main_v241 main_v246 main_v247 (subf : (⟨S512x32, .f32⟩ : BufTy).Contents (Elt F) → (⟨S512x32, .f32⟩ : BufTy).Contents (Elt F) → (⟨S512x32, .f32⟩ : BufTy).Contents (Elt F)),
    binary main_v247 main_v247 main_v248 (mulf : (⟨S512x32, .f32⟩ : BufTy).Contents (Elt F) → (⟨S512x32, .f32⟩ : BufTy).Contents (Elt F) → (⟨S512x32, .f32⟩ : BufTy).Contents (Elt F)),
    nullary main_cst_42 (constant S_ .f32 0x00000000#32),
    binary main_v248 main_cst_42 main_v249 ((fun x v => Host.reduceAdd x v reducesTo_S512x32_S32_d0 h_S_) : (⟨S512x32, .f32⟩ : BufTy).Contents (Elt F) → (⟨S_, .f32⟩ : BufTy).Contents (Elt F) → (⟨S32, .f32⟩ : BufTy).Contents (Elt F)) ]

/-- Operations 312 … 323 of the 337. -/
abbrev part33 : List (HloOp τ sig (Elt F)) :=
  [ nullary main_cst_43 (constant S_ .f32 0x44000000#32),
    unary main_cst_43 main_v250 (broadcastInDim S32 ![] bcast_S_S32 : (⟨S_, .f32⟩ : BufTy).Contents (Elt F) → (⟨S32, .f32⟩ : BufTy).Contents (Elt F)),
    binary main_v249 main_v250 main_v251 (Host.divf : (⟨S32, .f32⟩ : BufTy).Contents (Elt F) → (⟨S32, .f32⟩ : BufTy).Contents (Elt F) → (⟨S32, .f32⟩ : BufTy).Contents (Elt F)),
    unary main_v244 main_v252 (broadcastInDim S1x32 ![1] bcast_S32_S1x32_1 : (⟨S32, .f32⟩ : BufTy).Contents (Elt F) → (⟨S1x32, .f32⟩ : BufTy).Contents (Elt F)),
    unary main_v252 main_v253 (broadcastInDim S512x32 ![0, 1] bcast_S1x32_S512x32_0_1 : (⟨S1x32, .f32⟩ : BufTy).Contents (Elt F) → (⟨S512x32, .f32⟩ : BufTy).Contents (Elt F)),
    binary main_v241 main_v253 main_v254 (subf : (⟨S512x32, .f32⟩ : BufTy).Contents (Elt F) → (⟨S512x32, .f32⟩ : BufTy).Contents (Elt F) → (⟨S512x32, .f32⟩ : BufTy).Contents (Elt F)),
    unary main_arg41 main_v255 (broadcastInDim S1x32 ![1] bcast_S32_S1x32_1 : (⟨S32, .f32⟩ : BufTy).Contents (Elt F) → (⟨S1x32, .f32⟩ : BufTy).Contents (Elt F)),
    unary main_v255 main_v256 (broadcastInDim S512x32 ![0, 1] bcast_S1x32_S512x32_0_1 : (⟨S1x32, .f32⟩ : BufTy).Contents (Elt F) → (⟨S512x32, .f32⟩ : BufTy).Contents (Elt F)),
    binary main_v256 main_v254 main_v257 (mulf : (⟨S512x32, .f32⟩ : BufTy).Contents (Elt F) → (⟨S512x32, .f32⟩ : BufTy).Contents (Elt F) → (⟨S512x32, .f32⟩ : BufTy).Contents (Elt F)),
    nullary main_cst_44 (constant S_ .f32 0x3727C5AC#32),
    unary main_cst_44 main_v258 (broadcastInDim S32 ![] bcast_S_S32 : (⟨S_, .f32⟩ : BufTy).Contents (Elt F) → (⟨S32, .f32⟩ : BufTy).Contents (Elt F)),
    binary main_v251 main_v258 main_v259 (addf : (⟨S32, .f32⟩ : BufTy).Contents (Elt F) → (⟨S32, .f32⟩ : BufTy).Contents (Elt F) → (⟨S32, .f32⟩ : BufTy).Contents (Elt F)) ]

/-- Operations 324 … 337 of the 337. -/
abbrev part34 : List (HloOp τ sig (Elt F)) :=
  [ unary main_v259 main_v260 (Host.rsqrt : (⟨S32, .f32⟩ : BufTy).Contents (Elt F) → (⟨S32, .f32⟩ : BufTy).Contents (Elt F)),
    unary main_v260 main_v261 (broadcastInDim S1x32 ![1] bcast_S32_S1x32_1 : (⟨S32, .f32⟩ : BufTy).Contents (Elt F) → (⟨S1x32, .f32⟩ : BufTy).Contents (Elt F)),
    unary main_v261 main_v262 (broadcastInDim S512x32 ![0, 1] bcast_S1x32_S512x32_0_1 : (⟨S1x32, .f32⟩ : BufTy).Contents (Elt F) → (⟨S512x32, .f32⟩ : BufTy).Contents (Elt F)),
    binary main_v257 main_v262 main_v263 (mulf : (⟨S512x32, .f32⟩ : BufTy).Contents (Elt F) → (⟨S512x32, .f32⟩ : BufTy).Contents (Elt F) → (⟨S512x32, .f32⟩ : BufTy).Contents (Elt F)),
    unary main_arg42 main_v264 (broadcastInDim S1x32 ![1] bcast_S32_S1x32_1 : (⟨S32, .f32⟩ : BufTy).Contents (Elt F) → (⟨S1x32, .f32⟩ : BufTy).Contents (Elt F)),
    unary main_v264 main_v265 (broadcastInDim S512x32 ![0, 1] bcast_S1x32_S512x32_0_1 : (⟨S1x32, .f32⟩ : BufTy).Contents (Elt F) → (⟨S512x32, .f32⟩ : BufTy).Contents (Elt F)),
    binary main_v263 main_v265 main_v266 (addf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S512x32, .f32⟩) main_call8_v0) (broadcastInDim S512x32 ![] bcast_S_S512x32),
    TRef.binary (TRef.of (T := ⟨S512x32, .f32⟩) main_v266) (TRef.of (T := ⟨S512x32, .f32⟩) main_call8_v0) (TRef.of (T := ⟨S512x32, .f32⟩) main_v267) maximumf,
    binary main_v267 main_arg37 main_v268 ((fun l r => Host.dotGeneral dot_S512x32_S32x1_S512x1_1_0_0_1_n_n none l r) : (⟨S512x32, .f32⟩ : BufTy).Contents (Elt F) → (⟨S32x1, .f32⟩ : BufTy).Contents (Elt F) → (⟨S512x1, .f32⟩ : BufTy).Contents (Elt F)),
    unary main_arg38 main_v269 (broadcastInDim S1x1 ![1] bcast_S1_S1x1_1 : (⟨S1, .f32⟩ : BufTy).Contents (Elt F) → (⟨S1x1, .f32⟩ : BufTy).Contents (Elt F)),
    unary main_v269 main_v270 (broadcastInDim S512x1 ![0, 1] bcast_S1x1_S512x1_0_1 : (⟨S1x1, .f32⟩ : BufTy).Contents (Elt F) → (⟨S512x1, .f32⟩ : BufTy).Contents (Elt F)),
    binary main_v268 main_v270 main_v271 (addf : (⟨S512x1, .f32⟩ : BufTy).Contents (Elt F) → (⟨S512x1, .f32⟩ : BufTy).Contents (Elt F) → (⟨S512x1, .f32⟩ : BufTy).Contents (Elt F)) ]

/-- The buffer contents before the first stage. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl
theorem val0_main_arg26 (V0 : Valuation τ sig (Elt F)) : val0 V0 (no_index (Proc.devRef .tc main_arg26)) = V0 (Proc.devRef .tc main_arg26) := rfl
theorem val0_main_arg27 (V0 : Valuation τ sig (Elt F)) : val0 V0 (no_index (Proc.devRef .tc main_arg27)) = V0 (Proc.devRef .tc main_arg27) := rfl
theorem val0_main_arg28 (V0 : Valuation τ sig (Elt F)) : val0 V0 (no_index (Proc.devRef .tc main_arg28)) = V0 (Proc.devRef .tc main_arg28) := rfl
theorem val0_main_arg29 (V0 : Valuation τ sig (Elt F)) : val0 V0 (no_index (Proc.devRef .tc main_arg29)) = V0 (Proc.devRef .tc main_arg29) := rfl
theorem val0_main_arg30 (V0 : Valuation τ sig (Elt F)) : val0 V0 (no_index (Proc.devRef .tc main_arg30)) = V0 (Proc.devRef .tc main_arg30) := rfl
theorem val0_main_arg31 (V0 : Valuation τ sig (Elt F)) : val0 V0 (no_index (Proc.devRef .tc main_arg31)) = V0 (Proc.devRef .tc main_arg31) := rfl
theorem val0_main_arg32 (V0 : Valuation τ sig (Elt F)) : val0 V0 (no_index (Proc.devRef .tc main_arg32)) = V0 (Proc.devRef .tc main_arg32) := rfl
theorem val0_main_arg33 (V0 : Valuation τ sig (Elt F)) : val0 V0 (no_index (Proc.devRef .tc main_arg33)) = V0 (Proc.devRef .tc main_arg33) := rfl
theorem val0_main_arg34 (V0 : Valuation τ sig (Elt F)) : val0 V0 (no_index (Proc.devRef .tc main_arg34)) = V0 (Proc.devRef .tc main_arg34) := rfl
theorem val0_main_arg35 (V0 : Valuation τ sig (Elt F)) : val0 V0 (no_index (Proc.devRef .tc main_arg35)) = V0 (Proc.devRef .tc main_arg35) := rfl
theorem val0_main_arg36 (V0 : Valuation τ sig (Elt F)) : val0 V0 (no_index (Proc.devRef .tc main_arg36)) = V0 (Proc.devRef .tc main_arg36) := rfl
theorem val0_main_arg37 (V0 : Valuation τ sig (Elt F)) : val0 V0 (no_index (Proc.devRef .tc main_arg37)) = V0 (Proc.devRef .tc main_arg37) := rfl
theorem val0_main_arg38 (V0 : Valuation τ sig (Elt F)) : val0 V0 (no_index (Proc.devRef .tc main_arg38)) = V0 (Proc.devRef .tc main_arg38) := rfl
theorem val0_main_arg39 (V0 : Valuation τ sig (Elt F)) : val0 V0 (no_index (Proc.devRef .tc main_arg39)) = V0 (Proc.devRef .tc main_arg39) := rfl
theorem val0_main_arg40 (V0 : Valuation τ sig (Elt F)) : val0 V0 (no_index (Proc.devRef .tc main_arg40)) = V0 (Proc.devRef .tc main_arg40) := rfl
theorem val0_main_arg41 (V0 : Valuation τ sig (Elt F)) : val0 V0 (no_index (Proc.devRef .tc main_arg41)) = V0 (Proc.devRef .tc main_arg41) := rfl
theorem val0_main_arg42 (V0 : Valuation τ sig (Elt F)) : val0 V0 (no_index (Proc.devRef .tc main_arg42)) = V0 (Proc.devRef .tc main_arg42) := rfl

/-- The buffer contents after the first 1 stage. -/
def val1 (V0 : Valuation τ sig (Elt F)) : Valuation τ sig (Elt F) := after part1 (val0 V0)
/-- The buffers that stage 1 writes. -/
abbrev part1_W : List (Ref sig .tc) := [main_c, main_v0, main_v1, main_c_0, main_v2, main_v3, main_v4, main_v5, main_v6]
set_option maxRecDepth 8192 in
theorem part1_writes : (part1 : List (HloOp τ sig (Elt F))).Forall fun op => op.writes ⊆ (part1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 1 does not write keeps its contents through it. -/
theorem val1_keep (V0 : Valuation τ sig (Elt F)) (r : Ref sig .tc) (h : r ∉ part1_W) :
    val1 V0 (Proc.devRef .tc r) = val0 V0 (Proc.devRef .tc r) :=
  after_of_writes_sub part1 _ part1_writes h
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
theorem val1_main_arg26 (V0 : Valuation τ sig (Elt F)) : val1 V0 (no_index (Proc.devRef .tc main_arg26)) = V0 (Proc.devRef .tc main_arg26) :=
  (val1_keep V0 main_arg26 (by decide)).trans (val0_main_arg26 V0)
theorem val1_main_arg27 (V0 : Valuation τ sig (Elt F)) : val1 V0 (no_index (Proc.devRef .tc main_arg27)) = V0 (Proc.devRef .tc main_arg27) :=
  (val1_keep V0 main_arg27 (by decide)).trans (val0_main_arg27 V0)
theorem val1_main_arg28 (V0 : Valuation τ sig (Elt F)) : val1 V0 (no_index (Proc.devRef .tc main_arg28)) = V0 (Proc.devRef .tc main_arg28) :=
  (val1_keep V0 main_arg28 (by decide)).trans (val0_main_arg28 V0)
theorem val1_main_arg29 (V0 : Valuation τ sig (Elt F)) : val1 V0 (no_index (Proc.devRef .tc main_arg29)) = V0 (Proc.devRef .tc main_arg29) :=
  (val1_keep V0 main_arg29 (by decide)).trans (val0_main_arg29 V0)
theorem val1_main_arg30 (V0 : Valuation τ sig (Elt F)) : val1 V0 (no_index (Proc.devRef .tc main_arg30)) = V0 (Proc.devRef .tc main_arg30) :=
  (val1_keep V0 main_arg30 (by decide)).trans (val0_main_arg30 V0)
theorem val1_main_arg31 (V0 : Valuation τ sig (Elt F)) : val1 V0 (no_index (Proc.devRef .tc main_arg31)) = V0 (Proc.devRef .tc main_arg31) :=
  (val1_keep V0 main_arg31 (by decide)).trans (val0_main_arg31 V0)
theorem val1_main_arg32 (V0 : Valuation τ sig (Elt F)) : val1 V0 (no_index (Proc.devRef .tc main_arg32)) = V0 (Proc.devRef .tc main_arg32) :=
  (val1_keep V0 main_arg32 (by decide)).trans (val0_main_arg32 V0)
theorem val1_main_arg33 (V0 : Valuation τ sig (Elt F)) : val1 V0 (no_index (Proc.devRef .tc main_arg33)) = V0 (Proc.devRef .tc main_arg33) :=
  (val1_keep V0 main_arg33 (by decide)).trans (val0_main_arg33 V0)
theorem val1_main_arg34 (V0 : Valuation τ sig (Elt F)) : val1 V0 (no_index (Proc.devRef .tc main_arg34)) = V0 (Proc.devRef .tc main_arg34) :=
  (val1_keep V0 main_arg34 (by decide)).trans (val0_main_arg34 V0)
theorem val1_main_arg35 (V0 : Valuation τ sig (Elt F)) : val1 V0 (no_index (Proc.devRef .tc main_arg35)) = V0 (Proc.devRef .tc main_arg35) :=
  (val1_keep V0 main_arg35 (by decide)).trans (val0_main_arg35 V0)
theorem val1_main_arg36 (V0 : Valuation τ sig (Elt F)) : val1 V0 (no_index (Proc.devRef .tc main_arg36)) = V0 (Proc.devRef .tc main_arg36) :=
  (val1_keep V0 main_arg36 (by decide)).trans (val0_main_arg36 V0)
theorem val1_main_arg37 (V0 : Valuation τ sig (Elt F)) : val1 V0 (no_index (Proc.devRef .tc main_arg37)) = V0 (Proc.devRef .tc main_arg37) :=
  (val1_keep V0 main_arg37 (by decide)).trans (val0_main_arg37 V0)
theorem val1_main_arg38 (V0 : Valuation τ sig (Elt F)) : val1 V0 (no_index (Proc.devRef .tc main_arg38)) = V0 (Proc.devRef .tc main_arg38) :=
  (val1_keep V0 main_arg38 (by decide)).trans (val0_main_arg38 V0)
theorem val1_main_arg39 (V0 : Valuation τ sig (Elt F)) : val1 V0 (no_index (Proc.devRef .tc main_arg39)) = V0 (Proc.devRef .tc main_arg39) :=
  (val1_keep V0 main_arg39 (by decide)).trans (val0_main_arg39 V0)
theorem val1_main_arg40 (V0 : Valuation τ sig (Elt F)) : val1 V0 (no_index (Proc.devRef .tc main_arg40)) = V0 (Proc.devRef .tc main_arg40) :=
  (val1_keep V0 main_arg40 (by decide)).trans (val0_main_arg40 V0)
theorem val1_main_arg41 (V0 : Valuation τ sig (Elt F)) : val1 V0 (no_index (Proc.devRef .tc main_arg41)) = V0 (Proc.devRef .tc main_arg41) :=
  (val1_keep V0 main_arg41 (by decide)).trans (val0_main_arg41 V0)
theorem val1_main_arg42 (V0 : Valuation τ sig (Elt F)) : val1 V0 (no_index (Proc.devRef .tc main_arg42)) = V0 (Proc.devRef .tc main_arg42) :=
  (val1_keep V0 main_arg42 (by decide)).trans (val0_main_arg42 V0)
set_option maxRecDepth 8192 in
set_option maxHeartbeats 2000000 in
theorem val1_main_v6 (V0 : Valuation τ sig (Elt F)) : val1 V0 (no_index (Proc.devRef .tc main_v6)) = E_main_v6 V0 := by
  unfold val1
  simp only [part1]
  after_results_simp
  simp only [val0_main_arg3, val0_main_arg0] <;> rfl

/-- The buffer contents after the first 2 stages. -/
def val2 (V0 : Valuation τ sig (Elt F)) : Valuation τ sig (Elt F) := after part2 (val1 V0)
/-- The buffers that stage 2 writes. -/
abbrev part2_W : List (Ref sig .tc) := [main_cst, main_v7, main_v8, main_v9, main_cst_1, main_v10, main_cst_2, main_v11, main_v12, main_v13]
set_option maxRecDepth 8192 in
theorem part2_writes : (part2 : List (HloOp τ sig (Elt F))).Forall fun op => op.writes ⊆ (part2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 2 does not write keeps its contents through it. -/
theorem val2_keep (V0 : Valuation τ sig (Elt F)) (r : Ref sig .tc) (h : r ∉ part2_W) :
    val2 V0 (Proc.devRef .tc r) = val1 V0 (Proc.devRef .tc r) :=
  after_of_writes_sub part2 _ part2_writes h
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_arg26 (V0 : Valuation τ sig (Elt F)) : val2 V0 (no_index (Proc.devRef .tc main_arg26)) = V0 (Proc.devRef .tc main_arg26) :=
  (val2_keep V0 main_arg26 (by decide)).trans (val1_main_arg26 V0)
theorem val2_main_arg27 (V0 : Valuation τ sig (Elt F)) : val2 V0 (no_index (Proc.devRef .tc main_arg27)) = V0 (Proc.devRef .tc main_arg27) :=
  (val2_keep V0 main_arg27 (by decide)).trans (val1_main_arg27 V0)
theorem val2_main_arg28 (V0 : Valuation τ sig (Elt F)) : val2 V0 (no_index (Proc.devRef .tc main_arg28)) = V0 (Proc.devRef .tc main_arg28) :=
  (val2_keep V0 main_arg28 (by decide)).trans (val1_main_arg28 V0)
theorem val2_main_arg29 (V0 : Valuation τ sig (Elt F)) : val2 V0 (no_index (Proc.devRef .tc main_arg29)) = V0 (Proc.devRef .tc main_arg29) :=
  (val2_keep V0 main_arg29 (by decide)).trans (val1_main_arg29 V0)
theorem val2_main_arg30 (V0 : Valuation τ sig (Elt F)) : val2 V0 (no_index (Proc.devRef .tc main_arg30)) = V0 (Proc.devRef .tc main_arg30) :=
  (val2_keep V0 main_arg30 (by decide)).trans (val1_main_arg30 V0)
theorem val2_main_arg31 (V0 : Valuation τ sig (Elt F)) : val2 V0 (no_index (Proc.devRef .tc main_arg31)) = V0 (Proc.devRef .tc main_arg31) :=
  (val2_keep V0 main_arg31 (by decide)).trans (val1_main_arg31 V0)
theorem val2_main_arg32 (V0 : Valuation τ sig (Elt F)) : val2 V0 (no_index (Proc.devRef .tc main_arg32)) = V0 (Proc.devRef .tc main_arg32) :=
  (val2_keep V0 main_arg32 (by decide)).trans (val1_main_arg32 V0)
theorem val2_main_arg33 (V0 : Valuation τ sig (Elt F)) : val2 V0 (no_index (Proc.devRef .tc main_arg33)) = V0 (Proc.devRef .tc main_arg33) :=
  (val2_keep V0 main_arg33 (by decide)).trans (val1_main_arg33 V0)
theorem val2_main_arg34 (V0 : Valuation τ sig (Elt F)) : val2 V0 (no_index (Proc.devRef .tc main_arg34)) = V0 (Proc.devRef .tc main_arg34) :=
  (val2_keep V0 main_arg34 (by decide)).trans (val1_main_arg34 V0)
theorem val2_main_arg35 (V0 : Valuation τ sig (Elt F)) : val2 V0 (no_index (Proc.devRef .tc main_arg35)) = V0 (Proc.devRef .tc main_arg35) :=
  (val2_keep V0 main_arg35 (by decide)).trans (val1_main_arg35 V0)
theorem val2_main_arg36 (V0 : Valuation τ sig (Elt F)) : val2 V0 (no_index (Proc.devRef .tc main_arg36)) = V0 (Proc.devRef .tc main_arg36) :=
  (val2_keep V0 main_arg36 (by decide)).trans (val1_main_arg36 V0)
theorem val2_main_arg37 (V0 : Valuation τ sig (Elt F)) : val2 V0 (no_index (Proc.devRef .tc main_arg37)) = V0 (Proc.devRef .tc main_arg37) :=
  (val2_keep V0 main_arg37 (by decide)).trans (val1_main_arg37 V0)
theorem val2_main_arg38 (V0 : Valuation τ sig (Elt F)) : val2 V0 (no_index (Proc.devRef .tc main_arg38)) = V0 (Proc.devRef .tc main_arg38) :=
  (val2_keep V0 main_arg38 (by decide)).trans (val1_main_arg38 V0)
theorem val2_main_arg39 (V0 : Valuation τ sig (Elt F)) : val2 V0 (no_index (Proc.devRef .tc main_arg39)) = V0 (Proc.devRef .tc main_arg39) :=
  (val2_keep V0 main_arg39 (by decide)).trans (val1_main_arg39 V0)
theorem val2_main_arg40 (V0 : Valuation τ sig (Elt F)) : val2 V0 (no_index (Proc.devRef .tc main_arg40)) = V0 (Proc.devRef .tc main_arg40) :=
  (val2_keep V0 main_arg40 (by decide)).trans (val1_main_arg40 V0)
theorem val2_main_arg41 (V0 : Valuation τ sig (Elt F)) : val2 V0 (no_index (Proc.devRef .tc main_arg41)) = V0 (Proc.devRef .tc main_arg41) :=
  (val2_keep V0 main_arg41 (by decide)).trans (val1_main_arg41 V0)
theorem val2_main_arg42 (V0 : Valuation τ sig (Elt F)) : val2 V0 (no_index (Proc.devRef .tc main_arg42)) = V0 (Proc.devRef .tc main_arg42) :=
  (val2_keep V0 main_arg42 (by decide)).trans (val1_main_arg42 V0)
set_option maxRecDepth 8192 in
set_option maxHeartbeats 2000000 in
theorem val2_main_v9 (V0 : Valuation τ sig (Elt F)) : val2 V0 (no_index (Proc.devRef .tc main_v9)) = E_main_v9 V0 := by
  unfold val2
  simp only [part2]
  after_results_simp
  simp only [val1_main_v6, val1_main_arg4] <;> rfl
set_option maxRecDepth 8192 in
set_option maxHeartbeats 2000000 in
theorem val2_main_v13 (V0 : Valuation τ sig (Elt F)) : val2 V0 (no_index (Proc.devRef .tc main_v13)) = E_main_v13 V0 := by
  unfold val2
  simp only [part2]
  after_results_simp
  simp only [val1_main_arg4] <;> rfl

/-- The buffer contents after the first 3 stages. -/
def val3 (V0 : Valuation τ sig (Elt F)) : Valuation τ sig (Elt F) := after part3 (val2 V0)
/-- The buffers that stage 3 writes. -/
abbrev part3_W : List (Ref sig .tc) := [main_cst_3, main_v14, main_v15, main_v16, main_v17, main_v18, main_v19, main_v20, main_v21, main_v22]
set_option maxRecDepth 8192 in
theorem part3_writes : (part3 : List (HloOp τ sig (Elt F))).Forall fun op => op.writes ⊆ (part3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 3 does not write keeps its contents through it. -/
theorem val3_keep (V0 : Valuation τ sig (Elt F)) (r : Ref sig .tc) (h : r ∉ part3_W) :
    val3 V0 (Proc.devRef .tc r) = val2 V0 (Proc.devRef .tc r) :=
  after_of_writes_sub part3 _ part3_writes h
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_arg26 (V0 : Valuation τ sig (Elt F)) : val3 V0 (no_index (Proc.devRef .tc main_arg26)) = V0 (Proc.devRef .tc main_arg26) :=
  (val3_keep V0 main_arg26 (by decide)).trans (val2_main_arg26 V0)
theorem val3_main_arg27 (V0 : Valuation τ sig (Elt F)) : val3 V0 (no_index (Proc.devRef .tc main_arg27)) = V0 (Proc.devRef .tc main_arg27) :=
  (val3_keep V0 main_arg27 (by decide)).trans (val2_main_arg27 V0)
theorem val3_main_arg28 (V0 : Valuation τ sig (Elt F)) : val3 V0 (no_index (Proc.devRef .tc main_arg28)) = V0 (Proc.devRef .tc main_arg28) :=
  (val3_keep V0 main_arg28 (by decide)).trans (val2_main_arg28 V0)
theorem val3_main_arg29 (V0 : Valuation τ sig (Elt F)) : val3 V0 (no_index (Proc.devRef .tc main_arg29)) = V0 (Proc.devRef .tc main_arg29) :=
  (val3_keep V0 main_arg29 (by decide)).trans (val2_main_arg29 V0)
theorem val3_main_arg30 (V0 : Valuation τ sig (Elt F)) : val3 V0 (no_index (Proc.devRef .tc main_arg30)) = V0 (Proc.devRef .tc main_arg30) :=
  (val3_keep V0 main_arg30 (by decide)).trans (val2_main_arg30 V0)
theorem val3_main_arg31 (V0 : Valuation τ sig (Elt F)) : val3 V0 (no_index (Proc.devRef .tc main_arg31)) = V0 (Proc.devRef .tc main_arg31) :=
  (val3_keep V0 main_arg31 (by decide)).trans (val2_main_arg31 V0)
theorem val3_main_arg32 (V0 : Valuation τ sig (Elt F)) : val3 V0 (no_index (Proc.devRef .tc main_arg32)) = V0 (Proc.devRef .tc main_arg32) :=
  (val3_keep V0 main_arg32 (by decide)).trans (val2_main_arg32 V0)
theorem val3_main_arg33 (V0 : Valuation τ sig (Elt F)) : val3 V0 (no_index (Proc.devRef .tc main_arg33)) = V0 (Proc.devRef .tc main_arg33) :=
  (val3_keep V0 main_arg33 (by decide)).trans (val2_main_arg33 V0)
theorem val3_main_arg34 (V0 : Valuation τ sig (Elt F)) : val3 V0 (no_index (Proc.devRef .tc main_arg34)) = V0 (Proc.devRef .tc main_arg34) :=
  (val3_keep V0 main_arg34 (by decide)).trans (val2_main_arg34 V0)
theorem val3_main_arg35 (V0 : Valuation τ sig (Elt F)) : val3 V0 (no_index (Proc.devRef .tc main_arg35)) = V0 (Proc.devRef .tc main_arg35) :=
  (val3_keep V0 main_arg35 (by decide)).trans (val2_main_arg35 V0)
theorem val3_main_arg36 (V0 : Valuation τ sig (Elt F)) : val3 V0 (no_index (Proc.devRef .tc main_arg36)) = V0 (Proc.devRef .tc main_arg36) :=
  (val3_keep V0 main_arg36 (by decide)).trans (val2_main_arg36 V0)
theorem val3_main_arg37 (V0 : Valuation τ sig (Elt F)) : val3 V0 (no_index (Proc.devRef .tc main_arg37)) = V0 (Proc.devRef .tc main_arg37) :=
  (val3_keep V0 main_arg37 (by decide)).trans (val2_main_arg37 V0)
theorem val3_main_arg38 (V0 : Valuation τ sig (Elt F)) : val3 V0 (no_index (Proc.devRef .tc main_arg38)) = V0 (Proc.devRef .tc main_arg38) :=
  (val3_keep V0 main_arg38 (by decide)).trans (val2_main_arg38 V0)
theorem val3_main_arg39 (V0 : Valuation τ sig (Elt F)) : val3 V0 (no_index (Proc.devRef .tc main_arg39)) = V0 (Proc.devRef .tc main_arg39) :=
  (val3_keep V0 main_arg39 (by decide)).trans (val2_main_arg39 V0)
theorem val3_main_arg40 (V0 : Valuation τ sig (Elt F)) : val3 V0 (no_index (Proc.devRef .tc main_arg40)) = V0 (Proc.devRef .tc main_arg40) :=
  (val3_keep V0 main_arg40 (by decide)).trans (val2_main_arg40 V0)
theorem val3_main_arg41 (V0 : Valuation τ sig (Elt F)) : val3 V0 (no_index (Proc.devRef .tc main_arg41)) = V0 (Proc.devRef .tc main_arg41) :=
  (val3_keep V0 main_arg41 (by decide)).trans (val2_main_arg41 V0)
theorem val3_main_arg42 (V0 : Valuation τ sig (Elt F)) : val3 V0 (no_index (Proc.devRef .tc main_arg42)) = V0 (Proc.devRef .tc main_arg42) :=
  (val3_keep V0 main_arg42 (by decide)).trans (val2_main_arg42 V0)
set_option maxRecDepth 8192 in
set_option maxHeartbeats 2000000 in
theorem val3_main_v22 (V0 : Valuation τ sig (Elt F)) : val3 V0 (no_index (Proc.devRef .tc main_v22)) = E_main_v22 V0 := by
  unfold val3
  simp only [part3]
  after_results_simp
  simp only [val2_main_arg7, val2_main_arg6, val2_main_v13, val2_main_v9] <;> rfl

/-- The buffer contents after the first 4 stages. -/
def val4 (V0 : Valuation τ sig (Elt F)) : Valuation τ sig (Elt F) := after part4 (val3 V0)
/-- The buffers that stage 4 writes. -/
abbrev part4_W : List (Ref sig .tc) := [main_call0_cst, main_call0_v0, main_v23, main_c_4, main_v24, main_v25, main_c_5, main_v26, main_v27, main_v28, main_v29, main_v30]
set_option maxRecDepth 8192 in
theorem part4_writes : (part4 : List (HloOp τ sig (Elt F))).Forall fun op => op.writes ⊆ (part4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 4 does not write keeps its contents through it. -/
theorem val4_keep (V0 : Valuation τ sig (Elt F)) (r : Ref sig .tc) (h : r ∉ part4_W) :
    val4 V0 (Proc.devRef .tc r) = val3 V0 (Proc.devRef .tc r) :=
  after_of_writes_sub part4 _ part4_writes h
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_arg26 (V0 : Valuation τ sig (Elt F)) : val4 V0 (no_index (Proc.devRef .tc main_arg26)) = V0 (Proc.devRef .tc main_arg26) :=
  (val4_keep V0 main_arg26 (by decide)).trans (val3_main_arg26 V0)
theorem val4_main_arg27 (V0 : Valuation τ sig (Elt F)) : val4 V0 (no_index (Proc.devRef .tc main_arg27)) = V0 (Proc.devRef .tc main_arg27) :=
  (val4_keep V0 main_arg27 (by decide)).trans (val3_main_arg27 V0)
theorem val4_main_arg28 (V0 : Valuation τ sig (Elt F)) : val4 V0 (no_index (Proc.devRef .tc main_arg28)) = V0 (Proc.devRef .tc main_arg28) :=
  (val4_keep V0 main_arg28 (by decide)).trans (val3_main_arg28 V0)
theorem val4_main_arg29 (V0 : Valuation τ sig (Elt F)) : val4 V0 (no_index (Proc.devRef .tc main_arg29)) = V0 (Proc.devRef .tc main_arg29) :=
  (val4_keep V0 main_arg29 (by decide)).trans (val3_main_arg29 V0)
theorem val4_main_arg30 (V0 : Valuation τ sig (Elt F)) : val4 V0 (no_index (Proc.devRef .tc main_arg30)) = V0 (Proc.devRef .tc main_arg30) :=
  (val4_keep V0 main_arg30 (by decide)).trans (val3_main_arg30 V0)
theorem val4_main_arg31 (V0 : Valuation τ sig (Elt F)) : val4 V0 (no_index (Proc.devRef .tc main_arg31)) = V0 (Proc.devRef .tc main_arg31) :=
  (val4_keep V0 main_arg31 (by decide)).trans (val3_main_arg31 V0)
theorem val4_main_arg32 (V0 : Valuation τ sig (Elt F)) : val4 V0 (no_index (Proc.devRef .tc main_arg32)) = V0 (Proc.devRef .tc main_arg32) :=
  (val4_keep V0 main_arg32 (by decide)).trans (val3_main_arg32 V0)
theorem val4_main_arg33 (V0 : Valuation τ sig (Elt F)) : val4 V0 (no_index (Proc.devRef .tc main_arg33)) = V0 (Proc.devRef .tc main_arg33) :=
  (val4_keep V0 main_arg33 (by decide)).trans (val3_main_arg33 V0)
theorem val4_main_arg34 (V0 : Valuation τ sig (Elt F)) : val4 V0 (no_index (Proc.devRef .tc main_arg34)) = V0 (Proc.devRef .tc main_arg34) :=
  (val4_keep V0 main_arg34 (by decide)).trans (val3_main_arg34 V0)
theorem val4_main_arg35 (V0 : Valuation τ sig (Elt F)) : val4 V0 (no_index (Proc.devRef .tc main_arg35)) = V0 (Proc.devRef .tc main_arg35) :=
  (val4_keep V0 main_arg35 (by decide)).trans (val3_main_arg35 V0)
theorem val4_main_arg36 (V0 : Valuation τ sig (Elt F)) : val4 V0 (no_index (Proc.devRef .tc main_arg36)) = V0 (Proc.devRef .tc main_arg36) :=
  (val4_keep V0 main_arg36 (by decide)).trans (val3_main_arg36 V0)
theorem val4_main_arg37 (V0 : Valuation τ sig (Elt F)) : val4 V0 (no_index (Proc.devRef .tc main_arg37)) = V0 (Proc.devRef .tc main_arg37) :=
  (val4_keep V0 main_arg37 (by decide)).trans (val3_main_arg37 V0)
theorem val4_main_arg38 (V0 : Valuation τ sig (Elt F)) : val4 V0 (no_index (Proc.devRef .tc main_arg38)) = V0 (Proc.devRef .tc main_arg38) :=
  (val4_keep V0 main_arg38 (by decide)).trans (val3_main_arg38 V0)
theorem val4_main_arg39 (V0 : Valuation τ sig (Elt F)) : val4 V0 (no_index (Proc.devRef .tc main_arg39)) = V0 (Proc.devRef .tc main_arg39) :=
  (val4_keep V0 main_arg39 (by decide)).trans (val3_main_arg39 V0)
theorem val4_main_arg40 (V0 : Valuation τ sig (Elt F)) : val4 V0 (no_index (Proc.devRef .tc main_arg40)) = V0 (Proc.devRef .tc main_arg40) :=
  (val4_keep V0 main_arg40 (by decide)).trans (val3_main_arg40 V0)
theorem val4_main_arg41 (V0 : Valuation τ sig (Elt F)) : val4 V0 (no_index (Proc.devRef .tc main_arg41)) = V0 (Proc.devRef .tc main_arg41) :=
  (val4_keep V0 main_arg41 (by decide)).trans (val3_main_arg41 V0)
theorem val4_main_arg42 (V0 : Valuation τ sig (Elt F)) : val4 V0 (no_index (Proc.devRef .tc main_arg42)) = V0 (Proc.devRef .tc main_arg42) :=
  (val4_keep V0 main_arg42 (by decide)).trans (val3_main_arg42 V0)
set_option maxRecDepth 8192 in
set_option maxHeartbeats 2000000 in
theorem val4_main_v30 (V0 : Valuation τ sig (Elt F)) : val4 V0 (no_index (Proc.devRef .tc main_v30)) = E_main_v30 V0 := by
  unfold val4
  simp only [part4]
  after_results_simp
  simp only [val3_main_arg3, val3_main_v22] <;> rfl

/-- The buffer contents after the first 5 stages. -/
def val5 (V0 : Valuation τ sig (Elt F)) : Valuation τ sig (Elt F) := after part5 (val4 V0)
/-- The buffers that stage 5 writes. -/
abbrev part5_W : List (Ref sig .tc) := [main_cst_6, main_v31, main_v32, main_v33, main_cst_7, main_v34, main_cst_8, main_v35, main_v36, main_v37]
set_option maxRecDepth 8192 in
theorem part5_writes : (part5 : List (HloOp τ sig (Elt F))).Forall fun op => op.writes ⊆ (part5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 5 does not write keeps its contents through it. -/
theorem val5_keep (V0 : Valuation τ sig (Elt F)) (r : Ref sig .tc) (h : r ∉ part5_W) :
    val5 V0 (Proc.devRef .tc r) = val4 V0 (Proc.devRef .tc r) :=
  after_of_writes_sub part5 _ part5_writes h
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_arg26 (V0 : Valuation τ sig (Elt F)) : val5 V0 (no_index (Proc.devRef .tc main_arg26)) = V0 (Proc.devRef .tc main_arg26) :=
  (val5_keep V0 main_arg26 (by decide)).trans (val4_main_arg26 V0)
theorem val5_main_arg27 (V0 : Valuation τ sig (Elt F)) : val5 V0 (no_index (Proc.devRef .tc main_arg27)) = V0 (Proc.devRef .tc main_arg27) :=
  (val5_keep V0 main_arg27 (by decide)).trans (val4_main_arg27 V0)
theorem val5_main_arg28 (V0 : Valuation τ sig (Elt F)) : val5 V0 (no_index (Proc.devRef .tc main_arg28)) = V0 (Proc.devRef .tc main_arg28) :=
  (val5_keep V0 main_arg28 (by decide)).trans (val4_main_arg28 V0)
theorem val5_main_arg29 (V0 : Valuation τ sig (Elt F)) : val5 V0 (no_index (Proc.devRef .tc main_arg29)) = V0 (Proc.devRef .tc main_arg29) :=
  (val5_keep V0 main_arg29 (by decide)).trans (val4_main_arg29 V0)
theorem val5_main_arg30 (V0 : Valuation τ sig (Elt F)) : val5 V0 (no_index (Proc.devRef .tc main_arg30)) = V0 (Proc.devRef .tc main_arg30) :=
  (val5_keep V0 main_arg30 (by decide)).trans (val4_main_arg30 V0)
theorem val5_main_arg31 (V0 : Valuation τ sig (Elt F)) : val5 V0 (no_index (Proc.devRef .tc main_arg31)) = V0 (Proc.devRef .tc main_arg31) :=
  (val5_keep V0 main_arg31 (by decide)).trans (val4_main_arg31 V0)
theorem val5_main_arg32 (V0 : Valuation τ sig (Elt F)) : val5 V0 (no_index (Proc.devRef .tc main_arg32)) = V0 (Proc.devRef .tc main_arg32) :=
  (val5_keep V0 main_arg32 (by decide)).trans (val4_main_arg32 V0)
theorem val5_main_arg33 (V0 : Valuation τ sig (Elt F)) : val5 V0 (no_index (Proc.devRef .tc main_arg33)) = V0 (Proc.devRef .tc main_arg33) :=
  (val5_keep V0 main_arg33 (by decide)).trans (val4_main_arg33 V0)
theorem val5_main_arg34 (V0 : Valuation τ sig (Elt F)) : val5 V0 (no_index (Proc.devRef .tc main_arg34)) = V0 (Proc.devRef .tc main_arg34) :=
  (val5_keep V0 main_arg34 (by decide)).trans (val4_main_arg34 V0)
theorem val5_main_arg35 (V0 : Valuation τ sig (Elt F)) : val5 V0 (no_index (Proc.devRef .tc main_arg35)) = V0 (Proc.devRef .tc main_arg35) :=
  (val5_keep V0 main_arg35 (by decide)).trans (val4_main_arg35 V0)
theorem val5_main_arg36 (V0 : Valuation τ sig (Elt F)) : val5 V0 (no_index (Proc.devRef .tc main_arg36)) = V0 (Proc.devRef .tc main_arg36) :=
  (val5_keep V0 main_arg36 (by decide)).trans (val4_main_arg36 V0)
theorem val5_main_arg37 (V0 : Valuation τ sig (Elt F)) : val5 V0 (no_index (Proc.devRef .tc main_arg37)) = V0 (Proc.devRef .tc main_arg37) :=
  (val5_keep V0 main_arg37 (by decide)).trans (val4_main_arg37 V0)
theorem val5_main_arg38 (V0 : Valuation τ sig (Elt F)) : val5 V0 (no_index (Proc.devRef .tc main_arg38)) = V0 (Proc.devRef .tc main_arg38) :=
  (val5_keep V0 main_arg38 (by decide)).trans (val4_main_arg38 V0)
theorem val5_main_arg39 (V0 : Valuation τ sig (Elt F)) : val5 V0 (no_index (Proc.devRef .tc main_arg39)) = V0 (Proc.devRef .tc main_arg39) :=
  (val5_keep V0 main_arg39 (by decide)).trans (val4_main_arg39 V0)
theorem val5_main_arg40 (V0 : Valuation τ sig (Elt F)) : val5 V0 (no_index (Proc.devRef .tc main_arg40)) = V0 (Proc.devRef .tc main_arg40) :=
  (val5_keep V0 main_arg40 (by decide)).trans (val4_main_arg40 V0)
theorem val5_main_arg41 (V0 : Valuation τ sig (Elt F)) : val5 V0 (no_index (Proc.devRef .tc main_arg41)) = V0 (Proc.devRef .tc main_arg41) :=
  (val5_keep V0 main_arg41 (by decide)).trans (val4_main_arg41 V0)
theorem val5_main_arg42 (V0 : Valuation τ sig (Elt F)) : val5 V0 (no_index (Proc.devRef .tc main_arg42)) = V0 (Proc.devRef .tc main_arg42) :=
  (val5_keep V0 main_arg42 (by decide)).trans (val4_main_arg42 V0)
set_option maxRecDepth 8192 in
set_option maxHeartbeats 2000000 in
theorem val5_main_v33 (V0 : Valuation τ sig (Elt F)) : val5 V0 (no_index (Proc.devRef .tc main_v33)) = E_main_v33 V0 := by
  unfold val5
  simp only [part5]
  after_results_simp
  simp only [val4_main_v30, val4_main_arg4] <;> rfl
set_option maxRecDepth 8192 in
set_option maxHeartbeats 2000000 in
theorem val5_main_v37 (V0 : Valuation τ sig (Elt F)) : val5 V0 (no_index (Proc.devRef .tc main_v37)) = E_main_v37 V0 := by
  unfold val5
  simp only [part5]
  after_results_simp
  simp only [val4_main_arg4] <;> rfl

/-- The buffer contents after the first 6 stages. -/
def val6 (V0 : Valuation τ sig (Elt F)) : Valuation τ sig (Elt F) := after part6 (val5 V0)
/-- The buffers that stage 6 writes. -/
abbrev part6_W : List (Ref sig .tc) := [main_cst_9, main_v38, main_v39, main_v40, main_v41, main_v42, main_v43, main_v44, main_v45, main_v46]
set_option maxRecDepth 8192 in
theorem part6_writes : (part6 : List (HloOp τ sig (Elt F))).Forall fun op => op.writes ⊆ (part6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 6 does not write keeps its contents through it. -/
theorem val6_keep (V0 : Valuation τ sig (Elt F)) (r : Ref sig .tc) (h : r ∉ part6_W) :
    val6 V0 (Proc.devRef .tc r) = val5 V0 (Proc.devRef .tc r) :=
  after_of_writes_sub part6 _ part6_writes h
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_arg26 (V0 : Valuation τ sig (Elt F)) : val6 V0 (no_index (Proc.devRef .tc main_arg26)) = V0 (Proc.devRef .tc main_arg26) :=
  (val6_keep V0 main_arg26 (by decide)).trans (val5_main_arg26 V0)
theorem val6_main_arg27 (V0 : Valuation τ sig (Elt F)) : val6 V0 (no_index (Proc.devRef .tc main_arg27)) = V0 (Proc.devRef .tc main_arg27) :=
  (val6_keep V0 main_arg27 (by decide)).trans (val5_main_arg27 V0)
theorem val6_main_arg28 (V0 : Valuation τ sig (Elt F)) : val6 V0 (no_index (Proc.devRef .tc main_arg28)) = V0 (Proc.devRef .tc main_arg28) :=
  (val6_keep V0 main_arg28 (by decide)).trans (val5_main_arg28 V0)
theorem val6_main_arg29 (V0 : Valuation τ sig (Elt F)) : val6 V0 (no_index (Proc.devRef .tc main_arg29)) = V0 (Proc.devRef .tc main_arg29) :=
  (val6_keep V0 main_arg29 (by decide)).trans (val5_main_arg29 V0)
theorem val6_main_arg30 (V0 : Valuation τ sig (Elt F)) : val6 V0 (no_index (Proc.devRef .tc main_arg30)) = V0 (Proc.devRef .tc main_arg30) :=
  (val6_keep V0 main_arg30 (by decide)).trans (val5_main_arg30 V0)
theorem val6_main_arg31 (V0 : Valuation τ sig (Elt F)) : val6 V0 (no_index (Proc.devRef .tc main_arg31)) = V0 (Proc.devRef .tc main_arg31) :=
  (val6_keep V0 main_arg31 (by decide)).trans (val5_main_arg31 V0)
theorem val6_main_arg32 (V0 : Valuation τ sig (Elt F)) : val6 V0 (no_index (Proc.devRef .tc main_arg32)) = V0 (Proc.devRef .tc main_arg32) :=
  (val6_keep V0 main_arg32 (by decide)).trans (val5_main_arg32 V0)
theorem val6_main_arg33 (V0 : Valuation τ sig (Elt F)) : val6 V0 (no_index (Proc.devRef .tc main_arg33)) = V0 (Proc.devRef .tc main_arg33) :=
  (val6_keep V0 main_arg33 (by decide)).trans (val5_main_arg33 V0)
theorem val6_main_arg34 (V0 : Valuation τ sig (Elt F)) : val6 V0 (no_index (Proc.devRef .tc main_arg34)) = V0 (Proc.devRef .tc main_arg34) :=
  (val6_keep V0 main_arg34 (by decide)).trans (val5_main_arg34 V0)
theorem val6_main_arg35 (V0 : Valuation τ sig (Elt F)) : val6 V0 (no_index (Proc.devRef .tc main_arg35)) = V0 (Proc.devRef .tc main_arg35) :=
  (val6_keep V0 main_arg35 (by decide)).trans (val5_main_arg35 V0)
theorem val6_main_arg36 (V0 : Valuation τ sig (Elt F)) : val6 V0 (no_index (Proc.devRef .tc main_arg36)) = V0 (Proc.devRef .tc main_arg36) :=
  (val6_keep V0 main_arg36 (by decide)).trans (val5_main_arg36 V0)
theorem val6_main_arg37 (V0 : Valuation τ sig (Elt F)) : val6 V0 (no_index (Proc.devRef .tc main_arg37)) = V0 (Proc.devRef .tc main_arg37) :=
  (val6_keep V0 main_arg37 (by decide)).trans (val5_main_arg37 V0)
theorem val6_main_arg38 (V0 : Valuation τ sig (Elt F)) : val6 V0 (no_index (Proc.devRef .tc main_arg38)) = V0 (Proc.devRef .tc main_arg38) :=
  (val6_keep V0 main_arg38 (by decide)).trans (val5_main_arg38 V0)
theorem val6_main_arg39 (V0 : Valuation τ sig (Elt F)) : val6 V0 (no_index (Proc.devRef .tc main_arg39)) = V0 (Proc.devRef .tc main_arg39) :=
  (val6_keep V0 main_arg39 (by decide)).trans (val5_main_arg39 V0)
theorem val6_main_arg40 (V0 : Valuation τ sig (Elt F)) : val6 V0 (no_index (Proc.devRef .tc main_arg40)) = V0 (Proc.devRef .tc main_arg40) :=
  (val6_keep V0 main_arg40 (by decide)).trans (val5_main_arg40 V0)
theorem val6_main_arg41 (V0 : Valuation τ sig (Elt F)) : val6 V0 (no_index (Proc.devRef .tc main_arg41)) = V0 (Proc.devRef .tc main_arg41) :=
  (val6_keep V0 main_arg41 (by decide)).trans (val5_main_arg41 V0)
theorem val6_main_arg42 (V0 : Valuation τ sig (Elt F)) : val6 V0 (no_index (Proc.devRef .tc main_arg42)) = V0 (Proc.devRef .tc main_arg42) :=
  (val6_keep V0 main_arg42 (by decide)).trans (val5_main_arg42 V0)
set_option maxRecDepth 8192 in
set_option maxHeartbeats 2000000 in
theorem val6_main_v46 (V0 : Valuation τ sig (Elt F)) : val6 V0 (no_index (Proc.devRef .tc main_v46)) = E_main_v46 V0 := by
  unfold val6
  simp only [part6]
  after_results_simp
  simp only [val5_main_arg9, val5_main_arg8, val5_main_v37, val5_main_v33] <;> rfl

/-- The buffer contents after the first 7 stages. -/
def val7 (V0 : Valuation τ sig (Elt F)) : Valuation τ sig (Elt F) := after part7 (val6 V0)
/-- The buffers that stage 7 writes. -/
abbrev part7_W : List (Ref sig .tc) := [main_call1_cst, main_call1_v0, main_v47, main_cst_10, main_v48, main_cst_11, main_v49, main_v50, main_v51]
set_option maxRecDepth 8192 in
theorem part7_writes : (part7 : List (HloOp τ sig (Elt F))).Forall fun op => op.writes ⊆ (part7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 7 does not write keeps its contents through it. -/
theorem val7_keep (V0 : Valuation τ sig (Elt F)) (r : Ref sig .tc) (h : r ∉ part7_W) :
    val7 V0 (Proc.devRef .tc r) = val6 V0 (Proc.devRef .tc r) :=
  after_of_writes_sub part7 _ part7_writes h
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_arg26 (V0 : Valuation τ sig (Elt F)) : val7 V0 (no_index (Proc.devRef .tc main_arg26)) = V0 (Proc.devRef .tc main_arg26) :=
  (val7_keep V0 main_arg26 (by decide)).trans (val6_main_arg26 V0)
theorem val7_main_arg27 (V0 : Valuation τ sig (Elt F)) : val7 V0 (no_index (Proc.devRef .tc main_arg27)) = V0 (Proc.devRef .tc main_arg27) :=
  (val7_keep V0 main_arg27 (by decide)).trans (val6_main_arg27 V0)
theorem val7_main_arg28 (V0 : Valuation τ sig (Elt F)) : val7 V0 (no_index (Proc.devRef .tc main_arg28)) = V0 (Proc.devRef .tc main_arg28) :=
  (val7_keep V0 main_arg28 (by decide)).trans (val6_main_arg28 V0)
theorem val7_main_arg29 (V0 : Valuation τ sig (Elt F)) : val7 V0 (no_index (Proc.devRef .tc main_arg29)) = V0 (Proc.devRef .tc main_arg29) :=
  (val7_keep V0 main_arg29 (by decide)).trans (val6_main_arg29 V0)
theorem val7_main_arg30 (V0 : Valuation τ sig (Elt F)) : val7 V0 (no_index (Proc.devRef .tc main_arg30)) = V0 (Proc.devRef .tc main_arg30) :=
  (val7_keep V0 main_arg30 (by decide)).trans (val6_main_arg30 V0)
theorem val7_main_arg31 (V0 : Valuation τ sig (Elt F)) : val7 V0 (no_index (Proc.devRef .tc main_arg31)) = V0 (Proc.devRef .tc main_arg31) :=
  (val7_keep V0 main_arg31 (by decide)).trans (val6_main_arg31 V0)
theorem val7_main_arg32 (V0 : Valuation τ sig (Elt F)) : val7 V0 (no_index (Proc.devRef .tc main_arg32)) = V0 (Proc.devRef .tc main_arg32) :=
  (val7_keep V0 main_arg32 (by decide)).trans (val6_main_arg32 V0)
theorem val7_main_arg33 (V0 : Valuation τ sig (Elt F)) : val7 V0 (no_index (Proc.devRef .tc main_arg33)) = V0 (Proc.devRef .tc main_arg33) :=
  (val7_keep V0 main_arg33 (by decide)).trans (val6_main_arg33 V0)
theorem val7_main_arg34 (V0 : Valuation τ sig (Elt F)) : val7 V0 (no_index (Proc.devRef .tc main_arg34)) = V0 (Proc.devRef .tc main_arg34) :=
  (val7_keep V0 main_arg34 (by decide)).trans (val6_main_arg34 V0)
theorem val7_main_arg35 (V0 : Valuation τ sig (Elt F)) : val7 V0 (no_index (Proc.devRef .tc main_arg35)) = V0 (Proc.devRef .tc main_arg35) :=
  (val7_keep V0 main_arg35 (by decide)).trans (val6_main_arg35 V0)
theorem val7_main_arg36 (V0 : Valuation τ sig (Elt F)) : val7 V0 (no_index (Proc.devRef .tc main_arg36)) = V0 (Proc.devRef .tc main_arg36) :=
  (val7_keep V0 main_arg36 (by decide)).trans (val6_main_arg36 V0)
theorem val7_main_arg37 (V0 : Valuation τ sig (Elt F)) : val7 V0 (no_index (Proc.devRef .tc main_arg37)) = V0 (Proc.devRef .tc main_arg37) :=
  (val7_keep V0 main_arg37 (by decide)).trans (val6_main_arg37 V0)
theorem val7_main_arg38 (V0 : Valuation τ sig (Elt F)) : val7 V0 (no_index (Proc.devRef .tc main_arg38)) = V0 (Proc.devRef .tc main_arg38) :=
  (val7_keep V0 main_arg38 (by decide)).trans (val6_main_arg38 V0)
theorem val7_main_arg39 (V0 : Valuation τ sig (Elt F)) : val7 V0 (no_index (Proc.devRef .tc main_arg39)) = V0 (Proc.devRef .tc main_arg39) :=
  (val7_keep V0 main_arg39 (by decide)).trans (val6_main_arg39 V0)
theorem val7_main_arg40 (V0 : Valuation τ sig (Elt F)) : val7 V0 (no_index (Proc.devRef .tc main_arg40)) = V0 (Proc.devRef .tc main_arg40) :=
  (val7_keep V0 main_arg40 (by decide)).trans (val6_main_arg40 V0)
theorem val7_main_arg41 (V0 : Valuation τ sig (Elt F)) : val7 V0 (no_index (Proc.devRef .tc main_arg41)) = V0 (Proc.devRef .tc main_arg41) :=
  (val7_keep V0 main_arg41 (by decide)).trans (val6_main_arg41 V0)
theorem val7_main_arg42 (V0 : Valuation τ sig (Elt F)) : val7 V0 (no_index (Proc.devRef .tc main_arg42)) = V0 (Proc.devRef .tc main_arg42) :=
  (val7_keep V0 main_arg42 (by decide)).trans (val6_main_arg42 V0)
set_option maxRecDepth 8192 in
set_option maxHeartbeats 2000000 in
theorem val7_main_v47 (V0 : Valuation τ sig (Elt F)) : val7 V0 (no_index (Proc.devRef .tc main_v47)) = E_main_v47 V0 := by
  unfold val7
  simp only [part7]
  after_results_simp
  simp only [val6_main_v46] <;> rfl
set_option maxRecDepth 8192 in
set_option maxHeartbeats 2000000 in
theorem val7_main_v51 (V0 : Valuation τ sig (Elt F)) : val7 V0 (no_index (Proc.devRef .tc main_v51)) = E_main_v51 V0 := by
  unfold val7
  simp only [part7]
  after_results_simp
  simp only [val6_main_arg5] <;> rfl

/-- The buffer contents after the first 8 stages. -/
def val8 (V0 : Valuation τ sig (Elt F)) : Valuation τ sig (Elt F) := after part8 (val7 V0)
/-- The buffers that stage 8 writes. -/
abbrev part8_W : List (Ref sig .tc) := [main_cst_12, main_v52, main_v53, main_v54, main_v55, main_v56, main_v57]
set_option maxRecDepth 8192 in
theorem part8_writes : (part8 : List (HloOp τ sig (Elt F))).Forall fun op => op.writes ⊆ (part8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 8 does not write keeps its contents through it. -/
theorem val8_keep (V0 : Valuation τ sig (Elt F)) (r : Ref sig .tc) (h : r ∉ part8_W) :
    val8 V0 (Proc.devRef .tc r) = val7 V0 (Proc.devRef .tc r) :=
  after_of_writes_sub part8 _ part8_writes h
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_arg26 (V0 : Valuation τ sig (Elt F)) : val8 V0 (no_index (Proc.devRef .tc main_arg26)) = V0 (Proc.devRef .tc main_arg26) :=
  (val8_keep V0 main_arg26 (by decide)).trans (val7_main_arg26 V0)
theorem val8_main_arg27 (V0 : Valuation τ sig (Elt F)) : val8 V0 (no_index (Proc.devRef .tc main_arg27)) = V0 (Proc.devRef .tc main_arg27) :=
  (val8_keep V0 main_arg27 (by decide)).trans (val7_main_arg27 V0)
theorem val8_main_arg28 (V0 : Valuation τ sig (Elt F)) : val8 V0 (no_index (Proc.devRef .tc main_arg28)) = V0 (Proc.devRef .tc main_arg28) :=
  (val8_keep V0 main_arg28 (by decide)).trans (val7_main_arg28 V0)
theorem val8_main_arg29 (V0 : Valuation τ sig (Elt F)) : val8 V0 (no_index (Proc.devRef .tc main_arg29)) = V0 (Proc.devRef .tc main_arg29) :=
  (val8_keep V0 main_arg29 (by decide)).trans (val7_main_arg29 V0)
theorem val8_main_arg30 (V0 : Valuation τ sig (Elt F)) : val8 V0 (no_index (Proc.devRef .tc main_arg30)) = V0 (Proc.devRef .tc main_arg30) :=
  (val8_keep V0 main_arg30 (by decide)).trans (val7_main_arg30 V0)
theorem val8_main_arg31 (V0 : Valuation τ sig (Elt F)) : val8 V0 (no_index (Proc.devRef .tc main_arg31)) = V0 (Proc.devRef .tc main_arg31) :=
  (val8_keep V0 main_arg31 (by decide)).trans (val7_main_arg31 V0)
theorem val8_main_arg32 (V0 : Valuation τ sig (Elt F)) : val8 V0 (no_index (Proc.devRef .tc main_arg32)) = V0 (Proc.devRef .tc main_arg32) :=
  (val8_keep V0 main_arg32 (by decide)).trans (val7_main_arg32 V0)
theorem val8_main_arg33 (V0 : Valuation τ sig (Elt F)) : val8 V0 (no_index (Proc.devRef .tc main_arg33)) = V0 (Proc.devRef .tc main_arg33) :=
  (val8_keep V0 main_arg33 (by decide)).trans (val7_main_arg33 V0)
theorem val8_main_arg34 (V0 : Valuation τ sig (Elt F)) : val8 V0 (no_index (Proc.devRef .tc main_arg34)) = V0 (Proc.devRef .tc main_arg34) :=
  (val8_keep V0 main_arg34 (by decide)).trans (val7_main_arg34 V0)
theorem val8_main_arg35 (V0 : Valuation τ sig (Elt F)) : val8 V0 (no_index (Proc.devRef .tc main_arg35)) = V0 (Proc.devRef .tc main_arg35) :=
  (val8_keep V0 main_arg35 (by decide)).trans (val7_main_arg35 V0)
theorem val8_main_arg36 (V0 : Valuation τ sig (Elt F)) : val8 V0 (no_index (Proc.devRef .tc main_arg36)) = V0 (Proc.devRef .tc main_arg36) :=
  (val8_keep V0 main_arg36 (by decide)).trans (val7_main_arg36 V0)
theorem val8_main_arg37 (V0 : Valuation τ sig (Elt F)) : val8 V0 (no_index (Proc.devRef .tc main_arg37)) = V0 (Proc.devRef .tc main_arg37) :=
  (val8_keep V0 main_arg37 (by decide)).trans (val7_main_arg37 V0)
theorem val8_main_arg38 (V0 : Valuation τ sig (Elt F)) : val8 V0 (no_index (Proc.devRef .tc main_arg38)) = V0 (Proc.devRef .tc main_arg38) :=
  (val8_keep V0 main_arg38 (by decide)).trans (val7_main_arg38 V0)
theorem val8_main_arg39 (V0 : Valuation τ sig (Elt F)) : val8 V0 (no_index (Proc.devRef .tc main_arg39)) = V0 (Proc.devRef .tc main_arg39) :=
  (val8_keep V0 main_arg39 (by decide)).trans (val7_main_arg39 V0)
theorem val8_main_arg40 (V0 : Valuation τ sig (Elt F)) : val8 V0 (no_index (Proc.devRef .tc main_arg40)) = V0 (Proc.devRef .tc main_arg40) :=
  (val8_keep V0 main_arg40 (by decide)).trans (val7_main_arg40 V0)
theorem val8_main_arg41 (V0 : Valuation τ sig (Elt F)) : val8 V0 (no_index (Proc.devRef .tc main_arg41)) = V0 (Proc.devRef .tc main_arg41) :=
  (val8_keep V0 main_arg41 (by decide)).trans (val7_main_arg41 V0)
theorem val8_main_arg42 (V0 : Valuation τ sig (Elt F)) : val8 V0 (no_index (Proc.devRef .tc main_arg42)) = V0 (Proc.devRef .tc main_arg42) :=
  (val8_keep V0 main_arg42 (by decide)).trans (val7_main_arg42 V0)
set_option maxRecDepth 8192 in
set_option maxHeartbeats 2000000 in
theorem val8_main_v57 (V0 : Valuation τ sig (Elt F)) : val8 V0 (no_index (Proc.devRef .tc main_v57)) = E_main_v57 V0 := by
  unfold val8
  simp only [part8]
  after_results_simp
  simp only [val7_main_v51, val7_main_v47, val7_main_arg5] <;> rfl

/-- The buffer contents after the first 9 stages. -/
def val9 (V0 : Valuation τ sig (Elt F)) : Valuation τ sig (Elt F) := after part9 (val8 V0)
/-- The buffers that stage 9 writes. -/
abbrev part9_W : List (Ref sig .tc) := [main_v58, main_v59, main_v60, main_v61, main_v62, main_call2_cst, main_call2_v0, main_v63, main_v64, main_v65, main_v66, main_v67]
set_option maxRecDepth 8192 in
theorem part9_writes : (part9 : List (HloOp τ sig (Elt F))).Forall fun op => op.writes ⊆ (part9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 9 does not write keeps its contents through it. -/
theorem val9_keep (V0 : Valuation τ sig (Elt F)) (r : Ref sig .tc) (h : r ∉ part9_W) :
    val9 V0 (Proc.devRef .tc r) = val8 V0 (Proc.devRef .tc r) :=
  after_of_writes_sub part9 _ part9_writes h
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
theorem val9_main_arg26 (V0 : Valuation τ sig (Elt F)) : val9 V0 (no_index (Proc.devRef .tc main_arg26)) = V0 (Proc.devRef .tc main_arg26) :=
  (val9_keep V0 main_arg26 (by decide)).trans (val8_main_arg26 V0)
theorem val9_main_arg27 (V0 : Valuation τ sig (Elt F)) : val9 V0 (no_index (Proc.devRef .tc main_arg27)) = V0 (Proc.devRef .tc main_arg27) :=
  (val9_keep V0 main_arg27 (by decide)).trans (val8_main_arg27 V0)
theorem val9_main_arg28 (V0 : Valuation τ sig (Elt F)) : val9 V0 (no_index (Proc.devRef .tc main_arg28)) = V0 (Proc.devRef .tc main_arg28) :=
  (val9_keep V0 main_arg28 (by decide)).trans (val8_main_arg28 V0)
theorem val9_main_arg29 (V0 : Valuation τ sig (Elt F)) : val9 V0 (no_index (Proc.devRef .tc main_arg29)) = V0 (Proc.devRef .tc main_arg29) :=
  (val9_keep V0 main_arg29 (by decide)).trans (val8_main_arg29 V0)
theorem val9_main_arg30 (V0 : Valuation τ sig (Elt F)) : val9 V0 (no_index (Proc.devRef .tc main_arg30)) = V0 (Proc.devRef .tc main_arg30) :=
  (val9_keep V0 main_arg30 (by decide)).trans (val8_main_arg30 V0)
theorem val9_main_arg31 (V0 : Valuation τ sig (Elt F)) : val9 V0 (no_index (Proc.devRef .tc main_arg31)) = V0 (Proc.devRef .tc main_arg31) :=
  (val9_keep V0 main_arg31 (by decide)).trans (val8_main_arg31 V0)
theorem val9_main_arg32 (V0 : Valuation τ sig (Elt F)) : val9 V0 (no_index (Proc.devRef .tc main_arg32)) = V0 (Proc.devRef .tc main_arg32) :=
  (val9_keep V0 main_arg32 (by decide)).trans (val8_main_arg32 V0)
theorem val9_main_arg33 (V0 : Valuation τ sig (Elt F)) : val9 V0 (no_index (Proc.devRef .tc main_arg33)) = V0 (Proc.devRef .tc main_arg33) :=
  (val9_keep V0 main_arg33 (by decide)).trans (val8_main_arg33 V0)
theorem val9_main_arg34 (V0 : Valuation τ sig (Elt F)) : val9 V0 (no_index (Proc.devRef .tc main_arg34)) = V0 (Proc.devRef .tc main_arg34) :=
  (val9_keep V0 main_arg34 (by decide)).trans (val8_main_arg34 V0)
theorem val9_main_arg35 (V0 : Valuation τ sig (Elt F)) : val9 V0 (no_index (Proc.devRef .tc main_arg35)) = V0 (Proc.devRef .tc main_arg35) :=
  (val9_keep V0 main_arg35 (by decide)).trans (val8_main_arg35 V0)
theorem val9_main_arg36 (V0 : Valuation τ sig (Elt F)) : val9 V0 (no_index (Proc.devRef .tc main_arg36)) = V0 (Proc.devRef .tc main_arg36) :=
  (val9_keep V0 main_arg36 (by decide)).trans (val8_main_arg36 V0)
theorem val9_main_arg37 (V0 : Valuation τ sig (Elt F)) : val9 V0 (no_index (Proc.devRef .tc main_arg37)) = V0 (Proc.devRef .tc main_arg37) :=
  (val9_keep V0 main_arg37 (by decide)).trans (val8_main_arg37 V0)
theorem val9_main_arg38 (V0 : Valuation τ sig (Elt F)) : val9 V0 (no_index (Proc.devRef .tc main_arg38)) = V0 (Proc.devRef .tc main_arg38) :=
  (val9_keep V0 main_arg38 (by decide)).trans (val8_main_arg38 V0)
theorem val9_main_arg39 (V0 : Valuation τ sig (Elt F)) : val9 V0 (no_index (Proc.devRef .tc main_arg39)) = V0 (Proc.devRef .tc main_arg39) :=
  (val9_keep V0 main_arg39 (by decide)).trans (val8_main_arg39 V0)
theorem val9_main_arg40 (V0 : Valuation τ sig (Elt F)) : val9 V0 (no_index (Proc.devRef .tc main_arg40)) = V0 (Proc.devRef .tc main_arg40) :=
  (val9_keep V0 main_arg40 (by decide)).trans (val8_main_arg40 V0)
theorem val9_main_arg41 (V0 : Valuation τ sig (Elt F)) : val9 V0 (no_index (Proc.devRef .tc main_arg41)) = V0 (Proc.devRef .tc main_arg41) :=
  (val9_keep V0 main_arg41 (by decide)).trans (val8_main_arg41 V0)
theorem val9_main_arg42 (V0 : Valuation τ sig (Elt F)) : val9 V0 (no_index (Proc.devRef .tc main_arg42)) = V0 (Proc.devRef .tc main_arg42) :=
  (val9_keep V0 main_arg42 (by decide)).trans (val8_main_arg42 V0)
theorem val9_main_v57 (V0 : Valuation τ sig (Elt F)) : val9 V0 (no_index (Proc.devRef .tc main_v57)) = E_main_v57 V0 :=
  (val9_keep V0 main_v57 (by decide)).trans (val8_main_v57 V0)
set_option maxRecDepth 8192 in
set_option maxHeartbeats 2000000 in
theorem val9_main_v67 (V0 : Valuation τ sig (Elt F)) : val9 V0 (no_index (Proc.devRef .tc main_v67)) = E_main_v67 V0 := by
  unfold val9
  simp only [part9]
  after_results_simp
  try dsimp only [Matrix.cons_val]
  try after_results_simp
  try simp only [val8_main_arg13, val8_main_arg12, val8_main_arg11, val8_main_arg10]
  rw [val8_main_v57, val8_main_arg1, val8_main_arg2]
  rfl

/-- The buffer contents after the first 10 stages. -/
def val10 (V0 : Valuation τ sig (Elt F)) : Valuation τ sig (Elt F) := after part10 (val9 V0)
/-- The buffers that stage 10 writes. -/
abbrev part10_W : List (Ref sig .tc) := [main_cst_13, main_v68, main_cst_14, main_v69, main_v70, main_v71, main_v72, main_v73, main_v74]
set_option maxRecDepth 8192 in
theorem part10_writes : (part10 : List (HloOp τ sig (Elt F))).Forall fun op => op.writes ⊆ (part10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 10 does not write keeps its contents through it. -/
theorem val10_keep (V0 : Valuation τ sig (Elt F)) (r : Ref sig .tc) (h : r ∉ part10_W) :
    val10 V0 (Proc.devRef .tc r) = val9 V0 (Proc.devRef .tc r) :=
  after_of_writes_sub part10 _ part10_writes h
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
theorem val10_main_arg26 (V0 : Valuation τ sig (Elt F)) : val10 V0 (no_index (Proc.devRef .tc main_arg26)) = V0 (Proc.devRef .tc main_arg26) :=
  (val10_keep V0 main_arg26 (by decide)).trans (val9_main_arg26 V0)
theorem val10_main_arg27 (V0 : Valuation τ sig (Elt F)) : val10 V0 (no_index (Proc.devRef .tc main_arg27)) = V0 (Proc.devRef .tc main_arg27) :=
  (val10_keep V0 main_arg27 (by decide)).trans (val9_main_arg27 V0)
theorem val10_main_arg28 (V0 : Valuation τ sig (Elt F)) : val10 V0 (no_index (Proc.devRef .tc main_arg28)) = V0 (Proc.devRef .tc main_arg28) :=
  (val10_keep V0 main_arg28 (by decide)).trans (val9_main_arg28 V0)
theorem val10_main_arg29 (V0 : Valuation τ sig (Elt F)) : val10 V0 (no_index (Proc.devRef .tc main_arg29)) = V0 (Proc.devRef .tc main_arg29) :=
  (val10_keep V0 main_arg29 (by decide)).trans (val9_main_arg29 V0)
theorem val10_main_arg30 (V0 : Valuation τ sig (Elt F)) : val10 V0 (no_index (Proc.devRef .tc main_arg30)) = V0 (Proc.devRef .tc main_arg30) :=
  (val10_keep V0 main_arg30 (by decide)).trans (val9_main_arg30 V0)
theorem val10_main_arg31 (V0 : Valuation τ sig (Elt F)) : val10 V0 (no_index (Proc.devRef .tc main_arg31)) = V0 (Proc.devRef .tc main_arg31) :=
  (val10_keep V0 main_arg31 (by decide)).trans (val9_main_arg31 V0)
theorem val10_main_arg32 (V0 : Valuation τ sig (Elt F)) : val10 V0 (no_index (Proc.devRef .tc main_arg32)) = V0 (Proc.devRef .tc main_arg32) :=
  (val10_keep V0 main_arg32 (by decide)).trans (val9_main_arg32 V0)
theorem val10_main_arg33 (V0 : Valuation τ sig (Elt F)) : val10 V0 (no_index (Proc.devRef .tc main_arg33)) = V0 (Proc.devRef .tc main_arg33) :=
  (val10_keep V0 main_arg33 (by decide)).trans (val9_main_arg33 V0)
theorem val10_main_arg34 (V0 : Valuation τ sig (Elt F)) : val10 V0 (no_index (Proc.devRef .tc main_arg34)) = V0 (Proc.devRef .tc main_arg34) :=
  (val10_keep V0 main_arg34 (by decide)).trans (val9_main_arg34 V0)
theorem val10_main_arg35 (V0 : Valuation τ sig (Elt F)) : val10 V0 (no_index (Proc.devRef .tc main_arg35)) = V0 (Proc.devRef .tc main_arg35) :=
  (val10_keep V0 main_arg35 (by decide)).trans (val9_main_arg35 V0)
theorem val10_main_arg36 (V0 : Valuation τ sig (Elt F)) : val10 V0 (no_index (Proc.devRef .tc main_arg36)) = V0 (Proc.devRef .tc main_arg36) :=
  (val10_keep V0 main_arg36 (by decide)).trans (val9_main_arg36 V0)
theorem val10_main_arg37 (V0 : Valuation τ sig (Elt F)) : val10 V0 (no_index (Proc.devRef .tc main_arg37)) = V0 (Proc.devRef .tc main_arg37) :=
  (val10_keep V0 main_arg37 (by decide)).trans (val9_main_arg37 V0)
theorem val10_main_arg38 (V0 : Valuation τ sig (Elt F)) : val10 V0 (no_index (Proc.devRef .tc main_arg38)) = V0 (Proc.devRef .tc main_arg38) :=
  (val10_keep V0 main_arg38 (by decide)).trans (val9_main_arg38 V0)
theorem val10_main_arg39 (V0 : Valuation τ sig (Elt F)) : val10 V0 (no_index (Proc.devRef .tc main_arg39)) = V0 (Proc.devRef .tc main_arg39) :=
  (val10_keep V0 main_arg39 (by decide)).trans (val9_main_arg39 V0)
theorem val10_main_arg40 (V0 : Valuation τ sig (Elt F)) : val10 V0 (no_index (Proc.devRef .tc main_arg40)) = V0 (Proc.devRef .tc main_arg40) :=
  (val10_keep V0 main_arg40 (by decide)).trans (val9_main_arg40 V0)
theorem val10_main_arg41 (V0 : Valuation τ sig (Elt F)) : val10 V0 (no_index (Proc.devRef .tc main_arg41)) = V0 (Proc.devRef .tc main_arg41) :=
  (val10_keep V0 main_arg41 (by decide)).trans (val9_main_arg41 V0)
theorem val10_main_arg42 (V0 : Valuation τ sig (Elt F)) : val10 V0 (no_index (Proc.devRef .tc main_arg42)) = V0 (Proc.devRef .tc main_arg42) :=
  (val10_keep V0 main_arg42 (by decide)).trans (val9_main_arg42 V0)
theorem val10_main_v57 (V0 : Valuation τ sig (Elt F)) : val10 V0 (no_index (Proc.devRef .tc main_v57)) = E_main_v57 V0 :=
  (val10_keep V0 main_v57 (by decide)).trans (val9_main_v57 V0)
set_option maxRecDepth 8192 in
set_option maxHeartbeats 2000000 in
theorem val10_main_v74 (V0 : Valuation τ sig (Elt F)) : val10 V0 (no_index (Proc.devRef .tc main_v74)) = E_main_v74 V0 := by
  unfold val10
  simp only [part10]
  after_results_simp
  simp only [val9_main_v67] <;> rfl

/-- The buffer contents after the first 11 stages. -/
def val11 (V0 : Valuation τ sig (Elt F)) : Valuation τ sig (Elt F) := after part11 (val10 V0)
/-- The buffers that stage 11 writes. -/
abbrev part11_W : List (Ref sig .tc) := [main_cst_15, main_v75, main_v76, main_v77, main_v78, main_v79, main_v80, main_v81]
set_option maxRecDepth 8192 in
theorem part11_writes : (part11 : List (HloOp τ sig (Elt F))).Forall fun op => op.writes ⊆ (part11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 11 does not write keeps its contents through it. -/
theorem val11_keep (V0 : Valuation τ sig (Elt F)) (r : Ref sig .tc) (h : r ∉ part11_W) :
    val11 V0 (Proc.devRef .tc r) = val10 V0 (Proc.devRef .tc r) :=
  after_of_writes_sub part11 _ part11_writes h
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_arg21 (V0 : Valuation τ sig (Elt F)) : val11 V0 (no_index (Proc.devRef .tc main_arg21)) = V0 (Proc.devRef .tc main_arg21) :=
  (val11_keep V0 main_arg21 (by decide)).trans (val10_main_arg21 V0)
theorem val11_main_arg22 (V0 : Valuation τ sig (Elt F)) : val11 V0 (no_index (Proc.devRef .tc main_arg22)) = V0 (Proc.devRef .tc main_arg22) :=
  (val11_keep V0 main_arg22 (by decide)).trans (val10_main_arg22 V0)
theorem val11_main_arg23 (V0 : Valuation τ sig (Elt F)) : val11 V0 (no_index (Proc.devRef .tc main_arg23)) = V0 (Proc.devRef .tc main_arg23) :=
  (val11_keep V0 main_arg23 (by decide)).trans (val10_main_arg23 V0)
theorem val11_main_arg24 (V0 : Valuation τ sig (Elt F)) : val11 V0 (no_index (Proc.devRef .tc main_arg24)) = V0 (Proc.devRef .tc main_arg24) :=
  (val11_keep V0 main_arg24 (by decide)).trans (val10_main_arg24 V0)
theorem val11_main_arg25 (V0 : Valuation τ sig (Elt F)) : val11 V0 (no_index (Proc.devRef .tc main_arg25)) = V0 (Proc.devRef .tc main_arg25) :=
  (val11_keep V0 main_arg25 (by decide)).trans (val10_main_arg25 V0)
theorem val11_main_arg26 (V0 : Valuation τ sig (Elt F)) : val11 V0 (no_index (Proc.devRef .tc main_arg26)) = V0 (Proc.devRef .tc main_arg26) :=
  (val11_keep V0 main_arg26 (by decide)).trans (val10_main_arg26 V0)
theorem val11_main_arg27 (V0 : Valuation τ sig (Elt F)) : val11 V0 (no_index (Proc.devRef .tc main_arg27)) = V0 (Proc.devRef .tc main_arg27) :=
  (val11_keep V0 main_arg27 (by decide)).trans (val10_main_arg27 V0)
theorem val11_main_arg28 (V0 : Valuation τ sig (Elt F)) : val11 V0 (no_index (Proc.devRef .tc main_arg28)) = V0 (Proc.devRef .tc main_arg28) :=
  (val11_keep V0 main_arg28 (by decide)).trans (val10_main_arg28 V0)
theorem val11_main_arg29 (V0 : Valuation τ sig (Elt F)) : val11 V0 (no_index (Proc.devRef .tc main_arg29)) = V0 (Proc.devRef .tc main_arg29) :=
  (val11_keep V0 main_arg29 (by decide)).trans (val10_main_arg29 V0)
theorem val11_main_arg30 (V0 : Valuation τ sig (Elt F)) : val11 V0 (no_index (Proc.devRef .tc main_arg30)) = V0 (Proc.devRef .tc main_arg30) :=
  (val11_keep V0 main_arg30 (by decide)).trans (val10_main_arg30 V0)
theorem val11_main_arg31 (V0 : Valuation τ sig (Elt F)) : val11 V0 (no_index (Proc.devRef .tc main_arg31)) = V0 (Proc.devRef .tc main_arg31) :=
  (val11_keep V0 main_arg31 (by decide)).trans (val10_main_arg31 V0)
theorem val11_main_arg32 (V0 : Valuation τ sig (Elt F)) : val11 V0 (no_index (Proc.devRef .tc main_arg32)) = V0 (Proc.devRef .tc main_arg32) :=
  (val11_keep V0 main_arg32 (by decide)).trans (val10_main_arg32 V0)
theorem val11_main_arg33 (V0 : Valuation τ sig (Elt F)) : val11 V0 (no_index (Proc.devRef .tc main_arg33)) = V0 (Proc.devRef .tc main_arg33) :=
  (val11_keep V0 main_arg33 (by decide)).trans (val10_main_arg33 V0)
theorem val11_main_arg34 (V0 : Valuation τ sig (Elt F)) : val11 V0 (no_index (Proc.devRef .tc main_arg34)) = V0 (Proc.devRef .tc main_arg34) :=
  (val11_keep V0 main_arg34 (by decide)).trans (val10_main_arg34 V0)
theorem val11_main_arg35 (V0 : Valuation τ sig (Elt F)) : val11 V0 (no_index (Proc.devRef .tc main_arg35)) = V0 (Proc.devRef .tc main_arg35) :=
  (val11_keep V0 main_arg35 (by decide)).trans (val10_main_arg35 V0)
theorem val11_main_arg36 (V0 : Valuation τ sig (Elt F)) : val11 V0 (no_index (Proc.devRef .tc main_arg36)) = V0 (Proc.devRef .tc main_arg36) :=
  (val11_keep V0 main_arg36 (by decide)).trans (val10_main_arg36 V0)
theorem val11_main_arg37 (V0 : Valuation τ sig (Elt F)) : val11 V0 (no_index (Proc.devRef .tc main_arg37)) = V0 (Proc.devRef .tc main_arg37) :=
  (val11_keep V0 main_arg37 (by decide)).trans (val10_main_arg37 V0)
theorem val11_main_arg38 (V0 : Valuation τ sig (Elt F)) : val11 V0 (no_index (Proc.devRef .tc main_arg38)) = V0 (Proc.devRef .tc main_arg38) :=
  (val11_keep V0 main_arg38 (by decide)).trans (val10_main_arg38 V0)
theorem val11_main_arg39 (V0 : Valuation τ sig (Elt F)) : val11 V0 (no_index (Proc.devRef .tc main_arg39)) = V0 (Proc.devRef .tc main_arg39) :=
  (val11_keep V0 main_arg39 (by decide)).trans (val10_main_arg39 V0)
theorem val11_main_arg40 (V0 : Valuation τ sig (Elt F)) : val11 V0 (no_index (Proc.devRef .tc main_arg40)) = V0 (Proc.devRef .tc main_arg40) :=
  (val11_keep V0 main_arg40 (by decide)).trans (val10_main_arg40 V0)
theorem val11_main_arg41 (V0 : Valuation τ sig (Elt F)) : val11 V0 (no_index (Proc.devRef .tc main_arg41)) = V0 (Proc.devRef .tc main_arg41) :=
  (val11_keep V0 main_arg41 (by decide)).trans (val10_main_arg41 V0)
theorem val11_main_arg42 (V0 : Valuation τ sig (Elt F)) : val11 V0 (no_index (Proc.devRef .tc main_arg42)) = V0 (Proc.devRef .tc main_arg42) :=
  (val11_keep V0 main_arg42 (by decide)).trans (val10_main_arg42 V0)
set_option maxRecDepth 8192 in
set_option maxHeartbeats 2000000 in
theorem val11_main_v78 (V0 : Valuation τ sig (Elt F)) : val11 V0 (no_index (Proc.devRef .tc main_v78)) = E_main_v78 V0 := by
  unfold val11
  simp only [part11]
  after_results_simp
  simp only [val10_main_v74] <;> rfl
set_option maxRecDepth 8192 in
set_option maxHeartbeats 2000000 in
theorem val11_main_v81 (V0 : Valuation τ sig (Elt F)) : val11 V0 (no_index (Proc.devRef .tc main_v81)) = E_main_v81 V0 := by
  unfold val11
  simp only [part11]
  after_results_simp
  simp only [val10_main_v74, val10_main_v57] <;> rfl

/-- The buffer contents after the first 12 stages. -/
def val12 (V0 : Valuation τ sig (Elt F)) : Valuation τ sig (Elt F) := after part12 (val11 V0)
/-- The buffers that stage 12 writes. -/
abbrev part12_W : List (Ref sig .tc) := [main_v82, main_v83, main_v84, main_v85, main_v86, main_v87]
set_option maxRecDepth 8192 in
theorem part12_writes : (part12 : List (HloOp τ sig (Elt F))).Forall fun op => op.writes ⊆ (part12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 12 does not write keeps its contents through it. -/
theorem val12_keep (V0 : Valuation τ sig (Elt F)) (r : Ref sig .tc) (h : r ∉ part12_W) :
    val12 V0 (Proc.devRef .tc r) = val11 V0 (Proc.devRef .tc r) :=
  after_of_writes_sub part12 _ part12_writes h
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_arg20 (V0 : Valuation τ sig (Elt F)) : val12 V0 (no_index (Proc.devRef .tc main_arg20)) = V0 (Proc.devRef .tc main_arg20) :=
  (val12_keep V0 main_arg20 (by decide)).trans (val11_main_arg20 V0)
theorem val12_main_arg21 (V0 : Valuation τ sig (Elt F)) : val12 V0 (no_index (Proc.devRef .tc main_arg21)) = V0 (Proc.devRef .tc main_arg21) :=
  (val12_keep V0 main_arg21 (by decide)).trans (val11_main_arg21 V0)
theorem val12_main_arg22 (V0 : Valuation τ sig (Elt F)) : val12 V0 (no_index (Proc.devRef .tc main_arg22)) = V0 (Proc.devRef .tc main_arg22) :=
  (val12_keep V0 main_arg22 (by decide)).trans (val11_main_arg22 V0)
theorem val12_main_arg23 (V0 : Valuation τ sig (Elt F)) : val12 V0 (no_index (Proc.devRef .tc main_arg23)) = V0 (Proc.devRef .tc main_arg23) :=
  (val12_keep V0 main_arg23 (by decide)).trans (val11_main_arg23 V0)
theorem val12_main_arg24 (V0 : Valuation τ sig (Elt F)) : val12 V0 (no_index (Proc.devRef .tc main_arg24)) = V0 (Proc.devRef .tc main_arg24) :=
  (val12_keep V0 main_arg24 (by decide)).trans (val11_main_arg24 V0)
theorem val12_main_arg25 (V0 : Valuation τ sig (Elt F)) : val12 V0 (no_index (Proc.devRef .tc main_arg25)) = V0 (Proc.devRef .tc main_arg25) :=
  (val12_keep V0 main_arg25 (by decide)).trans (val11_main_arg25 V0)
theorem val12_main_arg26 (V0 : Valuation τ sig (Elt F)) : val12 V0 (no_index (Proc.devRef .tc main_arg26)) = V0 (Proc.devRef .tc main_arg26) :=
  (val12_keep V0 main_arg26 (by decide)).trans (val11_main_arg26 V0)
theorem val12_main_arg27 (V0 : Valuation τ sig (Elt F)) : val12 V0 (no_index (Proc.devRef .tc main_arg27)) = V0 (Proc.devRef .tc main_arg27) :=
  (val12_keep V0 main_arg27 (by decide)).trans (val11_main_arg27 V0)
theorem val12_main_arg28 (V0 : Valuation τ sig (Elt F)) : val12 V0 (no_index (Proc.devRef .tc main_arg28)) = V0 (Proc.devRef .tc main_arg28) :=
  (val12_keep V0 main_arg28 (by decide)).trans (val11_main_arg28 V0)
theorem val12_main_arg29 (V0 : Valuation τ sig (Elt F)) : val12 V0 (no_index (Proc.devRef .tc main_arg29)) = V0 (Proc.devRef .tc main_arg29) :=
  (val12_keep V0 main_arg29 (by decide)).trans (val11_main_arg29 V0)
theorem val12_main_arg30 (V0 : Valuation τ sig (Elt F)) : val12 V0 (no_index (Proc.devRef .tc main_arg30)) = V0 (Proc.devRef .tc main_arg30) :=
  (val12_keep V0 main_arg30 (by decide)).trans (val11_main_arg30 V0)
theorem val12_main_arg31 (V0 : Valuation τ sig (Elt F)) : val12 V0 (no_index (Proc.devRef .tc main_arg31)) = V0 (Proc.devRef .tc main_arg31) :=
  (val12_keep V0 main_arg31 (by decide)).trans (val11_main_arg31 V0)
theorem val12_main_arg32 (V0 : Valuation τ sig (Elt F)) : val12 V0 (no_index (Proc.devRef .tc main_arg32)) = V0 (Proc.devRef .tc main_arg32) :=
  (val12_keep V0 main_arg32 (by decide)).trans (val11_main_arg32 V0)
theorem val12_main_arg33 (V0 : Valuation τ sig (Elt F)) : val12 V0 (no_index (Proc.devRef .tc main_arg33)) = V0 (Proc.devRef .tc main_arg33) :=
  (val12_keep V0 main_arg33 (by decide)).trans (val11_main_arg33 V0)
theorem val12_main_arg34 (V0 : Valuation τ sig (Elt F)) : val12 V0 (no_index (Proc.devRef .tc main_arg34)) = V0 (Proc.devRef .tc main_arg34) :=
  (val12_keep V0 main_arg34 (by decide)).trans (val11_main_arg34 V0)
theorem val12_main_arg35 (V0 : Valuation τ sig (Elt F)) : val12 V0 (no_index (Proc.devRef .tc main_arg35)) = V0 (Proc.devRef .tc main_arg35) :=
  (val12_keep V0 main_arg35 (by decide)).trans (val11_main_arg35 V0)
theorem val12_main_arg36 (V0 : Valuation τ sig (Elt F)) : val12 V0 (no_index (Proc.devRef .tc main_arg36)) = V0 (Proc.devRef .tc main_arg36) :=
  (val12_keep V0 main_arg36 (by decide)).trans (val11_main_arg36 V0)
theorem val12_main_arg37 (V0 : Valuation τ sig (Elt F)) : val12 V0 (no_index (Proc.devRef .tc main_arg37)) = V0 (Proc.devRef .tc main_arg37) :=
  (val12_keep V0 main_arg37 (by decide)).trans (val11_main_arg37 V0)
theorem val12_main_arg38 (V0 : Valuation τ sig (Elt F)) : val12 V0 (no_index (Proc.devRef .tc main_arg38)) = V0 (Proc.devRef .tc main_arg38) :=
  (val12_keep V0 main_arg38 (by decide)).trans (val11_main_arg38 V0)
theorem val12_main_arg39 (V0 : Valuation τ sig (Elt F)) : val12 V0 (no_index (Proc.devRef .tc main_arg39)) = V0 (Proc.devRef .tc main_arg39) :=
  (val12_keep V0 main_arg39 (by decide)).trans (val11_main_arg39 V0)
theorem val12_main_arg40 (V0 : Valuation τ sig (Elt F)) : val12 V0 (no_index (Proc.devRef .tc main_arg40)) = V0 (Proc.devRef .tc main_arg40) :=
  (val12_keep V0 main_arg40 (by decide)).trans (val11_main_arg40 V0)
theorem val12_main_arg41 (V0 : Valuation τ sig (Elt F)) : val12 V0 (no_index (Proc.devRef .tc main_arg41)) = V0 (Proc.devRef .tc main_arg41) :=
  (val12_keep V0 main_arg41 (by decide)).trans (val11_main_arg41 V0)
theorem val12_main_arg42 (V0 : Valuation τ sig (Elt F)) : val12 V0 (no_index (Proc.devRef .tc main_arg42)) = V0 (Proc.devRef .tc main_arg42) :=
  (val12_keep V0 main_arg42 (by decide)).trans (val11_main_arg42 V0)
theorem val12_main_v81 (V0 : Valuation τ sig (Elt F)) : val12 V0 (no_index (Proc.devRef .tc main_v81)) = E_main_v81 V0 :=
  (val12_keep V0 main_v81 (by decide)).trans (val11_main_v81 V0)
set_option maxRecDepth 8192 in
set_option maxHeartbeats 2000000 in
theorem val12_main_v84 (V0 : Valuation τ sig (Elt F)) : val12 V0 (no_index (Proc.devRef .tc main_v84)) = E_main_v84 V0 := by
  unfold val12
  simp only [part12]
  after_results_simp
  simp only [val11_main_v78, val11_main_arg1] <;> rfl
set_option maxRecDepth 8192 in
set_option maxHeartbeats 2000000 in
theorem val12_main_v87 (V0 : Valuation τ sig (Elt F)) : val12 V0 (no_index (Proc.devRef .tc main_v87)) = E_main_v87 V0 := by
  unfold val12
  simp only [part12]
  after_results_simp
  simp only [val11_main_v78, val11_main_arg2] <;> rfl

/-- The buffer contents after the first 13 stages. -/
def val13 (V0 : Valuation τ sig (Elt F)) : Valuation τ sig (Elt F) := after part13 (val12 V0)
/-- The buffers that stage 13 writes. -/
abbrev part13_W : List (Ref sig .tc) := [main_v88, main_v89, main_v90, main_v91, main_cst_16, main_v92, main_v93, main_cst_17, main_v94, main_v95]
set_option maxRecDepth 8192 in
theorem part13_writes : (part13 : List (HloOp τ sig (Elt F))).Forall fun op => op.writes ⊆ (part13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 13 does not write keeps its contents through it. -/
theorem val13_keep (V0 : Valuation τ sig (Elt F)) (r : Ref sig .tc) (h : r ∉ part13_W) :
    val13 V0 (Proc.devRef .tc r) = val12 V0 (Proc.devRef .tc r) :=
  after_of_writes_sub part13 _ part13_writes h
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_arg18 (V0 : Valuation τ sig (Elt F)) : val13 V0 (no_index (Proc.devRef .tc main_arg18)) = V0 (Proc.devRef .tc main_arg18) :=
  (val13_keep V0 main_arg18 (by decide)).trans (val12_main_arg18 V0)
theorem val13_main_arg19 (V0 : Valuation τ sig (Elt F)) : val13 V0 (no_index (Proc.devRef .tc main_arg19)) = V0 (Proc.devRef .tc main_arg19) :=
  (val13_keep V0 main_arg19 (by decide)).trans (val12_main_arg19 V0)
theorem val13_main_arg20 (V0 : Valuation τ sig (Elt F)) : val13 V0 (no_index (Proc.devRef .tc main_arg20)) = V0 (Proc.devRef .tc main_arg20) :=
  (val13_keep V0 main_arg20 (by decide)).trans (val12_main_arg20 V0)
theorem val13_main_arg21 (V0 : Valuation τ sig (Elt F)) : val13 V0 (no_index (Proc.devRef .tc main_arg21)) = V0 (Proc.devRef .tc main_arg21) :=
  (val13_keep V0 main_arg21 (by decide)).trans (val12_main_arg21 V0)
theorem val13_main_arg22 (V0 : Valuation τ sig (Elt F)) : val13 V0 (no_index (Proc.devRef .tc main_arg22)) = V0 (Proc.devRef .tc main_arg22) :=
  (val13_keep V0 main_arg22 (by decide)).trans (val12_main_arg22 V0)
theorem val13_main_arg23 (V0 : Valuation τ sig (Elt F)) : val13 V0 (no_index (Proc.devRef .tc main_arg23)) = V0 (Proc.devRef .tc main_arg23) :=
  (val13_keep V0 main_arg23 (by decide)).trans (val12_main_arg23 V0)
theorem val13_main_arg24 (V0 : Valuation τ sig (Elt F)) : val13 V0 (no_index (Proc.devRef .tc main_arg24)) = V0 (Proc.devRef .tc main_arg24) :=
  (val13_keep V0 main_arg24 (by decide)).trans (val12_main_arg24 V0)
theorem val13_main_arg25 (V0 : Valuation τ sig (Elt F)) : val13 V0 (no_index (Proc.devRef .tc main_arg25)) = V0 (Proc.devRef .tc main_arg25) :=
  (val13_keep V0 main_arg25 (by decide)).trans (val12_main_arg25 V0)
theorem val13_main_arg26 (V0 : Valuation τ sig (Elt F)) : val13 V0 (no_index (Proc.devRef .tc main_arg26)) = V0 (Proc.devRef .tc main_arg26) :=
  (val13_keep V0 main_arg26 (by decide)).trans (val12_main_arg26 V0)
theorem val13_main_arg27 (V0 : Valuation τ sig (Elt F)) : val13 V0 (no_index (Proc.devRef .tc main_arg27)) = V0 (Proc.devRef .tc main_arg27) :=
  (val13_keep V0 main_arg27 (by decide)).trans (val12_main_arg27 V0)
theorem val13_main_arg28 (V0 : Valuation τ sig (Elt F)) : val13 V0 (no_index (Proc.devRef .tc main_arg28)) = V0 (Proc.devRef .tc main_arg28) :=
  (val13_keep V0 main_arg28 (by decide)).trans (val12_main_arg28 V0)
theorem val13_main_arg29 (V0 : Valuation τ sig (Elt F)) : val13 V0 (no_index (Proc.devRef .tc main_arg29)) = V0 (Proc.devRef .tc main_arg29) :=
  (val13_keep V0 main_arg29 (by decide)).trans (val12_main_arg29 V0)
theorem val13_main_arg30 (V0 : Valuation τ sig (Elt F)) : val13 V0 (no_index (Proc.devRef .tc main_arg30)) = V0 (Proc.devRef .tc main_arg30) :=
  (val13_keep V0 main_arg30 (by decide)).trans (val12_main_arg30 V0)
theorem val13_main_arg31 (V0 : Valuation τ sig (Elt F)) : val13 V0 (no_index (Proc.devRef .tc main_arg31)) = V0 (Proc.devRef .tc main_arg31) :=
  (val13_keep V0 main_arg31 (by decide)).trans (val12_main_arg31 V0)
theorem val13_main_arg32 (V0 : Valuation τ sig (Elt F)) : val13 V0 (no_index (Proc.devRef .tc main_arg32)) = V0 (Proc.devRef .tc main_arg32) :=
  (val13_keep V0 main_arg32 (by decide)).trans (val12_main_arg32 V0)
theorem val13_main_arg33 (V0 : Valuation τ sig (Elt F)) : val13 V0 (no_index (Proc.devRef .tc main_arg33)) = V0 (Proc.devRef .tc main_arg33) :=
  (val13_keep V0 main_arg33 (by decide)).trans (val12_main_arg33 V0)
theorem val13_main_arg34 (V0 : Valuation τ sig (Elt F)) : val13 V0 (no_index (Proc.devRef .tc main_arg34)) = V0 (Proc.devRef .tc main_arg34) :=
  (val13_keep V0 main_arg34 (by decide)).trans (val12_main_arg34 V0)
theorem val13_main_arg35 (V0 : Valuation τ sig (Elt F)) : val13 V0 (no_index (Proc.devRef .tc main_arg35)) = V0 (Proc.devRef .tc main_arg35) :=
  (val13_keep V0 main_arg35 (by decide)).trans (val12_main_arg35 V0)
theorem val13_main_arg36 (V0 : Valuation τ sig (Elt F)) : val13 V0 (no_index (Proc.devRef .tc main_arg36)) = V0 (Proc.devRef .tc main_arg36) :=
  (val13_keep V0 main_arg36 (by decide)).trans (val12_main_arg36 V0)
theorem val13_main_arg37 (V0 : Valuation τ sig (Elt F)) : val13 V0 (no_index (Proc.devRef .tc main_arg37)) = V0 (Proc.devRef .tc main_arg37) :=
  (val13_keep V0 main_arg37 (by decide)).trans (val12_main_arg37 V0)
theorem val13_main_arg38 (V0 : Valuation τ sig (Elt F)) : val13 V0 (no_index (Proc.devRef .tc main_arg38)) = V0 (Proc.devRef .tc main_arg38) :=
  (val13_keep V0 main_arg38 (by decide)).trans (val12_main_arg38 V0)
theorem val13_main_arg39 (V0 : Valuation τ sig (Elt F)) : val13 V0 (no_index (Proc.devRef .tc main_arg39)) = V0 (Proc.devRef .tc main_arg39) :=
  (val13_keep V0 main_arg39 (by decide)).trans (val12_main_arg39 V0)
theorem val13_main_arg40 (V0 : Valuation τ sig (Elt F)) : val13 V0 (no_index (Proc.devRef .tc main_arg40)) = V0 (Proc.devRef .tc main_arg40) :=
  (val13_keep V0 main_arg40 (by decide)).trans (val12_main_arg40 V0)
theorem val13_main_arg41 (V0 : Valuation τ sig (Elt F)) : val13 V0 (no_index (Proc.devRef .tc main_arg41)) = V0 (Proc.devRef .tc main_arg41) :=
  (val13_keep V0 main_arg41 (by decide)).trans (val12_main_arg41 V0)
theorem val13_main_arg42 (V0 : Valuation τ sig (Elt F)) : val13 V0 (no_index (Proc.devRef .tc main_arg42)) = V0 (Proc.devRef .tc main_arg42) :=
  (val13_keep V0 main_arg42 (by decide)).trans (val12_main_arg42 V0)
theorem val13_main_v81 (V0 : Valuation τ sig (Elt F)) : val13 V0 (no_index (Proc.devRef .tc main_v81)) = E_main_v81 V0 :=
  (val13_keep V0 main_v81 (by decide)).trans (val12_main_v81 V0)
theorem val13_main_v84 (V0 : Valuation τ sig (Elt F)) : val13 V0 (no_index (Proc.devRef .tc main_v84)) = E_main_v84 V0 :=
  (val13_keep V0 main_v84 (by decide)).trans (val12_main_v84 V0)
theorem val13_main_v87 (V0 : Valuation τ sig (Elt F)) : val13 V0 (no_index (Proc.devRef .tc main_v87)) = E_main_v87 V0 :=
  (val13_keep V0 main_v87 (by decide)).trans (val12_main_v87 V0)
set_option maxRecDepth 8192 in
set_option maxHeartbeats 2000000 in
theorem val13_main_v91 (V0 : Valuation τ sig (Elt F)) : val13 V0 (no_index (Proc.devRef .tc main_v91)) = E_main_v91 V0 := by
  unfold val13
  simp only [part13]
  after_results_simp
  simp only [val12_main_arg15, val12_main_arg14, val12_main_v81] <;> rfl
set_option maxRecDepth 8192 in
set_option maxHeartbeats 2000000 in
theorem val13_main_v95 (V0 : Valuation τ sig (Elt F)) : val13 V0 (no_index (Proc.devRef .tc main_v95)) = E_main_v95 V0 := by
  unfold val13
  simp only [part13]
  after_results_simp
  simp only [val12_main_arg15, val12_main_arg14, val12_main_v81] <;> rfl

/-- The buffer contents after the first 14 stages. -/
def val14 (V0 : Valuation τ sig (Elt F)) : Valuation τ sig (Elt F) := after part14 (val13 V0)
/-- The buffers that stage 14 writes. -/
abbrev part14_W : List (Ref sig .tc) := [main_v96, main_v97, main_v98, main_cst_18, main_v99, main_v100, main_cst_19, main_v101, main_v102, main_v103, main_v104]
set_option maxRecDepth 8192 in
theorem part14_writes : (part14 : List (HloOp τ sig (Elt F))).Forall fun op => op.writes ⊆ (part14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 14 does not write keeps its contents through it. -/
theorem val14_keep (V0 : Valuation τ sig (Elt F)) (r : Ref sig .tc) (h : r ∉ part14_W) :
    val14 V0 (Proc.devRef .tc r) = val13 V0 (Proc.devRef .tc r) :=
  after_of_writes_sub part14 _ part14_writes h
theorem val14_main_arg16 (V0 : Valuation τ sig (Elt F)) : val14 V0 (no_index (Proc.devRef .tc main_arg16)) = V0 (Proc.devRef .tc main_arg16) :=
  (val14_keep V0 main_arg16 (by decide)).trans (val13_main_arg16 V0)
theorem val14_main_arg17 (V0 : Valuation τ sig (Elt F)) : val14 V0 (no_index (Proc.devRef .tc main_arg17)) = V0 (Proc.devRef .tc main_arg17) :=
  (val14_keep V0 main_arg17 (by decide)).trans (val13_main_arg17 V0)
theorem val14_main_arg18 (V0 : Valuation τ sig (Elt F)) : val14 V0 (no_index (Proc.devRef .tc main_arg18)) = V0 (Proc.devRef .tc main_arg18) :=
  (val14_keep V0 main_arg18 (by decide)).trans (val13_main_arg18 V0)
theorem val14_main_arg19 (V0 : Valuation τ sig (Elt F)) : val14 V0 (no_index (Proc.devRef .tc main_arg19)) = V0 (Proc.devRef .tc main_arg19) :=
  (val14_keep V0 main_arg19 (by decide)).trans (val13_main_arg19 V0)
theorem val14_main_arg20 (V0 : Valuation τ sig (Elt F)) : val14 V0 (no_index (Proc.devRef .tc main_arg20)) = V0 (Proc.devRef .tc main_arg20) :=
  (val14_keep V0 main_arg20 (by decide)).trans (val13_main_arg20 V0)
theorem val14_main_arg21 (V0 : Valuation τ sig (Elt F)) : val14 V0 (no_index (Proc.devRef .tc main_arg21)) = V0 (Proc.devRef .tc main_arg21) :=
  (val14_keep V0 main_arg21 (by decide)).trans (val13_main_arg21 V0)
theorem val14_main_arg22 (V0 : Valuation τ sig (Elt F)) : val14 V0 (no_index (Proc.devRef .tc main_arg22)) = V0 (Proc.devRef .tc main_arg22) :=
  (val14_keep V0 main_arg22 (by decide)).trans (val13_main_arg22 V0)
theorem val14_main_arg23 (V0 : Valuation τ sig (Elt F)) : val14 V0 (no_index (Proc.devRef .tc main_arg23)) = V0 (Proc.devRef .tc main_arg23) :=
  (val14_keep V0 main_arg23 (by decide)).trans (val13_main_arg23 V0)
theorem val14_main_arg24 (V0 : Valuation τ sig (Elt F)) : val14 V0 (no_index (Proc.devRef .tc main_arg24)) = V0 (Proc.devRef .tc main_arg24) :=
  (val14_keep V0 main_arg24 (by decide)).trans (val13_main_arg24 V0)
theorem val14_main_arg25 (V0 : Valuation τ sig (Elt F)) : val14 V0 (no_index (Proc.devRef .tc main_arg25)) = V0 (Proc.devRef .tc main_arg25) :=
  (val14_keep V0 main_arg25 (by decide)).trans (val13_main_arg25 V0)
theorem val14_main_arg26 (V0 : Valuation τ sig (Elt F)) : val14 V0 (no_index (Proc.devRef .tc main_arg26)) = V0 (Proc.devRef .tc main_arg26) :=
  (val14_keep V0 main_arg26 (by decide)).trans (val13_main_arg26 V0)
theorem val14_main_arg27 (V0 : Valuation τ sig (Elt F)) : val14 V0 (no_index (Proc.devRef .tc main_arg27)) = V0 (Proc.devRef .tc main_arg27) :=
  (val14_keep V0 main_arg27 (by decide)).trans (val13_main_arg27 V0)
theorem val14_main_arg28 (V0 : Valuation τ sig (Elt F)) : val14 V0 (no_index (Proc.devRef .tc main_arg28)) = V0 (Proc.devRef .tc main_arg28) :=
  (val14_keep V0 main_arg28 (by decide)).trans (val13_main_arg28 V0)
theorem val14_main_arg29 (V0 : Valuation τ sig (Elt F)) : val14 V0 (no_index (Proc.devRef .tc main_arg29)) = V0 (Proc.devRef .tc main_arg29) :=
  (val14_keep V0 main_arg29 (by decide)).trans (val13_main_arg29 V0)
theorem val14_main_arg30 (V0 : Valuation τ sig (Elt F)) : val14 V0 (no_index (Proc.devRef .tc main_arg30)) = V0 (Proc.devRef .tc main_arg30) :=
  (val14_keep V0 main_arg30 (by decide)).trans (val13_main_arg30 V0)
theorem val14_main_arg31 (V0 : Valuation τ sig (Elt F)) : val14 V0 (no_index (Proc.devRef .tc main_arg31)) = V0 (Proc.devRef .tc main_arg31) :=
  (val14_keep V0 main_arg31 (by decide)).trans (val13_main_arg31 V0)
theorem val14_main_arg32 (V0 : Valuation τ sig (Elt F)) : val14 V0 (no_index (Proc.devRef .tc main_arg32)) = V0 (Proc.devRef .tc main_arg32) :=
  (val14_keep V0 main_arg32 (by decide)).trans (val13_main_arg32 V0)
theorem val14_main_arg33 (V0 : Valuation τ sig (Elt F)) : val14 V0 (no_index (Proc.devRef .tc main_arg33)) = V0 (Proc.devRef .tc main_arg33) :=
  (val14_keep V0 main_arg33 (by decide)).trans (val13_main_arg33 V0)
theorem val14_main_arg34 (V0 : Valuation τ sig (Elt F)) : val14 V0 (no_index (Proc.devRef .tc main_arg34)) = V0 (Proc.devRef .tc main_arg34) :=
  (val14_keep V0 main_arg34 (by decide)).trans (val13_main_arg34 V0)
theorem val14_main_arg35 (V0 : Valuation τ sig (Elt F)) : val14 V0 (no_index (Proc.devRef .tc main_arg35)) = V0 (Proc.devRef .tc main_arg35) :=
  (val14_keep V0 main_arg35 (by decide)).trans (val13_main_arg35 V0)
theorem val14_main_arg36 (V0 : Valuation τ sig (Elt F)) : val14 V0 (no_index (Proc.devRef .tc main_arg36)) = V0 (Proc.devRef .tc main_arg36) :=
  (val14_keep V0 main_arg36 (by decide)).trans (val13_main_arg36 V0)
theorem val14_main_arg37 (V0 : Valuation τ sig (Elt F)) : val14 V0 (no_index (Proc.devRef .tc main_arg37)) = V0 (Proc.devRef .tc main_arg37) :=
  (val14_keep V0 main_arg37 (by decide)).trans (val13_main_arg37 V0)
theorem val14_main_arg38 (V0 : Valuation τ sig (Elt F)) : val14 V0 (no_index (Proc.devRef .tc main_arg38)) = V0 (Proc.devRef .tc main_arg38) :=
  (val14_keep V0 main_arg38 (by decide)).trans (val13_main_arg38 V0)
theorem val14_main_arg39 (V0 : Valuation τ sig (Elt F)) : val14 V0 (no_index (Proc.devRef .tc main_arg39)) = V0 (Proc.devRef .tc main_arg39) :=
  (val14_keep V0 main_arg39 (by decide)).trans (val13_main_arg39 V0)
theorem val14_main_arg40 (V0 : Valuation τ sig (Elt F)) : val14 V0 (no_index (Proc.devRef .tc main_arg40)) = V0 (Proc.devRef .tc main_arg40) :=
  (val14_keep V0 main_arg40 (by decide)).trans (val13_main_arg40 V0)
theorem val14_main_arg41 (V0 : Valuation τ sig (Elt F)) : val14 V0 (no_index (Proc.devRef .tc main_arg41)) = V0 (Proc.devRef .tc main_arg41) :=
  (val14_keep V0 main_arg41 (by decide)).trans (val13_main_arg41 V0)
theorem val14_main_arg42 (V0 : Valuation τ sig (Elt F)) : val14 V0 (no_index (Proc.devRef .tc main_arg42)) = V0 (Proc.devRef .tc main_arg42) :=
  (val14_keep V0 main_arg42 (by decide)).trans (val13_main_arg42 V0)
theorem val14_main_v81 (V0 : Valuation τ sig (Elt F)) : val14 V0 (no_index (Proc.devRef .tc main_v81)) = E_main_v81 V0 :=
  (val14_keep V0 main_v81 (by decide)).trans (val13_main_v81 V0)
theorem val14_main_v84 (V0 : Valuation τ sig (Elt F)) : val14 V0 (no_index (Proc.devRef .tc main_v84)) = E_main_v84 V0 :=
  (val14_keep V0 main_v84 (by decide)).trans (val13_main_v84 V0)
theorem val14_main_v87 (V0 : Valuation τ sig (Elt F)) : val14 V0 (no_index (Proc.devRef .tc main_v87)) = E_main_v87 V0 :=
  (val14_keep V0 main_v87 (by decide)).trans (val13_main_v87 V0)
set_option maxRecDepth 8192 in
set_option maxHeartbeats 2000000 in
theorem val14_main_v102 (V0 : Valuation τ sig (Elt F)) : val14 V0 (no_index (Proc.devRef .tc main_v102)) = E_main_v102 V0 := by
  unfold val14
  simp only [part14]
  after_results_simp
  simp only [val13_main_v95, val13_main_v91] <;> rfl
set_option maxRecDepth 8192 in
set_option maxHeartbeats 2000000 in
theorem val14_main_v104 (V0 : Valuation τ sig (Elt F)) : val14 V0 (no_index (Proc.devRef .tc main_v104)) = E_main_v104 V0 := by
  unfold val14
  simp only [part14]
  after_results_simp
  simp only [val13_main_v95, val13_main_v91] <;> rfl

/-- The buffer contents after the first 15 stages. -/
def val15 (V0 : Valuation τ sig (Elt F)) : Valuation τ sig (Elt F) := after part15 (val14 V0)
/-- The buffers that stage 15 writes. -/
abbrev part15_W : List (Ref sig .tc) := [main_v105, main_v106, main_v107, main_cst_20, main_v108, main_v109, main_v110, main_v111, main_v112, main_v113, main_v114, main_v115]
set_option maxRecDepth 8192 in
theorem part15_writes : (part15 : List (HloOp τ sig (Elt F))).Forall fun op => op.writes ⊆ (part15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 15 does not write keeps its contents through it. -/
theorem val15_keep (V0 : Valuation τ sig (Elt F)) (r : Ref sig .tc) (h : r ∉ part15_W) :
    val15 V0 (Proc.devRef .tc r) = val14 V0 (Proc.devRef .tc r) :=
  after_of_writes_sub part15 _ part15_writes h
theorem val15_main_arg16 (V0 : Valuation τ sig (Elt F)) : val15 V0 (no_index (Proc.devRef .tc main_arg16)) = V0 (Proc.devRef .tc main_arg16) :=
  (val15_keep V0 main_arg16 (by decide)).trans (val14_main_arg16 V0)
theorem val15_main_arg17 (V0 : Valuation τ sig (Elt F)) : val15 V0 (no_index (Proc.devRef .tc main_arg17)) = V0 (Proc.devRef .tc main_arg17) :=
  (val15_keep V0 main_arg17 (by decide)).trans (val14_main_arg17 V0)
theorem val15_main_arg18 (V0 : Valuation τ sig (Elt F)) : val15 V0 (no_index (Proc.devRef .tc main_arg18)) = V0 (Proc.devRef .tc main_arg18) :=
  (val15_keep V0 main_arg18 (by decide)).trans (val14_main_arg18 V0)
theorem val15_main_arg19 (V0 : Valuation τ sig (Elt F)) : val15 V0 (no_index (Proc.devRef .tc main_arg19)) = V0 (Proc.devRef .tc main_arg19) :=
  (val15_keep V0 main_arg19 (by decide)).trans (val14_main_arg19 V0)
theorem val15_main_arg22 (V0 : Valuation τ sig (Elt F)) : val15 V0 (no_index (Proc.devRef .tc main_arg22)) = V0 (Proc.devRef .tc main_arg22) :=
  (val15_keep V0 main_arg22 (by decide)).trans (val14_main_arg22 V0)
theorem val15_main_arg23 (V0 : Valuation τ sig (Elt F)) : val15 V0 (no_index (Proc.devRef .tc main_arg23)) = V0 (Proc.devRef .tc main_arg23) :=
  (val15_keep V0 main_arg23 (by decide)).trans (val14_main_arg23 V0)
theorem val15_main_arg24 (V0 : Valuation τ sig (Elt F)) : val15 V0 (no_index (Proc.devRef .tc main_arg24)) = V0 (Proc.devRef .tc main_arg24) :=
  (val15_keep V0 main_arg24 (by decide)).trans (val14_main_arg24 V0)
theorem val15_main_arg25 (V0 : Valuation τ sig (Elt F)) : val15 V0 (no_index (Proc.devRef .tc main_arg25)) = V0 (Proc.devRef .tc main_arg25) :=
  (val15_keep V0 main_arg25 (by decide)).trans (val14_main_arg25 V0)
theorem val15_main_arg26 (V0 : Valuation τ sig (Elt F)) : val15 V0 (no_index (Proc.devRef .tc main_arg26)) = V0 (Proc.devRef .tc main_arg26) :=
  (val15_keep V0 main_arg26 (by decide)).trans (val14_main_arg26 V0)
theorem val15_main_arg27 (V0 : Valuation τ sig (Elt F)) : val15 V0 (no_index (Proc.devRef .tc main_arg27)) = V0 (Proc.devRef .tc main_arg27) :=
  (val15_keep V0 main_arg27 (by decide)).trans (val14_main_arg27 V0)
theorem val15_main_arg28 (V0 : Valuation τ sig (Elt F)) : val15 V0 (no_index (Proc.devRef .tc main_arg28)) = V0 (Proc.devRef .tc main_arg28) :=
  (val15_keep V0 main_arg28 (by decide)).trans (val14_main_arg28 V0)
theorem val15_main_arg29 (V0 : Valuation τ sig (Elt F)) : val15 V0 (no_index (Proc.devRef .tc main_arg29)) = V0 (Proc.devRef .tc main_arg29) :=
  (val15_keep V0 main_arg29 (by decide)).trans (val14_main_arg29 V0)
theorem val15_main_arg30 (V0 : Valuation τ sig (Elt F)) : val15 V0 (no_index (Proc.devRef .tc main_arg30)) = V0 (Proc.devRef .tc main_arg30) :=
  (val15_keep V0 main_arg30 (by decide)).trans (val14_main_arg30 V0)
theorem val15_main_arg31 (V0 : Valuation τ sig (Elt F)) : val15 V0 (no_index (Proc.devRef .tc main_arg31)) = V0 (Proc.devRef .tc main_arg31) :=
  (val15_keep V0 main_arg31 (by decide)).trans (val14_main_arg31 V0)
theorem val15_main_arg32 (V0 : Valuation τ sig (Elt F)) : val15 V0 (no_index (Proc.devRef .tc main_arg32)) = V0 (Proc.devRef .tc main_arg32) :=
  (val15_keep V0 main_arg32 (by decide)).trans (val14_main_arg32 V0)
theorem val15_main_arg33 (V0 : Valuation τ sig (Elt F)) : val15 V0 (no_index (Proc.devRef .tc main_arg33)) = V0 (Proc.devRef .tc main_arg33) :=
  (val15_keep V0 main_arg33 (by decide)).trans (val14_main_arg33 V0)
theorem val15_main_arg34 (V0 : Valuation τ sig (Elt F)) : val15 V0 (no_index (Proc.devRef .tc main_arg34)) = V0 (Proc.devRef .tc main_arg34) :=
  (val15_keep V0 main_arg34 (by decide)).trans (val14_main_arg34 V0)
theorem val15_main_arg35 (V0 : Valuation τ sig (Elt F)) : val15 V0 (no_index (Proc.devRef .tc main_arg35)) = V0 (Proc.devRef .tc main_arg35) :=
  (val15_keep V0 main_arg35 (by decide)).trans (val14_main_arg35 V0)
theorem val15_main_arg36 (V0 : Valuation τ sig (Elt F)) : val15 V0 (no_index (Proc.devRef .tc main_arg36)) = V0 (Proc.devRef .tc main_arg36) :=
  (val15_keep V0 main_arg36 (by decide)).trans (val14_main_arg36 V0)
theorem val15_main_arg37 (V0 : Valuation τ sig (Elt F)) : val15 V0 (no_index (Proc.devRef .tc main_arg37)) = V0 (Proc.devRef .tc main_arg37) :=
  (val15_keep V0 main_arg37 (by decide)).trans (val14_main_arg37 V0)
theorem val15_main_arg38 (V0 : Valuation τ sig (Elt F)) : val15 V0 (no_index (Proc.devRef .tc main_arg38)) = V0 (Proc.devRef .tc main_arg38) :=
  (val15_keep V0 main_arg38 (by decide)).trans (val14_main_arg38 V0)
theorem val15_main_arg39 (V0 : Valuation τ sig (Elt F)) : val15 V0 (no_index (Proc.devRef .tc main_arg39)) = V0 (Proc.devRef .tc main_arg39) :=
  (val15_keep V0 main_arg39 (by decide)).trans (val14_main_arg39 V0)
theorem val15_main_arg40 (V0 : Valuation τ sig (Elt F)) : val15 V0 (no_index (Proc.devRef .tc main_arg40)) = V0 (Proc.devRef .tc main_arg40) :=
  (val15_keep V0 main_arg40 (by decide)).trans (val14_main_arg40 V0)
theorem val15_main_arg41 (V0 : Valuation τ sig (Elt F)) : val15 V0 (no_index (Proc.devRef .tc main_arg41)) = V0 (Proc.devRef .tc main_arg41) :=
  (val15_keep V0 main_arg41 (by decide)).trans (val14_main_arg41 V0)
theorem val15_main_arg42 (V0 : Valuation τ sig (Elt F)) : val15 V0 (no_index (Proc.devRef .tc main_arg42)) = V0 (Proc.devRef .tc main_arg42) :=
  (val15_keep V0 main_arg42 (by decide)).trans (val14_main_arg42 V0)
theorem val15_main_v81 (V0 : Valuation τ sig (Elt F)) : val15 V0 (no_index (Proc.devRef .tc main_v81)) = E_main_v81 V0 :=
  (val15_keep V0 main_v81 (by decide)).trans (val14_main_v81 V0)
theorem val15_main_v84 (V0 : Valuation τ sig (Elt F)) : val15 V0 (no_index (Proc.devRef .tc main_v84)) = E_main_v84 V0 :=
  (val15_keep V0 main_v84 (by decide)).trans (val14_main_v84 V0)
theorem val15_main_v87 (V0 : Valuation τ sig (Elt F)) : val15 V0 (no_index (Proc.devRef .tc main_v87)) = E_main_v87 V0 :=
  (val15_keep V0 main_v87 (by decide)).trans (val14_main_v87 V0)
set_option maxRecDepth 8192 in
set_option maxHeartbeats 2000000 in
theorem val15_main_v115 (V0 : Valuation τ sig (Elt F)) : val15 V0 (no_index (Proc.devRef .tc main_v115)) = E_main_v115 V0 := by
  unfold val15
  simp only [part15]
  after_results_simp
  simp only [val14_main_arg21, val14_main_v102, val14_main_v104, val14_main_arg20] <;> rfl

/-- The buffer contents after the first 16 stages. -/
def val16 (V0 : Valuation τ sig (Elt F)) : Valuation τ sig (Elt F) := after part16 (val15 V0)
/-- The buffers that stage 16 writes. -/
abbrev part16_W : List (Ref sig .tc) := [main_call3_cst, main_call3_v0, main_v116, main_v117, main_v118, main_v119, main_v120]
set_option maxRecDepth 8192 in
theorem part16_writes : (part16 : List (HloOp τ sig (Elt F))).Forall fun op => op.writes ⊆ (part16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 16 does not write keeps its contents through it. -/
theorem val16_keep (V0 : Valuation τ sig (Elt F)) (r : Ref sig .tc) (h : r ∉ part16_W) :
    val16 V0 (Proc.devRef .tc r) = val15 V0 (Proc.devRef .tc r) :=
  after_of_writes_sub part16 _ part16_writes h
theorem val16_main_arg18 (V0 : Valuation τ sig (Elt F)) : val16 V0 (no_index (Proc.devRef .tc main_arg18)) = V0 (Proc.devRef .tc main_arg18) :=
  (val16_keep V0 main_arg18 (by decide)).trans (val15_main_arg18 V0)
theorem val16_main_arg19 (V0 : Valuation τ sig (Elt F)) : val16 V0 (no_index (Proc.devRef .tc main_arg19)) = V0 (Proc.devRef .tc main_arg19) :=
  (val16_keep V0 main_arg19 (by decide)).trans (val15_main_arg19 V0)
theorem val16_main_arg22 (V0 : Valuation τ sig (Elt F)) : val16 V0 (no_index (Proc.devRef .tc main_arg22)) = V0 (Proc.devRef .tc main_arg22) :=
  (val16_keep V0 main_arg22 (by decide)).trans (val15_main_arg22 V0)
theorem val16_main_arg23 (V0 : Valuation τ sig (Elt F)) : val16 V0 (no_index (Proc.devRef .tc main_arg23)) = V0 (Proc.devRef .tc main_arg23) :=
  (val16_keep V0 main_arg23 (by decide)).trans (val15_main_arg23 V0)
theorem val16_main_arg24 (V0 : Valuation τ sig (Elt F)) : val16 V0 (no_index (Proc.devRef .tc main_arg24)) = V0 (Proc.devRef .tc main_arg24) :=
  (val16_keep V0 main_arg24 (by decide)).trans (val15_main_arg24 V0)
theorem val16_main_arg25 (V0 : Valuation τ sig (Elt F)) : val16 V0 (no_index (Proc.devRef .tc main_arg25)) = V0 (Proc.devRef .tc main_arg25) :=
  (val16_keep V0 main_arg25 (by decide)).trans (val15_main_arg25 V0)
theorem val16_main_arg26 (V0 : Valuation τ sig (Elt F)) : val16 V0 (no_index (Proc.devRef .tc main_arg26)) = V0 (Proc.devRef .tc main_arg26) :=
  (val16_keep V0 main_arg26 (by decide)).trans (val15_main_arg26 V0)
theorem val16_main_arg27 (V0 : Valuation τ sig (Elt F)) : val16 V0 (no_index (Proc.devRef .tc main_arg27)) = V0 (Proc.devRef .tc main_arg27) :=
  (val16_keep V0 main_arg27 (by decide)).trans (val15_main_arg27 V0)
theorem val16_main_arg28 (V0 : Valuation τ sig (Elt F)) : val16 V0 (no_index (Proc.devRef .tc main_arg28)) = V0 (Proc.devRef .tc main_arg28) :=
  (val16_keep V0 main_arg28 (by decide)).trans (val15_main_arg28 V0)
theorem val16_main_arg29 (V0 : Valuation τ sig (Elt F)) : val16 V0 (no_index (Proc.devRef .tc main_arg29)) = V0 (Proc.devRef .tc main_arg29) :=
  (val16_keep V0 main_arg29 (by decide)).trans (val15_main_arg29 V0)
theorem val16_main_arg30 (V0 : Valuation τ sig (Elt F)) : val16 V0 (no_index (Proc.devRef .tc main_arg30)) = V0 (Proc.devRef .tc main_arg30) :=
  (val16_keep V0 main_arg30 (by decide)).trans (val15_main_arg30 V0)
theorem val16_main_arg31 (V0 : Valuation τ sig (Elt F)) : val16 V0 (no_index (Proc.devRef .tc main_arg31)) = V0 (Proc.devRef .tc main_arg31) :=
  (val16_keep V0 main_arg31 (by decide)).trans (val15_main_arg31 V0)
theorem val16_main_arg32 (V0 : Valuation τ sig (Elt F)) : val16 V0 (no_index (Proc.devRef .tc main_arg32)) = V0 (Proc.devRef .tc main_arg32) :=
  (val16_keep V0 main_arg32 (by decide)).trans (val15_main_arg32 V0)
theorem val16_main_arg33 (V0 : Valuation τ sig (Elt F)) : val16 V0 (no_index (Proc.devRef .tc main_arg33)) = V0 (Proc.devRef .tc main_arg33) :=
  (val16_keep V0 main_arg33 (by decide)).trans (val15_main_arg33 V0)
theorem val16_main_arg34 (V0 : Valuation τ sig (Elt F)) : val16 V0 (no_index (Proc.devRef .tc main_arg34)) = V0 (Proc.devRef .tc main_arg34) :=
  (val16_keep V0 main_arg34 (by decide)).trans (val15_main_arg34 V0)
theorem val16_main_arg35 (V0 : Valuation τ sig (Elt F)) : val16 V0 (no_index (Proc.devRef .tc main_arg35)) = V0 (Proc.devRef .tc main_arg35) :=
  (val16_keep V0 main_arg35 (by decide)).trans (val15_main_arg35 V0)
theorem val16_main_arg36 (V0 : Valuation τ sig (Elt F)) : val16 V0 (no_index (Proc.devRef .tc main_arg36)) = V0 (Proc.devRef .tc main_arg36) :=
  (val16_keep V0 main_arg36 (by decide)).trans (val15_main_arg36 V0)
theorem val16_main_arg37 (V0 : Valuation τ sig (Elt F)) : val16 V0 (no_index (Proc.devRef .tc main_arg37)) = V0 (Proc.devRef .tc main_arg37) :=
  (val16_keep V0 main_arg37 (by decide)).trans (val15_main_arg37 V0)
theorem val16_main_arg38 (V0 : Valuation τ sig (Elt F)) : val16 V0 (no_index (Proc.devRef .tc main_arg38)) = V0 (Proc.devRef .tc main_arg38) :=
  (val16_keep V0 main_arg38 (by decide)).trans (val15_main_arg38 V0)
theorem val16_main_arg39 (V0 : Valuation τ sig (Elt F)) : val16 V0 (no_index (Proc.devRef .tc main_arg39)) = V0 (Proc.devRef .tc main_arg39) :=
  (val16_keep V0 main_arg39 (by decide)).trans (val15_main_arg39 V0)
theorem val16_main_arg40 (V0 : Valuation τ sig (Elt F)) : val16 V0 (no_index (Proc.devRef .tc main_arg40)) = V0 (Proc.devRef .tc main_arg40) :=
  (val16_keep V0 main_arg40 (by decide)).trans (val15_main_arg40 V0)
theorem val16_main_arg41 (V0 : Valuation τ sig (Elt F)) : val16 V0 (no_index (Proc.devRef .tc main_arg41)) = V0 (Proc.devRef .tc main_arg41) :=
  (val16_keep V0 main_arg41 (by decide)).trans (val15_main_arg41 V0)
theorem val16_main_arg42 (V0 : Valuation τ sig (Elt F)) : val16 V0 (no_index (Proc.devRef .tc main_arg42)) = V0 (Proc.devRef .tc main_arg42) :=
  (val16_keep V0 main_arg42 (by decide)).trans (val15_main_arg42 V0)
theorem val16_main_v81 (V0 : Valuation τ sig (Elt F)) : val16 V0 (no_index (Proc.devRef .tc main_v81)) = E_main_v81 V0 :=
  (val16_keep V0 main_v81 (by decide)).trans (val15_main_v81 V0)
theorem val16_main_v84 (V0 : Valuation τ sig (Elt F)) : val16 V0 (no_index (Proc.devRef .tc main_v84)) = E_main_v84 V0 :=
  (val16_keep V0 main_v84 (by decide)).trans (val15_main_v84 V0)
theorem val16_main_v87 (V0 : Valuation τ sig (Elt F)) : val16 V0 (no_index (Proc.devRef .tc main_v87)) = E_main_v87 V0 :=
  (val16_keep V0 main_v87 (by decide)).trans (val15_main_v87 V0)
set_option maxRecDepth 8192 in
set_option maxHeartbeats 2000000 in
theorem val16_main_v116 (V0 : Valuation τ sig (Elt F)) : val16 V0 (no_index (Proc.devRef .tc main_v116)) = E_main_v116 V0 := by
  unfold val16
  simp only [part16]
  after_results_simp
  simp only [val15_main_v115] <;> rfl
set_option maxRecDepth 8192 in
set_option maxHeartbeats 2000000 in
theorem val16_main_v120 (V0 : Valuation τ sig (Elt F)) : val16 V0 (no_index (Proc.devRef .tc main_v120)) = E_main_v120 V0 := by
  unfold val16
  simp only [part16]
  after_results_simp
  simp only [val15_main_arg17, val15_main_arg16, val15_main_v84] <;> rfl

/-- The buffer contents after the first 17 stages. -/
def val17 (V0 : Valuation τ sig (Elt F)) : Valuation τ sig (Elt F) := after part17 (val16 V0)
/-- The buffers that stage 17 writes. -/
abbrev part17_W : List (Ref sig .tc) := [main_cst_21, main_v121, main_v122, main_cst_22, main_v123, main_v124]
set_option maxRecDepth 8192 in
theorem part17_writes : (part17 : List (HloOp τ sig (Elt F))).Forall fun op => op.writes ⊆ (part17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 17 does not write keeps its contents through it. -/
theorem val17_keep (V0 : Valuation τ sig (Elt F)) (r : Ref sig .tc) (h : r ∉ part17_W) :
    val17 V0 (Proc.devRef .tc r) = val16 V0 (Proc.devRef .tc r) :=
  after_of_writes_sub part17 _ part17_writes h
theorem val17_main_arg18 (V0 : Valuation τ sig (Elt F)) : val17 V0 (no_index (Proc.devRef .tc main_arg18)) = V0 (Proc.devRef .tc main_arg18) :=
  (val17_keep V0 main_arg18 (by decide)).trans (val16_main_arg18 V0)
theorem val17_main_arg19 (V0 : Valuation τ sig (Elt F)) : val17 V0 (no_index (Proc.devRef .tc main_arg19)) = V0 (Proc.devRef .tc main_arg19) :=
  (val17_keep V0 main_arg19 (by decide)).trans (val16_main_arg19 V0)
theorem val17_main_arg22 (V0 : Valuation τ sig (Elt F)) : val17 V0 (no_index (Proc.devRef .tc main_arg22)) = V0 (Proc.devRef .tc main_arg22) :=
  (val17_keep V0 main_arg22 (by decide)).trans (val16_main_arg22 V0)
theorem val17_main_arg23 (V0 : Valuation τ sig (Elt F)) : val17 V0 (no_index (Proc.devRef .tc main_arg23)) = V0 (Proc.devRef .tc main_arg23) :=
  (val17_keep V0 main_arg23 (by decide)).trans (val16_main_arg23 V0)
theorem val17_main_arg24 (V0 : Valuation τ sig (Elt F)) : val17 V0 (no_index (Proc.devRef .tc main_arg24)) = V0 (Proc.devRef .tc main_arg24) :=
  (val17_keep V0 main_arg24 (by decide)).trans (val16_main_arg24 V0)
theorem val17_main_arg25 (V0 : Valuation τ sig (Elt F)) : val17 V0 (no_index (Proc.devRef .tc main_arg25)) = V0 (Proc.devRef .tc main_arg25) :=
  (val17_keep V0 main_arg25 (by decide)).trans (val16_main_arg25 V0)
theorem val17_main_arg26 (V0 : Valuation τ sig (Elt F)) : val17 V0 (no_index (Proc.devRef .tc main_arg26)) = V0 (Proc.devRef .tc main_arg26) :=
  (val17_keep V0 main_arg26 (by decide)).trans (val16_main_arg26 V0)
theorem val17_main_arg27 (V0 : Valuation τ sig (Elt F)) : val17 V0 (no_index (Proc.devRef .tc main_arg27)) = V0 (Proc.devRef .tc main_arg27) :=
  (val17_keep V0 main_arg27 (by decide)).trans (val16_main_arg27 V0)
theorem val17_main_arg28 (V0 : Valuation τ sig (Elt F)) : val17 V0 (no_index (Proc.devRef .tc main_arg28)) = V0 (Proc.devRef .tc main_arg28) :=
  (val17_keep V0 main_arg28 (by decide)).trans (val16_main_arg28 V0)
theorem val17_main_arg29 (V0 : Valuation τ sig (Elt F)) : val17 V0 (no_index (Proc.devRef .tc main_arg29)) = V0 (Proc.devRef .tc main_arg29) :=
  (val17_keep V0 main_arg29 (by decide)).trans (val16_main_arg29 V0)
theorem val17_main_arg30 (V0 : Valuation τ sig (Elt F)) : val17 V0 (no_index (Proc.devRef .tc main_arg30)) = V0 (Proc.devRef .tc main_arg30) :=
  (val17_keep V0 main_arg30 (by decide)).trans (val16_main_arg30 V0)
theorem val17_main_arg31 (V0 : Valuation τ sig (Elt F)) : val17 V0 (no_index (Proc.devRef .tc main_arg31)) = V0 (Proc.devRef .tc main_arg31) :=
  (val17_keep V0 main_arg31 (by decide)).trans (val16_main_arg31 V0)
theorem val17_main_arg32 (V0 : Valuation τ sig (Elt F)) : val17 V0 (no_index (Proc.devRef .tc main_arg32)) = V0 (Proc.devRef .tc main_arg32) :=
  (val17_keep V0 main_arg32 (by decide)).trans (val16_main_arg32 V0)
theorem val17_main_arg33 (V0 : Valuation τ sig (Elt F)) : val17 V0 (no_index (Proc.devRef .tc main_arg33)) = V0 (Proc.devRef .tc main_arg33) :=
  (val17_keep V0 main_arg33 (by decide)).trans (val16_main_arg33 V0)
theorem val17_main_arg34 (V0 : Valuation τ sig (Elt F)) : val17 V0 (no_index (Proc.devRef .tc main_arg34)) = V0 (Proc.devRef .tc main_arg34) :=
  (val17_keep V0 main_arg34 (by decide)).trans (val16_main_arg34 V0)
theorem val17_main_arg35 (V0 : Valuation τ sig (Elt F)) : val17 V0 (no_index (Proc.devRef .tc main_arg35)) = V0 (Proc.devRef .tc main_arg35) :=
  (val17_keep V0 main_arg35 (by decide)).trans (val16_main_arg35 V0)
theorem val17_main_arg36 (V0 : Valuation τ sig (Elt F)) : val17 V0 (no_index (Proc.devRef .tc main_arg36)) = V0 (Proc.devRef .tc main_arg36) :=
  (val17_keep V0 main_arg36 (by decide)).trans (val16_main_arg36 V0)
theorem val17_main_arg37 (V0 : Valuation τ sig (Elt F)) : val17 V0 (no_index (Proc.devRef .tc main_arg37)) = V0 (Proc.devRef .tc main_arg37) :=
  (val17_keep V0 main_arg37 (by decide)).trans (val16_main_arg37 V0)
theorem val17_main_arg38 (V0 : Valuation τ sig (Elt F)) : val17 V0 (no_index (Proc.devRef .tc main_arg38)) = V0 (Proc.devRef .tc main_arg38) :=
  (val17_keep V0 main_arg38 (by decide)).trans (val16_main_arg38 V0)
theorem val17_main_arg39 (V0 : Valuation τ sig (Elt F)) : val17 V0 (no_index (Proc.devRef .tc main_arg39)) = V0 (Proc.devRef .tc main_arg39) :=
  (val17_keep V0 main_arg39 (by decide)).trans (val16_main_arg39 V0)
theorem val17_main_arg40 (V0 : Valuation τ sig (Elt F)) : val17 V0 (no_index (Proc.devRef .tc main_arg40)) = V0 (Proc.devRef .tc main_arg40) :=
  (val17_keep V0 main_arg40 (by decide)).trans (val16_main_arg40 V0)
theorem val17_main_arg41 (V0 : Valuation τ sig (Elt F)) : val17 V0 (no_index (Proc.devRef .tc main_arg41)) = V0 (Proc.devRef .tc main_arg41) :=
  (val17_keep V0 main_arg41 (by decide)).trans (val16_main_arg41 V0)
theorem val17_main_arg42 (V0 : Valuation τ sig (Elt F)) : val17 V0 (no_index (Proc.devRef .tc main_arg42)) = V0 (Proc.devRef .tc main_arg42) :=
  (val17_keep V0 main_arg42 (by decide)).trans (val16_main_arg42 V0)
theorem val17_main_v81 (V0 : Valuation τ sig (Elt F)) : val17 V0 (no_index (Proc.devRef .tc main_v81)) = E_main_v81 V0 :=
  (val17_keep V0 main_v81 (by decide)).trans (val16_main_v81 V0)
theorem val17_main_v84 (V0 : Valuation τ sig (Elt F)) : val17 V0 (no_index (Proc.devRef .tc main_v84)) = E_main_v84 V0 :=
  (val17_keep V0 main_v84 (by decide)).trans (val16_main_v84 V0)
theorem val17_main_v87 (V0 : Valuation τ sig (Elt F)) : val17 V0 (no_index (Proc.devRef .tc main_v87)) = E_main_v87 V0 :=
  (val17_keep V0 main_v87 (by decide)).trans (val16_main_v87 V0)
theorem val17_main_v116 (V0 : Valuation τ sig (Elt F)) : val17 V0 (no_index (Proc.devRef .tc main_v116)) = E_main_v116 V0 :=
  (val17_keep V0 main_v116 (by decide)).trans (val16_main_v116 V0)
theorem val17_main_v120 (V0 : Valuation τ sig (Elt F)) : val17 V0 (no_index (Proc.devRef .tc main_v120)) = E_main_v120 V0 :=
  (val17_keep V0 main_v120 (by decide)).trans (val16_main_v120 V0)
set_option maxRecDepth 8192 in
set_option maxHeartbeats 2000000 in
theorem val17_main_v124 (V0 : Valuation τ sig (Elt F)) : val17 V0 (no_index (Proc.devRef .tc main_v124)) = E_main_v124 V0 := by
  unfold val17
  simp only [part17]
  after_results_simp
  simp only [val16_main_v120] <;> rfl

/-- The buffer contents after the first 18 stages. -/
def val18 (V0 : Valuation τ sig (Elt F)) : Valuation τ sig (Elt F) := after part18 (val17 V0)
/-- The buffers that stage 18 writes. -/
abbrev part18_W : List (Ref sig .tc) := [main_v125, main_v126, main_v127, main_cst_23, main_v128, main_v129, main_cst_24, main_v130, main_v131, main_v132, main_v133]
set_option maxRecDepth 8192 in
theorem part18_writes : (part18 : List (HloOp τ sig (Elt F))).Forall fun op => op.writes ⊆ (part18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 18 does not write keeps its contents through it. -/
theorem val18_keep (V0 : Valuation τ sig (Elt F)) (r : Ref sig .tc) (h : r ∉ part18_W) :
    val18 V0 (Proc.devRef .tc r) = val17 V0 (Proc.devRef .tc r) :=
  after_of_writes_sub part18 _ part18_writes h
theorem val18_main_arg18 (V0 : Valuation τ sig (Elt F)) : val18 V0 (no_index (Proc.devRef .tc main_arg18)) = V0 (Proc.devRef .tc main_arg18) :=
  (val18_keep V0 main_arg18 (by decide)).trans (val17_main_arg18 V0)
theorem val18_main_arg19 (V0 : Valuation τ sig (Elt F)) : val18 V0 (no_index (Proc.devRef .tc main_arg19)) = V0 (Proc.devRef .tc main_arg19) :=
  (val18_keep V0 main_arg19 (by decide)).trans (val17_main_arg19 V0)
theorem val18_main_arg22 (V0 : Valuation τ sig (Elt F)) : val18 V0 (no_index (Proc.devRef .tc main_arg22)) = V0 (Proc.devRef .tc main_arg22) :=
  (val18_keep V0 main_arg22 (by decide)).trans (val17_main_arg22 V0)
theorem val18_main_arg23 (V0 : Valuation τ sig (Elt F)) : val18 V0 (no_index (Proc.devRef .tc main_arg23)) = V0 (Proc.devRef .tc main_arg23) :=
  (val18_keep V0 main_arg23 (by decide)).trans (val17_main_arg23 V0)
theorem val18_main_arg24 (V0 : Valuation τ sig (Elt F)) : val18 V0 (no_index (Proc.devRef .tc main_arg24)) = V0 (Proc.devRef .tc main_arg24) :=
  (val18_keep V0 main_arg24 (by decide)).trans (val17_main_arg24 V0)
theorem val18_main_arg25 (V0 : Valuation τ sig (Elt F)) : val18 V0 (no_index (Proc.devRef .tc main_arg25)) = V0 (Proc.devRef .tc main_arg25) :=
  (val18_keep V0 main_arg25 (by decide)).trans (val17_main_arg25 V0)
theorem val18_main_arg26 (V0 : Valuation τ sig (Elt F)) : val18 V0 (no_index (Proc.devRef .tc main_arg26)) = V0 (Proc.devRef .tc main_arg26) :=
  (val18_keep V0 main_arg26 (by decide)).trans (val17_main_arg26 V0)
theorem val18_main_arg27 (V0 : Valuation τ sig (Elt F)) : val18 V0 (no_index (Proc.devRef .tc main_arg27)) = V0 (Proc.devRef .tc main_arg27) :=
  (val18_keep V0 main_arg27 (by decide)).trans (val17_main_arg27 V0)
theorem val18_main_arg28 (V0 : Valuation τ sig (Elt F)) : val18 V0 (no_index (Proc.devRef .tc main_arg28)) = V0 (Proc.devRef .tc main_arg28) :=
  (val18_keep V0 main_arg28 (by decide)).trans (val17_main_arg28 V0)
theorem val18_main_arg29 (V0 : Valuation τ sig (Elt F)) : val18 V0 (no_index (Proc.devRef .tc main_arg29)) = V0 (Proc.devRef .tc main_arg29) :=
  (val18_keep V0 main_arg29 (by decide)).trans (val17_main_arg29 V0)
theorem val18_main_arg30 (V0 : Valuation τ sig (Elt F)) : val18 V0 (no_index (Proc.devRef .tc main_arg30)) = V0 (Proc.devRef .tc main_arg30) :=
  (val18_keep V0 main_arg30 (by decide)).trans (val17_main_arg30 V0)
theorem val18_main_arg31 (V0 : Valuation τ sig (Elt F)) : val18 V0 (no_index (Proc.devRef .tc main_arg31)) = V0 (Proc.devRef .tc main_arg31) :=
  (val18_keep V0 main_arg31 (by decide)).trans (val17_main_arg31 V0)
theorem val18_main_arg32 (V0 : Valuation τ sig (Elt F)) : val18 V0 (no_index (Proc.devRef .tc main_arg32)) = V0 (Proc.devRef .tc main_arg32) :=
  (val18_keep V0 main_arg32 (by decide)).trans (val17_main_arg32 V0)
theorem val18_main_arg33 (V0 : Valuation τ sig (Elt F)) : val18 V0 (no_index (Proc.devRef .tc main_arg33)) = V0 (Proc.devRef .tc main_arg33) :=
  (val18_keep V0 main_arg33 (by decide)).trans (val17_main_arg33 V0)
theorem val18_main_arg34 (V0 : Valuation τ sig (Elt F)) : val18 V0 (no_index (Proc.devRef .tc main_arg34)) = V0 (Proc.devRef .tc main_arg34) :=
  (val18_keep V0 main_arg34 (by decide)).trans (val17_main_arg34 V0)
theorem val18_main_arg35 (V0 : Valuation τ sig (Elt F)) : val18 V0 (no_index (Proc.devRef .tc main_arg35)) = V0 (Proc.devRef .tc main_arg35) :=
  (val18_keep V0 main_arg35 (by decide)).trans (val17_main_arg35 V0)
theorem val18_main_arg36 (V0 : Valuation τ sig (Elt F)) : val18 V0 (no_index (Proc.devRef .tc main_arg36)) = V0 (Proc.devRef .tc main_arg36) :=
  (val18_keep V0 main_arg36 (by decide)).trans (val17_main_arg36 V0)
theorem val18_main_arg37 (V0 : Valuation τ sig (Elt F)) : val18 V0 (no_index (Proc.devRef .tc main_arg37)) = V0 (Proc.devRef .tc main_arg37) :=
  (val18_keep V0 main_arg37 (by decide)).trans (val17_main_arg37 V0)
theorem val18_main_arg38 (V0 : Valuation τ sig (Elt F)) : val18 V0 (no_index (Proc.devRef .tc main_arg38)) = V0 (Proc.devRef .tc main_arg38) :=
  (val18_keep V0 main_arg38 (by decide)).trans (val17_main_arg38 V0)
theorem val18_main_arg39 (V0 : Valuation τ sig (Elt F)) : val18 V0 (no_index (Proc.devRef .tc main_arg39)) = V0 (Proc.devRef .tc main_arg39) :=
  (val18_keep V0 main_arg39 (by decide)).trans (val17_main_arg39 V0)
theorem val18_main_arg40 (V0 : Valuation τ sig (Elt F)) : val18 V0 (no_index (Proc.devRef .tc main_arg40)) = V0 (Proc.devRef .tc main_arg40) :=
  (val18_keep V0 main_arg40 (by decide)).trans (val17_main_arg40 V0)
theorem val18_main_arg41 (V0 : Valuation τ sig (Elt F)) : val18 V0 (no_index (Proc.devRef .tc main_arg41)) = V0 (Proc.devRef .tc main_arg41) :=
  (val18_keep V0 main_arg41 (by decide)).trans (val17_main_arg41 V0)
theorem val18_main_arg42 (V0 : Valuation τ sig (Elt F)) : val18 V0 (no_index (Proc.devRef .tc main_arg42)) = V0 (Proc.devRef .tc main_arg42) :=
  (val18_keep V0 main_arg42 (by decide)).trans (val17_main_arg42 V0)
theorem val18_main_v81 (V0 : Valuation τ sig (Elt F)) : val18 V0 (no_index (Proc.devRef .tc main_v81)) = E_main_v81 V0 :=
  (val18_keep V0 main_v81 (by decide)).trans (val17_main_v81 V0)
theorem val18_main_v84 (V0 : Valuation τ sig (Elt F)) : val18 V0 (no_index (Proc.devRef .tc main_v84)) = E_main_v84 V0 :=
  (val18_keep V0 main_v84 (by decide)).trans (val17_main_v84 V0)
theorem val18_main_v87 (V0 : Valuation τ sig (Elt F)) : val18 V0 (no_index (Proc.devRef .tc main_v87)) = E_main_v87 V0 :=
  (val18_keep V0 main_v87 (by decide)).trans (val17_main_v87 V0)
theorem val18_main_v116 (V0 : Valuation τ sig (Elt F)) : val18 V0 (no_index (Proc.devRef .tc main_v116)) = E_main_v116 V0 :=
  (val18_keep V0 main_v116 (by decide)).trans (val17_main_v116 V0)
set_option maxRecDepth 8192 in
set_option maxHeartbeats 2000000 in
theorem val18_main_v131 (V0 : Valuation τ sig (Elt F)) : val18 V0 (no_index (Proc.devRef .tc main_v131)) = E_main_v131 V0 := by
  unfold val18
  simp only [part18]
  after_results_simp
  simp only [val17_main_v124, val17_main_v120] <;> rfl
set_option maxRecDepth 8192 in
set_option maxHeartbeats 2000000 in
theorem val18_main_v133 (V0 : Valuation τ sig (Elt F)) : val18 V0 (no_index (Proc.devRef .tc main_v133)) = E_main_v133 V0 := by
  unfold val18
  simp only [part18]
  after_results_simp
  simp only [val17_main_v124, val17_main_v120] <;> rfl

/-- The buffer contents after the first 19 stages. -/
def val19 (V0 : Valuation τ sig (Elt F)) : Valuation τ sig (Elt F) := after part19 (val18 V0)
/-- The buffers that stage 19 writes. -/
abbrev part19_W : List (Ref sig .tc) := [main_v134, main_v135, main_v136, main_cst_25, main_v137, main_v138, main_v139, main_v140, main_v141, main_v142, main_v143, main_v144]
set_option maxRecDepth 8192 in
theorem part19_writes : (part19 : List (HloOp τ sig (Elt F))).Forall fun op => op.writes ⊆ (part19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 19 does not write keeps its contents through it. -/
theorem val19_keep (V0 : Valuation τ sig (Elt F)) (r : Ref sig .tc) (h : r ∉ part19_W) :
    val19 V0 (Proc.devRef .tc r) = val18 V0 (Proc.devRef .tc r) :=
  after_of_writes_sub part19 _ part19_writes h
theorem val19_main_arg18 (V0 : Valuation τ sig (Elt F)) : val19 V0 (no_index (Proc.devRef .tc main_arg18)) = V0 (Proc.devRef .tc main_arg18) :=
  (val19_keep V0 main_arg18 (by decide)).trans (val18_main_arg18 V0)
theorem val19_main_arg19 (V0 : Valuation τ sig (Elt F)) : val19 V0 (no_index (Proc.devRef .tc main_arg19)) = V0 (Proc.devRef .tc main_arg19) :=
  (val19_keep V0 main_arg19 (by decide)).trans (val18_main_arg19 V0)
theorem val19_main_arg24 (V0 : Valuation τ sig (Elt F)) : val19 V0 (no_index (Proc.devRef .tc main_arg24)) = V0 (Proc.devRef .tc main_arg24) :=
  (val19_keep V0 main_arg24 (by decide)).trans (val18_main_arg24 V0)
theorem val19_main_arg25 (V0 : Valuation τ sig (Elt F)) : val19 V0 (no_index (Proc.devRef .tc main_arg25)) = V0 (Proc.devRef .tc main_arg25) :=
  (val19_keep V0 main_arg25 (by decide)).trans (val18_main_arg25 V0)
theorem val19_main_arg26 (V0 : Valuation τ sig (Elt F)) : val19 V0 (no_index (Proc.devRef .tc main_arg26)) = V0 (Proc.devRef .tc main_arg26) :=
  (val19_keep V0 main_arg26 (by decide)).trans (val18_main_arg26 V0)
theorem val19_main_arg27 (V0 : Valuation τ sig (Elt F)) : val19 V0 (no_index (Proc.devRef .tc main_arg27)) = V0 (Proc.devRef .tc main_arg27) :=
  (val19_keep V0 main_arg27 (by decide)).trans (val18_main_arg27 V0)
theorem val19_main_arg28 (V0 : Valuation τ sig (Elt F)) : val19 V0 (no_index (Proc.devRef .tc main_arg28)) = V0 (Proc.devRef .tc main_arg28) :=
  (val19_keep V0 main_arg28 (by decide)).trans (val18_main_arg28 V0)
theorem val19_main_arg29 (V0 : Valuation τ sig (Elt F)) : val19 V0 (no_index (Proc.devRef .tc main_arg29)) = V0 (Proc.devRef .tc main_arg29) :=
  (val19_keep V0 main_arg29 (by decide)).trans (val18_main_arg29 V0)
theorem val19_main_arg30 (V0 : Valuation τ sig (Elt F)) : val19 V0 (no_index (Proc.devRef .tc main_arg30)) = V0 (Proc.devRef .tc main_arg30) :=
  (val19_keep V0 main_arg30 (by decide)).trans (val18_main_arg30 V0)
theorem val19_main_arg31 (V0 : Valuation τ sig (Elt F)) : val19 V0 (no_index (Proc.devRef .tc main_arg31)) = V0 (Proc.devRef .tc main_arg31) :=
  (val19_keep V0 main_arg31 (by decide)).trans (val18_main_arg31 V0)
theorem val19_main_arg32 (V0 : Valuation τ sig (Elt F)) : val19 V0 (no_index (Proc.devRef .tc main_arg32)) = V0 (Proc.devRef .tc main_arg32) :=
  (val19_keep V0 main_arg32 (by decide)).trans (val18_main_arg32 V0)
theorem val19_main_arg33 (V0 : Valuation τ sig (Elt F)) : val19 V0 (no_index (Proc.devRef .tc main_arg33)) = V0 (Proc.devRef .tc main_arg33) :=
  (val19_keep V0 main_arg33 (by decide)).trans (val18_main_arg33 V0)
theorem val19_main_arg34 (V0 : Valuation τ sig (Elt F)) : val19 V0 (no_index (Proc.devRef .tc main_arg34)) = V0 (Proc.devRef .tc main_arg34) :=
  (val19_keep V0 main_arg34 (by decide)).trans (val18_main_arg34 V0)
theorem val19_main_arg35 (V0 : Valuation τ sig (Elt F)) : val19 V0 (no_index (Proc.devRef .tc main_arg35)) = V0 (Proc.devRef .tc main_arg35) :=
  (val19_keep V0 main_arg35 (by decide)).trans (val18_main_arg35 V0)
theorem val19_main_arg36 (V0 : Valuation τ sig (Elt F)) : val19 V0 (no_index (Proc.devRef .tc main_arg36)) = V0 (Proc.devRef .tc main_arg36) :=
  (val19_keep V0 main_arg36 (by decide)).trans (val18_main_arg36 V0)
theorem val19_main_arg37 (V0 : Valuation τ sig (Elt F)) : val19 V0 (no_index (Proc.devRef .tc main_arg37)) = V0 (Proc.devRef .tc main_arg37) :=
  (val19_keep V0 main_arg37 (by decide)).trans (val18_main_arg37 V0)
theorem val19_main_arg38 (V0 : Valuation τ sig (Elt F)) : val19 V0 (no_index (Proc.devRef .tc main_arg38)) = V0 (Proc.devRef .tc main_arg38) :=
  (val19_keep V0 main_arg38 (by decide)).trans (val18_main_arg38 V0)
theorem val19_main_arg39 (V0 : Valuation τ sig (Elt F)) : val19 V0 (no_index (Proc.devRef .tc main_arg39)) = V0 (Proc.devRef .tc main_arg39) :=
  (val19_keep V0 main_arg39 (by decide)).trans (val18_main_arg39 V0)
theorem val19_main_arg40 (V0 : Valuation τ sig (Elt F)) : val19 V0 (no_index (Proc.devRef .tc main_arg40)) = V0 (Proc.devRef .tc main_arg40) :=
  (val19_keep V0 main_arg40 (by decide)).trans (val18_main_arg40 V0)
theorem val19_main_arg41 (V0 : Valuation τ sig (Elt F)) : val19 V0 (no_index (Proc.devRef .tc main_arg41)) = V0 (Proc.devRef .tc main_arg41) :=
  (val19_keep V0 main_arg41 (by decide)).trans (val18_main_arg41 V0)
theorem val19_main_arg42 (V0 : Valuation τ sig (Elt F)) : val19 V0 (no_index (Proc.devRef .tc main_arg42)) = V0 (Proc.devRef .tc main_arg42) :=
  (val19_keep V0 main_arg42 (by decide)).trans (val18_main_arg42 V0)
theorem val19_main_v81 (V0 : Valuation τ sig (Elt F)) : val19 V0 (no_index (Proc.devRef .tc main_v81)) = E_main_v81 V0 :=
  (val19_keep V0 main_v81 (by decide)).trans (val18_main_v81 V0)
theorem val19_main_v84 (V0 : Valuation τ sig (Elt F)) : val19 V0 (no_index (Proc.devRef .tc main_v84)) = E_main_v84 V0 :=
  (val19_keep V0 main_v84 (by decide)).trans (val18_main_v84 V0)
theorem val19_main_v87 (V0 : Valuation τ sig (Elt F)) : val19 V0 (no_index (Proc.devRef .tc main_v87)) = E_main_v87 V0 :=
  (val19_keep V0 main_v87 (by decide)).trans (val18_main_v87 V0)
theorem val19_main_v116 (V0 : Valuation τ sig (Elt F)) : val19 V0 (no_index (Proc.devRef .tc main_v116)) = E_main_v116 V0 :=
  (val19_keep V0 main_v116 (by decide)).trans (val18_main_v116 V0)
set_option maxRecDepth 8192 in
set_option maxHeartbeats 2000000 in
theorem val19_main_v144 (V0 : Valuation τ sig (Elt F)) : val19 V0 (no_index (Proc.devRef .tc main_v144)) = E_main_v144 V0 := by
  unfold val19
  simp only [part19]
  after_results_simp
  simp only [val18_main_arg23, val18_main_v131, val18_main_v133, val18_main_arg22] <;> rfl

/-- The buffer contents after the first 20 stages. -/
def val20 (V0 : Valuation τ sig (Elt F)) : Valuation τ sig (Elt F) := after part20 (val19 V0)
/-- The buffers that stage 20 writes. -/
abbrev part20_W : List (Ref sig .tc) := [main_call4_cst, main_call4_v0, main_v145, main_v146, main_v147, main_v148, main_v149]
set_option maxRecDepth 8192 in
theorem part20_writes : (part20 : List (HloOp τ sig (Elt F))).Forall fun op => op.writes ⊆ (part20_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 20 does not write keeps its contents through it. -/
theorem val20_keep (V0 : Valuation τ sig (Elt F)) (r : Ref sig .tc) (h : r ∉ part20_W) :
    val20 V0 (Proc.devRef .tc r) = val19 V0 (Proc.devRef .tc r) :=
  after_of_writes_sub part20 _ part20_writes h
theorem val20_main_arg24 (V0 : Valuation τ sig (Elt F)) : val20 V0 (no_index (Proc.devRef .tc main_arg24)) = V0 (Proc.devRef .tc main_arg24) :=
  (val20_keep V0 main_arg24 (by decide)).trans (val19_main_arg24 V0)
theorem val20_main_arg25 (V0 : Valuation τ sig (Elt F)) : val20 V0 (no_index (Proc.devRef .tc main_arg25)) = V0 (Proc.devRef .tc main_arg25) :=
  (val20_keep V0 main_arg25 (by decide)).trans (val19_main_arg25 V0)
theorem val20_main_arg26 (V0 : Valuation τ sig (Elt F)) : val20 V0 (no_index (Proc.devRef .tc main_arg26)) = V0 (Proc.devRef .tc main_arg26) :=
  (val20_keep V0 main_arg26 (by decide)).trans (val19_main_arg26 V0)
theorem val20_main_arg27 (V0 : Valuation τ sig (Elt F)) : val20 V0 (no_index (Proc.devRef .tc main_arg27)) = V0 (Proc.devRef .tc main_arg27) :=
  (val20_keep V0 main_arg27 (by decide)).trans (val19_main_arg27 V0)
theorem val20_main_arg28 (V0 : Valuation τ sig (Elt F)) : val20 V0 (no_index (Proc.devRef .tc main_arg28)) = V0 (Proc.devRef .tc main_arg28) :=
  (val20_keep V0 main_arg28 (by decide)).trans (val19_main_arg28 V0)
theorem val20_main_arg29 (V0 : Valuation τ sig (Elt F)) : val20 V0 (no_index (Proc.devRef .tc main_arg29)) = V0 (Proc.devRef .tc main_arg29) :=
  (val20_keep V0 main_arg29 (by decide)).trans (val19_main_arg29 V0)
theorem val20_main_arg30 (V0 : Valuation τ sig (Elt F)) : val20 V0 (no_index (Proc.devRef .tc main_arg30)) = V0 (Proc.devRef .tc main_arg30) :=
  (val20_keep V0 main_arg30 (by decide)).trans (val19_main_arg30 V0)
theorem val20_main_arg31 (V0 : Valuation τ sig (Elt F)) : val20 V0 (no_index (Proc.devRef .tc main_arg31)) = V0 (Proc.devRef .tc main_arg31) :=
  (val20_keep V0 main_arg31 (by decide)).trans (val19_main_arg31 V0)
theorem val20_main_arg32 (V0 : Valuation τ sig (Elt F)) : val20 V0 (no_index (Proc.devRef .tc main_arg32)) = V0 (Proc.devRef .tc main_arg32) :=
  (val20_keep V0 main_arg32 (by decide)).trans (val19_main_arg32 V0)
theorem val20_main_arg33 (V0 : Valuation τ sig (Elt F)) : val20 V0 (no_index (Proc.devRef .tc main_arg33)) = V0 (Proc.devRef .tc main_arg33) :=
  (val20_keep V0 main_arg33 (by decide)).trans (val19_main_arg33 V0)
theorem val20_main_arg34 (V0 : Valuation τ sig (Elt F)) : val20 V0 (no_index (Proc.devRef .tc main_arg34)) = V0 (Proc.devRef .tc main_arg34) :=
  (val20_keep V0 main_arg34 (by decide)).trans (val19_main_arg34 V0)
theorem val20_main_arg35 (V0 : Valuation τ sig (Elt F)) : val20 V0 (no_index (Proc.devRef .tc main_arg35)) = V0 (Proc.devRef .tc main_arg35) :=
  (val20_keep V0 main_arg35 (by decide)).trans (val19_main_arg35 V0)
theorem val20_main_arg36 (V0 : Valuation τ sig (Elt F)) : val20 V0 (no_index (Proc.devRef .tc main_arg36)) = V0 (Proc.devRef .tc main_arg36) :=
  (val20_keep V0 main_arg36 (by decide)).trans (val19_main_arg36 V0)
theorem val20_main_arg37 (V0 : Valuation τ sig (Elt F)) : val20 V0 (no_index (Proc.devRef .tc main_arg37)) = V0 (Proc.devRef .tc main_arg37) :=
  (val20_keep V0 main_arg37 (by decide)).trans (val19_main_arg37 V0)
theorem val20_main_arg38 (V0 : Valuation τ sig (Elt F)) : val20 V0 (no_index (Proc.devRef .tc main_arg38)) = V0 (Proc.devRef .tc main_arg38) :=
  (val20_keep V0 main_arg38 (by decide)).trans (val19_main_arg38 V0)
theorem val20_main_arg39 (V0 : Valuation τ sig (Elt F)) : val20 V0 (no_index (Proc.devRef .tc main_arg39)) = V0 (Proc.devRef .tc main_arg39) :=
  (val20_keep V0 main_arg39 (by decide)).trans (val19_main_arg39 V0)
theorem val20_main_arg40 (V0 : Valuation τ sig (Elt F)) : val20 V0 (no_index (Proc.devRef .tc main_arg40)) = V0 (Proc.devRef .tc main_arg40) :=
  (val20_keep V0 main_arg40 (by decide)).trans (val19_main_arg40 V0)
theorem val20_main_arg41 (V0 : Valuation τ sig (Elt F)) : val20 V0 (no_index (Proc.devRef .tc main_arg41)) = V0 (Proc.devRef .tc main_arg41) :=
  (val20_keep V0 main_arg41 (by decide)).trans (val19_main_arg41 V0)
theorem val20_main_arg42 (V0 : Valuation τ sig (Elt F)) : val20 V0 (no_index (Proc.devRef .tc main_arg42)) = V0 (Proc.devRef .tc main_arg42) :=
  (val20_keep V0 main_arg42 (by decide)).trans (val19_main_arg42 V0)
theorem val20_main_v81 (V0 : Valuation τ sig (Elt F)) : val20 V0 (no_index (Proc.devRef .tc main_v81)) = E_main_v81 V0 :=
  (val20_keep V0 main_v81 (by decide)).trans (val19_main_v81 V0)
theorem val20_main_v84 (V0 : Valuation τ sig (Elt F)) : val20 V0 (no_index (Proc.devRef .tc main_v84)) = E_main_v84 V0 :=
  (val20_keep V0 main_v84 (by decide)).trans (val19_main_v84 V0)
theorem val20_main_v87 (V0 : Valuation τ sig (Elt F)) : val20 V0 (no_index (Proc.devRef .tc main_v87)) = E_main_v87 V0 :=
  (val20_keep V0 main_v87 (by decide)).trans (val19_main_v87 V0)
theorem val20_main_v116 (V0 : Valuation τ sig (Elt F)) : val20 V0 (no_index (Proc.devRef .tc main_v116)) = E_main_v116 V0 :=
  (val20_keep V0 main_v116 (by decide)).trans (val19_main_v116 V0)
set_option maxRecDepth 8192 in
set_option maxHeartbeats 2000000 in
theorem val20_main_v145 (V0 : Valuation τ sig (Elt F)) : val20 V0 (no_index (Proc.devRef .tc main_v145)) = E_main_v145 V0 := by
  unfold val20
  simp only [part20]
  after_results_simp
  simp only [val19_main_v144] <;> rfl
set_option maxRecDepth 8192 in
set_option maxHeartbeats 2000000 in
theorem val20_main_v149 (V0 : Valuation τ sig (Elt F)) : val20 V0 (no_index (Proc.devRef .tc main_v149)) = E_main_v149 V0 := by
  unfold val20
  simp only [part20]
  after_results_simp
  simp only [val19_main_arg19, val19_main_arg18, val19_main_v87] <;> rfl

/-- The buffer contents after the first 21 stages. -/
def val21 (V0 : Valuation τ sig (Elt F)) : Valuation τ sig (Elt F) := after part21 (val20 V0)
/-- The buffers that stage 21 writes. -/
abbrev part21_W : List (Ref sig .tc) := [main_cst_26, main_v150, main_v151, main_cst_27, main_v152, main_v153]
set_option maxRecDepth 8192 in
theorem part21_writes : (part21 : List (HloOp τ sig (Elt F))).Forall fun op => op.writes ⊆ (part21_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 21 does not write keeps its contents through it. -/
theorem val21_keep (V0 : Valuation τ sig (Elt F)) (r : Ref sig .tc) (h : r ∉ part21_W) :
    val21 V0 (Proc.devRef .tc r) = val20 V0 (Proc.devRef .tc r) :=
  after_of_writes_sub part21 _ part21_writes h
theorem val21_main_arg24 (V0 : Valuation τ sig (Elt F)) : val21 V0 (no_index (Proc.devRef .tc main_arg24)) = V0 (Proc.devRef .tc main_arg24) :=
  (val21_keep V0 main_arg24 (by decide)).trans (val20_main_arg24 V0)
theorem val21_main_arg25 (V0 : Valuation τ sig (Elt F)) : val21 V0 (no_index (Proc.devRef .tc main_arg25)) = V0 (Proc.devRef .tc main_arg25) :=
  (val21_keep V0 main_arg25 (by decide)).trans (val20_main_arg25 V0)
theorem val21_main_arg26 (V0 : Valuation τ sig (Elt F)) : val21 V0 (no_index (Proc.devRef .tc main_arg26)) = V0 (Proc.devRef .tc main_arg26) :=
  (val21_keep V0 main_arg26 (by decide)).trans (val20_main_arg26 V0)
theorem val21_main_arg27 (V0 : Valuation τ sig (Elt F)) : val21 V0 (no_index (Proc.devRef .tc main_arg27)) = V0 (Proc.devRef .tc main_arg27) :=
  (val21_keep V0 main_arg27 (by decide)).trans (val20_main_arg27 V0)
theorem val21_main_arg28 (V0 : Valuation τ sig (Elt F)) : val21 V0 (no_index (Proc.devRef .tc main_arg28)) = V0 (Proc.devRef .tc main_arg28) :=
  (val21_keep V0 main_arg28 (by decide)).trans (val20_main_arg28 V0)
theorem val21_main_arg29 (V0 : Valuation τ sig (Elt F)) : val21 V0 (no_index (Proc.devRef .tc main_arg29)) = V0 (Proc.devRef .tc main_arg29) :=
  (val21_keep V0 main_arg29 (by decide)).trans (val20_main_arg29 V0)
theorem val21_main_arg30 (V0 : Valuation τ sig (Elt F)) : val21 V0 (no_index (Proc.devRef .tc main_arg30)) = V0 (Proc.devRef .tc main_arg30) :=
  (val21_keep V0 main_arg30 (by decide)).trans (val20_main_arg30 V0)
theorem val21_main_arg31 (V0 : Valuation τ sig (Elt F)) : val21 V0 (no_index (Proc.devRef .tc main_arg31)) = V0 (Proc.devRef .tc main_arg31) :=
  (val21_keep V0 main_arg31 (by decide)).trans (val20_main_arg31 V0)
theorem val21_main_arg32 (V0 : Valuation τ sig (Elt F)) : val21 V0 (no_index (Proc.devRef .tc main_arg32)) = V0 (Proc.devRef .tc main_arg32) :=
  (val21_keep V0 main_arg32 (by decide)).trans (val20_main_arg32 V0)
theorem val21_main_arg33 (V0 : Valuation τ sig (Elt F)) : val21 V0 (no_index (Proc.devRef .tc main_arg33)) = V0 (Proc.devRef .tc main_arg33) :=
  (val21_keep V0 main_arg33 (by decide)).trans (val20_main_arg33 V0)
theorem val21_main_arg34 (V0 : Valuation τ sig (Elt F)) : val21 V0 (no_index (Proc.devRef .tc main_arg34)) = V0 (Proc.devRef .tc main_arg34) :=
  (val21_keep V0 main_arg34 (by decide)).trans (val20_main_arg34 V0)
theorem val21_main_arg35 (V0 : Valuation τ sig (Elt F)) : val21 V0 (no_index (Proc.devRef .tc main_arg35)) = V0 (Proc.devRef .tc main_arg35) :=
  (val21_keep V0 main_arg35 (by decide)).trans (val20_main_arg35 V0)
theorem val21_main_arg36 (V0 : Valuation τ sig (Elt F)) : val21 V0 (no_index (Proc.devRef .tc main_arg36)) = V0 (Proc.devRef .tc main_arg36) :=
  (val21_keep V0 main_arg36 (by decide)).trans (val20_main_arg36 V0)
theorem val21_main_arg37 (V0 : Valuation τ sig (Elt F)) : val21 V0 (no_index (Proc.devRef .tc main_arg37)) = V0 (Proc.devRef .tc main_arg37) :=
  (val21_keep V0 main_arg37 (by decide)).trans (val20_main_arg37 V0)
theorem val21_main_arg38 (V0 : Valuation τ sig (Elt F)) : val21 V0 (no_index (Proc.devRef .tc main_arg38)) = V0 (Proc.devRef .tc main_arg38) :=
  (val21_keep V0 main_arg38 (by decide)).trans (val20_main_arg38 V0)
theorem val21_main_arg39 (V0 : Valuation τ sig (Elt F)) : val21 V0 (no_index (Proc.devRef .tc main_arg39)) = V0 (Proc.devRef .tc main_arg39) :=
  (val21_keep V0 main_arg39 (by decide)).trans (val20_main_arg39 V0)
theorem val21_main_arg40 (V0 : Valuation τ sig (Elt F)) : val21 V0 (no_index (Proc.devRef .tc main_arg40)) = V0 (Proc.devRef .tc main_arg40) :=
  (val21_keep V0 main_arg40 (by decide)).trans (val20_main_arg40 V0)
theorem val21_main_arg41 (V0 : Valuation τ sig (Elt F)) : val21 V0 (no_index (Proc.devRef .tc main_arg41)) = V0 (Proc.devRef .tc main_arg41) :=
  (val21_keep V0 main_arg41 (by decide)).trans (val20_main_arg41 V0)
theorem val21_main_arg42 (V0 : Valuation τ sig (Elt F)) : val21 V0 (no_index (Proc.devRef .tc main_arg42)) = V0 (Proc.devRef .tc main_arg42) :=
  (val21_keep V0 main_arg42 (by decide)).trans (val20_main_arg42 V0)
theorem val21_main_v81 (V0 : Valuation τ sig (Elt F)) : val21 V0 (no_index (Proc.devRef .tc main_v81)) = E_main_v81 V0 :=
  (val21_keep V0 main_v81 (by decide)).trans (val20_main_v81 V0)
theorem val21_main_v84 (V0 : Valuation τ sig (Elt F)) : val21 V0 (no_index (Proc.devRef .tc main_v84)) = E_main_v84 V0 :=
  (val21_keep V0 main_v84 (by decide)).trans (val20_main_v84 V0)
theorem val21_main_v87 (V0 : Valuation τ sig (Elt F)) : val21 V0 (no_index (Proc.devRef .tc main_v87)) = E_main_v87 V0 :=
  (val21_keep V0 main_v87 (by decide)).trans (val20_main_v87 V0)
theorem val21_main_v116 (V0 : Valuation τ sig (Elt F)) : val21 V0 (no_index (Proc.devRef .tc main_v116)) = E_main_v116 V0 :=
  (val21_keep V0 main_v116 (by decide)).trans (val20_main_v116 V0)
theorem val21_main_v145 (V0 : Valuation τ sig (Elt F)) : val21 V0 (no_index (Proc.devRef .tc main_v145)) = E_main_v145 V0 :=
  (val21_keep V0 main_v145 (by decide)).trans (val20_main_v145 V0)
theorem val21_main_v149 (V0 : Valuation τ sig (Elt F)) : val21 V0 (no_index (Proc.devRef .tc main_v149)) = E_main_v149 V0 :=
  (val21_keep V0 main_v149 (by decide)).trans (val20_main_v149 V0)
set_option maxRecDepth 8192 in
set_option maxHeartbeats 2000000 in
theorem val21_main_v153 (V0 : Valuation τ sig (Elt F)) : val21 V0 (no_index (Proc.devRef .tc main_v153)) = E_main_v153 V0 := by
  unfold val21
  simp only [part21]
  after_results_simp
  simp only [val20_main_v149] <;> rfl

/-- The buffer contents after the first 22 stages. -/
def val22 (V0 : Valuation τ sig (Elt F)) : Valuation τ sig (Elt F) := after part22 (val21 V0)
/-- The buffers that stage 22 writes. -/
abbrev part22_W : List (Ref sig .tc) := [main_v154, main_v155, main_v156, main_cst_28, main_v157, main_v158, main_cst_29, main_v159, main_v160, main_v161, main_v162]
set_option maxRecDepth 8192 in
theorem part22_writes : (part22 : List (HloOp τ sig (Elt F))).Forall fun op => op.writes ⊆ (part22_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 22 does not write keeps its contents through it. -/
theorem val22_keep (V0 : Valuation τ sig (Elt F)) (r : Ref sig .tc) (h : r ∉ part22_W) :
    val22 V0 (Proc.devRef .tc r) = val21 V0 (Proc.devRef .tc r) :=
  after_of_writes_sub part22 _ part22_writes h
theorem val22_main_arg24 (V0 : Valuation τ sig (Elt F)) : val22 V0 (no_index (Proc.devRef .tc main_arg24)) = V0 (Proc.devRef .tc main_arg24) :=
  (val22_keep V0 main_arg24 (by decide)).trans (val21_main_arg24 V0)
theorem val22_main_arg25 (V0 : Valuation τ sig (Elt F)) : val22 V0 (no_index (Proc.devRef .tc main_arg25)) = V0 (Proc.devRef .tc main_arg25) :=
  (val22_keep V0 main_arg25 (by decide)).trans (val21_main_arg25 V0)
theorem val22_main_arg26 (V0 : Valuation τ sig (Elt F)) : val22 V0 (no_index (Proc.devRef .tc main_arg26)) = V0 (Proc.devRef .tc main_arg26) :=
  (val22_keep V0 main_arg26 (by decide)).trans (val21_main_arg26 V0)
theorem val22_main_arg27 (V0 : Valuation τ sig (Elt F)) : val22 V0 (no_index (Proc.devRef .tc main_arg27)) = V0 (Proc.devRef .tc main_arg27) :=
  (val22_keep V0 main_arg27 (by decide)).trans (val21_main_arg27 V0)
theorem val22_main_arg28 (V0 : Valuation τ sig (Elt F)) : val22 V0 (no_index (Proc.devRef .tc main_arg28)) = V0 (Proc.devRef .tc main_arg28) :=
  (val22_keep V0 main_arg28 (by decide)).trans (val21_main_arg28 V0)
theorem val22_main_arg29 (V0 : Valuation τ sig (Elt F)) : val22 V0 (no_index (Proc.devRef .tc main_arg29)) = V0 (Proc.devRef .tc main_arg29) :=
  (val22_keep V0 main_arg29 (by decide)).trans (val21_main_arg29 V0)
theorem val22_main_arg30 (V0 : Valuation τ sig (Elt F)) : val22 V0 (no_index (Proc.devRef .tc main_arg30)) = V0 (Proc.devRef .tc main_arg30) :=
  (val22_keep V0 main_arg30 (by decide)).trans (val21_main_arg30 V0)
theorem val22_main_arg31 (V0 : Valuation τ sig (Elt F)) : val22 V0 (no_index (Proc.devRef .tc main_arg31)) = V0 (Proc.devRef .tc main_arg31) :=
  (val22_keep V0 main_arg31 (by decide)).trans (val21_main_arg31 V0)
theorem val22_main_arg32 (V0 : Valuation τ sig (Elt F)) : val22 V0 (no_index (Proc.devRef .tc main_arg32)) = V0 (Proc.devRef .tc main_arg32) :=
  (val22_keep V0 main_arg32 (by decide)).trans (val21_main_arg32 V0)
theorem val22_main_arg33 (V0 : Valuation τ sig (Elt F)) : val22 V0 (no_index (Proc.devRef .tc main_arg33)) = V0 (Proc.devRef .tc main_arg33) :=
  (val22_keep V0 main_arg33 (by decide)).trans (val21_main_arg33 V0)
theorem val22_main_arg34 (V0 : Valuation τ sig (Elt F)) : val22 V0 (no_index (Proc.devRef .tc main_arg34)) = V0 (Proc.devRef .tc main_arg34) :=
  (val22_keep V0 main_arg34 (by decide)).trans (val21_main_arg34 V0)
theorem val22_main_arg35 (V0 : Valuation τ sig (Elt F)) : val22 V0 (no_index (Proc.devRef .tc main_arg35)) = V0 (Proc.devRef .tc main_arg35) :=
  (val22_keep V0 main_arg35 (by decide)).trans (val21_main_arg35 V0)
theorem val22_main_arg36 (V0 : Valuation τ sig (Elt F)) : val22 V0 (no_index (Proc.devRef .tc main_arg36)) = V0 (Proc.devRef .tc main_arg36) :=
  (val22_keep V0 main_arg36 (by decide)).trans (val21_main_arg36 V0)
theorem val22_main_arg37 (V0 : Valuation τ sig (Elt F)) : val22 V0 (no_index (Proc.devRef .tc main_arg37)) = V0 (Proc.devRef .tc main_arg37) :=
  (val22_keep V0 main_arg37 (by decide)).trans (val21_main_arg37 V0)
theorem val22_main_arg38 (V0 : Valuation τ sig (Elt F)) : val22 V0 (no_index (Proc.devRef .tc main_arg38)) = V0 (Proc.devRef .tc main_arg38) :=
  (val22_keep V0 main_arg38 (by decide)).trans (val21_main_arg38 V0)
theorem val22_main_arg39 (V0 : Valuation τ sig (Elt F)) : val22 V0 (no_index (Proc.devRef .tc main_arg39)) = V0 (Proc.devRef .tc main_arg39) :=
  (val22_keep V0 main_arg39 (by decide)).trans (val21_main_arg39 V0)
theorem val22_main_arg40 (V0 : Valuation τ sig (Elt F)) : val22 V0 (no_index (Proc.devRef .tc main_arg40)) = V0 (Proc.devRef .tc main_arg40) :=
  (val22_keep V0 main_arg40 (by decide)).trans (val21_main_arg40 V0)
theorem val22_main_arg41 (V0 : Valuation τ sig (Elt F)) : val22 V0 (no_index (Proc.devRef .tc main_arg41)) = V0 (Proc.devRef .tc main_arg41) :=
  (val22_keep V0 main_arg41 (by decide)).trans (val21_main_arg41 V0)
theorem val22_main_arg42 (V0 : Valuation τ sig (Elt F)) : val22 V0 (no_index (Proc.devRef .tc main_arg42)) = V0 (Proc.devRef .tc main_arg42) :=
  (val22_keep V0 main_arg42 (by decide)).trans (val21_main_arg42 V0)
theorem val22_main_v81 (V0 : Valuation τ sig (Elt F)) : val22 V0 (no_index (Proc.devRef .tc main_v81)) = E_main_v81 V0 :=
  (val22_keep V0 main_v81 (by decide)).trans (val21_main_v81 V0)
theorem val22_main_v84 (V0 : Valuation τ sig (Elt F)) : val22 V0 (no_index (Proc.devRef .tc main_v84)) = E_main_v84 V0 :=
  (val22_keep V0 main_v84 (by decide)).trans (val21_main_v84 V0)
theorem val22_main_v87 (V0 : Valuation τ sig (Elt F)) : val22 V0 (no_index (Proc.devRef .tc main_v87)) = E_main_v87 V0 :=
  (val22_keep V0 main_v87 (by decide)).trans (val21_main_v87 V0)
theorem val22_main_v116 (V0 : Valuation τ sig (Elt F)) : val22 V0 (no_index (Proc.devRef .tc main_v116)) = E_main_v116 V0 :=
  (val22_keep V0 main_v116 (by decide)).trans (val21_main_v116 V0)
theorem val22_main_v145 (V0 : Valuation τ sig (Elt F)) : val22 V0 (no_index (Proc.devRef .tc main_v145)) = E_main_v145 V0 :=
  (val22_keep V0 main_v145 (by decide)).trans (val21_main_v145 V0)
set_option maxRecDepth 8192 in
set_option maxHeartbeats 2000000 in
theorem val22_main_v160 (V0 : Valuation τ sig (Elt F)) : val22 V0 (no_index (Proc.devRef .tc main_v160)) = E_main_v160 V0 := by
  unfold val22
  simp only [part22]
  after_results_simp
  simp only [val21_main_v153, val21_main_v149] <;> rfl
set_option maxRecDepth 8192 in
set_option maxHeartbeats 2000000 in
theorem val22_main_v162 (V0 : Valuation τ sig (Elt F)) : val22 V0 (no_index (Proc.devRef .tc main_v162)) = E_main_v162 V0 := by
  unfold val22
  simp only [part22]
  after_results_simp
  simp only [val21_main_v153, val21_main_v149] <;> rfl

/-- The buffer contents after the first 23 stages. -/
def val23 (V0 : Valuation τ sig (Elt F)) : Valuation τ sig (Elt F) := after part23 (val22 V0)
/-- The buffers that stage 23 writes. -/
abbrev part23_W : List (Ref sig .tc) := [main_v163, main_v164, main_v165, main_cst_30, main_v166, main_v167, main_v168, main_v169, main_v170, main_v171, main_v172, main_v173]
set_option maxRecDepth 8192 in
theorem part23_writes : (part23 : List (HloOp τ sig (Elt F))).Forall fun op => op.writes ⊆ (part23_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 23 does not write keeps its contents through it. -/
theorem val23_keep (V0 : Valuation τ sig (Elt F)) (r : Ref sig .tc) (h : r ∉ part23_W) :
    val23 V0 (Proc.devRef .tc r) = val22 V0 (Proc.devRef .tc r) :=
  after_of_writes_sub part23 _ part23_writes h
theorem val23_main_arg26 (V0 : Valuation τ sig (Elt F)) : val23 V0 (no_index (Proc.devRef .tc main_arg26)) = V0 (Proc.devRef .tc main_arg26) :=
  (val23_keep V0 main_arg26 (by decide)).trans (val22_main_arg26 V0)
theorem val23_main_arg27 (V0 : Valuation τ sig (Elt F)) : val23 V0 (no_index (Proc.devRef .tc main_arg27)) = V0 (Proc.devRef .tc main_arg27) :=
  (val23_keep V0 main_arg27 (by decide)).trans (val22_main_arg27 V0)
theorem val23_main_arg28 (V0 : Valuation τ sig (Elt F)) : val23 V0 (no_index (Proc.devRef .tc main_arg28)) = V0 (Proc.devRef .tc main_arg28) :=
  (val23_keep V0 main_arg28 (by decide)).trans (val22_main_arg28 V0)
theorem val23_main_arg29 (V0 : Valuation τ sig (Elt F)) : val23 V0 (no_index (Proc.devRef .tc main_arg29)) = V0 (Proc.devRef .tc main_arg29) :=
  (val23_keep V0 main_arg29 (by decide)).trans (val22_main_arg29 V0)
theorem val23_main_arg30 (V0 : Valuation τ sig (Elt F)) : val23 V0 (no_index (Proc.devRef .tc main_arg30)) = V0 (Proc.devRef .tc main_arg30) :=
  (val23_keep V0 main_arg30 (by decide)).trans (val22_main_arg30 V0)
theorem val23_main_arg31 (V0 : Valuation τ sig (Elt F)) : val23 V0 (no_index (Proc.devRef .tc main_arg31)) = V0 (Proc.devRef .tc main_arg31) :=
  (val23_keep V0 main_arg31 (by decide)).trans (val22_main_arg31 V0)
theorem val23_main_arg32 (V0 : Valuation τ sig (Elt F)) : val23 V0 (no_index (Proc.devRef .tc main_arg32)) = V0 (Proc.devRef .tc main_arg32) :=
  (val23_keep V0 main_arg32 (by decide)).trans (val22_main_arg32 V0)
theorem val23_main_arg33 (V0 : Valuation τ sig (Elt F)) : val23 V0 (no_index (Proc.devRef .tc main_arg33)) = V0 (Proc.devRef .tc main_arg33) :=
  (val23_keep V0 main_arg33 (by decide)).trans (val22_main_arg33 V0)
theorem val23_main_arg34 (V0 : Valuation τ sig (Elt F)) : val23 V0 (no_index (Proc.devRef .tc main_arg34)) = V0 (Proc.devRef .tc main_arg34) :=
  (val23_keep V0 main_arg34 (by decide)).trans (val22_main_arg34 V0)
theorem val23_main_arg35 (V0 : Valuation τ sig (Elt F)) : val23 V0 (no_index (Proc.devRef .tc main_arg35)) = V0 (Proc.devRef .tc main_arg35) :=
  (val23_keep V0 main_arg35 (by decide)).trans (val22_main_arg35 V0)
theorem val23_main_arg36 (V0 : Valuation τ sig (Elt F)) : val23 V0 (no_index (Proc.devRef .tc main_arg36)) = V0 (Proc.devRef .tc main_arg36) :=
  (val23_keep V0 main_arg36 (by decide)).trans (val22_main_arg36 V0)
theorem val23_main_arg37 (V0 : Valuation τ sig (Elt F)) : val23 V0 (no_index (Proc.devRef .tc main_arg37)) = V0 (Proc.devRef .tc main_arg37) :=
  (val23_keep V0 main_arg37 (by decide)).trans (val22_main_arg37 V0)
theorem val23_main_arg38 (V0 : Valuation τ sig (Elt F)) : val23 V0 (no_index (Proc.devRef .tc main_arg38)) = V0 (Proc.devRef .tc main_arg38) :=
  (val23_keep V0 main_arg38 (by decide)).trans (val22_main_arg38 V0)
theorem val23_main_arg39 (V0 : Valuation τ sig (Elt F)) : val23 V0 (no_index (Proc.devRef .tc main_arg39)) = V0 (Proc.devRef .tc main_arg39) :=
  (val23_keep V0 main_arg39 (by decide)).trans (val22_main_arg39 V0)
theorem val23_main_arg40 (V0 : Valuation τ sig (Elt F)) : val23 V0 (no_index (Proc.devRef .tc main_arg40)) = V0 (Proc.devRef .tc main_arg40) :=
  (val23_keep V0 main_arg40 (by decide)).trans (val22_main_arg40 V0)
theorem val23_main_arg41 (V0 : Valuation τ sig (Elt F)) : val23 V0 (no_index (Proc.devRef .tc main_arg41)) = V0 (Proc.devRef .tc main_arg41) :=
  (val23_keep V0 main_arg41 (by decide)).trans (val22_main_arg41 V0)
theorem val23_main_arg42 (V0 : Valuation τ sig (Elt F)) : val23 V0 (no_index (Proc.devRef .tc main_arg42)) = V0 (Proc.devRef .tc main_arg42) :=
  (val23_keep V0 main_arg42 (by decide)).trans (val22_main_arg42 V0)
theorem val23_main_v81 (V0 : Valuation τ sig (Elt F)) : val23 V0 (no_index (Proc.devRef .tc main_v81)) = E_main_v81 V0 :=
  (val23_keep V0 main_v81 (by decide)).trans (val22_main_v81 V0)
theorem val23_main_v84 (V0 : Valuation τ sig (Elt F)) : val23 V0 (no_index (Proc.devRef .tc main_v84)) = E_main_v84 V0 :=
  (val23_keep V0 main_v84 (by decide)).trans (val22_main_v84 V0)
theorem val23_main_v87 (V0 : Valuation τ sig (Elt F)) : val23 V0 (no_index (Proc.devRef .tc main_v87)) = E_main_v87 V0 :=
  (val23_keep V0 main_v87 (by decide)).trans (val22_main_v87 V0)
theorem val23_main_v116 (V0 : Valuation τ sig (Elt F)) : val23 V0 (no_index (Proc.devRef .tc main_v116)) = E_main_v116 V0 :=
  (val23_keep V0 main_v116 (by decide)).trans (val22_main_v116 V0)
theorem val23_main_v145 (V0 : Valuation τ sig (Elt F)) : val23 V0 (no_index (Proc.devRef .tc main_v145)) = E_main_v145 V0 :=
  (val23_keep V0 main_v145 (by decide)).trans (val22_main_v145 V0)
set_option maxRecDepth 8192 in
set_option maxHeartbeats 2000000 in
theorem val23_main_v173 (V0 : Valuation τ sig (Elt F)) : val23 V0 (no_index (Proc.devRef .tc main_v173)) = E_main_v173 V0 := by
  unfold val23
  simp only [part23]
  after_results_simp
  simp only [val22_main_arg25, val22_main_v160, val22_main_v162, val22_main_arg24] <;> rfl

/-- The buffer contents after the first 24 stages. -/
def val24 (V0 : Valuation τ sig (Elt F)) : Valuation τ sig (Elt F) := after part24 (val23 V0)
/-- The buffers that stage 24 writes. -/
abbrev part24_W : List (Ref sig .tc) := [main_call5_cst, main_call5_v0, main_v174, main_v175, main_v176, main_v177, main_v178, main_v179, main_v180, main_v181, main_v182]
set_option maxRecDepth 8192 in
theorem part24_writes : (part24 : List (HloOp τ sig (Elt F))).Forall fun op => op.writes ⊆ (part24_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 24 does not write keeps its contents through it. -/
theorem val24_keep (V0 : Valuation τ sig (Elt F)) (r : Ref sig .tc) (h : r ∉ part24_W) :
    val24 V0 (Proc.devRef .tc r) = val23 V0 (Proc.devRef .tc r) :=
  after_of_writes_sub part24 _ part24_writes h
theorem val24_main_arg29 (V0 : Valuation τ sig (Elt F)) : val24 V0 (no_index (Proc.devRef .tc main_arg29)) = V0 (Proc.devRef .tc main_arg29) :=
  (val24_keep V0 main_arg29 (by decide)).trans (val23_main_arg29 V0)
theorem val24_main_arg30 (V0 : Valuation τ sig (Elt F)) : val24 V0 (no_index (Proc.devRef .tc main_arg30)) = V0 (Proc.devRef .tc main_arg30) :=
  (val24_keep V0 main_arg30 (by decide)).trans (val23_main_arg30 V0)
theorem val24_main_arg31 (V0 : Valuation τ sig (Elt F)) : val24 V0 (no_index (Proc.devRef .tc main_arg31)) = V0 (Proc.devRef .tc main_arg31) :=
  (val24_keep V0 main_arg31 (by decide)).trans (val23_main_arg31 V0)
theorem val24_main_arg32 (V0 : Valuation τ sig (Elt F)) : val24 V0 (no_index (Proc.devRef .tc main_arg32)) = V0 (Proc.devRef .tc main_arg32) :=
  (val24_keep V0 main_arg32 (by decide)).trans (val23_main_arg32 V0)
theorem val24_main_arg33 (V0 : Valuation τ sig (Elt F)) : val24 V0 (no_index (Proc.devRef .tc main_arg33)) = V0 (Proc.devRef .tc main_arg33) :=
  (val24_keep V0 main_arg33 (by decide)).trans (val23_main_arg33 V0)
theorem val24_main_arg34 (V0 : Valuation τ sig (Elt F)) : val24 V0 (no_index (Proc.devRef .tc main_arg34)) = V0 (Proc.devRef .tc main_arg34) :=
  (val24_keep V0 main_arg34 (by decide)).trans (val23_main_arg34 V0)
theorem val24_main_arg35 (V0 : Valuation τ sig (Elt F)) : val24 V0 (no_index (Proc.devRef .tc main_arg35)) = V0 (Proc.devRef .tc main_arg35) :=
  (val24_keep V0 main_arg35 (by decide)).trans (val23_main_arg35 V0)
theorem val24_main_arg36 (V0 : Valuation τ sig (Elt F)) : val24 V0 (no_index (Proc.devRef .tc main_arg36)) = V0 (Proc.devRef .tc main_arg36) :=
  (val24_keep V0 main_arg36 (by decide)).trans (val23_main_arg36 V0)
theorem val24_main_arg37 (V0 : Valuation τ sig (Elt F)) : val24 V0 (no_index (Proc.devRef .tc main_arg37)) = V0 (Proc.devRef .tc main_arg37) :=
  (val24_keep V0 main_arg37 (by decide)).trans (val23_main_arg37 V0)
theorem val24_main_arg38 (V0 : Valuation τ sig (Elt F)) : val24 V0 (no_index (Proc.devRef .tc main_arg38)) = V0 (Proc.devRef .tc main_arg38) :=
  (val24_keep V0 main_arg38 (by decide)).trans (val23_main_arg38 V0)
theorem val24_main_arg39 (V0 : Valuation τ sig (Elt F)) : val24 V0 (no_index (Proc.devRef .tc main_arg39)) = V0 (Proc.devRef .tc main_arg39) :=
  (val24_keep V0 main_arg39 (by decide)).trans (val23_main_arg39 V0)
theorem val24_main_arg40 (V0 : Valuation τ sig (Elt F)) : val24 V0 (no_index (Proc.devRef .tc main_arg40)) = V0 (Proc.devRef .tc main_arg40) :=
  (val24_keep V0 main_arg40 (by decide)).trans (val23_main_arg40 V0)
theorem val24_main_arg41 (V0 : Valuation τ sig (Elt F)) : val24 V0 (no_index (Proc.devRef .tc main_arg41)) = V0 (Proc.devRef .tc main_arg41) :=
  (val24_keep V0 main_arg41 (by decide)).trans (val23_main_arg41 V0)
theorem val24_main_arg42 (V0 : Valuation τ sig (Elt F)) : val24 V0 (no_index (Proc.devRef .tc main_arg42)) = V0 (Proc.devRef .tc main_arg42) :=
  (val24_keep V0 main_arg42 (by decide)).trans (val23_main_arg42 V0)
theorem val24_main_v81 (V0 : Valuation τ sig (Elt F)) : val24 V0 (no_index (Proc.devRef .tc main_v81)) = E_main_v81 V0 :=
  (val24_keep V0 main_v81 (by decide)).trans (val23_main_v81 V0)
theorem val24_main_v84 (V0 : Valuation τ sig (Elt F)) : val24 V0 (no_index (Proc.devRef .tc main_v84)) = E_main_v84 V0 :=
  (val24_keep V0 main_v84 (by decide)).trans (val23_main_v84 V0)
theorem val24_main_v87 (V0 : Valuation τ sig (Elt F)) : val24 V0 (no_index (Proc.devRef .tc main_v87)) = E_main_v87 V0 :=
  (val24_keep V0 main_v87 (by decide)).trans (val23_main_v87 V0)
set_option maxRecDepth 8192 in
set_option maxHeartbeats 2000000 in
theorem val24_main_v182 (V0 : Valuation τ sig (Elt F)) : val24 V0 (no_index (Proc.devRef .tc main_v182)) = E_main_v182 V0 := by
  unfold val24
  simp only [part24]
  after_results_simp
  simp only [val23_main_arg28, val23_main_v173, val23_main_arg27, val23_main_v145, val23_main_arg26, val23_main_v116] <;> rfl

/-- The buffer contents after the first 25 stages. -/
def val25 (V0 : Valuation τ sig (Elt F)) : Valuation τ sig (Elt F) := after part25 (val24 V0)
/-- The buffers that stage 25 writes. -/
abbrev part25_W : List (Ref sig .tc) := [main_v183, main_v184, main_v185, main_v186, main_v187, main_call6_cst, main_call6_v0, main_v188, main_v189, main_v190, main_v191, main_v192]
set_option maxRecDepth 8192 in
theorem part25_writes : (part25 : List (HloOp τ sig (Elt F))).Forall fun op => op.writes ⊆ (part25_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 25 does not write keeps its contents through it. -/
theorem val25_keep (V0 : Valuation τ sig (Elt F)) (r : Ref sig .tc) (h : r ∉ part25_W) :
    val25 V0 (Proc.devRef .tc r) = val24 V0 (Proc.devRef .tc r) :=
  after_of_writes_sub part25 _ part25_writes h
theorem val25_main_arg33 (V0 : Valuation τ sig (Elt F)) : val25 V0 (no_index (Proc.devRef .tc main_arg33)) = V0 (Proc.devRef .tc main_arg33) :=
  (val25_keep V0 main_arg33 (by decide)).trans (val24_main_arg33 V0)
theorem val25_main_arg34 (V0 : Valuation τ sig (Elt F)) : val25 V0 (no_index (Proc.devRef .tc main_arg34)) = V0 (Proc.devRef .tc main_arg34) :=
  (val25_keep V0 main_arg34 (by decide)).trans (val24_main_arg34 V0)
theorem val25_main_arg35 (V0 : Valuation τ sig (Elt F)) : val25 V0 (no_index (Proc.devRef .tc main_arg35)) = V0 (Proc.devRef .tc main_arg35) :=
  (val25_keep V0 main_arg35 (by decide)).trans (val24_main_arg35 V0)
theorem val25_main_arg36 (V0 : Valuation τ sig (Elt F)) : val25 V0 (no_index (Proc.devRef .tc main_arg36)) = V0 (Proc.devRef .tc main_arg36) :=
  (val25_keep V0 main_arg36 (by decide)).trans (val24_main_arg36 V0)
theorem val25_main_arg37 (V0 : Valuation τ sig (Elt F)) : val25 V0 (no_index (Proc.devRef .tc main_arg37)) = V0 (Proc.devRef .tc main_arg37) :=
  (val25_keep V0 main_arg37 (by decide)).trans (val24_main_arg37 V0)
theorem val25_main_arg38 (V0 : Valuation τ sig (Elt F)) : val25 V0 (no_index (Proc.devRef .tc main_arg38)) = V0 (Proc.devRef .tc main_arg38) :=
  (val25_keep V0 main_arg38 (by decide)).trans (val24_main_arg38 V0)
theorem val25_main_arg39 (V0 : Valuation τ sig (Elt F)) : val25 V0 (no_index (Proc.devRef .tc main_arg39)) = V0 (Proc.devRef .tc main_arg39) :=
  (val25_keep V0 main_arg39 (by decide)).trans (val24_main_arg39 V0)
theorem val25_main_arg40 (V0 : Valuation τ sig (Elt F)) : val25 V0 (no_index (Proc.devRef .tc main_arg40)) = V0 (Proc.devRef .tc main_arg40) :=
  (val25_keep V0 main_arg40 (by decide)).trans (val24_main_arg40 V0)
theorem val25_main_arg41 (V0 : Valuation τ sig (Elt F)) : val25 V0 (no_index (Proc.devRef .tc main_arg41)) = V0 (Proc.devRef .tc main_arg41) :=
  (val25_keep V0 main_arg41 (by decide)).trans (val24_main_arg41 V0)
theorem val25_main_arg42 (V0 : Valuation τ sig (Elt F)) : val25 V0 (no_index (Proc.devRef .tc main_arg42)) = V0 (Proc.devRef .tc main_arg42) :=
  (val25_keep V0 main_arg42 (by decide)).trans (val24_main_arg42 V0)
theorem val25_main_v182 (V0 : Valuation τ sig (Elt F)) : val25 V0 (no_index (Proc.devRef .tc main_v182)) = E_main_v182 V0 :=
  (val25_keep V0 main_v182 (by decide)).trans (val24_main_v182 V0)
set_option maxRecDepth 8192 in
set_option maxHeartbeats 2000000 in
theorem val25_main_v192 (V0 : Valuation τ sig (Elt F)) : val25 V0 (no_index (Proc.devRef .tc main_v192)) = E_main_v192 V0 := by
  unfold val25
  simp only [part25]
  after_results_simp
  try dsimp only [Matrix.cons_val]
  try after_results_simp
  try simp only [val24_main_arg32, val24_main_arg31, val24_main_arg30, val24_main_arg29]
  rw [val24_main_v81, val24_main_v84, val24_main_v87]
  rfl

/-- The buffer contents after the first 26 stages. -/
def val26 (V0 : Valuation τ sig (Elt F)) : Valuation τ sig (Elt F) := after part26 (val25 V0)
/-- The buffers that stage 26 writes. -/
abbrev part26_W : List (Ref sig .tc) := [main_cst_31, main_v193, main_cst_32, main_v194, main_v195, main_v196, main_v197, main_v198, main_v199]
set_option maxRecDepth 8192 in
theorem part26_writes : (part26 : List (HloOp τ sig (Elt F))).Forall fun op => op.writes ⊆ (part26_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 26 does not write keeps its contents through it. -/
theorem val26_keep (V0 : Valuation τ sig (Elt F)) (r : Ref sig .tc) (h : r ∉ part26_W) :
    val26 V0 (Proc.devRef .tc r) = val25 V0 (Proc.devRef .tc r) :=
  after_of_writes_sub part26 _ part26_writes h
theorem val26_main_arg33 (V0 : Valuation τ sig (Elt F)) : val26 V0 (no_index (Proc.devRef .tc main_arg33)) = V0 (Proc.devRef .tc main_arg33) :=
  (val26_keep V0 main_arg33 (by decide)).trans (val25_main_arg33 V0)
theorem val26_main_arg34 (V0 : Valuation τ sig (Elt F)) : val26 V0 (no_index (Proc.devRef .tc main_arg34)) = V0 (Proc.devRef .tc main_arg34) :=
  (val26_keep V0 main_arg34 (by decide)).trans (val25_main_arg34 V0)
theorem val26_main_arg35 (V0 : Valuation τ sig (Elt F)) : val26 V0 (no_index (Proc.devRef .tc main_arg35)) = V0 (Proc.devRef .tc main_arg35) :=
  (val26_keep V0 main_arg35 (by decide)).trans (val25_main_arg35 V0)
theorem val26_main_arg36 (V0 : Valuation τ sig (Elt F)) : val26 V0 (no_index (Proc.devRef .tc main_arg36)) = V0 (Proc.devRef .tc main_arg36) :=
  (val26_keep V0 main_arg36 (by decide)).trans (val25_main_arg36 V0)
theorem val26_main_arg37 (V0 : Valuation τ sig (Elt F)) : val26 V0 (no_index (Proc.devRef .tc main_arg37)) = V0 (Proc.devRef .tc main_arg37) :=
  (val26_keep V0 main_arg37 (by decide)).trans (val25_main_arg37 V0)
theorem val26_main_arg38 (V0 : Valuation τ sig (Elt F)) : val26 V0 (no_index (Proc.devRef .tc main_arg38)) = V0 (Proc.devRef .tc main_arg38) :=
  (val26_keep V0 main_arg38 (by decide)).trans (val25_main_arg38 V0)
theorem val26_main_arg39 (V0 : Valuation τ sig (Elt F)) : val26 V0 (no_index (Proc.devRef .tc main_arg39)) = V0 (Proc.devRef .tc main_arg39) :=
  (val26_keep V0 main_arg39 (by decide)).trans (val25_main_arg39 V0)
theorem val26_main_arg40 (V0 : Valuation τ sig (Elt F)) : val26 V0 (no_index (Proc.devRef .tc main_arg40)) = V0 (Proc.devRef .tc main_arg40) :=
  (val26_keep V0 main_arg40 (by decide)).trans (val25_main_arg40 V0)
theorem val26_main_arg41 (V0 : Valuation τ sig (Elt F)) : val26 V0 (no_index (Proc.devRef .tc main_arg41)) = V0 (Proc.devRef .tc main_arg41) :=
  (val26_keep V0 main_arg41 (by decide)).trans (val25_main_arg41 V0)
theorem val26_main_arg42 (V0 : Valuation τ sig (Elt F)) : val26 V0 (no_index (Proc.devRef .tc main_arg42)) = V0 (Proc.devRef .tc main_arg42) :=
  (val26_keep V0 main_arg42 (by decide)).trans (val25_main_arg42 V0)
theorem val26_main_v182 (V0 : Valuation τ sig (Elt F)) : val26 V0 (no_index (Proc.devRef .tc main_v182)) = E_main_v182 V0 :=
  (val26_keep V0 main_v182 (by decide)).trans (val25_main_v182 V0)
set_option maxRecDepth 8192 in
set_option maxHeartbeats 2000000 in
theorem val26_main_v199 (V0 : Valuation τ sig (Elt F)) : val26 V0 (no_index (Proc.devRef .tc main_v199)) = E_main_v199 V0 := by
  unfold val26
  simp only [part26]
  after_results_simp
  simp only [val25_main_v192] <;> rfl

/-- The buffer contents after the first 27 stages. -/
def val27 (V0 : Valuation τ sig (Elt F)) : Valuation τ sig (Elt F) := after part27 (val26 V0)
/-- The buffers that stage 27 writes. -/
abbrev part27_W : List (Ref sig .tc) := [main_cst_33, main_v200, main_v201, main_v202, main_v203, main_v204, main_v205, main_v206, main_cst_34, main_v207, main_v208]
set_option maxRecDepth 8192 in
theorem part27_writes : (part27 : List (HloOp τ sig (Elt F))).Forall fun op => op.writes ⊆ (part27_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 27 does not write keeps its contents through it. -/
theorem val27_keep (V0 : Valuation τ sig (Elt F)) (r : Ref sig .tc) (h : r ∉ part27_W) :
    val27 V0 (Proc.devRef .tc r) = val26 V0 (Proc.devRef .tc r) :=
  after_of_writes_sub part27 _ part27_writes h
theorem val27_main_arg34 (V0 : Valuation τ sig (Elt F)) : val27 V0 (no_index (Proc.devRef .tc main_arg34)) = V0 (Proc.devRef .tc main_arg34) :=
  (val27_keep V0 main_arg34 (by decide)).trans (val26_main_arg34 V0)
theorem val27_main_arg35 (V0 : Valuation τ sig (Elt F)) : val27 V0 (no_index (Proc.devRef .tc main_arg35)) = V0 (Proc.devRef .tc main_arg35) :=
  (val27_keep V0 main_arg35 (by decide)).trans (val26_main_arg35 V0)
theorem val27_main_arg36 (V0 : Valuation τ sig (Elt F)) : val27 V0 (no_index (Proc.devRef .tc main_arg36)) = V0 (Proc.devRef .tc main_arg36) :=
  (val27_keep V0 main_arg36 (by decide)).trans (val26_main_arg36 V0)
theorem val27_main_arg37 (V0 : Valuation τ sig (Elt F)) : val27 V0 (no_index (Proc.devRef .tc main_arg37)) = V0 (Proc.devRef .tc main_arg37) :=
  (val27_keep V0 main_arg37 (by decide)).trans (val26_main_arg37 V0)
theorem val27_main_arg38 (V0 : Valuation τ sig (Elt F)) : val27 V0 (no_index (Proc.devRef .tc main_arg38)) = V0 (Proc.devRef .tc main_arg38) :=
  (val27_keep V0 main_arg38 (by decide)).trans (val26_main_arg38 V0)
theorem val27_main_arg39 (V0 : Valuation τ sig (Elt F)) : val27 V0 (no_index (Proc.devRef .tc main_arg39)) = V0 (Proc.devRef .tc main_arg39) :=
  (val27_keep V0 main_arg39 (by decide)).trans (val26_main_arg39 V0)
theorem val27_main_arg40 (V0 : Valuation τ sig (Elt F)) : val27 V0 (no_index (Proc.devRef .tc main_arg40)) = V0 (Proc.devRef .tc main_arg40) :=
  (val27_keep V0 main_arg40 (by decide)).trans (val26_main_arg40 V0)
theorem val27_main_arg41 (V0 : Valuation τ sig (Elt F)) : val27 V0 (no_index (Proc.devRef .tc main_arg41)) = V0 (Proc.devRef .tc main_arg41) :=
  (val27_keep V0 main_arg41 (by decide)).trans (val26_main_arg41 V0)
theorem val27_main_arg42 (V0 : Valuation τ sig (Elt F)) : val27 V0 (no_index (Proc.devRef .tc main_arg42)) = V0 (Proc.devRef .tc main_arg42) :=
  (val27_keep V0 main_arg42 (by decide)).trans (val26_main_arg42 V0)
set_option maxRecDepth 8192 in
set_option maxHeartbeats 2000000 in
theorem val27_main_v208 (V0 : Valuation τ sig (Elt F)) : val27 V0 (no_index (Proc.devRef .tc main_v208)) = E_main_v208 V0 := by
  unfold val27
  simp only [part27]
  after_results_simp
  simp only [val26_main_arg33, val26_main_v199, val26_main_v182] <;> rfl

/-- The buffer contents after the first 28 stages. -/
def val28 (V0 : Valuation τ sig (Elt F)) : Valuation τ sig (Elt F) := after part28 (val27 V0)
/-- The buffers that stage 28 writes. -/
abbrev part28_W : List (Ref sig .tc) := [main_v209, main_v210, main_v211, main_cst_35, main_v212, main_cst_36, main_v213, main_v214]
set_option maxRecDepth 8192 in
theorem part28_writes : (part28 : List (HloOp τ sig (Elt F))).Forall fun op => op.writes ⊆ (part28_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 28 does not write keeps its contents through it. -/
theorem val28_keep (V0 : Valuation τ sig (Elt F)) (r : Ref sig .tc) (h : r ∉ part28_W) :
    val28 V0 (Proc.devRef .tc r) = val27 V0 (Proc.devRef .tc r) :=
  after_of_writes_sub part28 _ part28_writes h
theorem val28_main_arg35 (V0 : Valuation τ sig (Elt F)) : val28 V0 (no_index (Proc.devRef .tc main_arg35)) = V0 (Proc.devRef .tc main_arg35) :=
  (val28_keep V0 main_arg35 (by decide)).trans (val27_main_arg35 V0)
theorem val28_main_arg36 (V0 : Valuation τ sig (Elt F)) : val28 V0 (no_index (Proc.devRef .tc main_arg36)) = V0 (Proc.devRef .tc main_arg36) :=
  (val28_keep V0 main_arg36 (by decide)).trans (val27_main_arg36 V0)
theorem val28_main_arg37 (V0 : Valuation τ sig (Elt F)) : val28 V0 (no_index (Proc.devRef .tc main_arg37)) = V0 (Proc.devRef .tc main_arg37) :=
  (val28_keep V0 main_arg37 (by decide)).trans (val27_main_arg37 V0)
theorem val28_main_arg38 (V0 : Valuation τ sig (Elt F)) : val28 V0 (no_index (Proc.devRef .tc main_arg38)) = V0 (Proc.devRef .tc main_arg38) :=
  (val28_keep V0 main_arg38 (by decide)).trans (val27_main_arg38 V0)
theorem val28_main_arg39 (V0 : Valuation τ sig (Elt F)) : val28 V0 (no_index (Proc.devRef .tc main_arg39)) = V0 (Proc.devRef .tc main_arg39) :=
  (val28_keep V0 main_arg39 (by decide)).trans (val27_main_arg39 V0)
theorem val28_main_arg40 (V0 : Valuation τ sig (Elt F)) : val28 V0 (no_index (Proc.devRef .tc main_arg40)) = V0 (Proc.devRef .tc main_arg40) :=
  (val28_keep V0 main_arg40 (by decide)).trans (val27_main_arg40 V0)
theorem val28_main_arg41 (V0 : Valuation τ sig (Elt F)) : val28 V0 (no_index (Proc.devRef .tc main_arg41)) = V0 (Proc.devRef .tc main_arg41) :=
  (val28_keep V0 main_arg41 (by decide)).trans (val27_main_arg41 V0)
theorem val28_main_arg42 (V0 : Valuation τ sig (Elt F)) : val28 V0 (no_index (Proc.devRef .tc main_arg42)) = V0 (Proc.devRef .tc main_arg42) :=
  (val28_keep V0 main_arg42 (by decide)).trans (val27_main_arg42 V0)
set_option maxRecDepth 8192 in
set_option maxHeartbeats 2000000 in
theorem val28_main_v211 (V0 : Valuation τ sig (Elt F)) : val28 V0 (no_index (Proc.devRef .tc main_v211)) = E_main_v211 V0 := by
  unfold val28
  simp only [part28]
  after_results_simp
  simp only [val27_main_arg34, val27_main_v208] <;> rfl
set_option maxRecDepth 8192 in
set_option maxHeartbeats 2000000 in
theorem val28_main_v214 (V0 : Valuation τ sig (Elt F)) : val28 V0 (no_index (Proc.devRef .tc main_v214)) = E_main_v214 V0 := by
  unfold val28
  simp only [part28]
  after_results_simp
  simp only [val27_main_arg34, val27_main_v208] <;> rfl

/-- The buffer contents after the first 29 stages. -/
def val29 (V0 : Valuation τ sig (Elt F)) : Valuation τ sig (Elt F) := after part29 (val28 V0)
/-- The buffers that stage 29 writes. -/
abbrev part29_W : List (Ref sig .tc) := [main_v215, main_v216, main_v217, main_v218, main_cst_37, main_v219, main_cst_38, main_v220, main_v221, main_v222, main_v223, main_v224]
set_option maxRecDepth 8192 in
theorem part29_writes : (part29 : List (HloOp τ sig (Elt F))).Forall fun op => op.writes ⊆ (part29_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 29 does not write keeps its contents through it. -/
theorem val29_keep (V0 : Valuation τ sig (Elt F)) (r : Ref sig .tc) (h : r ∉ part29_W) :
    val29 V0 (Proc.devRef .tc r) = val28 V0 (Proc.devRef .tc r) :=
  after_of_writes_sub part29 _ part29_writes h
theorem val29_main_arg35 (V0 : Valuation τ sig (Elt F)) : val29 V0 (no_index (Proc.devRef .tc main_arg35)) = V0 (Proc.devRef .tc main_arg35) :=
  (val29_keep V0 main_arg35 (by decide)).trans (val28_main_arg35 V0)
theorem val29_main_arg36 (V0 : Valuation τ sig (Elt F)) : val29 V0 (no_index (Proc.devRef .tc main_arg36)) = V0 (Proc.devRef .tc main_arg36) :=
  (val29_keep V0 main_arg36 (by decide)).trans (val28_main_arg36 V0)
theorem val29_main_arg37 (V0 : Valuation τ sig (Elt F)) : val29 V0 (no_index (Proc.devRef .tc main_arg37)) = V0 (Proc.devRef .tc main_arg37) :=
  (val29_keep V0 main_arg37 (by decide)).trans (val28_main_arg37 V0)
theorem val29_main_arg38 (V0 : Valuation τ sig (Elt F)) : val29 V0 (no_index (Proc.devRef .tc main_arg38)) = V0 (Proc.devRef .tc main_arg38) :=
  (val29_keep V0 main_arg38 (by decide)).trans (val28_main_arg38 V0)
theorem val29_main_arg39 (V0 : Valuation τ sig (Elt F)) : val29 V0 (no_index (Proc.devRef .tc main_arg39)) = V0 (Proc.devRef .tc main_arg39) :=
  (val29_keep V0 main_arg39 (by decide)).trans (val28_main_arg39 V0)
theorem val29_main_arg40 (V0 : Valuation τ sig (Elt F)) : val29 V0 (no_index (Proc.devRef .tc main_arg40)) = V0 (Proc.devRef .tc main_arg40) :=
  (val29_keep V0 main_arg40 (by decide)).trans (val28_main_arg40 V0)
theorem val29_main_arg41 (V0 : Valuation τ sig (Elt F)) : val29 V0 (no_index (Proc.devRef .tc main_arg41)) = V0 (Proc.devRef .tc main_arg41) :=
  (val29_keep V0 main_arg41 (by decide)).trans (val28_main_arg41 V0)
theorem val29_main_arg42 (V0 : Valuation τ sig (Elt F)) : val29 V0 (no_index (Proc.devRef .tc main_arg42)) = V0 (Proc.devRef .tc main_arg42) :=
  (val29_keep V0 main_arg42 (by decide)).trans (val28_main_arg42 V0)
set_option maxRecDepth 8192 in
set_option maxHeartbeats 2000000 in
theorem val29_main_v221 (V0 : Valuation τ sig (Elt F)) : val29 V0 (no_index (Proc.devRef .tc main_v221)) = E_main_v221 V0 := by
  unfold val29
  simp only [part29]
  after_results_simp
  simp only [val28_main_v214, val28_main_v211] <;> rfl
set_option maxRecDepth 8192 in
set_option maxHeartbeats 2000000 in
theorem val29_main_v224 (V0 : Valuation τ sig (Elt F)) : val29 V0 (no_index (Proc.devRef .tc main_v224)) = E_main_v224 V0 := by
  unfold val29
  simp only [part29]
  after_results_simp
  simp only [val28_main_v214, val28_main_v211] <;> rfl

/-- The buffer contents after the first 30 stages. -/
def val30 (V0 : Valuation τ sig (Elt F)) : Valuation τ sig (Elt F) := after part30 (val29 V0)
/-- The buffers that stage 30 writes. -/
abbrev part30_W : List (Ref sig .tc) := [main_v225, main_v226, main_v227, main_cst_39, main_v228, main_v229, main_v230, main_v231, main_v232, main_v233]
set_option maxRecDepth 8192 in
theorem part30_writes : (part30 : List (HloOp τ sig (Elt F))).Forall fun op => op.writes ⊆ (part30_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 30 does not write keeps its contents through it. -/
theorem val30_keep (V0 : Valuation τ sig (Elt F)) (r : Ref sig .tc) (h : r ∉ part30_W) :
    val30 V0 (Proc.devRef .tc r) = val29 V0 (Proc.devRef .tc r) :=
  after_of_writes_sub part30 _ part30_writes h
theorem val30_main_arg35 (V0 : Valuation τ sig (Elt F)) : val30 V0 (no_index (Proc.devRef .tc main_arg35)) = V0 (Proc.devRef .tc main_arg35) :=
  (val30_keep V0 main_arg35 (by decide)).trans (val29_main_arg35 V0)
theorem val30_main_arg36 (V0 : Valuation τ sig (Elt F)) : val30 V0 (no_index (Proc.devRef .tc main_arg36)) = V0 (Proc.devRef .tc main_arg36) :=
  (val30_keep V0 main_arg36 (by decide)).trans (val29_main_arg36 V0)
theorem val30_main_arg37 (V0 : Valuation τ sig (Elt F)) : val30 V0 (no_index (Proc.devRef .tc main_arg37)) = V0 (Proc.devRef .tc main_arg37) :=
  (val30_keep V0 main_arg37 (by decide)).trans (val29_main_arg37 V0)
theorem val30_main_arg38 (V0 : Valuation τ sig (Elt F)) : val30 V0 (no_index (Proc.devRef .tc main_arg38)) = V0 (Proc.devRef .tc main_arg38) :=
  (val30_keep V0 main_arg38 (by decide)).trans (val29_main_arg38 V0)
theorem val30_main_arg40 (V0 : Valuation τ sig (Elt F)) : val30 V0 (no_index (Proc.devRef .tc main_arg40)) = V0 (Proc.devRef .tc main_arg40) :=
  (val30_keep V0 main_arg40 (by decide)).trans (val29_main_arg40 V0)
theorem val30_main_arg41 (V0 : Valuation τ sig (Elt F)) : val30 V0 (no_index (Proc.devRef .tc main_arg41)) = V0 (Proc.devRef .tc main_arg41) :=
  (val30_keep V0 main_arg41 (by decide)).trans (val29_main_arg41 V0)
theorem val30_main_arg42 (V0 : Valuation τ sig (Elt F)) : val30 V0 (no_index (Proc.devRef .tc main_arg42)) = V0 (Proc.devRef .tc main_arg42) :=
  (val30_keep V0 main_arg42 (by decide)).trans (val29_main_arg42 V0)
set_option maxRecDepth 8192 in
set_option maxHeartbeats 2000000 in
theorem val30_main_v233 (V0 : Valuation τ sig (Elt F)) : val30 V0 (no_index (Proc.devRef .tc main_v233)) = E_main_v233 V0 := by
  unfold val30
  simp only [part30]
  after_results_simp
  simp only [val29_main_v221, val29_main_v224, val29_main_arg39] <;> rfl

/-- The buffer contents after the first 31 stages. -/
def val31 (V0 : Valuation τ sig (Elt F)) : Valuation τ sig (Elt F) := after part31 (val30 V0)
/-- The buffers that stage 31 writes. -/
abbrev part31_W : List (Ref sig .tc) := [main_v234, main_v235, main_v236, main_call7_cst, main_call7_v0, main_v237, main_v238, main_v239, main_v240, main_v241]
set_option maxRecDepth 8192 in
theorem part31_writes : (part31 : List (HloOp τ sig (Elt F))).Forall fun op => op.writes ⊆ (part31_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 31 does not write keeps its contents through it. -/
theorem val31_keep (V0 : Valuation τ sig (Elt F)) (r : Ref sig .tc) (h : r ∉ part31_W) :
    val31 V0 (Proc.devRef .tc r) = val30 V0 (Proc.devRef .tc r) :=
  after_of_writes_sub part31 _ part31_writes h
theorem val31_main_arg37 (V0 : Valuation τ sig (Elt F)) : val31 V0 (no_index (Proc.devRef .tc main_arg37)) = V0 (Proc.devRef .tc main_arg37) :=
  (val31_keep V0 main_arg37 (by decide)).trans (val30_main_arg37 V0)
theorem val31_main_arg38 (V0 : Valuation τ sig (Elt F)) : val31 V0 (no_index (Proc.devRef .tc main_arg38)) = V0 (Proc.devRef .tc main_arg38) :=
  (val31_keep V0 main_arg38 (by decide)).trans (val30_main_arg38 V0)
theorem val31_main_arg41 (V0 : Valuation τ sig (Elt F)) : val31 V0 (no_index (Proc.devRef .tc main_arg41)) = V0 (Proc.devRef .tc main_arg41) :=
  (val31_keep V0 main_arg41 (by decide)).trans (val30_main_arg41 V0)
theorem val31_main_arg42 (V0 : Valuation τ sig (Elt F)) : val31 V0 (no_index (Proc.devRef .tc main_arg42)) = V0 (Proc.devRef .tc main_arg42) :=
  (val31_keep V0 main_arg42 (by decide)).trans (val30_main_arg42 V0)
set_option maxRecDepth 8192 in
set_option maxHeartbeats 2000000 in
theorem val31_main_v241 (V0 : Valuation τ sig (Elt F)) : val31 V0 (no_index (Proc.devRef .tc main_v241)) = E_main_v241 V0 := by
  unfold val31
  simp only [part31]
  after_results_simp
  simp only [val30_main_arg36, val30_main_arg35, val30_main_arg40, val30_main_v233] <;> rfl

/-- The buffer contents after the first 32 stages. -/
def val32 (V0 : Valuation τ sig (Elt F)) : Valuation τ sig (Elt F) := after part32 (val31 V0)
/-- The buffers that stage 32 writes. -/
abbrev part32_W : List (Ref sig .tc) := [main_cst_40, main_v242, main_cst_41, main_v243, main_v244, main_v245, main_v246, main_v247, main_v248, main_cst_42, main_v249]
set_option maxRecDepth 8192 in
theorem part32_writes : (part32 : List (HloOp τ sig (Elt F))).Forall fun op => op.writes ⊆ (part32_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 32 does not write keeps its contents through it. -/
theorem val32_keep (V0 : Valuation τ sig (Elt F)) (r : Ref sig .tc) (h : r ∉ part32_W) :
    val32 V0 (Proc.devRef .tc r) = val31 V0 (Proc.devRef .tc r) :=
  after_of_writes_sub part32 _ part32_writes h
theorem val32_main_arg37 (V0 : Valuation τ sig (Elt F)) : val32 V0 (no_index (Proc.devRef .tc main_arg37)) = V0 (Proc.devRef .tc main_arg37) :=
  (val32_keep V0 main_arg37 (by decide)).trans (val31_main_arg37 V0)
theorem val32_main_arg38 (V0 : Valuation τ sig (Elt F)) : val32 V0 (no_index (Proc.devRef .tc main_arg38)) = V0 (Proc.devRef .tc main_arg38) :=
  (val32_keep V0 main_arg38 (by decide)).trans (val31_main_arg38 V0)
theorem val32_main_arg41 (V0 : Valuation τ sig (Elt F)) : val32 V0 (no_index (Proc.devRef .tc main_arg41)) = V0 (Proc.devRef .tc main_arg41) :=
  (val32_keep V0 main_arg41 (by decide)).trans (val31_main_arg41 V0)
theorem val32_main_arg42 (V0 : Valuation τ sig (Elt F)) : val32 V0 (no_index (Proc.devRef .tc main_arg42)) = V0 (Proc.devRef .tc main_arg42) :=
  (val32_keep V0 main_arg42 (by decide)).trans (val31_main_arg42 V0)
theorem val32_main_v241 (V0 : Valuation τ sig (Elt F)) : val32 V0 (no_index (Proc.devRef .tc main_v241)) = E_main_v241 V0 :=
  (val32_keep V0 main_v241 (by decide)).trans (val31_main_v241 V0)
set_option maxRecDepth 8192 in
set_option maxHeartbeats 2000000 in
theorem val32_main_v244 (V0 : Valuation τ sig (Elt F)) : val32 V0 (no_index (Proc.devRef .tc main_v244)) = E_main_v244 V0 := by
  unfold val32
  simp only [part32]
  after_results_simp
  simp only [val31_main_v241] <;> rfl
set_option maxRecDepth 8192 in
set_option maxHeartbeats 2000000 in
theorem val32_main_v249 (V0 : Valuation τ sig (Elt F)) : val32 V0 (no_index (Proc.devRef .tc main_v249)) = E_main_v249 V0 := by
  unfold val32
  simp only [part32]
  after_results_simp
  simp only [val31_main_v241] <;> rfl

/-- The buffer contents after the first 33 stages. -/
def val33 (V0 : Valuation τ sig (Elt F)) : Valuation τ sig (Elt F) := after part33 (val32 V0)
/-- The buffers that stage 33 writes. -/
abbrev part33_W : List (Ref sig .tc) := [main_cst_43, main_v250, main_v251, main_v252, main_v253, main_v254, main_v255, main_v256, main_v257, main_cst_44, main_v258, main_v259]
set_option maxRecDepth 8192 in
theorem part33_writes : (part33 : List (HloOp τ sig (Elt F))).Forall fun op => op.writes ⊆ (part33_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 33 does not write keeps its contents through it. -/
theorem val33_keep (V0 : Valuation τ sig (Elt F)) (r : Ref sig .tc) (h : r ∉ part33_W) :
    val33 V0 (Proc.devRef .tc r) = val32 V0 (Proc.devRef .tc r) :=
  after_of_writes_sub part33 _ part33_writes h
theorem val33_main_arg37 (V0 : Valuation τ sig (Elt F)) : val33 V0 (no_index (Proc.devRef .tc main_arg37)) = V0 (Proc.devRef .tc main_arg37) :=
  (val33_keep V0 main_arg37 (by decide)).trans (val32_main_arg37 V0)
theorem val33_main_arg38 (V0 : Valuation τ sig (Elt F)) : val33 V0 (no_index (Proc.devRef .tc main_arg38)) = V0 (Proc.devRef .tc main_arg38) :=
  (val33_keep V0 main_arg38 (by decide)).trans (val32_main_arg38 V0)
theorem val33_main_arg42 (V0 : Valuation τ sig (Elt F)) : val33 V0 (no_index (Proc.devRef .tc main_arg42)) = V0 (Proc.devRef .tc main_arg42) :=
  (val33_keep V0 main_arg42 (by decide)).trans (val32_main_arg42 V0)
set_option maxRecDepth 8192 in
set_option maxHeartbeats 2000000 in
theorem val33_main_v257 (V0 : Valuation τ sig (Elt F)) : val33 V0 (no_index (Proc.devRef .tc main_v257)) = E_main_v257 V0 := by
  unfold val33
  simp only [part33]
  after_results_simp
  simp only [val32_main_v244, val32_main_v241, val32_main_arg41] <;> rfl
set_option maxRecDepth 8192 in
set_option maxHeartbeats 2000000 in
theorem val33_main_v259 (V0 : Valuation τ sig (Elt F)) : val33 V0 (no_index (Proc.devRef .tc main_v259)) = E_main_v259 V0 := by
  unfold val33
  simp only [part33]
  after_results_simp
  simp only [val32_main_v249] <;> rfl

/-- The buffer contents after the first 34 stages. -/
def val34 (V0 : Valuation τ sig (Elt F)) : Valuation τ sig (Elt F) := after part34 (val33 V0)
/-- The buffers that stage 34 writes. -/
abbrev part34_W : List (Ref sig .tc) := [main_v260, main_v261, main_v262, main_v263, main_v264, main_v265, main_v266, main_call8_cst, main_call8_v0, main_v267, main_v268, main_v269, main_v270, main_v271]
set_option maxRecDepth 8192 in
theorem part34_writes : (part34 : List (HloOp τ sig (Elt F))).Forall fun op => op.writes ⊆ (part34_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stage 34 does not write keeps its contents through it. -/
theorem val34_keep (V0 : Valuation τ sig (Elt F)) (r : Ref sig .tc) (h : r ∉ part34_W) :
    val34 V0 (Proc.devRef .tc r) = val33 V0 (Proc.devRef .tc r) :=
  after_of_writes_sub part34 _ part34_writes h
set_option maxRecDepth 8192 in
set_option maxHeartbeats 2000000 in
theorem val34_main_v271 (V0 : Valuation τ sig (Elt F)) : val34 V0 (no_index (Proc.devRef .tc main_v271)) = E_main_v271 V0 := by
  unfold val34
  simp only [part34]
  after_results_simp
  simp only [val33_main_arg38, val33_main_arg37, val33_main_arg42, val33_main_v259, val33_main_v257] <;> rfl

/-! ## The whole list -/

set_option maxRecDepth 65536 in
set_option maxHeartbeats 8000000 in
/-- The 337 operations are the stages in order. -/
theorem ops_split : (ops : List (HloOp τ sig (Elt F))) = part1 ++ (part2 ++ (part3 ++ (part4 ++ (part5 ++ (part6 ++ (part7 ++ (part8 ++ (part9 ++ (part10 ++ (part11 ++ (part12 ++ (part13 ++ (part14 ++ (part15 ++ (part16 ++ (part17 ++ (part18 ++ (part19 ++ (part20 ++ (part21 ++ (part22 ++ (part23 ++ (part24 ++ (part25 ++ (part26 ++ (part27 ++ (part28 ++ (part29 ++ (part30 ++ (part31 ++ (part32 ++ (part33 ++ (part34))))))))))))))))))))))))))))))))) := rfl
theorem after_ops (V0 : Valuation τ sig (Elt F)) : after ops V0 = val34 V0 := by
  rw [ops_split]
  simp only [after_append']
  rfl
/-- The result buffer after all the operations: the last operation's value as a function of the arguments. -/
theorem after_v271 (V : Valuation τ sig (Elt F)) :
    after ops V (Proc.devRef .tc main_v271) = val_main_v271 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) (V (Proc.devRef .tc main_arg35)) (V (Proc.devRef .tc main_arg36)) (V (Proc.devRef .tc main_arg37)) (V (Proc.devRef .tc main_arg38)) (V (Proc.devRef .tc main_arg39)) (V (Proc.devRef .tc main_arg40)) (V (Proc.devRef .tc main_arg41)) (V (Proc.devRef .tc main_arg42)) := by
  rw [after_ops]
  exact val34_main_v271 V

end Cert.ReferenceIdeal.Val

end
-- ==== Proof.RefRun.lean ====
/-
  The idealized reference's run, with its result named.

  The reference is a straight line of 337 host operations: every weakly fair execution ends with each buffer at the fold of
  the operations' results over the launch memory. Read at the result buffer, that fold is the last operation's value as the
  composition of the operations' values (shared, one definition per operation); read at an argument, which no operation
  writes, it is the launch contents.
-/
import proofs.«168914_j82609400971796_1_alg».proof.Proof.ReadP
import proofs.«168914_j82609400971796_1_alg».proof.Proof.RefArgs
import proofs.«168914_j82609400971796_1_alg».proof.Proof.RefVal

noncomputable section

namespace Cert.ReferenceIdeal.Val

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Every weakly fair execution of the reference terminates, nothing faulting, with every buffer at the operations' fold. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- The same run, read: the result at the last operation's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v271) = val_main_v271 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42) :=
  (θ_run defs _ _).mono (fun r h c =>
    ⟨(h c main_v271).trans (after_v271 (launchContents m c)),
     (h c main_arg0).trans (after_arg0 (launchContents m c)),
     (h c main_arg1).trans (after_arg1 (launchContents m c)),
     (h c main_arg2).trans (after_arg2 (launchContents m c)),
     (h c main_arg3).trans (after_arg3 (launchContents m c)),
     (h c main_arg4).trans (after_arg4 (launchContents m c)),
     (h c main_arg5).trans (after_arg5 (launchContents m c)),
     (h c main_arg6).trans (after_arg6 (launchContents m c)),
     (h c main_arg7).trans (after_arg7 (launchContents m c)),
     (h c main_arg8).trans (after_arg8 (launchContents m c)),
     (h c main_arg9).trans (after_arg9 (launchContents m c)),
     (h c main_arg10).trans (after_arg10 (launchContents m c)),
     (h c main_arg11).trans (after_arg11 (launchContents m c)),
     (h c main_arg12).trans (after_arg12 (launchContents m c)),
     (h c main_arg13).trans (after_arg13 (launchContents m c)),
     (h c main_arg14).trans (after_arg14 (launchContents m c)),
     (h c main_arg15).trans (after_arg15 (launchContents m c)),
     (h c main_arg16).trans (after_arg16 (launchContents m c)),
     (h c main_arg17).trans (after_arg17 (launchContents m c)),
     (h c main_arg18).trans (after_arg18 (launchContents m c)),
     (h c main_arg19).trans (after_arg19 (launchContents m c)),
     (h c main_arg20).trans (after_arg20 (launchContents m c)),
     (h c main_arg21).trans (after_arg21 (launchContents m c)),
     (h c main_arg22).trans (after_arg22 (launchContents m c)),
     (h c main_arg23).trans (after_arg23 (launchContents m c)),
     (h c main_arg24).trans (after_arg24 (launchContents m c)),
     (h c main_arg25).trans (after_arg25 (launchContents m c)),
     (h c main_arg26).trans (after_arg26 (launchContents m c)),
     (h c main_arg27).trans (after_arg27 (launchContents m c)),
     (h c main_arg28).trans (after_arg28 (launchContents m c)),
     (h c main_arg29).trans (after_arg29 (launchContents m c)),
     (h c main_arg30).trans (after_arg30 (launchContents m c)),
     (h c main_arg31).trans (after_arg31 (launchContents m c)),
     (h c main_arg32).trans (after_arg32 (launchContents m c)),
     (h c main_arg33).trans (after_arg33 (launchContents m c)),
     (h c main_arg34).trans (after_arg34 (launchContents m c)),
     (h c main_arg35).trans (after_arg35 (launchContents m c)),
     (h c main_arg36).trans (after_arg36 (launchContents m c)),
     (h c main_arg37).trans (after_arg37 (launchContents m c)),
     (h c main_arg38).trans (after_arg38 (launchContents m c)),
     (h c main_arg39).trans (after_arg39 (launchContents m c)),
     (h c main_arg40).trans (after_arg40 (launchContents m c)),
     (h c main_arg41).trans (after_arg41 (launchContents m c)),
     (h c main_arg42).trans (after_arg42 (launchContents m c))⟩)
    (run_after m ρ)

end Cert.ReferenceIdeal.Val

end
-- ==== Proof.lean ====
/-
  Kernel against reference, both at exact (extended real) values, for a graph network with a fused head.

  The kernel computes two GCN projections max((msg / max(deg, 1))·W + b, 0) in calls tiled over blocks of 6400 nodes, and
  a gated three-modality low-rank fusion with rank attention and a BatchNorm head in one fused call on whole arrays; the
  gathers and segment sums between the calls are host operations, the same ones the reference runs. The reference runs the
  whole network as host operations. At exact values a change of float format is the identity, a matrix unit's product
  into a zero accumulator is the host's dot product, a lane or sublane reduction from its neutral element is the host's
  reduction from its initial value, and the two spellings of every broadcast agree; so stage by stage both programs are one
  function of the arguments. Only associativity and commutativity of addition on the extended reals are used (the rank
  sum, unrolled in the kernel and reduced over an axis in the reference): no finiteness of the inputs is needed.

  The kernel's run is read off its frame: the result buffer ends at the fold of the host stretches and of the three
  calls' write-backs (KRun); each call's output array is one function of the arrays it finds (Gcn for the tiled calls,
  FusionVal for the fused one); the fold is walked from the launch memory to the result (KVal) and the fused value is
  rewritten into the reference's result by the stage equalities (StageB, StageC, StageD, Bridge). The reference's run is its
  operations' fold read at the result and at the arguments (RefVal, RefArgs, RefRun).
-/
import proofs.«168914_j82609400971796_1_alg».proof.Defs
import proofs.«168914_j82609400971796_1_alg».proof.Proof.Gen.Kernel
import proofs.«168914_j82609400971796_1_alg».proof.Proof.Gen.KernelIdeal
import proofs.«168914_j82609400971796_1_alg».proof.Proof.Gen.ReferenceIdeal
import proofs.«168914_j82609400971796_1_alg».proof.Proof.Gen.Pre_finite_inputs
import proofs.«168914_j82609400971796_1_alg».proof.Proof.FrameK
import proofs.«168914_j82609400971796_1_alg».proof.Proof.FrameKI
import proofs.«168914_j82609400971796_1_alg».proof.Proof.KRun
import proofs.«168914_j82609400971796_1_alg».proof.Proof.KVal
import proofs.«168914_j82609400971796_1_alg».proof.Proof.Bridge
import proofs.«168914_j82609400971796_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

/-- The reference's frame: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Val.run (F := Ideal) m ρ)

/-- The ideal pass rewrote nothing. -/
theorem preserves : Cert.preserves_Kernel_KernelIdeal := trivial

set_option maxHeartbeats 8000000 in
/-- Both programs end with the reference's last value of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v271 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)), ?_, ?_⟩
  · refine (θ_run Cert.KernelIdeal.defs _ _).mono (fun r h c => ⟨(h c).1.trans ?_, (h c).2⟩) (Cert.KernelIdeal.Val.run_value (F := Ideal) m ρ)
    exact (Cert.KernelIdeal.Val.W6_out m ρ c).trans (Cert.Bridge.fused_eq _ _ _ _ _ _ _ _ _ _ _ _ _ _ _ _ _ _ _ _ _ _ _ _ _ _ _ _ _ _ _ _ _ _ _ _ _ _ _ _ _ _ _)
  · refine (θ_run Cert.ReferenceIdeal.defs _ _).mono (fun r h c => ⟨(h c).1.trans ?_, (h c).2⟩) (Cert.ReferenceIdeal.Val.run (F := Ideal) m' ρ')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42⟩ := hagree c
    rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
